-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S8192x256 : Shape := ⟨2, ![8192, 256]⟩
abbrev S1024x256 : Shape := ⟨2, ![1024, 256]⟩
abbrev S1024 : Shape := ⟨1, ![1024]⟩
abbrev S1024x1 : Shape := ⟨2, ![1024, 1]⟩
abbrev S8192x1 : Shape := ⟨2, ![8192, 1]⟩
abbrev S256x1024 : Shape := ⟨2, ![256, 1024]⟩
abbrev S1024x1024 : Shape := ⟨2, ![1024, 1024]⟩
abbrev S_ : Shape := ⟨0, ![]⟩

abbrev nBuf : Space → Nat
  | .hbm => 10
  | .vmem => 15
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S8192x256, .f32⟩
  | .hbm, ⟨3, _⟩ => ⟨S8192x256, .bf16⟩
  | .hbm, ⟨4, _⟩ => ⟨S8192x256, .bf16⟩
  | .hbm, ⟨5, _⟩ => ⟨S8192x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_scratch0 : Ref sig .tc := ⟨.vmem, 12, rfl⟩
abbrev cc1_scratch1 : Ref sig .tc := ⟨.vmem, 13, rfl⟩
abbrev cc1_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 8], ![false, false]⟩

def k1_cond4 (i : grid1.Coords) : BitVec 1 :=
  let arg1 : BitVec 32 := BitVec.ofNat 32 (i 1).val
  let c7_i32 : BitVec 32 := 7#32
  let v27 : BitVec 1 := Scalar.cmpi .eq arg1 c7_i32
  let v28 : BitVec 32 := Scalar.extui v27
  let c0_i32_13 : BitVec 32 := 0#32
  let v29 : BitVec 1 := Scalar.cmpi .ne v28 c0_i32_13
  v29

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  concatenates_S4096x256_S4096x256_S8192x256_d0 : Shape.Concatenates [S4096x256, S4096x256] S8192x256 0
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  packedbf16_S1024x256_S1024x256_0_0 : (Rect.unit (s := S1024x256) ![0, 0] S1024x256.size inb_S1024x256_S1024x256_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  transposes_S1024x256_p1_0_S256x1024 : S1024x256.Transposes [1, 0] S256x1024
  reduces_S1024x1024_S1024 : S1024x1024.Reduces [1] S1024
  iota_S1024x1024_d0_w32 : S1024x1024.Iotas .tc 32 [0]
  iota_S1024x1024_d1_w32 : S1024x1024.Iotas .tc 32 [1]
  reducesTo_S8192x1_S_d0_1 : S8192x1.ReducesTo [0, 1] S_
  h_S_ : 0 < S_.numel
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .f32 = 32 ∨ (Rect.block (s := S8192x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x256.size a
  hwx0_2 : ∀ i : grid0.Coords, EltTy.bits .bf16 = 32 ∨ (Rect.block (s := S8192x256) S1024x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x256.size a
  hwx1_0 : ∀ i : grid1.Coords, EltTy.bits .bf16 = 32 ∨ (Rect.block (s := S8192x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S8192x256.size a
  hwx1_1 : ∀ i : grid1.Coords, EltTy.bits .bf16 = 32 ∨ (Rect.block (s := S8192x256) S1024x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1024x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v1_1) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond4 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S8192x8192 : Shape := ⟨2, ![8192, 8192]⟩
abbrev S8192 : Shape := ⟨1, ![8192]⟩
abbrev S8192x1 : Shape := ⟨2, ![8192, 1]⟩
abbrev S8192x2 : Shape := ⟨2, ![8192, 2]⟩

abbrev nBuf : Space → Nat
  | .hbm => 102
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S_, .i32⟩
  | .hbm, ⟨41, _⟩ => ⟨S8192, .i32⟩
  | .hbm, ⟨42, _⟩ => ⟨S8192, .i1⟩
  | .hbm, ⟨43, _⟩ => ⟨S_, .i32⟩
  | .hbm, ⟨44, _⟩ => ⟨S8192, .i32⟩
  | .hbm, ⟨45, _⟩ => ⟨S8192, .i1⟩
  | .hbm, ⟨46, _⟩ => ⟨S_, .i32⟩
  | .hbm, ⟨47, _⟩ => ⟨S_, .i1⟩
  | .hbm, ⟨48, _⟩ => ⟨S8192, .i1⟩
  | .hbm, ⟨49, _⟩ => ⟨S8192, .i1⟩
  | .hbm, ⟨50, _⟩ => ⟨S8192, .i1⟩
  | .hbm, ⟨51, _⟩ => ⟨S8192, .i32⟩
  | .hbm, ⟨52, _⟩ => ⟨S8192, .i32⟩
  | .hbm, ⟨53, _⟩ => ⟨S8192, .i32⟩
  | .hbm, ⟨54, _⟩ => ⟨S_, .i32⟩
  | .hbm, ⟨55, _⟩ => ⟨S8192, .i32⟩
  | .hbm, ⟨56, _⟩ => ⟨S8192, .i1⟩
  | .hbm, ⟨57, _⟩ => ⟨S_, .i32⟩
  | .hbm, ⟨58, _⟩ => ⟨S8192, .i32⟩
  | .hbm, ⟨59, _⟩ => ⟨S8192, .i32⟩
  | .hbm, ⟨60, _⟩ => ⟨S8192, .i32⟩
  | .hbm, ⟨61, _⟩ => ⟨S_, .i32⟩
  | .hbm, ⟨62, _⟩ => ⟨S8192, .i32⟩
  | .hbm, ⟨63, _⟩ => ⟨S8192, .i1⟩
  | .hbm, ⟨64, _⟩ => ⟨S_, .i32⟩
  | .hbm, ⟨65, _⟩ => ⟨S8192, .i32⟩
  | .hbm, ⟨66, _⟩ => ⟨S8192, .i32⟩
  | .hbm, ⟨67, _⟩ => ⟨S8192, .i32⟩
  | .hbm, ⟨68, _⟩ => ⟨S8192x1, .i32⟩
  | .hbm, ⟨69, _⟩ => ⟨S8192x1, .i32⟩
  | .hbm, ⟨70, _⟩ => ⟨S8192x2, .i32⟩
  | .hbm, ⟨71, _⟩ => ⟨S8192, .f32⟩
  | .hbm, ⟨72, _⟩ => ⟨S_, .i32⟩
  | .hbm, ⟨73, _⟩ => ⟨S8192, .i32⟩
  | .hbm, ⟨74, _⟩ => ⟨S8192, .i1⟩
  | .hbm, ⟨75, _⟩ => ⟨S_, .i32⟩
  | .hbm, ⟨76, _⟩ => ⟨S8192, .i32⟩
  | .hbm, ⟨77, _⟩ => ⟨S8192, .i32⟩
  | .hbm, ⟨78, _⟩ => ⟨S8192, .i32⟩
  | .hbm, ⟨79, _⟩ => ⟨S_, .i32⟩
  | .hbm, ⟨80, _⟩ => ⟨S8192, .i32⟩
  | .hbm, ⟨81, _⟩ => ⟨S8192, .i1⟩
  | .hbm, ⟨82, _⟩ => ⟨S_, .i32⟩
  | .hbm, ⟨83, _⟩ => ⟨S8192, .i32⟩
  | .hbm, ⟨84, _⟩ => ⟨S8192, .i32⟩
  | .hbm, ⟨85, _⟩ => ⟨S8192, .i32⟩
  | .hbm, ⟨86, _⟩ => ⟨S8192x1, .i32⟩
  | .hbm, ⟨87, _⟩ => ⟨S8192x1, .i32⟩
  | .hbm, ⟨88, _⟩ => ⟨S8192x2, .i32⟩
  | .hbm, ⟨89, _⟩ => ⟨S8192, .f32⟩
  | .hbm, ⟨90, _⟩ => ⟨S_, .f32⟩
  | .hbm, ⟨91, _⟩ => ⟨S8192, .f32⟩
  | .hbm, ⟨92, _⟩ => ⟨S8192, .f32⟩
  | .hbm, ⟨93, _⟩ => ⟨S8192, .f32⟩
  | .hbm, ⟨94, _⟩ => ⟨S8192, .f32⟩
  | .hbm, ⟨95, _⟩ => ⟨S8192, .f32⟩
  | .hbm, ⟨96, _⟩ => ⟨S8192, .f32⟩
  | .hbm, ⟨97, _⟩ => ⟨S8192, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_call2_v0 : Ref sig .tc := ⟨.hbm, 33, rfl⟩
abbrev main_call2_c : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_c_1 : Ref sig .tc := ⟨.hbm, 40, rfl⟩
abbrev main_call2_v5 : Ref sig .tc := ⟨.hbm, 41, rfl⟩
abbrev main_call2_v6 : Ref sig .tc := ⟨.hbm, 42, rfl⟩
abbrev main_call2_c_2 : Ref sig .tc := ⟨.hbm, 43, rfl⟩
abbrev main_call2_v7 : Ref sig .tc := ⟨.hbm, 44, rfl⟩
abbrev main_call2_v8 : Ref sig .tc := ⟨.hbm, 45, rfl⟩
abbrev main_call2_c_3 : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_v12 : Ref sig .tc := ⟨.hbm, 50, rfl⟩
abbrev main_call2_v13 : Ref sig .tc := ⟨.hbm, 51, rfl⟩
abbrev main_call2_v14 : Ref sig .tc := ⟨.hbm, 52, rfl⟩
abbrev main_v18 : Ref sig .tc := ⟨.hbm, 53, rfl⟩
abbrev main_c_3 : Ref sig .tc := ⟨.hbm, 54, rfl⟩
abbrev main_v19 : Ref sig .tc := ⟨.hbm, 55, rfl⟩
abbrev main_v20 : Ref sig .tc := ⟨.hbm, 56, rfl⟩
abbrev main_c_4 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_c_5 : Ref sig .tc := ⟨.hbm, 61, rfl⟩
abbrev main_v24 : Ref sig .tc := ⟨.hbm, 62, rfl⟩
abbrev main_v25 : Ref sig .tc := ⟨.hbm, 63, rfl⟩
abbrev main_c_6 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_c_7 : Ref sig .tc := ⟨.hbm, 72, rfl⟩
abbrev main_v33 : Ref sig .tc := ⟨.hbm, 73, rfl⟩
abbrev main_v34 : Ref sig .tc := ⟨.hbm, 74, rfl⟩
abbrev main_c_8 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_c_9 : Ref sig .tc := ⟨.hbm, 79, rfl⟩
abbrev main_v38 : Ref sig .tc := ⟨.hbm, 80, rfl⟩
abbrev main_v39 : Ref sig .tc := ⟨.hbm, 81, rfl⟩
abbrev main_c_10 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_cst_11 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_cst_12 : Ref sig .tc := ⟨.hbm, 98, rfl⟩
abbrev main_v54 : Ref sig .tc := ⟨.hbm, 99, rfl⟩
abbrev main_cst_13 : Ref sig .tc := ⟨.hbm, 100, rfl⟩
abbrev main_v55 : Ref sig .tc := ⟨.hbm, 101, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  bcast_S_S8192x8192 : S_.BroadcastsInDim S8192x8192 (![] : Fin 0 → Fin S8192x8192.rank)
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192x8192_S8192_d1 : S8192x8192.ReducesTo [1] S8192
  reducesTo_S8192_S_d0 : S8192.ReducesTo [0] S_
  dot_S8192x256_S8192x256_S8192x8192_1_1_0_0_n_n_wf : DotDims.WF S8192x256 S8192x256 S8192x8192 [1] [1] [0] [0] [] []
  gather_S8192x8192_S8192x2_S8192_n_01_n_n_01_1_11_wf : GatherDims.WF S8192x8192 S8192x2 S8192 [] [0, 1] [] [0, 1] [] 1 ![1, 1]

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf
def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.KbR0.lean ====
/-
  Region 0: the row-normalising kernel over its grid of 8 points, at the buffer contents the region is entered with.

  Each point reads a block of 1024 rows of the input array, and stores two blocks of the same shape: the rows
  scaled to unit length, and the same rows multiplied by the inverse temperature (both narrowed to bf16).  The
  kernel also reads each output buffer before storing it whole; those reads are unused, so the outputs' buffers
  may hold anything when the body starts.
-/
import proofs.«142995_j19722489823618_2_alg».proof.Proof.Gen.Kernel.Launch
import proofs.«142995_j19722489823618_2_alg».proof.Proof.Gen.Kernel.Skeleton
import proofs.«142995_j19722489823618_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 1024 × 256 buffer as a rectangle: every load and store of the body is of it. -/
abbrev r0_0 : Rect S1024x256 := Rect.unit (s := S1024x256) ![0, 0] S1024x256.size inb_S1024x256_S1024x256_0_0

/-! ## What the body leaves in each output window's buffer -/

/-- Window 1's staging buffer after the body: its one store, of the unit rows of the input block. -/
def out0_1 (x0 : Vec F S1024x256 .f32) : Vec F S1024x256 .bf16 :=
  View.canon [⟨r0_0, k0_pay2 (View.ld x0 r0_0)⟩]

/-- Window 2's staging buffer after the body: its one store, of the unit rows times the inverse temperature. -/
def out0_2 (x0 : Vec F S1024x256 .f32) : Vec F S1024x256 .bf16 :=
  View.canon [⟨r0_0, k0_pay3 (View.ld x0 r0_0)⟩]

/-- A store of the whole rectangle covers the buffer. -/
theorem cover0 (p0 : Vec F S1024x256 .bf16) (y : S1024x256.Idx) :
    ∃ pc ∈ ([⟨r0_0, p0⟩] : List (View.Piece (Elt F) S1024x256 .bf16)), y ∈ pc.1.set :=
  View.cover_of_tiled [⟨r0_0, p0⟩] S1024x256.size (by rfl) y

/-! ## The body's triple -/

set_option maxHeartbeats 1000000 in
/-- The kernel body on whole staging memrefs, the input's at read contents `x0` and the outputs' at anything, runs to
    the continuation holding the input's as it was and each output's at what its one store leaves. -/
theorem sound_kernel0 (c : Dev nD) (E : Set ℕ) (i : grid0.Coords)
    (arg1 : Memref sig .tc .vmem S1024x256 .f32) (harg1 : arg1.IsWhole)
    (arg2 : Memref sig .tc .vmem S1024x256 .bf16) (harg2 : arg2.IsWhole)
    (arg3 : Memref sig .tc .vmem S1024x256 .bf16) (harg3 : arg3.IsWhole)
    (x0 : Vec F S1024x256 .f32) (K : PUnit → sProp 𝕄) :
    iprop(owns (c : Thread nD τ) arg1 fullShare x0 ∗ (∃ d, owns (c : Thread nD τ) arg2 fullShare d)
        ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0 _)
  iexists _; isplitr
  swap; · iexact H2
  ipureintro
  exact View.read_writes_eq_canon _ _ _ (cover0 _)

/-! ## The pipeline's proof data -/

/-- The proof data of the region's pipeline on core `c`: the arrays as the region finds them; after the body at
    point `t` the input's buffer at its block and each output's at its one store of the input block's payload;
    the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KbR1Defs.lean ====
/-
  What the second kernel carries from one grid point to the next, as a pure recursion.

  The grid is 8 × 8, point n = 8·i + j.  At point (i, j) the kernel holds row block i of the scaled unit
  rows (x) and row block j of the plain unit rows (y) and keeps three columns of 1024 entries:
  the running sum over the columns seen so far of exp (x · yᵀ), the diagonal entry (taken when j = i),
  and the partner entry (taken when j is the partner tile of i: i + 4 below 4, i − 4 from 4 on).
  At j = 0 the three columns are reset to zero before anything is added; at j = 7 the loss of the
  block's rows is computed from the three columns.
-/
import proofs.«142995_j19722489823618_2_alg».proof.Proof.Gen.Kernel.Skeleton

noncomputable section

namespace Cert.Kernel.Hand

open Cert.Kernel Cert.Kernel.Gen
open Idealize.ShloMosaic

variable {F : FTy → Type} [FloatOps F]

/-- The three carried columns: running row sum, diagonal entry, partner entry. -/
abbrev Carried (F : FTy → Type) : Type := Vec F S1024x1 .f32 × Vec F S1024x1 .f32 × Vec F S1024x1 .f32

/-- The tile that holds the partners of row tile i. -/
def partnerTile (i : ℕ) : ℕ := if i < 4 then i + 4 else i - 4

/-- The three columns as the reset at j = 0 leaves them. -/
def carriedZero : Carried F := (k1_pay1, k1_pay2, k1_pay3)

/-- One grid point: reset at j = 0, add this tile's row sums, take the diagonal at j = i and the
    partner entry at j = the partner tile. -/
def step (i j : ℕ) (x y : Vec F S1024x256 .bf16) (s : Carried F) : Carried F :=
  let s' : Carried F := if j = 0 then carriedZero else s
  (k1_pay5 x y s'.1, if j = i then k1_pay6 x y else s'.2.1, if j = partnerTile i then k1_pay7 x y else s'.2.2)

/-- The loss column computed from the three carried columns (at j = 7). -/
def lossOf (s : Carried F) : Vec F S1024x1 .f32 := k1_pay8 s.2.2 s.2.1 s.1

/-- The carried columns after point n, given the row block (X) and the column block (Y) the kernel
    holds at each point. -/
def carriedAt (X Y : ℕ → Vec F S1024x256 .bf16) : ℕ → Carried F
  | 0 => step 0 0 (X 0) (Y 0) carriedZero
  | n + 1 => step ((n + 1) / 8) ((n + 1) % 8) (X (n + 1)) (Y (n + 1)) (carriedAt X Y n)

theorem carriedAt_zero (X Y : ℕ → Vec F S1024x256 .bf16) :
    carriedAt X Y 0 = step 0 0 (X 0) (Y 0) carriedZero := rfl

theorem carriedAt_succ (X Y : ℕ → Vec F S1024x256 .bf16) (n : ℕ) :
    carriedAt X Y (n + 1) = step ((n + 1) / 8) ((n + 1) % 8) (X (n + 1)) (Y (n + 1)) (carriedAt X Y n) := rfl

end Cert.Kernel.Hand

end
-- ==== Proof.KbR1Conds.lean ====
/-
  The second kernel's four conditionals on the grid coordinates in closed form, the coordinates of a
  grid point, and where the output window is idle.
-/
import proofs.«142995_j19722489823618_2_alg».proof.Proof.Gen.Kernel.Launch
import proofs.«142995_j19722489823618_2_alg».proof.Proof.Gen.Kernel.Skeleton
import proofs.«142995_j19722489823618_2_alg».proof.Proof.Gen.Kernel.Points
import proofs.«142995_j19722489823618_2_alg».proof.Proof.KbR1Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's four conditions -/

/-- The reset's condition: the column coordinate is 0. -/
abbrev cond1_0 (i : grid1.Coords) : Prop :=
  (Scalar.cmpi .ne (Scalar.extui (Scalar.cmpi .eq (BitVec.ofNat 32 (i 1).val) 0#32)) 0#32) = 1#1
/-- The diagonal's condition: the column coordinate is the row coordinate. -/
abbrev cond1_1 (i : grid1.Coords) : Prop :=
  (Scalar.cmpi .ne (Scalar.extui (Scalar.cmpi .eq (BitVec.ofNat 32 (i 1).val) (BitVec.ofNat 32 (i 0).val))) 0#32) = 1#1
/-- The partner's condition: the column coordinate is the row coordinate's partner tile. -/
abbrev cond1_2 (i : grid1.Coords) : Prop :=
  (Scalar.cmpi .ne (Scalar.extui (Scalar.cmpi .eq (BitVec.ofNat 32 (i 1).val)
    (Scalar.select (Scalar.cmpi .slt (BitVec.ofNat 32 (i 0).val) 4#32) (Scalar.addi (BitVec.ofNat 32 (i 0).val) 4#32)
      (Scalar.subi (BitVec.ofNat 32 (i 0).val) 4#32)))) 0#32) = 1#1
/-- The epilogue's condition: the column coordinate is 7. -/
abbrev cond1_3 (i : grid1.Coords) : Prop := k1_cond4 i = 1#1

/-- The four in closed form at every grid point, with the point's coordinates. -/
theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = t.val / 8 :=
  (by decide +kernel : ∀ t : Fin grid1.N, cond1_1 (grid1.coords t) ↔ t.val % 8 = t.val / 8)
theorem hcond1_2 : ∀ t : Fin cfg1.N, cond1_2 (grid1.coords t) ↔ t.val % 8 = partnerTile (t.val / 8) :=
  (by decide +kernel : ∀ t : Fin grid1.N, cond1_2 (grid1.coords t) ↔ t.val % 8 = partnerTile (t.val / 8))
theorem hcond1_3 : ∀ t : Fin cfg1.N, cond1_3 (grid1.coords t) ↔ t.val % 8 = 7 :=
  (by decide +kernel : ∀ t : Fin grid1.N, cond1_3 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Off the epilogue's points the output window is idle and not written back. -/
theorem idleAt1_2 : ∀ t : Fin cfg1.N, ¬cond1_3 (grid1.coords t) → cfg1.idle 2 (grid1.coords t) = true := by decide +kernel
theorem noFlush1_2 : ∀ t : Fin cfg1.N, ¬cond1_3 (grid1.coords t) → (cfg1.win 2).flush t = false := by decide +kernel
/-- At the epilogue's points it is live. -/
theorem liveAt1_2 : ∀ t : Fin cfg1.N, cond1_3 (grid1.coords t) → cfg1.idle 2 (grid1.coords t) = false := by decide +kernel

/-! ## The memrefs the body is called with -/

abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
/-- The three scratch operands: whole scoped buffers. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1 .f32 := Memref.whole cc1_scratch2

theorem hz2 : (![0, 0] : Fin 2 → Nat) = fun _ => 0 := funext fun a => by fin_cases a <;> rfl

end Cert.Kernel.Hand

end
-- ==== Proof.LibWholeStore.lean ====
/-
  A buffer whose LAST store went through the rectangle of its whole shape (offset 0 on every axis, the shape's own
  extents): whatever was stored before, the buffer then reads as that store's payload, and a load through the same
  rectangle reads the payload too.  For any reference signature, memory space, shape and element type: what a kernel
  that keeps a running value in a scratch buffer (store the whole buffer, load it back at the next step) needs.
-/
import Idealize.ShloMosaic.Lib.Pipeline.FrameBody
import Idealize.ShloMosaic.Lib.Pipeline.Value

noncomputable section

namespace Cert.Lib.WholeStore

open Idealize.ShloMosaic

/-- A buffer whose last store was through the whole-shape rectangle reads as that store's payload. -/
theorem read_writes_unit_cons {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self .., View.mem_set_unit_zero h inb y⟩),
    View.canon_cons_unit_zero h]

/-- A load through the whole-shape rectangle after such a store reads its payload. -/
theorem readCov_unit_cons {sg : RefSig} {κ : Kind} {sp : Space} {S : Shape} {e : EltTy} {Val : EltTy → Type} [∀ e, Nonempty (Val e)]
    (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

end Cert.Lib.WholeStore

end
-- ==== Proof.KbR1Run.lean ====
/-
  The second kernel's body on whole memrefs — the two input blocks, the output buffer and the three carried
  columns at given contents — runs to the same buffers at the contents one grid point leaves: one statement
  per assignment of its four conditions (reset, diagonal, partner, epilogue) that the grid meets.
-/
import proofs.«142995_j19722489823618_2_alg».proof.Proof.KbR1Conds
import proofs.«142995_j19722489823618_2_alg».proof.Proof.LibWholeStore

set_option maxRecDepth 16384

noncomputable section

namespace Cert.Kernel.Hand

open Cert.Kernel Cert.Kernel.Gen Cert.Lib.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body where the reset is taken, the diagonal is stored, the partner entry is not stored and the loss is not stored. -/
theorem kernel_run1_TTFF (c : Dev nD) (E : Set ℕ) (i : grid1.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (h0 : cond1_0 i) (h1 : cond1_1 i) (h2 : ¬cond1_2 i) (h3 : ¬cond1_3 i)
    (x y : Vec F S1024x256 .bf16) (o s5 s6 s7 : Vec F S1024x1 .f32) (K : PUnit → sProp 𝕄) :
    iprop(owns (c : Thread nD τ) arg2 fullShare x
        ∗ owns (c : Thread nD τ) arg3 fullShare y
        ∗ owns (c : Thread nD τ) arg4 fullShare o
        ∗ owns (c : Thread nD τ) arg5 fullShare s5
        ∗ owns (c : Thread nD τ) arg6 fullShare s6
        ∗ owns (c : Thread nD τ) arg7 fullShare s7
        ∗ (iprop(owns (c : Thread nD τ) arg2 fullShare x
        ∗ owns (c : Thread nD τ) arg3 fullShare y
        ∗ owns (c : Thread nD τ) arg4 fullShare o
        ∗ owns (c : Thread nD τ) arg5 fullShare (k1_pay5 x y k1_pay1)
        ∗ owns (c : Thread nD τ) arg6 fullShare (k1_pay6 x y)
        ∗ owns (c : Thread nD τ) arg7 fullShare k1_pay3) -∗ K ⟨⟩))
      ⊢ wp frame (wpE (defs₀ (F := F)) Variants.none c none) E (cc1__ntxent_kernel i arg2 harg2 arg3 harg3 arg4 harg4 arg5 harg5 arg6 harg6 arg7 harg7) K := by
  simp only [cc1__ntxent_kernel_eq_skeleton]; unfold cc1__ntxent_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h0 | exact h1 | exact h2 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  isplitl [H6]
  · iexists _; isplitr
    swap; · iexact H6
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  · iexists _; isplitr
    swap; · iexact H7
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]

set_option maxHeartbeats 4000000 in
/-- The body where the reset is taken, the diagonal is not stored, the partner entry is not stored and the loss is not stored. -/
theorem kernel_run1_TFFF (c : Dev nD) (E : Set ℕ) (i : grid1.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (h0 : cond1_0 i) (h1 : ¬cond1_1 i) (h2 : ¬cond1_2 i) (h3 : ¬cond1_3 i)
    (x y : Vec F S1024x256 .bf16) (o s5 s6 s7 : Vec F S1024x1 .f32) (K : PUnit → sProp 𝕄) :
    iprop(owns (c : Thread nD τ) arg2 fullShare x
        ∗ owns (c : Thread nD τ) arg3 fullShare y
        ∗ owns (c : Thread nD τ) arg4 fullShare o
        ∗ owns (c : Thread nD τ) arg5 fullShare s5
        ∗ owns (c : Thread nD τ) arg6 fullShare s6
        ∗ owns (c : Thread nD τ) arg7 fullShare s7
        ∗ (iprop(owns (c : Thread nD τ) arg2 fullShare x
        ∗ owns (c : Thread nD τ) arg3 fullShare y
        ∗ owns (c : Thread nD τ) arg4 fullShare o
        ∗ owns (c : Thread nD τ) arg5 fullShare (k1_pay5 x y k1_pay1)
        ∗ owns (c : Thread nD τ) arg6 fullShare k1_pay2
        ∗ owns (c : Thread nD τ) arg7 fullShare k1_pay3) -∗ K ⟨⟩))
      ⊢ wp frame (wpE (defs₀ (F := F)) Variants.none c none) E (cc1__ntxent_kernel i arg2 harg2 arg3 harg3 arg4 harg4 arg5 harg5 arg6 harg6 arg7 harg7) K := by
  simp only [cc1__ntxent_kernel_eq_skeleton]; unfold cc1__ntxent_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h0 | exact h1 | exact h2 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  isplitl [H6]
  · iexists _; isplitr
    swap; · iexact H6
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  · iexists _; isplitr
    swap; · iexact H7
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]

set_option maxHeartbeats 4000000 in
/-- The body where the reset is taken, the diagonal is not stored, the partner entry is stored and the loss is not stored. -/
theorem kernel_run1_TFTF (c : Dev nD) (E : Set ℕ) (i : grid1.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (h0 : cond1_0 i) (h1 : ¬cond1_1 i) (h2 : cond1_2 i) (h3 : ¬cond1_3 i)
    (x y : Vec F S1024x256 .bf16) (o s5 s6 s7 : Vec F S1024x1 .f32) (K : PUnit → sProp 𝕄) :
    iprop(owns (c : Thread nD τ) arg2 fullShare x
        ∗ owns (c : Thread nD τ) arg3 fullShare y
        ∗ owns (c : Thread nD τ) arg4 fullShare o
        ∗ owns (c : Thread nD τ) arg5 fullShare s5
        ∗ owns (c : Thread nD τ) arg6 fullShare s6
        ∗ owns (c : Thread nD τ) arg7 fullShare s7
        ∗ (iprop(owns (c : Thread nD τ) arg2 fullShare x
        ∗ owns (c : Thread nD τ) arg3 fullShare y
        ∗ owns (c : Thread nD τ) arg4 fullShare o
        ∗ owns (c : Thread nD τ) arg5 fullShare (k1_pay5 x y k1_pay1)
        ∗ owns (c : Thread nD τ) arg6 fullShare k1_pay2
        ∗ owns (c : Thread nD τ) arg7 fullShare (k1_pay7 x y)) -∗ K ⟨⟩))
      ⊢ wp frame (wpE (defs₀ (F := F)) Variants.none c none) E (cc1__ntxent_kernel i arg2 harg2 arg3 harg3 arg4 harg4 arg5 harg5 arg6 harg6 arg7 harg7) K := by
  simp only [cc1__ntxent_kernel_eq_skeleton]; unfold cc1__ntxent_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h0 | exact h1 | exact h2 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  isplitl [H6]
  · iexists _; isplitr
    swap; · iexact H6
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  · iexists _; isplitr
    swap; · iexact H7
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]

set_option maxHeartbeats 4000000 in
/-- The body where the reset is not taken, the diagonal is not stored, the partner entry is not stored and the loss is not stored. -/
theorem kernel_run1_FFFF (c : Dev nD) (E : Set ℕ) (i : grid1.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (h0 : ¬cond1_0 i) (h1 : ¬cond1_1 i) (h2 : ¬cond1_2 i) (h3 : ¬cond1_3 i)
    (x y : Vec F S1024x256 .bf16) (o s5 s6 s7 : Vec F S1024x1 .f32) (K : PUnit → sProp 𝕄) :
    iprop(owns (c : Thread nD τ) arg2 fullShare x
        ∗ owns (c : Thread nD τ) arg3 fullShare y
        ∗ owns (c : Thread nD τ) arg4 fullShare o
        ∗ owns (c : Thread nD τ) arg5 fullShare s5
        ∗ owns (c : Thread nD τ) arg6 fullShare s6
        ∗ owns (c : Thread nD τ) arg7 fullShare s7
        ∗ (iprop(owns (c : Thread nD τ) arg2 fullShare x
        ∗ owns (c : Thread nD τ) arg3 fullShare y
        ∗ owns (c : Thread nD τ) arg4 fullShare o
        ∗ owns (c : Thread nD τ) arg5 fullShare (k1_pay5 x y s5)
        ∗ owns (c : Thread nD τ) arg6 fullShare s6
        ∗ owns (c : Thread nD τ) arg7 fullShare s7) -∗ K ⟨⟩))
      ⊢ wp frame (wpE (defs₀ (F := F)) Variants.none c none) E (cc1__ntxent_kernel i arg2 harg2 arg3 harg3 arg4 harg4 arg5 harg5 arg6 harg6 arg7 harg7) K := by
  simp only [cc1__ntxent_kernel_eq_skeleton]; unfold cc1__ntxent_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h0 | exact h1 | exact h2 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  isplitl [H6]
  · iexists _; isplitr; · ipureintro; exact harg6.read_unread _
    iexact H6
  · iexists _; isplitr; · ipureintro; exact harg7.read_unread _
    iexact H7

set_option maxHeartbeats 4000000 in
/-- The body where the reset is not taken, the diagonal is stored, the partner entry is not stored and the loss is not stored. -/
theorem kernel_run1_FTFF (c : Dev nD) (E : Set ℕ) (i : grid1.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (h0 : ¬cond1_0 i) (h1 : cond1_1 i) (h2 : ¬cond1_2 i) (h3 : ¬cond1_3 i)
    (x y : Vec F S1024x256 .bf16) (o s5 s6 s7 : Vec F S1024x1 .f32) (K : PUnit → sProp 𝕄) :
    iprop(owns (c : Thread nD τ) arg2 fullShare x
        ∗ owns (c : Thread nD τ) arg3 fullShare y
        ∗ owns (c : Thread nD τ) arg4 fullShare o
        ∗ owns (c : Thread nD τ) arg5 fullShare s5
        ∗ owns (c : Thread nD τ) arg6 fullShare s6
        ∗ owns (c : Thread nD τ) arg7 fullShare s7
        ∗ (iprop(owns (c : Thread nD τ) arg2 fullShare x
        ∗ owns (c : Thread nD τ) arg3 fullShare y
        ∗ owns (c : Thread nD τ) arg4 fullShare o
        ∗ owns (c : Thread nD τ) arg5 fullShare (k1_pay5 x y s5)
        ∗ owns (c : Thread nD τ) arg6 fullShare (k1_pay6 x y)
        ∗ owns (c : Thread nD τ) arg7 fullShare s7) -∗ K ⟨⟩))
      ⊢ wp frame (wpE (defs₀ (F := F)) Variants.none c none) E (cc1__ntxent_kernel i arg2 harg2 arg3 harg3 arg4 harg4 arg5 harg5 arg6 harg6 arg7 harg7) K := by
  simp only [cc1__ntxent_kernel_eq_skeleton]; unfold cc1__ntxent_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h0 | exact h1 | exact h2 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  isplitl [H6]
  · iexists _; isplitr
    swap; · iexact H6
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  · iexists _; isplitr; · ipureintro; exact harg7.read_unread _
    iexact H7

set_option maxHeartbeats 4000000 in
/-- The body where the reset is not taken, the diagonal is not stored, the partner entry is stored and the loss is not stored. -/
theorem kernel_run1_FFTF (c : Dev nD) (E : Set ℕ) (i : grid1.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (h0 : ¬cond1_0 i) (h1 : ¬cond1_1 i) (h2 : cond1_2 i) (h3 : ¬cond1_3 i)
    (x y : Vec F S1024x256 .bf16) (o s5 s6 s7 : Vec F S1024x1 .f32) (K : PUnit → sProp 𝕄) :
    iprop(owns (c : Thread nD τ) arg2 fullShare x
        ∗ owns (c : Thread nD τ) arg3 fullShare y
        ∗ owns (c : Thread nD τ) arg4 fullShare o
        ∗ owns (c : Thread nD τ) arg5 fullShare s5
        ∗ owns (c : Thread nD τ) arg6 fullShare s6
        ∗ owns (c : Thread nD τ) arg7 fullShare s7
        ∗ (iprop(owns (c : Thread nD τ) arg2 fullShare x
        ∗ owns (c : Thread nD τ) arg3 fullShare y
        ∗ owns (c : Thread nD τ) arg4 fullShare o
        ∗ owns (c : Thread nD τ) arg5 fullShare (k1_pay5 x y s5)
        ∗ owns (c : Thread nD τ) arg6 fullShare s6
        ∗ owns (c : Thread nD τ) arg7 fullShare (k1_pay7 x y)) -∗ K ⟨⟩))
      ⊢ wp frame (wpE (defs₀ (F := F)) Variants.none c none) E (cc1__ntxent_kernel i arg2 harg2 arg3 harg3 arg4 harg4 arg5 harg5 arg6 harg6 arg7 harg7) K := by
  simp only [cc1__ntxent_kernel_eq_skeleton]; unfold cc1__ntxent_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h0 | exact h1 | exact h2 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  isplitl [H6]
  · iexists _; isplitr; · ipureintro; exact harg6.read_unread _
    iexact H6
  · iexists _; isplitr
    swap; · iexact H7
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]

set_option maxHeartbeats 4000000 in
/-- The body where the reset is not taken, the diagonal is not stored, the partner entry is not stored and the loss is stored. -/
theorem kernel_run1_FFFT (c : Dev nD) (E : Set ℕ) (i : grid1.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (h0 : ¬cond1_0 i) (h1 : ¬cond1_1 i) (h2 : ¬cond1_2 i) (h3 : cond1_3 i)
    (x y : Vec F S1024x256 .bf16) (o s5 s6 s7 : Vec F S1024x1 .f32) (K : PUnit → sProp 𝕄) :
    iprop(owns (c : Thread nD τ) arg2 fullShare x
        ∗ owns (c : Thread nD τ) arg3 fullShare y
        ∗ owns (c : Thread nD τ) arg4 fullShare o
        ∗ owns (c : Thread nD τ) arg5 fullShare s5
        ∗ owns (c : Thread nD τ) arg6 fullShare s6
        ∗ owns (c : Thread nD τ) arg7 fullShare s7
        ∗ (iprop(owns (c : Thread nD τ) arg2 fullShare x
        ∗ owns (c : Thread nD τ) arg3 fullShare y
        ∗ owns (c : Thread nD τ) arg4 fullShare (k1_pay8 s7 s6 (k1_pay5 x y s5))
        ∗ owns (c : Thread nD τ) arg5 fullShare (k1_pay5 x y s5)
        ∗ owns (c : Thread nD τ) arg6 fullShare s6
        ∗ owns (c : Thread nD τ) arg7 fullShare s7) -∗ K ⟨⟩))
      ⊢ wp frame (wpE (defs₀ (F := F)) Variants.none c none) E (cc1__ntxent_kernel i arg2 harg2 arg3 harg3 arg4 harg4 arg5 harg5 arg6 harg6 arg7 harg7) K := by
  simp only [cc1__ntxent_kernel_eq_skeleton]; unfold cc1__ntxent_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h0 | exact h1 | exact h2 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  isplitl [H5]
  · iexists _; isplitr
    swap; · iexact H5
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  isplitl [H6]
  · iexists _; isplitr; · ipureintro; exact harg6.read_unread _
    iexact H6
  · iexists _; isplitr; · ipureintro; exact harg7.read_unread _
    iexact H7

set_option maxHeartbeats 4000000 in
/-- The body where the reset is not taken, the diagonal is stored, the partner entry is not stored and the loss is stored. -/
theorem kernel_run1_FTFT (c : Dev nD) (E : Set ℕ) (i : grid1.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (h0 : ¬cond1_0 i) (h1 : cond1_1 i) (h2 : ¬cond1_2 i) (h3 : cond1_3 i)
    (x y : Vec F S1024x256 .bf16) (o s5 s6 s7 : Vec F S1024x1 .f32) (K : PUnit → sProp 𝕄) :
    iprop(owns (c : Thread nD τ) arg2 fullShare x
        ∗ owns (c : Thread nD τ) arg3 fullShare y
        ∗ owns (c : Thread nD τ) arg4 fullShare o
        ∗ owns (c : Thread nD τ) arg5 fullShare s5
        ∗ owns (c : Thread nD τ) arg6 fullShare s6
        ∗ owns (c : Thread nD τ) arg7 fullShare s7
        ∗ (iprop(owns (c : Thread nD τ) arg2 fullShare x
        ∗ owns (c : Thread nD τ) arg3 fullShare y
        ∗ owns (c : Thread nD τ) arg4 fullShare (k1_pay8 s7 (k1_pay6 x y) (k1_pay5 x y s5))
        ∗ owns (c : Thread nD τ) arg5 fullShare (k1_pay5 x y s5)
        ∗ owns (c : Thread nD τ) arg6 fullShare (k1_pay6 x y)
        ∗ owns (c : Thread nD τ) arg7 fullShare s7) -∗ K ⟨⟩))
      ⊢ wp frame (wpE (defs₀ (F := F)) Variants.none c none) E (cc1__ntxent_kernel i arg2 harg2 arg3 harg3 arg4 harg4 arg5 harg5 arg6 harg6 arg7 harg7) K := by
  simp only [cc1__ntxent_kernel_eq_skeleton]; unfold cc1__ntxent_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h0 | exact h1 | exact h2 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  isplitl [H5]
  · iexists _; isplitr
    swap; · iexact H5
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  isplitl [H6]
  · iexists _; isplitr
    swap; · iexact H6
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  · iexists _; isplitr; · ipureintro; exact harg7.read_unread _
    iexact H7

set_option maxHeartbeats 4000000 in
/-- The body where the reset is not taken, the diagonal is not stored, the partner entry is stored and the loss is stored. -/
theorem kernel_run1_FFTT (c : Dev nD) (E : Set ℕ) (i : grid1.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (h0 : ¬cond1_0 i) (h1 : ¬cond1_1 i) (h2 : cond1_2 i) (h3 : cond1_3 i)
    (x y : Vec F S1024x256 .bf16) (o s5 s6 s7 : Vec F S1024x1 .f32) (K : PUnit → sProp 𝕄) :
    iprop(owns (c : Thread nD τ) arg2 fullShare x
        ∗ owns (c : Thread nD τ) arg3 fullShare y
        ∗ owns (c : Thread nD τ) arg4 fullShare o
        ∗ owns (c : Thread nD τ) arg5 fullShare s5
        ∗ owns (c : Thread nD τ) arg6 fullShare s6
        ∗ owns (c : Thread nD τ) arg7 fullShare s7
        ∗ (iprop(owns (c : Thread nD τ) arg2 fullShare x
        ∗ owns (c : Thread nD τ) arg3 fullShare y
        ∗ owns (c : Thread nD τ) arg4 fullShare (k1_pay8 (k1_pay7 x y) s6 (k1_pay5 x y s5))
        ∗ owns (c : Thread nD τ) arg5 fullShare (k1_pay5 x y s5)
        ∗ owns (c : Thread nD τ) arg6 fullShare s6
        ∗ owns (c : Thread nD τ) arg7 fullShare (k1_pay7 x y)) -∗ K ⟨⟩))
      ⊢ wp frame (wpE (defs₀ (F := F)) Variants.none c none) E (cc1__ntxent_kernel i arg2 harg2 arg3 harg3 arg4 harg4 arg5 harg5 arg6 harg6 arg7 harg7) K := by
  simp only [cc1__ntxent_kernel_eq_skeleton]; unfold cc1__ntxent_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h0 | exact h1 | exact h2 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  isplitl [H5]
  · iexists _; isplitr
    swap; · iexact H5
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  isplitl [H6]
  · iexists _; isplitr; · ipureintro; exact harg6.read_unread _
    iexact H6
  · iexists _; isplitr
    swap; · iexact H7
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]

end Cert.Kernel.Hand

end
-- ==== Proof.KbR1Data.lean ====
/-
  REGION 1, the data: the similarity and loss kernel on its 8 × 8 grid, at the buffer contents `V` the
  region is entered with.  The three columns the kernel carries between grid points are `carriedAt` of the
  row blocks and column blocks it holds point by point; the output window's block, stored at the last
  column tile of each row tile, is `lossOf` of them.
-/
import proofs.«142995_j19722489823618_2_alg».proof.Proof.KbR1Conds

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first kernel's six staging buffers, each at some contents, before a rest `R`: the scoped buffers
    this kernel never touches. -/
def stg6 (c : Dev nD) (R : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ R)

/-- What the launch hands the region, with the three scratch columns as memrefs owned at some contents. -/
theorem PhiA1_eq (c : Dev nD) :
    (Pipeline.ΦA spec1 c : sProp 𝕄)
      = iprop(stg6 c iprop((∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA stg6; rw [scopedRest1_eq]; simp only [scM1_0, scM1_1, scM1_2, owns_whole]; try rfl

section Region1
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block (scaled unit rows) the kernel holds at point `n`. -/
def rowBlk (c : Dev nD) (n : ℕ) : Vec F S1024x256 .bf16 :=
  if h : n < cfg1.N then iblk1 V c 0 ⟨n, h⟩ else iblk1 V c 0 ⟨0, by decide⟩
/-- The column block (unit rows) the kernel holds at point `n`. -/
def colBlk (c : Dev nD) (n : ℕ) : Vec F S1024x256 .bf16 :=
  if h : n < cfg1.N then iblk1 V c 1 ⟨n, h⟩ else iblk1 V c 1 ⟨0, by decide⟩

theorem rowBlk_eq (c : Dev nD) (t : Fin cfg1.N) : rowBlk V c t.val = iblk1 V c 0 t := by
  unfold rowBlk; rw [dif_pos t.isLt]
theorem colBlk_eq (c : Dev nD) (t : Fin cfg1.N) : colBlk V c t.val = iblk1 V c 1 t := by
  unfold colBlk; rw [dif_pos t.isLt]

/-! ## The region's invariant -/

/-- Before the first point what the launch hands the region; before point `n + 1` the same with the three
    scratch columns at what point `n` left in them. -/
def PhiS1 (c : Dev nD) : ℕ → sProp 𝕄
  | 0 => Pipeline.ΦA spec1 c
  | n + 1 => iprop(stg6 c iprop(owns (c : Thread nD τ) scM1_0 fullShare (carriedAt (rowBlk V c) (colBlk V c) n).1 ∗ owns (c : Thread nD τ) scM1_1 fullShare (carriedAt (rowBlk V c) (colBlk V c) n).2.1 ∗ owns (c : Thread nD τ) scM1_2 fullShare (carriedAt (rowBlk V c) (colBlk V c) n).2.2) ∗ (∃ r, prngReg c r))

theorem PhiS1_zero (c : Dev nD) (n : ℕ) (hz : n = 0) : PhiS1 V c n = Pipeline.ΦA spec1 c := by
  subst hz; rfl

theorem PhiS1_succ (c : Dev nD) (n : ℕ) :
    PhiS1 V c (n + 1) = iprop(stg6 c iprop(owns (c : Thread nD τ) scM1_0 fullShare (carriedAt (rowBlk V c) (colBlk V c) n).1 ∗ owns (c : Thread nD τ) scM1_1 fullShare (carriedAt (rowBlk V c) (colBlk V c) n).2.1 ∗ owns (c : Thread nD τ) scM1_2 fullShare (carriedAt (rowBlk V c) (colBlk V c) n).2.2) ∗ (∃ r, prngReg c r)) := rfl

theorem PhiS1_pos (c : Dev nD) (n : ℕ) (hz : n ≠ 0) :
    PhiS1 V c n = iprop(stg6 c iprop(owns (c : Thread nD τ) scM1_0 fullShare (carriedAt (rowBlk V c) (colBlk V c) (n - 1)).1 ∗ owns (c : Thread nD τ) scM1_1 fullShare (carriedAt (rowBlk V c) (colBlk V c) (n - 1)).2.1 ∗ owns (c : Thread nD τ) scM1_2 fullShare (carriedAt (rowBlk V c) (colBlk V c) (n - 1)).2.2) ∗ (∃ r, prngReg c r)) := by
  cases n with
  | zero => exact absurd rfl hz
  | succ n => rfl

/-! ## The proof data -/

/-- The proof data of the pipeline on core `c`: the arrays as the region finds them; after the body each
    input's buffer at its block and the output's at the loss of the carried columns; the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => lossOf (carriedAt (rowBlk V c) (colBlk V c) t.val)
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = lossOf (carriedAt (rowBlk V c) (colBlk V c) t.val) := by
  dsimp only [dat1]

theorem Phi1_castSucc (c : Dev nD) (t : Fin cfg1.N) : (dat1 V c).Φ t.castSucc = PhiS1 V c t.val := by
  dsimp only [dat1]; simp only [Fin.coe_castSucc]
theorem Phi1_succ (c : Dev nD) (t : Fin cfg1.N) : (dat1 V c).Φ t.succ = PhiS1 V c (t.val + 1) := rfl

/-! ## The inputs' buffers hold their blocks -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The invariant's two ends -/

theorem hin1 (c : Dev nD) : Pipeline.ΦA spec1 c ⊢ (dat1 V c).Φ 0 := by
  rw [show (dat1 V c).Φ 0 = PhiS1 V c 0 from rfl, PhiS1_zero V c 0 rfl]
  try exact Idealize.SL.BI.Entails.refl _

/-- After any point the invariant gives back what the launch handed in: the columns' contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val from rfl, PhiS1_pos V c _ ht, PhiA1_eq]
  unfold stg6
  iintro ⟨⟨A1, A2, A3, A4, A5, A6, HS0, HS1, HS2⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi1_out V c _ (by rw [Fin.val_last]; have : cfg1.N = 64 := N_1; omega)

end Region1

end Cert.Kernel.Hand

end
-- ==== Proof.KbR1Car.lean ====
/-
  The carried columns after a grid point, from the blocks held there and the columns the point before
  left: the recursion `carriedAt` unfolded once, its conditions on the point's number.
-/
import proofs.«142995_j19722489823618_2_alg».proof.Proof.KbR1Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

theorem car_eq (c : Dev nD) (t : Fin cfg1.N) :
    carriedAt (rowBlk V c) (colBlk V c) t.val =
      (k1_pay5 (iblk1 V c 0 t) (iblk1 V c 1 t) (if t.val % 8 = 0 then k1_pay1 else (carriedAt (rowBlk V c) (colBlk V c) (t.val - 1)).1),
       if t.val % 8 = t.val / 8 then k1_pay6 (iblk1 V c 0 t) (iblk1 V c 1 t)
         else (if t.val % 8 = 0 then k1_pay2 else (carriedAt (rowBlk V c) (colBlk V c) (t.val - 1)).2.1),
       if t.val % 8 = partnerTile (t.val / 8) then k1_pay7 (iblk1 V c 0 t) (iblk1 V c 1 t)
         else (if t.val % 8 = 0 then k1_pay3 else (carriedAt (rowBlk V c) (colBlk V c) (t.val - 1)).2.2)) := by
  obtain ⟨n, hn⟩ := t
  have hx : rowBlk V c n = iblk1 V c 0 ⟨n, hn⟩ := rowBlk_eq V c ⟨n, hn⟩
  have hy : colBlk V c n = iblk1 V c 1 ⟨n, hn⟩ := colBlk_eq V c ⟨n, hn⟩
  cases n with
  | zero =>
    show step 0 0 (rowBlk V c 0) (colBlk V c 0) carriedZero = _
    rw [hx, hy]
    unfold step carriedZero
    simp only [Nat.zero_mod, Nat.zero_div, if_true, ite_true, partnerTile]
  | succ n =>
    show step ((n + 1) / 8) ((n + 1) % 8) (rowBlk V c (n + 1)) (colBlk V c (n + 1)) (carriedAt (rowBlk V c) (colBlk V c) n) = _
    rw [hx, hy]
    unfold step carriedZero
    show _ = (k1_pay5 _ _ (if (n + 1) % 8 = 0 then k1_pay1 else (carriedAt (rowBlk V c) (colBlk V c) n).1),
       if (n + 1) % 8 = (n + 1) / 8 then k1_pay6 _ _ else (if (n + 1) % 8 = 0 then k1_pay2 else (carriedAt (rowBlk V c) (colBlk V c) n).2.1),
       if (n + 1) % 8 = partnerTile ((n + 1) / 8) then k1_pay7 _ _ else (if (n + 1) % 8 = 0 then k1_pay3 else (carriedAt (rowBlk V c) (colBlk V c) n).2.2))
    by_cases h0 : (n + 1) % 8 = 0
    · simp only [if_pos h0]
    · simp only [if_neg h0]

end Region1

end Cert.Kernel.Hand

end
-- ==== Proof.KbR1.lean ====
/-
  REGION 1, the body obligation: at every grid point the kernel's body, called on the windows' current
  staging buffers and the three scratch columns, leaves the inputs in place, the carried columns at
  `carriedAt` of the point, and — at the last column tile of a row tile — the loss column in the output
  window's buffer; elsewhere that buffer is handed back as found.
-/
import proofs.«142995_j19722489823618_2_alg».proof.Proof.KbR1Run
import proofs.«142995_j19722489823618_2_alg».proof.Proof.KbR1Car

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- The inputs' windows are never idle: their buffers are left at their blocks. -/
theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]

/-- The body at a point where the reset is taken, the diagonal is stored, the partner entry is not stored and the loss is not stored. -/
theorem sound_body1_TTFF (c : Dev nD) (t : Fin cfg1.N) (a0 : t.val % 8 = 0) (a1 : t.val % 8 = t.val / 8) (a2 : ¬t.val % 8 = partnerTile (t.val / 8)) (a3 : ¬t.val % 8 = 7) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  have k0 : cond1_0 (grid1.coords t) := (hcond1_0 t).mpr a0
  have k1 : cond1_1 (grid1.coords t) := (hcond1_1 t).mpr a1
  have k2 : ¬cond1_2 (grid1.coords t) := fun h => a2 ((hcond1_2 t).mp h)
  have k3 : ¬cond1_3 (grid1.coords t) := fun h => a3 ((hcond1_3 t).mp h)
  unfold bodyPre1 bodyPost1 bodyAt1
  simp only [before1_0, before1_1]
  rw [show (dat1 V c).owesAt () t.succ = (dat1 V c).owesAt () t.castSucc from rfl]
  rw [Phi1_succ, PhiS1_succ]
  have hz : t.val = 0 := by omega
  rw [Phi1_castSucc, PhiS1_zero V c _ hz, PhiA1_eq]
  rw [leaves1_0, leaves1_1]
  rw [Dat.leavesExact_idle (dat1 V c) 2 t (idleAt1_2 t k3) (noFlush1_2 t k3)]
  rw [car_eq V c t]
  simp only [if_pos a0, if_pos a1, if_neg a2]
  try dsimp only [lossOf]
  unfold stg6
  iintro ⟨⟨⟨A1, A2, A3, A4, A5, A6, ⟨%e0, HS0⟩, ⟨%e1, HS1⟩, ⟨%e2, HS2⟩⟩, Hg⟩, Ho, ⟨%d0, H0⟩, ⟨%d1, H1⟩, ⟨%d2, H2⟩⟩
  iapply (kernel_run1_TTFF c Set.univ (grid1.coords t) _ _ _ _ _ _ _ _ _ _ _ _ k0 k1 k2 k3 (iblk1 V c 0 t) (iblk1 V c 1 t) _ _ _ _ _)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, HS0, HS1, HS2⟩
  isplitl [A1 A2 A3 A4 A5 A6 HS0 HS1 HS2 Hg]
  · isplitr [Hg]
    · isplitl [A1]; · iexact A1
      isplitl [A2]; · iexact A2
      isplitl [A3]; · iexact A3
      isplitl [A4]; · iexact A4
      isplitl [A5]; · iexact A5
      isplitl [A6]; · iexact A6
      isplitl [HS0]; · iexact HS0
      isplitl [HS1]; · iexact HS1
      iexact HS2
    iexact Hg
  isplitl [Ho]; · iexact Ho
  isplitl [H0]; · iexact H0
  isplitl [H1]; · iexact H1
  iexists _; iexact H2

/-- The body at a point where the reset is taken, the diagonal is not stored, the partner entry is not stored and the loss is not stored. -/
theorem sound_body1_TFFF (c : Dev nD) (t : Fin cfg1.N) (a0 : t.val % 8 = 0) (a1 : ¬t.val % 8 = t.val / 8) (a2 : ¬t.val % 8 = partnerTile (t.val / 8)) (a3 : ¬t.val % 8 = 7) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  have k0 : cond1_0 (grid1.coords t) := (hcond1_0 t).mpr a0
  have k1 : ¬cond1_1 (grid1.coords t) := fun h => a1 ((hcond1_1 t).mp h)
  have k2 : ¬cond1_2 (grid1.coords t) := fun h => a2 ((hcond1_2 t).mp h)
  have k3 : ¬cond1_3 (grid1.coords t) := fun h => a3 ((hcond1_3 t).mp h)
  unfold bodyPre1 bodyPost1 bodyAt1
  simp only [before1_0, before1_1]
  rw [show (dat1 V c).owesAt () t.succ = (dat1 V c).owesAt () t.castSucc from rfl]
  rw [Phi1_succ, PhiS1_succ]
  have hz : t.val ≠ 0 := by omega
  rw [Phi1_castSucc, PhiS1_pos V c _ hz]
  rw [leaves1_0, leaves1_1]
  rw [Dat.leavesExact_idle (dat1 V c) 2 t (idleAt1_2 t k3) (noFlush1_2 t k3)]
  rw [car_eq V c t]
  simp only [if_pos a0, if_neg a1, if_neg a2]
  try dsimp only [lossOf]
  unfold stg6
  iintro ⟨⟨⟨A1, A2, A3, A4, A5, A6, HS0, HS1, HS2⟩, Hg⟩, Ho, ⟨%d0, H0⟩, ⟨%d1, H1⟩, ⟨%d2, H2⟩⟩
  iapply (kernel_run1_TFFF c Set.univ (grid1.coords t) _ _ _ _ _ _ _ _ _ _ _ _ k0 k1 k2 k3 (iblk1 V c 0 t) (iblk1 V c 1 t) _ _ _ _ _)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, HS0, HS1, HS2⟩
  isplitl [A1 A2 A3 A4 A5 A6 HS0 HS1 HS2 Hg]
  · isplitr [Hg]
    · isplitl [A1]; · iexact A1
      isplitl [A2]; · iexact A2
      isplitl [A3]; · iexact A3
      isplitl [A4]; · iexact A4
      isplitl [A5]; · iexact A5
      isplitl [A6]; · iexact A6
      isplitl [HS0]; · iexact HS0
      isplitl [HS1]; · iexact HS1
      iexact HS2
    iexact Hg
  isplitl [Ho]; · iexact Ho
  isplitl [H0]; · iexact H0
  isplitl [H1]; · iexact H1
  iexists _; iexact H2

/-- The body at a point where the reset is taken, the diagonal is not stored, the partner entry is stored and the loss is not stored. -/
theorem sound_body1_TFTF (c : Dev nD) (t : Fin cfg1.N) (a0 : t.val % 8 = 0) (a1 : ¬t.val % 8 = t.val / 8) (a2 : t.val % 8 = partnerTile (t.val / 8)) (a3 : ¬t.val % 8 = 7) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  have k0 : cond1_0 (grid1.coords t) := (hcond1_0 t).mpr a0
  have k1 : ¬cond1_1 (grid1.coords t) := fun h => a1 ((hcond1_1 t).mp h)
  have k2 : cond1_2 (grid1.coords t) := (hcond1_2 t).mpr a2
  have k3 : ¬cond1_3 (grid1.coords t) := fun h => a3 ((hcond1_3 t).mp h)
  unfold bodyPre1 bodyPost1 bodyAt1
  simp only [before1_0, before1_1]
  rw [show (dat1 V c).owesAt () t.succ = (dat1 V c).owesAt () t.castSucc from rfl]
  rw [Phi1_succ, PhiS1_succ]
  have hz : t.val ≠ 0 := by omega
  rw [Phi1_castSucc, PhiS1_pos V c _ hz]
  rw [leaves1_0, leaves1_1]
  rw [Dat.leavesExact_idle (dat1 V c) 2 t (idleAt1_2 t k3) (noFlush1_2 t k3)]
  rw [car_eq V c t]
  simp only [if_pos a0, if_neg a1, if_pos a2]
  try dsimp only [lossOf]
  unfold stg6
  iintro ⟨⟨⟨A1, A2, A3, A4, A5, A6, HS0, HS1, HS2⟩, Hg⟩, Ho, ⟨%d0, H0⟩, ⟨%d1, H1⟩, ⟨%d2, H2⟩⟩
  iapply (kernel_run1_TFTF c Set.univ (grid1.coords t) _ _ _ _ _ _ _ _ _ _ _ _ k0 k1 k2 k3 (iblk1 V c 0 t) (iblk1 V c 1 t) _ _ _ _ _)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, HS0, HS1, HS2⟩
  isplitl [A1 A2 A3 A4 A5 A6 HS0 HS1 HS2 Hg]
  · isplitr [Hg]
    · isplitl [A1]; · iexact A1
      isplitl [A2]; · iexact A2
      isplitl [A3]; · iexact A3
      isplitl [A4]; · iexact A4
      isplitl [A5]; · iexact A5
      isplitl [A6]; · iexact A6
      isplitl [HS0]; · iexact HS0
      isplitl [HS1]; · iexact HS1
      iexact HS2
    iexact Hg
  isplitl [Ho]; · iexact Ho
  isplitl [H0]; · iexact H0
  isplitl [H1]; · iexact H1
  iexists _; iexact H2

/-- The body at a point where the reset is not taken, the diagonal is not stored, the partner entry is not stored and the loss is not stored. -/
theorem sound_body1_FFFF (c : Dev nD) (t : Fin cfg1.N) (a0 : ¬t.val % 8 = 0) (a1 : ¬t.val % 8 = t.val / 8) (a2 : ¬t.val % 8 = partnerTile (t.val / 8)) (a3 : ¬t.val % 8 = 7) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  have k0 : ¬cond1_0 (grid1.coords t) := fun h => a0 ((hcond1_0 t).mp h)
  have k1 : ¬cond1_1 (grid1.coords t) := fun h => a1 ((hcond1_1 t).mp h)
  have k2 : ¬cond1_2 (grid1.coords t) := fun h => a2 ((hcond1_2 t).mp h)
  have k3 : ¬cond1_3 (grid1.coords t) := fun h => a3 ((hcond1_3 t).mp h)
  unfold bodyPre1 bodyPost1 bodyAt1
  simp only [before1_0, before1_1]
  rw [show (dat1 V c).owesAt () t.succ = (dat1 V c).owesAt () t.castSucc from rfl]
  rw [Phi1_succ, PhiS1_succ]
  have hz : t.val ≠ 0 := by omega
  rw [Phi1_castSucc, PhiS1_pos V c _ hz]
  rw [leaves1_0, leaves1_1]
  rw [Dat.leavesExact_idle (dat1 V c) 2 t (idleAt1_2 t k3) (noFlush1_2 t k3)]
  rw [car_eq V c t]
  simp only [if_neg a0, if_neg a1, if_neg a2]
  try dsimp only [lossOf]
  unfold stg6
  iintro ⟨⟨⟨A1, A2, A3, A4, A5, A6, HS0, HS1, HS2⟩, Hg⟩, Ho, ⟨%d0, H0⟩, ⟨%d1, H1⟩, ⟨%d2, H2⟩⟩
  iapply (kernel_run1_FFFF c Set.univ (grid1.coords t) _ _ _ _ _ _ _ _ _ _ _ _ k0 k1 k2 k3 (iblk1 V c 0 t) (iblk1 V c 1 t) _ _ _ _ _)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, HS0, HS1, HS2⟩
  isplitl [A1 A2 A3 A4 A5 A6 HS0 HS1 HS2 Hg]
  · isplitr [Hg]
    · isplitl [A1]; · iexact A1
      isplitl [A2]; · iexact A2
      isplitl [A3]; · iexact A3
      isplitl [A4]; · iexact A4
      isplitl [A5]; · iexact A5
      isplitl [A6]; · iexact A6
      isplitl [HS0]; · iexact HS0
      isplitl [HS1]; · iexact HS1
      iexact HS2
    iexact Hg
  isplitl [Ho]; · iexact Ho
  isplitl [H0]; · iexact H0
  isplitl [H1]; · iexact H1
  iexists _; iexact H2

/-- The body at a point where the reset is not taken, the diagonal is stored, the partner entry is not stored and the loss is not stored. -/
theorem sound_body1_FTFF (c : Dev nD) (t : Fin cfg1.N) (a0 : ¬t.val % 8 = 0) (a1 : t.val % 8 = t.val / 8) (a2 : ¬t.val % 8 = partnerTile (t.val / 8)) (a3 : ¬t.val % 8 = 7) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  have k0 : ¬cond1_0 (grid1.coords t) := fun h => a0 ((hcond1_0 t).mp h)
  have k1 : cond1_1 (grid1.coords t) := (hcond1_1 t).mpr a1
  have k2 : ¬cond1_2 (grid1.coords t) := fun h => a2 ((hcond1_2 t).mp h)
  have k3 : ¬cond1_3 (grid1.coords t) := fun h => a3 ((hcond1_3 t).mp h)
  unfold bodyPre1 bodyPost1 bodyAt1
  simp only [before1_0, before1_1]
  rw [show (dat1 V c).owesAt () t.succ = (dat1 V c).owesAt () t.castSucc from rfl]
  rw [Phi1_succ, PhiS1_succ]
  have hz : t.val ≠ 0 := by omega
  rw [Phi1_castSucc, PhiS1_pos V c _ hz]
  rw [leaves1_0, leaves1_1]
  rw [Dat.leavesExact_idle (dat1 V c) 2 t (idleAt1_2 t k3) (noFlush1_2 t k3)]
  rw [car_eq V c t]
  simp only [if_neg a0, if_pos a1, if_neg a2]
  try dsimp only [lossOf]
  unfold stg6
  iintro ⟨⟨⟨A1, A2, A3, A4, A5, A6, HS0, HS1, HS2⟩, Hg⟩, Ho, ⟨%d0, H0⟩, ⟨%d1, H1⟩, ⟨%d2, H2⟩⟩
  iapply (kernel_run1_FTFF c Set.univ (grid1.coords t) _ _ _ _ _ _ _ _ _ _ _ _ k0 k1 k2 k3 (iblk1 V c 0 t) (iblk1 V c 1 t) _ _ _ _ _)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, HS0, HS1, HS2⟩
  isplitl [A1 A2 A3 A4 A5 A6 HS0 HS1 HS2 Hg]
  · isplitr [Hg]
    · isplitl [A1]; · iexact A1
      isplitl [A2]; · iexact A2
      isplitl [A3]; · iexact A3
      isplitl [A4]; · iexact A4
      isplitl [A5]; · iexact A5
      isplitl [A6]; · iexact A6
      isplitl [HS0]; · iexact HS0
      isplitl [HS1]; · iexact HS1
      iexact HS2
    iexact Hg
  isplitl [Ho]; · iexact Ho
  isplitl [H0]; · iexact H0
  isplitl [H1]; · iexact H1
  iexists _; iexact H2

/-- The body at a point where the reset is not taken, the diagonal is not stored, the partner entry is stored and the loss is not stored. -/
theorem sound_body1_FFTF (c : Dev nD) (t : Fin cfg1.N) (a0 : ¬t.val % 8 = 0) (a1 : ¬t.val % 8 = t.val / 8) (a2 : t.val % 8 = partnerTile (t.val / 8)) (a3 : ¬t.val % 8 = 7) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  have k0 : ¬cond1_0 (grid1.coords t) := fun h => a0 ((hcond1_0 t).mp h)
  have k1 : ¬cond1_1 (grid1.coords t) := fun h => a1 ((hcond1_1 t).mp h)
  have k2 : cond1_2 (grid1.coords t) := (hcond1_2 t).mpr a2
  have k3 : ¬cond1_3 (grid1.coords t) := fun h => a3 ((hcond1_3 t).mp h)
  unfold bodyPre1 bodyPost1 bodyAt1
  simp only [before1_0, before1_1]
  rw [show (dat1 V c).owesAt () t.succ = (dat1 V c).owesAt () t.castSucc from rfl]
  rw [Phi1_succ, PhiS1_succ]
  have hz : t.val ≠ 0 := by omega
  rw [Phi1_castSucc, PhiS1_pos V c _ hz]
  rw [leaves1_0, leaves1_1]
  rw [Dat.leavesExact_idle (dat1 V c) 2 t (idleAt1_2 t k3) (noFlush1_2 t k3)]
  rw [car_eq V c t]
  simp only [if_neg a0, if_neg a1, if_pos a2]
  try dsimp only [lossOf]
  unfold stg6
  iintro ⟨⟨⟨A1, A2, A3, A4, A5, A6, HS0, HS1, HS2⟩, Hg⟩, Ho, ⟨%d0, H0⟩, ⟨%d1, H1⟩, ⟨%d2, H2⟩⟩
  iapply (kernel_run1_FFTF c Set.univ (grid1.coords t) _ _ _ _ _ _ _ _ _ _ _ _ k0 k1 k2 k3 (iblk1 V c 0 t) (iblk1 V c 1 t) _ _ _ _ _)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, HS0, HS1, HS2⟩
  isplitl [A1 A2 A3 A4 A5 A6 HS0 HS1 HS2 Hg]
  · isplitr [Hg]
    · isplitl [A1]; · iexact A1
      isplitl [A2]; · iexact A2
      isplitl [A3]; · iexact A3
      isplitl [A4]; · iexact A4
      isplitl [A5]; · iexact A5
      isplitl [A6]; · iexact A6
      isplitl [HS0]; · iexact HS0
      isplitl [HS1]; · iexact HS1
      iexact HS2
    iexact Hg
  isplitl [Ho]; · iexact Ho
  isplitl [H0]; · iexact H0
  isplitl [H1]; · iexact H1
  iexists _; iexact H2

/-- The body at a point where the reset is not taken, the diagonal is not stored, the partner entry is not stored and the loss is stored. -/
theorem sound_body1_FFFT (c : Dev nD) (t : Fin cfg1.N) (a0 : ¬t.val % 8 = 0) (a1 : ¬t.val % 8 = t.val / 8) (a2 : ¬t.val % 8 = partnerTile (t.val / 8)) (a3 : t.val % 8 = 7) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  have k0 : ¬cond1_0 (grid1.coords t) := fun h => a0 ((hcond1_0 t).mp h)
  have k1 : ¬cond1_1 (grid1.coords t) := fun h => a1 ((hcond1_1 t).mp h)
  have k2 : ¬cond1_2 (grid1.coords t) := fun h => a2 ((hcond1_2 t).mp h)
  have k3 : cond1_3 (grid1.coords t) := (hcond1_3 t).mpr a3
  unfold bodyPre1 bodyPost1 bodyAt1
  simp only [before1_0, before1_1]
  rw [show (dat1 V c).owesAt () t.succ = (dat1 V c).owesAt () t.castSucc from rfl]
  rw [Phi1_succ, PhiS1_succ]
  have hz : t.val ≠ 0 := by omega
  rw [Phi1_castSucc, PhiS1_pos V c _ hz]
  rw [leaves1_0, leaves1_1]
  rw [show (dat1 V c).leavesExact 2 t = owns (c : Thread nD τ) (ms1_2 t) fullShare ((dat1 V c).after 2 t) from by
    unfold Dat.leavesExact; rw [liveAt1_2 t k3], after1_2]
  rw [car_eq V c t]
  simp only [if_neg a0, if_neg a1, if_neg a2]
  try dsimp only [lossOf]
  unfold stg6
  iintro ⟨⟨⟨A1, A2, A3, A4, A5, A6, HS0, HS1, HS2⟩, Hg⟩, Ho, ⟨%d0, H0⟩, ⟨%d1, H1⟩, ⟨%d2, H2⟩⟩
  iapply (kernel_run1_FFFT c Set.univ (grid1.coords t) _ _ _ _ _ _ _ _ _ _ _ _ k0 k1 k2 k3 (iblk1 V c 0 t) (iblk1 V c 1 t) _ _ _ _ _)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, HS0, HS1, HS2⟩
  isplitl [A1 A2 A3 A4 A5 A6 HS0 HS1 HS2 Hg]
  · isplitr [Hg]
    · isplitl [A1]; · iexact A1
      isplitl [A2]; · iexact A2
      isplitl [A3]; · iexact A3
      isplitl [A4]; · iexact A4
      isplitl [A5]; · iexact A5
      isplitl [A6]; · iexact A6
      isplitl [HS0]; · iexact HS0
      isplitl [HS1]; · iexact HS1
      iexact HS2
    iexact Hg
  isplitl [Ho]; · iexact Ho
  isplitl [H0]; · iexact H0
  isplitl [H1]; · iexact H1
  iexact H2

/-- The body at a point where the reset is not taken, the diagonal is stored, the partner entry is not stored and the loss is stored. -/
theorem sound_body1_FTFT (c : Dev nD) (t : Fin cfg1.N) (a0 : ¬t.val % 8 = 0) (a1 : t.val % 8 = t.val / 8) (a2 : ¬t.val % 8 = partnerTile (t.val / 8)) (a3 : t.val % 8 = 7) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  have k0 : ¬cond1_0 (grid1.coords t) := fun h => a0 ((hcond1_0 t).mp h)
  have k1 : cond1_1 (grid1.coords t) := (hcond1_1 t).mpr a1
  have k2 : ¬cond1_2 (grid1.coords t) := fun h => a2 ((hcond1_2 t).mp h)
  have k3 : cond1_3 (grid1.coords t) := (hcond1_3 t).mpr a3
  unfold bodyPre1 bodyPost1 bodyAt1
  simp only [before1_0, before1_1]
  rw [show (dat1 V c).owesAt () t.succ = (dat1 V c).owesAt () t.castSucc from rfl]
  rw [Phi1_succ, PhiS1_succ]
  have hz : t.val ≠ 0 := by omega
  rw [Phi1_castSucc, PhiS1_pos V c _ hz]
  rw [leaves1_0, leaves1_1]
  rw [show (dat1 V c).leavesExact 2 t = owns (c : Thread nD τ) (ms1_2 t) fullShare ((dat1 V c).after 2 t) from by
    unfold Dat.leavesExact; rw [liveAt1_2 t k3], after1_2]
  rw [car_eq V c t]
  simp only [if_neg a0, if_pos a1, if_neg a2]
  try dsimp only [lossOf]
  unfold stg6
  iintro ⟨⟨⟨A1, A2, A3, A4, A5, A6, HS0, HS1, HS2⟩, Hg⟩, Ho, ⟨%d0, H0⟩, ⟨%d1, H1⟩, ⟨%d2, H2⟩⟩
  iapply (kernel_run1_FTFT c Set.univ (grid1.coords t) _ _ _ _ _ _ _ _ _ _ _ _ k0 k1 k2 k3 (iblk1 V c 0 t) (iblk1 V c 1 t) _ _ _ _ _)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, HS0, HS1, HS2⟩
  isplitl [A1 A2 A3 A4 A5 A6 HS0 HS1 HS2 Hg]
  · isplitr [Hg]
    · isplitl [A1]; · iexact A1
      isplitl [A2]; · iexact A2
      isplitl [A3]; · iexact A3
      isplitl [A4]; · iexact A4
      isplitl [A5]; · iexact A5
      isplitl [A6]; · iexact A6
      isplitl [HS0]; · iexact HS0
      isplitl [HS1]; · iexact HS1
      iexact HS2
    iexact Hg
  isplitl [Ho]; · iexact Ho
  isplitl [H0]; · iexact H0
  isplitl [H1]; · iexact H1
  iexact H2

/-- The body at a point where the reset is not taken, the diagonal is not stored, the partner entry is stored and the loss is stored. -/
theorem sound_body1_FFTT (c : Dev nD) (t : Fin cfg1.N) (a0 : ¬t.val % 8 = 0) (a1 : ¬t.val % 8 = t.val / 8) (a2 : t.val % 8 = partnerTile (t.val / 8)) (a3 : t.val % 8 = 7) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  have k0 : ¬cond1_0 (grid1.coords t) := fun h => a0 ((hcond1_0 t).mp h)
  have k1 : ¬cond1_1 (grid1.coords t) := fun h => a1 ((hcond1_1 t).mp h)
  have k2 : cond1_2 (grid1.coords t) := (hcond1_2 t).mpr a2
  have k3 : cond1_3 (grid1.coords t) := (hcond1_3 t).mpr a3
  unfold bodyPre1 bodyPost1 bodyAt1
  simp only [before1_0, before1_1]
  rw [show (dat1 V c).owesAt () t.succ = (dat1 V c).owesAt () t.castSucc from rfl]
  rw [Phi1_succ, PhiS1_succ]
  have hz : t.val ≠ 0 := by omega
  rw [Phi1_castSucc, PhiS1_pos V c _ hz]
  rw [leaves1_0, leaves1_1]
  rw [show (dat1 V c).leavesExact 2 t = owns (c : Thread nD τ) (ms1_2 t) fullShare ((dat1 V c).after 2 t) from by
    unfold Dat.leavesExact; rw [liveAt1_2 t k3], after1_2]
  rw [car_eq V c t]
  simp only [if_neg a0, if_neg a1, if_pos a2]
  try dsimp only [lossOf]
  unfold stg6
  iintro ⟨⟨⟨A1, A2, A3, A4, A5, A6, HS0, HS1, HS2⟩, Hg⟩, Ho, ⟨%d0, H0⟩, ⟨%d1, H1⟩, ⟨%d2, H2⟩⟩
  iapply (kernel_run1_FFTT c Set.univ (grid1.coords t) _ _ _ _ _ _ _ _ _ _ _ _ k0 k1 k2 k3 (iblk1 V c 0 t) (iblk1 V c 1 t) _ _ _ _ _)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, HS0, HS1, HS2⟩
  isplitl [A1 A2 A3 A4 A5 A6 HS0 HS1 HS2 Hg]
  · isplitr [Hg]
    · isplitl [A1]; · iexact A1
      isplitl [A2]; · iexact A2
      isplitl [A3]; · iexact A3
      isplitl [A4]; · iexact A4
      isplitl [A5]; · iexact A5
      isplitl [A6]; · iexact A6
      isplitl [HS0]; · iexact HS0
      isplitl [HS1]; · iexact HS1
      iexact HS2
    iexact Hg
  isplitl [Ho]; · iexact Ho
  isplitl [H0]; · iexact H0
  isplitl [H1]; · iexact H1
  iexact H2

/-- The body at any point: by the point's number, which of the four conditions hold. -/
theorem sound_body1 (c : Dev nD) (t : Fin cfg1.N) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  by_cases a0 : t.val % 8 = 0 <;> by_cases a1 : t.val % 8 = t.val / 8 <;>
    by_cases a2 : t.val % 8 = partnerTile (t.val / 8) <;> by_cases a3 : t.val % 8 = 7
  all_goals first
    | exact sound_body1_TTFF V c t a0 a1 a2 a3
    | exact sound_body1_TFFF V c t a0 a1 a2 a3
    | exact sound_body1_TFTF V c t a0 a1 a2 a3
    | exact sound_body1_FFFF V c t a0 a1 a2 a3
    | exact sound_body1_FTFF V c t a0 a1 a2 a3
    | exact sound_body1_FFTF V c t a0 a1 a2 a3
    | exact sound_body1_FFFT V c t a0 a1 a2 a3
    | exact sound_body1_FTFT V c t a0 a1 a2 a3
    | exact sound_body1_FFTT V c t a0 a1 a2 a3
    | (exfalso; unfold partnerTile at a2; split at a2 <;> omega)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KbRun.lean ====
/-
  The run of the whole program: one host operation (the two arguments stacked), the normalising
  region, the similarity / loss region, and four host operations (the mean).  The contents of the
  TensorCore's buffers are folded through these four segments from the launch memory: a host stretch
  applies its operations; a region leaves each of its arrays at what its write-backs leave and every
  other buffer as it found it.  Every weakly fair execution terminates and ends with every unscoped
  buffer at the last fold.
-/
import proofs.«142995_j19722489823618_2_alg».proof.Proof.KbR0
import proofs.«142995_j19722489823618_2_alg».proof.Proof.KbR1
import proofs.«142995_j19722489823618_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the stacking (the first region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the second region's entry). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the mean's four host operations: the end. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last fold, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The normalising region: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the second region's invariant is before its first point, from what the launch hands it. -/
theorem phi1_first (c : Dev nD) : Pipeline.ΦA spec1 c ⊢ (pdats m ρ 1 c).Φ 0 := hin1 (V2 m ρ) c
/-- And what it gives back after its last point. -/
theorem phi1_last (c : Dev nD) : (pdats m ρ 1 c).Φ (Fin.last _) ⊢ Pipeline.ΦA spec1 c := hout1 (V2 m ρ) c

set_option backward.isDefEq.respectTransparency.types false in
/-- The similarity / loss region: entered from every unscoped buffer at W2, left at W3. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi1_first m ρ c)
    unfold Pipeline.ΦA
    iintro ⟨Hp, -, Hr⟩
    isplitl [Hr]; · iexact Hr
    iexact Hp
  hout c := by
    rw [Pipeline.ownSems0_none]
    refine BIBase.Entails.trans (phi1_last m ρ c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- Every weakly fair execution of the program terminates, nothing faulting, with every unscoped buffer
    of the TensorCore at the last fold W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## What the run leaves in a buffer nobody writes: the arguments -/

/-- A buffer that no host operation writes and that is no array of either region ends as launched. -/
theorem W4_unwritten (c : Dev nD) (b : Ref sig .tc) (h0 : b ∉ hostOps0_W) (h2 : b ∉ hostOps2_W)
    (hr0 : ∀ w, Pipeline.arrRef spec0 w ≠ b) (hr1 : ∀ w, Pipeline.arrRef spec1 w ≠ b) :
    W4 m ρ c (Proc.devRef .tc b) = m ((c : Thread nD τ).loc b) :=
  (StableHlo.after_of_writes_sub hostOps2 _ hostOps2_writes h2).trans <|
    (W3_of_ne m ρ c b hr1).trans <| (W2_of_ne m ρ c b hr0).trans <|
      (StableHlo.after_of_writes_sub hostOps0 _ hostOps0_writes h0).trans rfl

theorem W4_main_arg0 (c : Dev nD) : W4 m ρ c (Proc.devRef .tc main_arg0) = m ((c : Thread nD τ).loc main_arg0) :=
  W4_unwritten m ρ c main_arg0 (by decide) (by decide) (by decide) (by decide)
theorem W4_main_arg1 (c : Dev nD) : W4 m ρ c (Proc.devRef .tc main_arg1) = m ((c : Thread nD τ).loc main_arg1) :=
  W4_unwritten m ρ c main_arg1 (by decide) (by decide) (by decide) (by decide)

/-- The frame: every weakly fair execution terminates, nothing faulting, and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_all m ρ)

/-- The same run with the result buffer's final contents named. -/
theorem run_result : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v4 (by decide)),
     (h c _ (mem_uc main_arg0 (by decide))).trans (W4_main_arg0 m ρ c),
     (h c _ (mem_uc main_arg1 (by decide))).trans (W4_main_arg1 m ρ c)⟩) (run_all m ρ)

end Cert.Kernel.Hand

end
-- ==== Proof.KiR0.lean ====
/-
  Region 0: the row-normalising kernel over its grid of 8 points, at the buffer contents the region is entered with.

  Each point reads a block of 1024 rows of the input array, and stores two blocks of the same shape: the rows
  scaled to unit length, and the same rows multiplied by the inverse temperature (both narrowed to bf16).  The
  kernel also reads each output buffer before storing it whole; those reads are unused, so the outputs' buffers
  may hold anything when the body starts.
-/
import proofs.«142995_j19722489823618_2_alg».proof.Proof.Gen.KernelIdeal.Launch
import proofs.«142995_j19722489823618_2_alg».proof.Proof.Gen.KernelIdeal.Skeleton
import proofs.«142995_j19722489823618_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    the entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 1024 × 256 buffer as a rectangle: every load and store of the body is of it. -/
abbrev r0_0 : Rect S1024x256 := Rect.unit (s := S1024x256) ![0, 0] S1024x256.size inb_S1024x256_S1024x256_0_0

/-! ## What the body leaves in each output window's buffer -/

/-- Window 1's staging buffer after the body: its one store, of the unit rows of the input block. -/
def out0_1 (x0 : Vec F S1024x256 .f32) : Vec F S1024x256 .bf16 :=
  View.canon [⟨r0_0, k0_pay2 (View.ld x0 r0_0)⟩]

/-- Window 2's staging buffer after the body: its one store, of the unit rows times the inverse temperature. -/
def out0_2 (x0 : Vec F S1024x256 .f32) : Vec F S1024x256 .bf16 :=
  View.canon [⟨r0_0, k0_pay3 (View.ld x0 r0_0)⟩]

/-- A store of the whole rectangle covers the buffer. -/
theorem cover0 (p0 : Vec F S1024x256 .bf16) (y : S1024x256.Idx) :
    ∃ pc ∈ ([⟨r0_0, p0⟩] : List (View.Piece (Elt F) S1024x256 .bf16)), y ∈ pc.1.set :=
  View.cover_of_tiled [⟨r0_0, p0⟩] S1024x256.size (by rfl) y

/-! ## The body's triple -/

set_option maxHeartbeats 1000000 in
/-- The kernel body on whole staging memrefs, the input's at read contents `x0` and the outputs' at anything, runs to
    the continuation holding the input's as it was and each output's at what its one store leaves. -/
theorem sound_kernel0 (c : Dev nD) (E : Set ℕ) (i : grid0.Coords)
    (arg1 : Memref sig .tc .vmem S1024x256 .f32) (harg1 : arg1.IsWhole)
    (arg2 : Memref sig .tc .vmem S1024x256 .bf16) (harg2 : arg2.IsWhole)
    (arg3 : Memref sig .tc .vmem S1024x256 .bf16) (harg3 : arg3.IsWhole)
    (x0 : Vec F S1024x256 .f32) (K : PUnit → sProp 𝕄) :
    iprop(owns (c : Thread nD τ) arg1 fullShare x0 ∗ (∃ d, owns (c : Thread nD τ) arg2 fullShare d)
        ∗ (∃ d, owns (c : Thread nD τ) arg3 fullShare d)
        ∗ (iprop(owns (c : Thread nD τ) arg1 fullShare x0 ∗ owns (c : Thread nD τ) arg2 fullShare (out0_1 x0)
            ∗ owns (c : Thread nD τ) arg3 fullShare (out0_2 x0)) -∗ K ⟨⟩))
      ⊢ wp frame (wpE (defs₀ (F := F)) Variants.none c none) E (cc0__normalize_kernel i arg1 harg1 arg2 harg2 arg3 harg3) K := by
  simp only [cc0__normalize_kernel_eq_skeleton]; unfold cc0__normalize_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0 _)
  iexists _; isplitr
  swap; · iexact H2
  ipureintro
  exact View.read_writes_eq_canon _ _ _ (cover0 _)

/-! ## The pipeline's proof data -/

/-- The proof data of the region's pipeline on core `c`: the arrays as the region finds them; after the body at
    point `t` the input's buffer at its block and each output's at its one store of the input block's payload;
    the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- The input's current staging buffer holds its block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block, so the kernel's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KiR1Defs.lean ====
/-
  What the second kernel carries from one grid point to the next, as a pure recursion.

  The grid is 8 × 8, point n = 8·i + j.  At point (i, j) the kernel holds row block i of the scaled unit
  rows (x) and row block j of the plain unit rows (y) and keeps three columns of 1024 entries:
  the running sum over the columns seen so far of exp (x · yᵀ), the diagonal entry (taken when j = i),
  and the partner entry (taken when j is the partner tile of i: i + 4 below 4, i − 4 from 4 on).
  At j = 0 the three columns are reset to zero before anything is added; at j = 7 the loss of the
  block's rows is computed from the three columns.
-/
import proofs.«142995_j19722489823618_2_alg».proof.Proof.Gen.KernelIdeal.Skeleton

noncomputable section

namespace Cert.KernelIdeal.Hand

open Cert.KernelIdeal Cert.KernelIdeal.Gen
open Idealize.ShloMosaic

variable {F : FTy → Type} [FloatOps F] [Named F]

/-- The three carried columns: running row sum, diagonal entry, partner entry. -/
abbrev Carried (F : FTy → Type) : Type := Vec F S1024x1 .f32 × Vec F S1024x1 .f32 × Vec F S1024x1 .f32

/-- The tile that holds the partners of row tile i. -/
def partnerTile (i : ℕ) : ℕ := if i < 4 then i + 4 else i - 4

/-- The three columns as the reset at j = 0 leaves them. -/
def carriedZero : Carried F := (k1_pay1, k1_pay2, k1_pay3)

/-- One grid point: reset at j = 0, add this tile's row sums, take the diagonal at j = i and the
    partner entry at j = the partner tile. -/
def step (i j : ℕ) (x y : Vec F S1024x256 .bf16) (s : Carried F) : Carried F :=
  let s' : Carried F := if j = 0 then carriedZero else s
  (k1_pay5 x y s'.1, if j = i then k1_pay6 x y else s'.2.1, if j = partnerTile i then k1_pay7 x y else s'.2.2)

/-- The loss column computed from the three carried columns (at j = 7). -/
def lossOf (s : Carried F) : Vec F S1024x1 .f32 := k1_pay8 s.2.2 s.2.1 s.1

/-- The carried columns after point n, given the row block (X) and the column block (Y) the kernel
    holds at each point. -/
def carriedAt (X Y : ℕ → Vec F S1024x256 .bf16) : ℕ → Carried F
  | 0 => step 0 0 (X 0) (Y 0) carriedZero
  | n + 1 => step ((n + 1) / 8) ((n + 1) % 8) (X (n + 1)) (Y (n + 1)) (carriedAt X Y n)

theorem carriedAt_zero (X Y : ℕ → Vec F S1024x256 .bf16) :
    carriedAt X Y 0 = step 0 0 (X 0) (Y 0) carriedZero := rfl

theorem carriedAt_succ (X Y : ℕ → Vec F S1024x256 .bf16) (n : ℕ) :
    carriedAt X Y (n + 1) = step ((n + 1) / 8) ((n + 1) % 8) (X (n + 1)) (Y (n + 1)) (carriedAt X Y n) := rfl

end Cert.KernelIdeal.Hand

end
-- ==== Proof.KiR1Conds.lean ====
/-
  The second kernel's four conditionals on the grid coordinates in closed form, the coordinates of a
  grid point, and where the output window is idle.
-/
import proofs.«142995_j19722489823618_2_alg».proof.Proof.Gen.KernelIdeal.Launch
import proofs.«142995_j19722489823618_2_alg».proof.Proof.Gen.KernelIdeal.Skeleton
import proofs.«142995_j19722489823618_2_alg».proof.Proof.Gen.KernelIdeal.Points
import proofs.«142995_j19722489823618_2_alg».proof.Proof.KiR1Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The body's four conditions -/

/-- The reset's condition: the column coordinate is 0. -/
abbrev cond1_0 (i : grid1.Coords) : Prop :=
  (Scalar.cmpi .ne (Scalar.extui (Scalar.cmpi .eq (BitVec.ofNat 32 (i 1).val) 0#32)) 0#32) = 1#1
/-- The diagonal's condition: the column coordinate is the row coordinate. -/
abbrev cond1_1 (i : grid1.Coords) : Prop :=
  (Scalar.cmpi .ne (Scalar.extui (Scalar.cmpi .eq (BitVec.ofNat 32 (i 1).val) (BitVec.ofNat 32 (i 0).val))) 0#32) = 1#1
/-- The partner's condition: the column coordinate is the row coordinate's partner tile. -/
abbrev cond1_2 (i : grid1.Coords) : Prop :=
  (Scalar.cmpi .ne (Scalar.extui (Scalar.cmpi .eq (BitVec.ofNat 32 (i 1).val)
    (Scalar.select (Scalar.cmpi .slt (BitVec.ofNat 32 (i 0).val) 4#32) (Scalar.addi (BitVec.ofNat 32 (i 0).val) 4#32)
      (Scalar.subi (BitVec.ofNat 32 (i 0).val) 4#32)))) 0#32) = 1#1
/-- The epilogue's condition: the column coordinate is 7. -/
abbrev cond1_3 (i : grid1.Coords) : Prop := k1_cond4 i = 1#1

/-- The four in closed form at every grid point, with the point's coordinates. -/
theorem hcond1_0 : ∀ t : Fin cfg1.N, cond1_0 (grid1.coords t) ↔ t.val % 8 = 0 :=
  (by decide +kernel : ∀ t : Fin grid1.N, cond1_0 (grid1.coords t) ↔ t.val % 8 = 0)
theorem hcond1_1 : ∀ t : Fin cfg1.N, cond1_1 (grid1.coords t) ↔ t.val % 8 = t.val / 8 :=
  (by decide +kernel : ∀ t : Fin grid1.N, cond1_1 (grid1.coords t) ↔ t.val % 8 = t.val / 8)
theorem hcond1_2 : ∀ t : Fin cfg1.N, cond1_2 (grid1.coords t) ↔ t.val % 8 = partnerTile (t.val / 8) :=
  (by decide +kernel : ∀ t : Fin grid1.N, cond1_2 (grid1.coords t) ↔ t.val % 8 = partnerTile (t.val / 8))
theorem hcond1_3 : ∀ t : Fin cfg1.N, cond1_3 (grid1.coords t) ↔ t.val % 8 = 7 :=
  (by decide +kernel : ∀ t : Fin grid1.N, cond1_3 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Off the epilogue's points the output window is idle and not written back. -/
theorem idleAt1_2 : ∀ t : Fin cfg1.N, ¬cond1_3 (grid1.coords t) → cfg1.idle 2 (grid1.coords t) = true := by decide +kernel
theorem noFlush1_2 : ∀ t : Fin cfg1.N, ¬cond1_3 (grid1.coords t) → (cfg1.win 2).flush t = false := by decide +kernel
/-- At the epilogue's points it is live. -/
theorem liveAt1_2 : ∀ t : Fin cfg1.N, cond1_3 (grid1.coords t) → cfg1.idle 2 (grid1.coords t) = false := by decide +kernel

/-! ## The memrefs the body is called with -/

abbrev ms1_0 (t : Fin cfg1.N) : Memref sig .tc .vmem S1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x1 .f32 := win1_2.stage (cfg1.slots t 2)
abbrev hs1_2 (t : Fin cfg1.N) : (ms1_2 t).IsWhole := hstage1_2 ((cfg1.slots t 2).cast nbuf1_2)
/-- The three scratch operands: whole scoped buffers. -/
abbrev scM1_0 : Memref sig .tc .vmem S1024x1 .f32 := Memref.whole cc1_scratch0
abbrev scM1_1 : Memref sig .tc .vmem S1024x1 .f32 := Memref.whole cc1_scratch1
abbrev scM1_2 : Memref sig .tc .vmem S1024x1 .f32 := Memref.whole cc1_scratch2

theorem hz2 : (![0, 0] : Fin 2 → Nat) = fun _ => 0 := funext fun a => by fin_cases a <;> rfl

end Cert.KernelIdeal.Hand

end
-- ==== Proof.KiR1Run.lean ====
/-
  The second kernel's body on whole memrefs — the two input blocks, the output buffer and the three carried
  columns at given contents — runs to the same buffers at the contents one grid point leaves: one statement
  per assignment of its four conditions (reset, diagonal, partner, epilogue) that the grid meets.
-/
import proofs.«142995_j19722489823618_2_alg».proof.Proof.KiR1Conds
import proofs.«142995_j19722489823618_2_alg».proof.Proof.LibWholeStore

set_option maxRecDepth 16384

noncomputable section

namespace Cert.KernelIdeal.Hand

open Cert.KernelIdeal Cert.KernelIdeal.Gen Cert.Lib.WholeStore
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body where the reset is taken, the diagonal is stored, the partner entry is not stored and the loss is not stored. -/
theorem kernel_run1_TTFF (c : Dev nD) (E : Set ℕ) (i : grid1.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (h0 : cond1_0 i) (h1 : cond1_1 i) (h2 : ¬cond1_2 i) (h3 : ¬cond1_3 i)
    (x y : Vec F S1024x256 .bf16) (o s5 s6 s7 : Vec F S1024x1 .f32) (K : PUnit → sProp 𝕄) :
    iprop(owns (c : Thread nD τ) arg2 fullShare x
        ∗ owns (c : Thread nD τ) arg3 fullShare y
        ∗ owns (c : Thread nD τ) arg4 fullShare o
        ∗ owns (c : Thread nD τ) arg5 fullShare s5
        ∗ owns (c : Thread nD τ) arg6 fullShare s6
        ∗ owns (c : Thread nD τ) arg7 fullShare s7
        ∗ (iprop(owns (c : Thread nD τ) arg2 fullShare x
        ∗ owns (c : Thread nD τ) arg3 fullShare y
        ∗ owns (c : Thread nD τ) arg4 fullShare o
        ∗ owns (c : Thread nD τ) arg5 fullShare (k1_pay5 x y k1_pay1)
        ∗ owns (c : Thread nD τ) arg6 fullShare (k1_pay6 x y)
        ∗ owns (c : Thread nD τ) arg7 fullShare k1_pay3) -∗ K ⟨⟩))
      ⊢ wp frame (wpE (defs₀ (F := F)) Variants.none c none) E (cc1__ntxent_kernel i arg2 harg2 arg3 harg3 arg4 harg4 arg5 harg5 arg6 harg6 arg7 harg7) K := by
  simp only [cc1__ntxent_kernel_eq_skeleton]; unfold cc1__ntxent_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h0 | exact h1 | exact h2 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  isplitl [H6]
  · iexists _; isplitr
    swap; · iexact H6
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  · iexists _; isplitr
    swap; · iexact H7
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]

set_option maxHeartbeats 4000000 in
/-- The body where the reset is taken, the diagonal is not stored, the partner entry is not stored and the loss is not stored. -/
theorem kernel_run1_TFFF (c : Dev nD) (E : Set ℕ) (i : grid1.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (h0 : cond1_0 i) (h1 : ¬cond1_1 i) (h2 : ¬cond1_2 i) (h3 : ¬cond1_3 i)
    (x y : Vec F S1024x256 .bf16) (o s5 s6 s7 : Vec F S1024x1 .f32) (K : PUnit → sProp 𝕄) :
    iprop(owns (c : Thread nD τ) arg2 fullShare x
        ∗ owns (c : Thread nD τ) arg3 fullShare y
        ∗ owns (c : Thread nD τ) arg4 fullShare o
        ∗ owns (c : Thread nD τ) arg5 fullShare s5
        ∗ owns (c : Thread nD τ) arg6 fullShare s6
        ∗ owns (c : Thread nD τ) arg7 fullShare s7
        ∗ (iprop(owns (c : Thread nD τ) arg2 fullShare x
        ∗ owns (c : Thread nD τ) arg3 fullShare y
        ∗ owns (c : Thread nD τ) arg4 fullShare o
        ∗ owns (c : Thread nD τ) arg5 fullShare (k1_pay5 x y k1_pay1)
        ∗ owns (c : Thread nD τ) arg6 fullShare k1_pay2
        ∗ owns (c : Thread nD τ) arg7 fullShare k1_pay3) -∗ K ⟨⟩))
      ⊢ wp frame (wpE (defs₀ (F := F)) Variants.none c none) E (cc1__ntxent_kernel i arg2 harg2 arg3 harg3 arg4 harg4 arg5 harg5 arg6 harg6 arg7 harg7) K := by
  simp only [cc1__ntxent_kernel_eq_skeleton]; unfold cc1__ntxent_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h0 | exact h1 | exact h2 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  isplitl [H6]
  · iexists _; isplitr
    swap; · iexact H6
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  · iexists _; isplitr
    swap; · iexact H7
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]

set_option maxHeartbeats 4000000 in
/-- The body where the reset is taken, the diagonal is not stored, the partner entry is stored and the loss is not stored. -/
theorem kernel_run1_TFTF (c : Dev nD) (E : Set ℕ) (i : grid1.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (h0 : cond1_0 i) (h1 : ¬cond1_1 i) (h2 : cond1_2 i) (h3 : ¬cond1_3 i)
    (x y : Vec F S1024x256 .bf16) (o s5 s6 s7 : Vec F S1024x1 .f32) (K : PUnit → sProp 𝕄) :
    iprop(owns (c : Thread nD τ) arg2 fullShare x
        ∗ owns (c : Thread nD τ) arg3 fullShare y
        ∗ owns (c : Thread nD τ) arg4 fullShare o
        ∗ owns (c : Thread nD τ) arg5 fullShare s5
        ∗ owns (c : Thread nD τ) arg6 fullShare s6
        ∗ owns (c : Thread nD τ) arg7 fullShare s7
        ∗ (iprop(owns (c : Thread nD τ) arg2 fullShare x
        ∗ owns (c : Thread nD τ) arg3 fullShare y
        ∗ owns (c : Thread nD τ) arg4 fullShare o
        ∗ owns (c : Thread nD τ) arg5 fullShare (k1_pay5 x y k1_pay1)
        ∗ owns (c : Thread nD τ) arg6 fullShare k1_pay2
        ∗ owns (c : Thread nD τ) arg7 fullShare (k1_pay7 x y)) -∗ K ⟨⟩))
      ⊢ wp frame (wpE (defs₀ (F := F)) Variants.none c none) E (cc1__ntxent_kernel i arg2 harg2 arg3 harg3 arg4 harg4 arg5 harg5 arg6 harg6 arg7 harg7) K := by
  simp only [cc1__ntxent_kernel_eq_skeleton]; unfold cc1__ntxent_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h0 | exact h1 | exact h2 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  isplitl [H6]
  · iexists _; isplitr
    swap; · iexact H6
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  · iexists _; isplitr
    swap; · iexact H7
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]

set_option maxHeartbeats 4000000 in
/-- The body where the reset is not taken, the diagonal is not stored, the partner entry is not stored and the loss is not stored. -/
theorem kernel_run1_FFFF (c : Dev nD) (E : Set ℕ) (i : grid1.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (h0 : ¬cond1_0 i) (h1 : ¬cond1_1 i) (h2 : ¬cond1_2 i) (h3 : ¬cond1_3 i)
    (x y : Vec F S1024x256 .bf16) (o s5 s6 s7 : Vec F S1024x1 .f32) (K : PUnit → sProp 𝕄) :
    iprop(owns (c : Thread nD τ) arg2 fullShare x
        ∗ owns (c : Thread nD τ) arg3 fullShare y
        ∗ owns (c : Thread nD τ) arg4 fullShare o
        ∗ owns (c : Thread nD τ) arg5 fullShare s5
        ∗ owns (c : Thread nD τ) arg6 fullShare s6
        ∗ owns (c : Thread nD τ) arg7 fullShare s7
        ∗ (iprop(owns (c : Thread nD τ) arg2 fullShare x
        ∗ owns (c : Thread nD τ) arg3 fullShare y
        ∗ owns (c : Thread nD τ) arg4 fullShare o
        ∗ owns (c : Thread nD τ) arg5 fullShare (k1_pay5 x y s5)
        ∗ owns (c : Thread nD τ) arg6 fullShare s6
        ∗ owns (c : Thread nD τ) arg7 fullShare s7) -∗ K ⟨⟩))
      ⊢ wp frame (wpE (defs₀ (F := F)) Variants.none c none) E (cc1__ntxent_kernel i arg2 harg2 arg3 harg3 arg4 harg4 arg5 harg5 arg6 harg6 arg7 harg7) K := by
  simp only [cc1__ntxent_kernel_eq_skeleton]; unfold cc1__ntxent_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h0 | exact h1 | exact h2 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  isplitl [H6]
  · iexists _; isplitr; · ipureintro; exact harg6.read_unread _
    iexact H6
  · iexists _; isplitr; · ipureintro; exact harg7.read_unread _
    iexact H7

set_option maxHeartbeats 4000000 in
/-- The body where the reset is not taken, the diagonal is stored, the partner entry is not stored and the loss is not stored. -/
theorem kernel_run1_FTFF (c : Dev nD) (E : Set ℕ) (i : grid1.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (h0 : ¬cond1_0 i) (h1 : cond1_1 i) (h2 : ¬cond1_2 i) (h3 : ¬cond1_3 i)
    (x y : Vec F S1024x256 .bf16) (o s5 s6 s7 : Vec F S1024x1 .f32) (K : PUnit → sProp 𝕄) :
    iprop(owns (c : Thread nD τ) arg2 fullShare x
        ∗ owns (c : Thread nD τ) arg3 fullShare y
        ∗ owns (c : Thread nD τ) arg4 fullShare o
        ∗ owns (c : Thread nD τ) arg5 fullShare s5
        ∗ owns (c : Thread nD τ) arg6 fullShare s6
        ∗ owns (c : Thread nD τ) arg7 fullShare s7
        ∗ (iprop(owns (c : Thread nD τ) arg2 fullShare x
        ∗ owns (c : Thread nD τ) arg3 fullShare y
        ∗ owns (c : Thread nD τ) arg4 fullShare o
        ∗ owns (c : Thread nD τ) arg5 fullShare (k1_pay5 x y s5)
        ∗ owns (c : Thread nD τ) arg6 fullShare (k1_pay6 x y)
        ∗ owns (c : Thread nD τ) arg7 fullShare s7) -∗ K ⟨⟩))
      ⊢ wp frame (wpE (defs₀ (F := F)) Variants.none c none) E (cc1__ntxent_kernel i arg2 harg2 arg3 harg3 arg4 harg4 arg5 harg5 arg6 harg6 arg7 harg7) K := by
  simp only [cc1__ntxent_kernel_eq_skeleton]; unfold cc1__ntxent_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h0 | exact h1 | exact h2 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  isplitl [H6]
  · iexists _; isplitr
    swap; · iexact H6
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  · iexists _; isplitr; · ipureintro; exact harg7.read_unread _
    iexact H7

set_option maxHeartbeats 4000000 in
/-- The body where the reset is not taken, the diagonal is not stored, the partner entry is stored and the loss is not stored. -/
theorem kernel_run1_FFTF (c : Dev nD) (E : Set ℕ) (i : grid1.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (h0 : ¬cond1_0 i) (h1 : ¬cond1_1 i) (h2 : cond1_2 i) (h3 : ¬cond1_3 i)
    (x y : Vec F S1024x256 .bf16) (o s5 s6 s7 : Vec F S1024x1 .f32) (K : PUnit → sProp 𝕄) :
    iprop(owns (c : Thread nD τ) arg2 fullShare x
        ∗ owns (c : Thread nD τ) arg3 fullShare y
        ∗ owns (c : Thread nD τ) arg4 fullShare o
        ∗ owns (c : Thread nD τ) arg5 fullShare s5
        ∗ owns (c : Thread nD τ) arg6 fullShare s6
        ∗ owns (c : Thread nD τ) arg7 fullShare s7
        ∗ (iprop(owns (c : Thread nD τ) arg2 fullShare x
        ∗ owns (c : Thread nD τ) arg3 fullShare y
        ∗ owns (c : Thread nD τ) arg4 fullShare o
        ∗ owns (c : Thread nD τ) arg5 fullShare (k1_pay5 x y s5)
        ∗ owns (c : Thread nD τ) arg6 fullShare s6
        ∗ owns (c : Thread nD τ) arg7 fullShare (k1_pay7 x y)) -∗ K ⟨⟩))
      ⊢ wp frame (wpE (defs₀ (F := F)) Variants.none c none) E (cc1__ntxent_kernel i arg2 harg2 arg3 harg3 arg4 harg4 arg5 harg5 arg6 harg6 arg7 harg7) K := by
  simp only [cc1__ntxent_kernel_eq_skeleton]; unfold cc1__ntxent_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h0 | exact h1 | exact h2 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr
    swap; · iexact H5
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  isplitl [H6]
  · iexists _; isplitr; · ipureintro; exact harg6.read_unread _
    iexact H6
  · iexists _; isplitr
    swap; · iexact H7
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]

set_option maxHeartbeats 4000000 in
/-- The body where the reset is not taken, the diagonal is not stored, the partner entry is not stored and the loss is stored. -/
theorem kernel_run1_FFFT (c : Dev nD) (E : Set ℕ) (i : grid1.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (h0 : ¬cond1_0 i) (h1 : ¬cond1_1 i) (h2 : ¬cond1_2 i) (h3 : cond1_3 i)
    (x y : Vec F S1024x256 .bf16) (o s5 s6 s7 : Vec F S1024x1 .f32) (K : PUnit → sProp 𝕄) :
    iprop(owns (c : Thread nD τ) arg2 fullShare x
        ∗ owns (c : Thread nD τ) arg3 fullShare y
        ∗ owns (c : Thread nD τ) arg4 fullShare o
        ∗ owns (c : Thread nD τ) arg5 fullShare s5
        ∗ owns (c : Thread nD τ) arg6 fullShare s6
        ∗ owns (c : Thread nD τ) arg7 fullShare s7
        ∗ (iprop(owns (c : Thread nD τ) arg2 fullShare x
        ∗ owns (c : Thread nD τ) arg3 fullShare y
        ∗ owns (c : Thread nD τ) arg4 fullShare (k1_pay8 s7 s6 (k1_pay5 x y s5))
        ∗ owns (c : Thread nD τ) arg5 fullShare (k1_pay5 x y s5)
        ∗ owns (c : Thread nD τ) arg6 fullShare s6
        ∗ owns (c : Thread nD τ) arg7 fullShare s7) -∗ K ⟨⟩))
      ⊢ wp frame (wpE (defs₀ (F := F)) Variants.none c none) E (cc1__ntxent_kernel i arg2 harg2 arg3 harg3 arg4 harg4 arg5 harg5 arg6 harg6 arg7 harg7) K := by
  simp only [cc1__ntxent_kernel_eq_skeleton]; unfold cc1__ntxent_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h0 | exact h1 | exact h2 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  isplitl [H5]
  · iexists _; isplitr
    swap; · iexact H5
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  isplitl [H6]
  · iexists _; isplitr; · ipureintro; exact harg6.read_unread _
    iexact H6
  · iexists _; isplitr; · ipureintro; exact harg7.read_unread _
    iexact H7

set_option maxHeartbeats 4000000 in
/-- The body where the reset is not taken, the diagonal is stored, the partner entry is not stored and the loss is stored. -/
theorem kernel_run1_FTFT (c : Dev nD) (E : Set ℕ) (i : grid1.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (h0 : ¬cond1_0 i) (h1 : cond1_1 i) (h2 : ¬cond1_2 i) (h3 : cond1_3 i)
    (x y : Vec F S1024x256 .bf16) (o s5 s6 s7 : Vec F S1024x1 .f32) (K : PUnit → sProp 𝕄) :
    iprop(owns (c : Thread nD τ) arg2 fullShare x
        ∗ owns (c : Thread nD τ) arg3 fullShare y
        ∗ owns (c : Thread nD τ) arg4 fullShare o
        ∗ owns (c : Thread nD τ) arg5 fullShare s5
        ∗ owns (c : Thread nD τ) arg6 fullShare s6
        ∗ owns (c : Thread nD τ) arg7 fullShare s7
        ∗ (iprop(owns (c : Thread nD τ) arg2 fullShare x
        ∗ owns (c : Thread nD τ) arg3 fullShare y
        ∗ owns (c : Thread nD τ) arg4 fullShare (k1_pay8 s7 (k1_pay6 x y) (k1_pay5 x y s5))
        ∗ owns (c : Thread nD τ) arg5 fullShare (k1_pay5 x y s5)
        ∗ owns (c : Thread nD τ) arg6 fullShare (k1_pay6 x y)
        ∗ owns (c : Thread nD τ) arg7 fullShare s7) -∗ K ⟨⟩))
      ⊢ wp frame (wpE (defs₀ (F := F)) Variants.none c none) E (cc1__ntxent_kernel i arg2 harg2 arg3 harg3 arg4 harg4 arg5 harg5 arg6 harg6 arg7 harg7) K := by
  simp only [cc1__ntxent_kernel_eq_skeleton]; unfold cc1__ntxent_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h0 | exact h1 | exact h2 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  isplitl [H5]
  · iexists _; isplitr
    swap; · iexact H5
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  isplitl [H6]
  · iexists _; isplitr
    swap; · iexact H6
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  · iexists _; isplitr; · ipureintro; exact harg7.read_unread _
    iexact H7

set_option maxHeartbeats 4000000 in
/-- The body where the reset is not taken, the diagonal is not stored, the partner entry is stored and the loss is stored. -/
theorem kernel_run1_FFTT (c : Dev nD) (E : Set ℕ) (i : grid1.Coords)
    (arg2 : Memref sig .tc .vmem S1024x256 .bf16) (harg2 : arg2.IsWhole) (arg3 : Memref sig .tc .vmem S1024x256 .bf16) (harg3 : arg3.IsWhole)
    (arg4 : Memref sig .tc .vmem S1024x1 .f32) (harg4 : arg4.IsWhole) (arg5 : Memref sig .tc .vmem S1024x1 .f32) (harg5 : arg5.IsWhole)
    (arg6 : Memref sig .tc .vmem S1024x1 .f32) (harg6 : arg6.IsWhole) (arg7 : Memref sig .tc .vmem S1024x1 .f32) (harg7 : arg7.IsWhole)
    (h0 : ¬cond1_0 i) (h1 : ¬cond1_1 i) (h2 : cond1_2 i) (h3 : cond1_3 i)
    (x y : Vec F S1024x256 .bf16) (o s5 s6 s7 : Vec F S1024x1 .f32) (K : PUnit → sProp 𝕄) :
    iprop(owns (c : Thread nD τ) arg2 fullShare x
        ∗ owns (c : Thread nD τ) arg3 fullShare y
        ∗ owns (c : Thread nD τ) arg4 fullShare o
        ∗ owns (c : Thread nD τ) arg5 fullShare s5
        ∗ owns (c : Thread nD τ) arg6 fullShare s6
        ∗ owns (c : Thread nD τ) arg7 fullShare s7
        ∗ (iprop(owns (c : Thread nD τ) arg2 fullShare x
        ∗ owns (c : Thread nD τ) arg3 fullShare y
        ∗ owns (c : Thread nD τ) arg4 fullShare (k1_pay8 (k1_pay7 x y) s6 (k1_pay5 x y s5))
        ∗ owns (c : Thread nD τ) arg5 fullShare (k1_pay5 x y s5)
        ∗ owns (c : Thread nD τ) arg6 fullShare s6
        ∗ owns (c : Thread nD τ) arg7 fullShare (k1_pay7 x y)) -∗ K ⟨⟩))
      ⊢ wp frame (wpE (defs₀ (F := F)) Variants.none c none) E (cc1__ntxent_kernel i arg2 harg2 arg3 harg3 arg4 harg4 arg5 harg5 arg6 harg6 arg7 harg7) K := by
  simp only [cc1__ntxent_kernel_eq_skeleton]; unfold cc1__ntxent_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  sl_exec (disch := first | exact h0 | exact h1 | exact h2 | exact h3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    swap; · iexact H4
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  isplitl [H5]
  · iexists _; isplitr
    swap; · iexact H5
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]
  isplitl [H6]
  · iexists _; isplitr; · ipureintro; exact harg6.read_unread _
    iexact H6
  · iexists _; isplitr
    swap; · iexact H7
    ipureintro
    (try sl_unfold_words)
    rw [read_writes_unit_cons (S := S1024x1) _ _ hz2]
    all_goals (try sl_unfold_words)
    all_goals simp only [View.readAt_eq_ld, harg2.read_unread, harg3.read_unread, harg5.read_unread, harg6.read_unread, harg7.read_unread,
      View.ld_unit_zero (S := S1024x256) hz2, View.ld_unit_zero (S := S1024x1) hz2, readCov_unit_cons (S := S1024x1) _ hz2]

end Cert.KernelIdeal.Hand

end
-- ==== Proof.KiR1Data.lean ====
/-
  REGION 1, the data: the similarity and loss kernel on its 8 × 8 grid, at the buffer contents `V` the
  region is entered with.  The three columns the kernel carries between grid points are `carriedAt` of the
  row blocks and column blocks it holds point by point; the output window's block, stored at the last
  column tile of each row tile, is `lossOf` of them.
-/
import proofs.«142995_j19722489823618_2_alg».proof.Proof.KiR1Conds

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first kernel's six staging buffers, each at some contents, before a rest `R`: the scoped buffers
    this kernel never touches. -/
def stg6 (c : Dev nD) (R : sProp 𝕄) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg1_1), ((c : Thread nD τ).loc cc0_stg1_1) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ R)

/-- What the launch hands the region, with the three scratch columns as memrefs owned at some contents. -/
theorem PhiA1_eq (c : Dev nD) :
    (Pipeline.ΦA spec1 c : sProp 𝕄)
      = iprop(stg6 c iprop((∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA stg6; rw [scopedRest1_eq]; simp only [scM1_0, scM1_1, scM1_2, owns_whole]; try rfl

section Region1
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row block (scaled unit rows) the kernel holds at point `n`. -/
def rowBlk (c : Dev nD) (n : ℕ) : Vec F S1024x256 .bf16 :=
  if h : n < cfg1.N then iblk1 V c 0 ⟨n, h⟩ else iblk1 V c 0 ⟨0, by decide⟩
/-- The column block (unit rows) the kernel holds at point `n`. -/
def colBlk (c : Dev nD) (n : ℕ) : Vec F S1024x256 .bf16 :=
  if h : n < cfg1.N then iblk1 V c 1 ⟨n, h⟩ else iblk1 V c 1 ⟨0, by decide⟩

theorem rowBlk_eq (c : Dev nD) (t : Fin cfg1.N) : rowBlk V c t.val = iblk1 V c 0 t := by
  unfold rowBlk; rw [dif_pos t.isLt]
theorem colBlk_eq (c : Dev nD) (t : Fin cfg1.N) : colBlk V c t.val = iblk1 V c 1 t := by
  unfold colBlk; rw [dif_pos t.isLt]

/-! ## The region's invariant -/

/-- Before the first point what the launch hands the region; before point `n + 1` the same with the three
    scratch columns at what point `n` left in them. -/
def PhiS1 (c : Dev nD) : ℕ → sProp 𝕄
  | 0 => Pipeline.ΦA spec1 c
  | n + 1 => iprop(stg6 c iprop(owns (c : Thread nD τ) scM1_0 fullShare (carriedAt (rowBlk V c) (colBlk V c) n).1 ∗ owns (c : Thread nD τ) scM1_1 fullShare (carriedAt (rowBlk V c) (colBlk V c) n).2.1 ∗ owns (c : Thread nD τ) scM1_2 fullShare (carriedAt (rowBlk V c) (colBlk V c) n).2.2) ∗ (∃ r, prngReg c r))

theorem PhiS1_zero (c : Dev nD) (n : ℕ) (hz : n = 0) : PhiS1 V c n = Pipeline.ΦA spec1 c := by
  subst hz; rfl

theorem PhiS1_succ (c : Dev nD) (n : ℕ) :
    PhiS1 V c (n + 1) = iprop(stg6 c iprop(owns (c : Thread nD τ) scM1_0 fullShare (carriedAt (rowBlk V c) (colBlk V c) n).1 ∗ owns (c : Thread nD τ) scM1_1 fullShare (carriedAt (rowBlk V c) (colBlk V c) n).2.1 ∗ owns (c : Thread nD τ) scM1_2 fullShare (carriedAt (rowBlk V c) (colBlk V c) n).2.2) ∗ (∃ r, prngReg c r)) := rfl

theorem PhiS1_pos (c : Dev nD) (n : ℕ) (hz : n ≠ 0) :
    PhiS1 V c n = iprop(stg6 c iprop(owns (c : Thread nD τ) scM1_0 fullShare (carriedAt (rowBlk V c) (colBlk V c) (n - 1)).1 ∗ owns (c : Thread nD τ) scM1_1 fullShare (carriedAt (rowBlk V c) (colBlk V c) (n - 1)).2.1 ∗ owns (c : Thread nD τ) scM1_2 fullShare (carriedAt (rowBlk V c) (colBlk V c) (n - 1)).2.2) ∗ (∃ r, prngReg c r)) := by
  cases n with
  | zero => exact absurd rfl hz
  | succ n => rfl

/-! ## The proof data -/

/-- The proof data of the pipeline on core `c`: the arrays as the region finds them; after the body each
    input's buffer at its block and the output's at the loss of the carried columns; the invariant above;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => lossOf (carriedAt (rowBlk V c) (colBlk V c) t.val)
  Φ t := PhiS1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = lossOf (carriedAt (rowBlk V c) (colBlk V c) t.val) := by
  dsimp only [dat1]

theorem Phi1_castSucc (c : Dev nD) (t : Fin cfg1.N) : (dat1 V c).Φ t.castSucc = PhiS1 V c t.val := by
  dsimp only [dat1]; simp only [Fin.coe_castSucc]
theorem Phi1_succ (c : Dev nD) (t : Fin cfg1.N) : (dat1 V c).Φ t.succ = PhiS1 V c (t.val + 1) := rfl

/-! ## The inputs' buffers hold their blocks -/

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-! ## The invariant's two ends -/

theorem hin1 (c : Dev nD) : Pipeline.ΦA spec1 c ⊢ (dat1 V c).Φ 0 := by
  rw [show (dat1 V c).Φ 0 = PhiS1 V c 0 from rfl, PhiS1_zero V c 0 rfl]
  try exact Idealize.SL.BI.Entails.refl _

/-- After any point the invariant gives back what the launch handed in: the columns' contents are forgotten. -/
theorem Phi1_out (c : Dev nD) (t : Fin (cfg1.N + 1)) (ht : t.val ≠ 0) : (dat1 V c).Φ t ⊢ Pipeline.ΦA spec1 c := by
  rw [show (dat1 V c).Φ t = PhiS1 V c t.val from rfl, PhiS1_pos V c _ ht, PhiA1_eq]
  unfold stg6
  iintro ⟨⟨A1, A2, A3, A4, A5, A6, HS0, HS1, HS2⟩, Hg⟩
  isplitr [Hg]
  · isplitl [A1]; · iexact A1
    isplitl [A2]; · iexact A2
    isplitl [A3]; · iexact A3
    isplitl [A4]; · iexact A4
    isplitl [A5]; · iexact A5
    isplitl [A6]; · iexact A6
    isplitl [HS0]; · iexists _; iexact HS0
    isplitl [HS1]; · iexists _; iexact HS1
    iexists _; iexact HS2
  iexact Hg

theorem hout1 (c : Dev nD) : (dat1 V c).Φ (Fin.last cfg1.N) ⊢ Pipeline.ΦA spec1 c :=
  Phi1_out V c _ (by rw [Fin.val_last]; have : cfg1.N = 64 := N_1; omega)

end Region1

end Cert.KernelIdeal.Hand

end
-- ==== Proof.KiR1Car.lean ====
/-
  The carried columns after a grid point, from the blocks held there and the columns the point before
  left: the recursion `carriedAt` unfolded once, its conditions on the point's number.
-/
import proofs.«142995_j19722489823618_2_alg».proof.Proof.KiR1Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1
variable (V : (c : Dev nD) → (b : Ref sig .tc) → Buf (Elt F) ((c : Thread nD τ).loc b))

theorem car_eq (c : Dev nD) (t : Fin cfg1.N) :
    carriedAt (rowBlk V c) (colBlk V c) t.val =
      (k1_pay5 (iblk1 V c 0 t) (iblk1 V c 1 t) (if t.val % 8 = 0 then k1_pay1 else (carriedAt (rowBlk V c) (colBlk V c) (t.val - 1)).1),
       if t.val % 8 = t.val / 8 then k1_pay6 (iblk1 V c 0 t) (iblk1 V c 1 t)
         else (if t.val % 8 = 0 then k1_pay2 else (carriedAt (rowBlk V c) (colBlk V c) (t.val - 1)).2.1),
       if t.val % 8 = partnerTile (t.val / 8) then k1_pay7 (iblk1 V c 0 t) (iblk1 V c 1 t)
         else (if t.val % 8 = 0 then k1_pay3 else (carriedAt (rowBlk V c) (colBlk V c) (t.val - 1)).2.2)) := by
  obtain ⟨n, hn⟩ := t
  have hx : rowBlk V c n = iblk1 V c 0 ⟨n, hn⟩ := rowBlk_eq V c ⟨n, hn⟩
  have hy : colBlk V c n = iblk1 V c 1 ⟨n, hn⟩ := colBlk_eq V c ⟨n, hn⟩
  cases n with
  | zero =>
    show step 0 0 (rowBlk V c 0) (colBlk V c 0) carriedZero = _
    rw [hx, hy]
    unfold step carriedZero
    simp only [Nat.zero_mod, Nat.zero_div, if_true, ite_true, partnerTile]
  | succ n =>
    show step ((n + 1) / 8) ((n + 1) % 8) (rowBlk V c (n + 1)) (colBlk V c (n + 1)) (carriedAt (rowBlk V c) (colBlk V c) n) = _
    rw [hx, hy]
    unfold step carriedZero
    show _ = (k1_pay5 _ _ (if (n + 1) % 8 = 0 then k1_pay1 else (carriedAt (rowBlk V c) (colBlk V c) n).1),
       if (n + 1) % 8 = (n + 1) / 8 then k1_pay6 _ _ else (if (n + 1) % 8 = 0 then k1_pay2 else (carriedAt (rowBlk V c) (colBlk V c) n).2.1),
       if (n + 1) % 8 = partnerTile ((n + 1) / 8) then k1_pay7 _ _ else (if (n + 1) % 8 = 0 then k1_pay3 else (carriedAt (rowBlk V c) (colBlk V c) n).2.2))
    by_cases h0 : (n + 1) % 8 = 0
    · simp only [if_pos h0]
    · simp only [if_neg h0]

end Region1

end Cert.KernelIdeal.Hand

end
-- ==== Proof.KiR1.lean ====
/-
  REGION 1, the body obligation: at every grid point the kernel's body, called on the windows' current
  staging buffers and the three scratch columns, leaves the inputs in place, the carried columns at
  `carriedAt` of the point, and — at the last column tile of a row tile — the loss column in the output
  window's buffer; elsewhere that buffer is handed back as found.
-/
import proofs.«142995_j19722489823618_2_alg».proof.Proof.KiR1Run
import proofs.«142995_j19722489823618_2_alg».proof.Proof.KiR1Car

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1
variable (V : (c : Dev nD) → (b : Ref sig .tc) → Buf (Elt F) ((c : Thread nD τ).loc b))

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- The inputs' windows are never idle: their buffers are left at their blocks. -/
theorem leaves1_0 (c : Dev nD) (t : Fin cfg1.N) :
    (dat1 V c).leavesExact 0 t = owns (c : Thread nD τ) (ms1_0 t) fullShare (iblk1 V c 0 t) := by
  rw [show (dat1 V c).leavesExact 0 t = owns (c : Thread nD τ) (ms1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (ms1_1 t) fullShare (iblk1 V c 1 t) := by
  rw [show (dat1 V c).leavesExact 1 t = owns (c : Thread nD τ) (ms1_1 t) fullShare ((dat1 V c).after 1 t) from by
    unfold Dat.leavesExact; rw [liveAt1_1 t], after1_1]

/-- The body at a point where the reset is taken, the diagonal is stored, the partner entry is not stored and the loss is not stored. -/
theorem sound_body1_TTFF (c : Dev nD) (t : Fin cfg1.N) (a0 : t.val % 8 = 0) (a1 : t.val % 8 = t.val / 8) (a2 : ¬t.val % 8 = partnerTile (t.val / 8)) (a3 : ¬t.val % 8 = 7) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  have k0 : cond1_0 (grid1.coords t) := (hcond1_0 t).mpr a0
  have k1 : cond1_1 (grid1.coords t) := (hcond1_1 t).mpr a1
  have k2 : ¬cond1_2 (grid1.coords t) := fun h => a2 ((hcond1_2 t).mp h)
  have k3 : ¬cond1_3 (grid1.coords t) := fun h => a3 ((hcond1_3 t).mp h)
  unfold bodyPre1 bodyPost1 bodyAt1
  simp only [before1_0, before1_1]
  rw [show (dat1 V c).owesAt () t.succ = (dat1 V c).owesAt () t.castSucc from rfl]
  rw [Phi1_succ, PhiS1_succ]
  have hz : t.val = 0 := by omega
  rw [Phi1_castSucc, PhiS1_zero V c _ hz, PhiA1_eq]
  rw [leaves1_0, leaves1_1]
  rw [Dat.leavesExact_idle (dat1 V c) 2 t (idleAt1_2 t k3) (noFlush1_2 t k3)]
  rw [car_eq V c t]
  simp only [if_pos a0, if_pos a1, if_neg a2]
  try dsimp only [lossOf]
  unfold stg6
  iintro ⟨⟨⟨A1, A2, A3, A4, A5, A6, ⟨%e0, HS0⟩, ⟨%e1, HS1⟩, ⟨%e2, HS2⟩⟩, Hg⟩, Ho, ⟨%d0, H0⟩, ⟨%d1, H1⟩, ⟨%d2, H2⟩⟩
  iapply (kernel_run1_TTFF c Set.univ (grid1.coords t) _ _ _ _ _ _ _ _ _ _ _ _ k0 k1 k2 k3 (iblk1 V c 0 t) (iblk1 V c 1 t) _ _ _ _ _)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, HS0, HS1, HS2⟩
  isplitl [A1 A2 A3 A4 A5 A6 HS0 HS1 HS2 Hg]
  · isplitr [Hg]
    · isplitl [A1]; · iexact A1
      isplitl [A2]; · iexact A2
      isplitl [A3]; · iexact A3
      isplitl [A4]; · iexact A4
      isplitl [A5]; · iexact A5
      isplitl [A6]; · iexact A6
      isplitl [HS0]; · iexact HS0
      isplitl [HS1]; · iexact HS1
      iexact HS2
    iexact Hg
  isplitl [Ho]; · iexact Ho
  isplitl [H0]; · iexact H0
  isplitl [H1]; · iexact H1
  iexists _; iexact H2

/-- The body at a point where the reset is taken, the diagonal is not stored, the partner entry is not stored and the loss is not stored. -/
theorem sound_body1_TFFF (c : Dev nD) (t : Fin cfg1.N) (a0 : t.val % 8 = 0) (a1 : ¬t.val % 8 = t.val / 8) (a2 : ¬t.val % 8 = partnerTile (t.val / 8)) (a3 : ¬t.val % 8 = 7) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  have k0 : cond1_0 (grid1.coords t) := (hcond1_0 t).mpr a0
  have k1 : ¬cond1_1 (grid1.coords t) := fun h => a1 ((hcond1_1 t).mp h)
  have k2 : ¬cond1_2 (grid1.coords t) := fun h => a2 ((hcond1_2 t).mp h)
  have k3 : ¬cond1_3 (grid1.coords t) := fun h => a3 ((hcond1_3 t).mp h)
  unfold bodyPre1 bodyPost1 bodyAt1
  simp only [before1_0, before1_1]
  rw [show (dat1 V c).owesAt () t.succ = (dat1 V c).owesAt () t.castSucc from rfl]
  rw [Phi1_succ, PhiS1_succ]
  have hz : t.val ≠ 0 := by omega
  rw [Phi1_castSucc, PhiS1_pos V c _ hz]
  rw [leaves1_0, leaves1_1]
  rw [Dat.leavesExact_idle (dat1 V c) 2 t (idleAt1_2 t k3) (noFlush1_2 t k3)]
  rw [car_eq V c t]
  simp only [if_pos a0, if_neg a1, if_neg a2]
  try dsimp only [lossOf]
  unfold stg6
  iintro ⟨⟨⟨A1, A2, A3, A4, A5, A6, HS0, HS1, HS2⟩, Hg⟩, Ho, ⟨%d0, H0⟩, ⟨%d1, H1⟩, ⟨%d2, H2⟩⟩
  iapply (kernel_run1_TFFF c Set.univ (grid1.coords t) _ _ _ _ _ _ _ _ _ _ _ _ k0 k1 k2 k3 (iblk1 V c 0 t) (iblk1 V c 1 t) _ _ _ _ _)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, HS0, HS1, HS2⟩
  isplitl [A1 A2 A3 A4 A5 A6 HS0 HS1 HS2 Hg]
  · isplitr [Hg]
    · isplitl [A1]; · iexact A1
      isplitl [A2]; · iexact A2
      isplitl [A3]; · iexact A3
      isplitl [A4]; · iexact A4
      isplitl [A5]; · iexact A5
      isplitl [A6]; · iexact A6
      isplitl [HS0]; · iexact HS0
      isplitl [HS1]; · iexact HS1
      iexact HS2
    iexact Hg
  isplitl [Ho]; · iexact Ho
  isplitl [H0]; · iexact H0
  isplitl [H1]; · iexact H1
  iexists _; iexact H2

/-- The body at a point where the reset is taken, the diagonal is not stored, the partner entry is stored and the loss is not stored. -/
theorem sound_body1_TFTF (c : Dev nD) (t : Fin cfg1.N) (a0 : t.val % 8 = 0) (a1 : ¬t.val % 8 = t.val / 8) (a2 : t.val % 8 = partnerTile (t.val / 8)) (a3 : ¬t.val % 8 = 7) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  have k0 : cond1_0 (grid1.coords t) := (hcond1_0 t).mpr a0
  have k1 : ¬cond1_1 (grid1.coords t) := fun h => a1 ((hcond1_1 t).mp h)
  have k2 : cond1_2 (grid1.coords t) := (hcond1_2 t).mpr a2
  have k3 : ¬cond1_3 (grid1.coords t) := fun h => a3 ((hcond1_3 t).mp h)
  unfold bodyPre1 bodyPost1 bodyAt1
  simp only [before1_0, before1_1]
  rw [show (dat1 V c).owesAt () t.succ = (dat1 V c).owesAt () t.castSucc from rfl]
  rw [Phi1_succ, PhiS1_succ]
  have hz : t.val ≠ 0 := by omega
  rw [Phi1_castSucc, PhiS1_pos V c _ hz]
  rw [leaves1_0, leaves1_1]
  rw [Dat.leavesExact_idle (dat1 V c) 2 t (idleAt1_2 t k3) (noFlush1_2 t k3)]
  rw [car_eq V c t]
  simp only [if_pos a0, if_neg a1, if_pos a2]
  try dsimp only [lossOf]
  unfold stg6
  iintro ⟨⟨⟨A1, A2, A3, A4, A5, A6, HS0, HS1, HS2⟩, Hg⟩, Ho, ⟨%d0, H0⟩, ⟨%d1, H1⟩, ⟨%d2, H2⟩⟩
  iapply (kernel_run1_TFTF c Set.univ (grid1.coords t) _ _ _ _ _ _ _ _ _ _ _ _ k0 k1 k2 k3 (iblk1 V c 0 t) (iblk1 V c 1 t) _ _ _ _ _)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, HS0, HS1, HS2⟩
  isplitl [A1 A2 A3 A4 A5 A6 HS0 HS1 HS2 Hg]
  · isplitr [Hg]
    · isplitl [A1]; · iexact A1
      isplitl [A2]; · iexact A2
      isplitl [A3]; · iexact A3
      isplitl [A4]; · iexact A4
      isplitl [A5]; · iexact A5
      isplitl [A6]; · iexact A6
      isplitl [HS0]; · iexact HS0
      isplitl [HS1]; · iexact HS1
      iexact HS2
    iexact Hg
  isplitl [Ho]; · iexact Ho
  isplitl [H0]; · iexact H0
  isplitl [H1]; · iexact H1
  iexists _; iexact H2

/-- The body at a point where the reset is not taken, the diagonal is not stored, the partner entry is not stored and the loss is not stored. -/
theorem sound_body1_FFFF (c : Dev nD) (t : Fin cfg1.N) (a0 : ¬t.val % 8 = 0) (a1 : ¬t.val % 8 = t.val / 8) (a2 : ¬t.val % 8 = partnerTile (t.val / 8)) (a3 : ¬t.val % 8 = 7) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  have k0 : ¬cond1_0 (grid1.coords t) := fun h => a0 ((hcond1_0 t).mp h)
  have k1 : ¬cond1_1 (grid1.coords t) := fun h => a1 ((hcond1_1 t).mp h)
  have k2 : ¬cond1_2 (grid1.coords t) := fun h => a2 ((hcond1_2 t).mp h)
  have k3 : ¬cond1_3 (grid1.coords t) := fun h => a3 ((hcond1_3 t).mp h)
  unfold bodyPre1 bodyPost1 bodyAt1
  simp only [before1_0, before1_1]
  rw [show (dat1 V c).owesAt () t.succ = (dat1 V c).owesAt () t.castSucc from rfl]
  rw [Phi1_succ, PhiS1_succ]
  have hz : t.val ≠ 0 := by omega
  rw [Phi1_castSucc, PhiS1_pos V c _ hz]
  rw [leaves1_0, leaves1_1]
  rw [Dat.leavesExact_idle (dat1 V c) 2 t (idleAt1_2 t k3) (noFlush1_2 t k3)]
  rw [car_eq V c t]
  simp only [if_neg a0, if_neg a1, if_neg a2]
  try dsimp only [lossOf]
  unfold stg6
  iintro ⟨⟨⟨A1, A2, A3, A4, A5, A6, HS0, HS1, HS2⟩, Hg⟩, Ho, ⟨%d0, H0⟩, ⟨%d1, H1⟩, ⟨%d2, H2⟩⟩
  iapply (kernel_run1_FFFF c Set.univ (grid1.coords t) _ _ _ _ _ _ _ _ _ _ _ _ k0 k1 k2 k3 (iblk1 V c 0 t) (iblk1 V c 1 t) _ _ _ _ _)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, HS0, HS1, HS2⟩
  isplitl [A1 A2 A3 A4 A5 A6 HS0 HS1 HS2 Hg]
  · isplitr [Hg]
    · isplitl [A1]; · iexact A1
      isplitl [A2]; · iexact A2
      isplitl [A3]; · iexact A3
      isplitl [A4]; · iexact A4
      isplitl [A5]; · iexact A5
      isplitl [A6]; · iexact A6
      isplitl [HS0]; · iexact HS0
      isplitl [HS1]; · iexact HS1
      iexact HS2
    iexact Hg
  isplitl [Ho]; · iexact Ho
  isplitl [H0]; · iexact H0
  isplitl [H1]; · iexact H1
  iexists _; iexact H2

/-- The body at a point where the reset is not taken, the diagonal is stored, the partner entry is not stored and the loss is not stored. -/
theorem sound_body1_FTFF (c : Dev nD) (t : Fin cfg1.N) (a0 : ¬t.val % 8 = 0) (a1 : t.val % 8 = t.val / 8) (a2 : ¬t.val % 8 = partnerTile (t.val / 8)) (a3 : ¬t.val % 8 = 7) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  have k0 : ¬cond1_0 (grid1.coords t) := fun h => a0 ((hcond1_0 t).mp h)
  have k1 : cond1_1 (grid1.coords t) := (hcond1_1 t).mpr a1
  have k2 : ¬cond1_2 (grid1.coords t) := fun h => a2 ((hcond1_2 t).mp h)
  have k3 : ¬cond1_3 (grid1.coords t) := fun h => a3 ((hcond1_3 t).mp h)
  unfold bodyPre1 bodyPost1 bodyAt1
  simp only [before1_0, before1_1]
  rw [show (dat1 V c).owesAt () t.succ = (dat1 V c).owesAt () t.castSucc from rfl]
  rw [Phi1_succ, PhiS1_succ]
  have hz : t.val ≠ 0 := by omega
  rw [Phi1_castSucc, PhiS1_pos V c _ hz]
  rw [leaves1_0, leaves1_1]
  rw [Dat.leavesExact_idle (dat1 V c) 2 t (idleAt1_2 t k3) (noFlush1_2 t k3)]
  rw [car_eq V c t]
  simp only [if_neg a0, if_pos a1, if_neg a2]
  try dsimp only [lossOf]
  unfold stg6
  iintro ⟨⟨⟨A1, A2, A3, A4, A5, A6, HS0, HS1, HS2⟩, Hg⟩, Ho, ⟨%d0, H0⟩, ⟨%d1, H1⟩, ⟨%d2, H2⟩⟩
  iapply (kernel_run1_FTFF c Set.univ (grid1.coords t) _ _ _ _ _ _ _ _ _ _ _ _ k0 k1 k2 k3 (iblk1 V c 0 t) (iblk1 V c 1 t) _ _ _ _ _)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, HS0, HS1, HS2⟩
  isplitl [A1 A2 A3 A4 A5 A6 HS0 HS1 HS2 Hg]
  · isplitr [Hg]
    · isplitl [A1]; · iexact A1
      isplitl [A2]; · iexact A2
      isplitl [A3]; · iexact A3
      isplitl [A4]; · iexact A4
      isplitl [A5]; · iexact A5
      isplitl [A6]; · iexact A6
      isplitl [HS0]; · iexact HS0
      isplitl [HS1]; · iexact HS1
      iexact HS2
    iexact Hg
  isplitl [Ho]; · iexact Ho
  isplitl [H0]; · iexact H0
  isplitl [H1]; · iexact H1
  iexists _; iexact H2

/-- The body at a point where the reset is not taken, the diagonal is not stored, the partner entry is stored and the loss is not stored. -/
theorem sound_body1_FFTF (c : Dev nD) (t : Fin cfg1.N) (a0 : ¬t.val % 8 = 0) (a1 : ¬t.val % 8 = t.val / 8) (a2 : t.val % 8 = partnerTile (t.val / 8)) (a3 : ¬t.val % 8 = 7) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  have k0 : ¬cond1_0 (grid1.coords t) := fun h => a0 ((hcond1_0 t).mp h)
  have k1 : ¬cond1_1 (grid1.coords t) := fun h => a1 ((hcond1_1 t).mp h)
  have k2 : cond1_2 (grid1.coords t) := (hcond1_2 t).mpr a2
  have k3 : ¬cond1_3 (grid1.coords t) := fun h => a3 ((hcond1_3 t).mp h)
  unfold bodyPre1 bodyPost1 bodyAt1
  simp only [before1_0, before1_1]
  rw [show (dat1 V c).owesAt () t.succ = (dat1 V c).owesAt () t.castSucc from rfl]
  rw [Phi1_succ, PhiS1_succ]
  have hz : t.val ≠ 0 := by omega
  rw [Phi1_castSucc, PhiS1_pos V c _ hz]
  rw [leaves1_0, leaves1_1]
  rw [Dat.leavesExact_idle (dat1 V c) 2 t (idleAt1_2 t k3) (noFlush1_2 t k3)]
  rw [car_eq V c t]
  simp only [if_neg a0, if_neg a1, if_pos a2]
  try dsimp only [lossOf]
  unfold stg6
  iintro ⟨⟨⟨A1, A2, A3, A4, A5, A6, HS0, HS1, HS2⟩, Hg⟩, Ho, ⟨%d0, H0⟩, ⟨%d1, H1⟩, ⟨%d2, H2⟩⟩
  iapply (kernel_run1_FFTF c Set.univ (grid1.coords t) _ _ _ _ _ _ _ _ _ _ _ _ k0 k1 k2 k3 (iblk1 V c 0 t) (iblk1 V c 1 t) _ _ _ _ _)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, HS0, HS1, HS2⟩
  isplitl [A1 A2 A3 A4 A5 A6 HS0 HS1 HS2 Hg]
  · isplitr [Hg]
    · isplitl [A1]; · iexact A1
      isplitl [A2]; · iexact A2
      isplitl [A3]; · iexact A3
      isplitl [A4]; · iexact A4
      isplitl [A5]; · iexact A5
      isplitl [A6]; · iexact A6
      isplitl [HS0]; · iexact HS0
      isplitl [HS1]; · iexact HS1
      iexact HS2
    iexact Hg
  isplitl [Ho]; · iexact Ho
  isplitl [H0]; · iexact H0
  isplitl [H1]; · iexact H1
  iexists _; iexact H2

/-- The body at a point where the reset is not taken, the diagonal is not stored, the partner entry is not stored and the loss is stored. -/
theorem sound_body1_FFFT (c : Dev nD) (t : Fin cfg1.N) (a0 : ¬t.val % 8 = 0) (a1 : ¬t.val % 8 = t.val / 8) (a2 : ¬t.val % 8 = partnerTile (t.val / 8)) (a3 : t.val % 8 = 7) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  have k0 : ¬cond1_0 (grid1.coords t) := fun h => a0 ((hcond1_0 t).mp h)
  have k1 : ¬cond1_1 (grid1.coords t) := fun h => a1 ((hcond1_1 t).mp h)
  have k2 : ¬cond1_2 (grid1.coords t) := fun h => a2 ((hcond1_2 t).mp h)
  have k3 : cond1_3 (grid1.coords t) := (hcond1_3 t).mpr a3
  unfold bodyPre1 bodyPost1 bodyAt1
  simp only [before1_0, before1_1]
  rw [show (dat1 V c).owesAt () t.succ = (dat1 V c).owesAt () t.castSucc from rfl]
  rw [Phi1_succ, PhiS1_succ]
  have hz : t.val ≠ 0 := by omega
  rw [Phi1_castSucc, PhiS1_pos V c _ hz]
  rw [leaves1_0, leaves1_1]
  rw [show (dat1 V c).leavesExact 2 t = owns (c : Thread nD τ) (ms1_2 t) fullShare ((dat1 V c).after 2 t) from by
    unfold Dat.leavesExact; rw [liveAt1_2 t k3], after1_2]
  rw [car_eq V c t]
  simp only [if_neg a0, if_neg a1, if_neg a2]
  try dsimp only [lossOf]
  unfold stg6
  iintro ⟨⟨⟨A1, A2, A3, A4, A5, A6, HS0, HS1, HS2⟩, Hg⟩, Ho, ⟨%d0, H0⟩, ⟨%d1, H1⟩, ⟨%d2, H2⟩⟩
  iapply (kernel_run1_FFFT c Set.univ (grid1.coords t) _ _ _ _ _ _ _ _ _ _ _ _ k0 k1 k2 k3 (iblk1 V c 0 t) (iblk1 V c 1 t) _ _ _ _ _)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, HS0, HS1, HS2⟩
  isplitl [A1 A2 A3 A4 A5 A6 HS0 HS1 HS2 Hg]
  · isplitr [Hg]
    · isplitl [A1]; · iexact A1
      isplitl [A2]; · iexact A2
      isplitl [A3]; · iexact A3
      isplitl [A4]; · iexact A4
      isplitl [A5]; · iexact A5
      isplitl [A6]; · iexact A6
      isplitl [HS0]; · iexact HS0
      isplitl [HS1]; · iexact HS1
      iexact HS2
    iexact Hg
  isplitl [Ho]; · iexact Ho
  isplitl [H0]; · iexact H0
  isplitl [H1]; · iexact H1
  iexact H2

/-- The body at a point where the reset is not taken, the diagonal is stored, the partner entry is not stored and the loss is stored. -/
theorem sound_body1_FTFT (c : Dev nD) (t : Fin cfg1.N) (a0 : ¬t.val % 8 = 0) (a1 : t.val % 8 = t.val / 8) (a2 : ¬t.val % 8 = partnerTile (t.val / 8)) (a3 : t.val % 8 = 7) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  have k0 : ¬cond1_0 (grid1.coords t) := fun h => a0 ((hcond1_0 t).mp h)
  have k1 : cond1_1 (grid1.coords t) := (hcond1_1 t).mpr a1
  have k2 : ¬cond1_2 (grid1.coords t) := fun h => a2 ((hcond1_2 t).mp h)
  have k3 : cond1_3 (grid1.coords t) := (hcond1_3 t).mpr a3
  unfold bodyPre1 bodyPost1 bodyAt1
  simp only [before1_0, before1_1]
  rw [show (dat1 V c).owesAt () t.succ = (dat1 V c).owesAt () t.castSucc from rfl]
  rw [Phi1_succ, PhiS1_succ]
  have hz : t.val ≠ 0 := by omega
  rw [Phi1_castSucc, PhiS1_pos V c _ hz]
  rw [leaves1_0, leaves1_1]
  rw [show (dat1 V c).leavesExact 2 t = owns (c : Thread nD τ) (ms1_2 t) fullShare ((dat1 V c).after 2 t) from by
    unfold Dat.leavesExact; rw [liveAt1_2 t k3], after1_2]
  rw [car_eq V c t]
  simp only [if_neg a0, if_pos a1, if_neg a2]
  try dsimp only [lossOf]
  unfold stg6
  iintro ⟨⟨⟨A1, A2, A3, A4, A5, A6, HS0, HS1, HS2⟩, Hg⟩, Ho, ⟨%d0, H0⟩, ⟨%d1, H1⟩, ⟨%d2, H2⟩⟩
  iapply (kernel_run1_FTFT c Set.univ (grid1.coords t) _ _ _ _ _ _ _ _ _ _ _ _ k0 k1 k2 k3 (iblk1 V c 0 t) (iblk1 V c 1 t) _ _ _ _ _)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, HS0, HS1, HS2⟩
  isplitl [A1 A2 A3 A4 A5 A6 HS0 HS1 HS2 Hg]
  · isplitr [Hg]
    · isplitl [A1]; · iexact A1
      isplitl [A2]; · iexact A2
      isplitl [A3]; · iexact A3
      isplitl [A4]; · iexact A4
      isplitl [A5]; · iexact A5
      isplitl [A6]; · iexact A6
      isplitl [HS0]; · iexact HS0
      isplitl [HS1]; · iexact HS1
      iexact HS2
    iexact Hg
  isplitl [Ho]; · iexact Ho
  isplitl [H0]; · iexact H0
  isplitl [H1]; · iexact H1
  iexact H2

/-- The body at a point where the reset is not taken, the diagonal is not stored, the partner entry is stored and the loss is stored. -/
theorem sound_body1_FFTT (c : Dev nD) (t : Fin cfg1.N) (a0 : ¬t.val % 8 = 0) (a1 : ¬t.val % 8 = t.val / 8) (a2 : t.val % 8 = partnerTile (t.val / 8)) (a3 : t.val % 8 = 7) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  have k0 : ¬cond1_0 (grid1.coords t) := fun h => a0 ((hcond1_0 t).mp h)
  have k1 : ¬cond1_1 (grid1.coords t) := fun h => a1 ((hcond1_1 t).mp h)
  have k2 : cond1_2 (grid1.coords t) := (hcond1_2 t).mpr a2
  have k3 : cond1_3 (grid1.coords t) := (hcond1_3 t).mpr a3
  unfold bodyPre1 bodyPost1 bodyAt1
  simp only [before1_0, before1_1]
  rw [show (dat1 V c).owesAt () t.succ = (dat1 V c).owesAt () t.castSucc from rfl]
  rw [Phi1_succ, PhiS1_succ]
  have hz : t.val ≠ 0 := by omega
  rw [Phi1_castSucc, PhiS1_pos V c _ hz]
  rw [leaves1_0, leaves1_1]
  rw [show (dat1 V c).leavesExact 2 t = owns (c : Thread nD τ) (ms1_2 t) fullShare ((dat1 V c).after 2 t) from by
    unfold Dat.leavesExact; rw [liveAt1_2 t k3], after1_2]
  rw [car_eq V c t]
  simp only [if_neg a0, if_neg a1, if_pos a2]
  try dsimp only [lossOf]
  unfold stg6
  iintro ⟨⟨⟨A1, A2, A3, A4, A5, A6, HS0, HS1, HS2⟩, Hg⟩, Ho, ⟨%d0, H0⟩, ⟨%d1, H1⟩, ⟨%d2, H2⟩⟩
  iapply (kernel_run1_FFTT c Set.univ (grid1.coords t) _ _ _ _ _ _ _ _ _ _ _ _ k0 k1 k2 k3 (iblk1 V c 0 t) (iblk1 V c 1 t) _ _ _ _ _)
  isplitl [H0]; · iexact H0
  isplitl [H1]; · iexact H1
  isplitl [H2]; · iexact H2
  isplitl [HS0]; · iexact HS0
  isplitl [HS1]; · iexact HS1
  isplitl [HS2]; · iexact HS2
  iintro ⟨H0, H1, H2, HS0, HS1, HS2⟩
  isplitl [A1 A2 A3 A4 A5 A6 HS0 HS1 HS2 Hg]
  · isplitr [Hg]
    · isplitl [A1]; · iexact A1
      isplitl [A2]; · iexact A2
      isplitl [A3]; · iexact A3
      isplitl [A4]; · iexact A4
      isplitl [A5]; · iexact A5
      isplitl [A6]; · iexact A6
      isplitl [HS0]; · iexact HS0
      isplitl [HS1]; · iexact HS1
      iexact HS2
    iexact Hg
  isplitl [Ho]; · iexact Ho
  isplitl [H0]; · iexact H0
  isplitl [H1]; · iexact H1
  iexact H2

/-- The body at any point: by the point's number, which of the four conditions hold. -/
theorem sound_body1 (c : Dev nD) (t : Fin cfg1.N) :
    bodyPre1 V c t ⊢ wp frame (wpE (defs₀ (F := F)) Variants.none c none) Set.univ (bodyAt1 t) (fun _ => bodyPost1 V c t) := by
  have hN : t.val < 64 := lt_of_lt_of_eq t.isLt (show cfg1.N = 64 from N_1)
  by_cases a0 : t.val % 8 = 0 <;> by_cases a1 : t.val % 8 = t.val / 8 <;>
    by_cases a2 : t.val % 8 = partnerTile (t.val / 8) <;> by_cases a3 : t.val % 8 = 7
  all_goals first
    | exact sound_body1_TTFF V c t a0 a1 a2 a3
    | exact sound_body1_TFFF V c t a0 a1 a2 a3
    | exact sound_body1_TFTF V c t a0 a1 a2 a3
    | exact sound_body1_FFFF V c t a0 a1 a2 a3
    | exact sound_body1_FTFF V c t a0 a1 a2 a3
    | exact sound_body1_FFTF V c t a0 a1 a2 a3
    | exact sound_body1_FFFT V c t a0 a1 a2 a3
    | exact sound_body1_FTFT V c t a0 a1 a2 a3
    | exact sound_body1_FFTT V c t a0 a1 a2 a3
    | (exfalso; unfold partnerTile at a2; split at a2 <;> omega)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KiRun.lean ====
/-
  The run of the whole program: one host operation (the two arguments stacked), the normalising
  region, the similarity / loss region, and four host operations (the mean).  The contents of the
  TensorCore's buffers are folded through these four segments from the launch memory: a host stretch
  applies its operations; a region leaves each of its arrays at what its write-backs leave and every
  other buffer as it found it.  Every weakly fair execution terminates and ends with every unscoped
  buffer at the last fold.
-/
import proofs.«142995_j19722489823618_2_alg».proof.Proof.KiR0
import proofs.«142995_j19722489823618_2_alg».proof.Proof.KiR1
import proofs.«142995_j19722489823618_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core c's buffers at launch. -/
abbrev W0 : Dev nD → Valuation τ sig (Elt F) := fun c b => (s₀ m ρ).mem ((c : Dev nD), b)
/-- After the stacking (the first region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the first region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (the second region's entry). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the mean's four host operations: the end. -/
abbrev W4 : Dev nD → Valuation τ sig (Elt F) := fun c => StableHlo.after hostOps2 (W3 m ρ c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last fold, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The normalising region: entered from every unscoped buffer at W1, left at W2. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- What the second region's invariant is before its first point, from what the launch hands it. -/
theorem phi1_first (c : Dev nD) : Pipeline.ΦA spec1 c ⊢ (pdats m ρ 1 c).Φ 0 := hin1 (V2 m ρ) c
/-- And what it gives back after its last point. -/
theorem phi1_last (c : Dev nD) : (pdats m ρ 1 c).Φ (Fin.last _) ⊢ Pipeline.ΦA spec1 c := hout1 (V2 m ρ) c

set_option backward.isDefEq.respectTransparency.types false in
/-- The similarity / loss region: entered from every unscoped buffer at W2, left at W3. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (phi1_first m ρ c)
    unfold Pipeline.ΦA
    iintro ⟨Hp, -, Hr⟩
    isplitl [Hr]; · iexact Hr
    iexact Hp
  hout c := by
    rw [Pipeline.ownSems0_none]
    refine BIBase.Entails.trans (phi1_last m ρ c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- Every weakly fair execution of the program terminates, nothing faulting, with every unscoped buffer
    of the TensorCore at the last fold W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-! ## What the run leaves in a buffer nobody writes: the arguments -/

/-- A buffer that no host operation writes and that is no array of either region ends as launched. -/
theorem W4_unwritten (c : Dev nD) (b : Ref sig .tc) (h0 : b ∉ hostOps0_W) (h2 : b ∉ hostOps2_W)
    (hr0 : ∀ w, Pipeline.arrRef spec0 w ≠ b) (hr1 : ∀ w, Pipeline.arrRef spec1 w ≠ b) :
    W4 m ρ c (Proc.devRef .tc b) = m ((c : Thread nD τ).loc b) :=
  (StableHlo.after_of_writes_sub hostOps2 _ hostOps2_writes h2).trans <|
    (W3_of_ne m ρ c b hr1).trans <| (W2_of_ne m ρ c b hr0).trans <|
      (StableHlo.after_of_writes_sub hostOps0 _ hostOps0_writes h0).trans rfl

theorem W4_main_arg0 (c : Dev nD) : W4 m ρ c (Proc.devRef .tc main_arg0) = m ((c : Thread nD τ).loc main_arg0) :=
  W4_unwritten m ρ c main_arg0 (by decide) (by decide) (by decide) (by decide)
theorem W4_main_arg1 (c : Dev nD) : W4 m ρ c (Proc.devRef .tc main_arg1) = m ((c : Thread nD τ).loc main_arg1) :=
  W4_unwritten m ρ c main_arg1 (by decide) (by decide) (by decide) (by decide)

/-- The frame: every weakly fair execution terminates, nothing faulting, and the two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (W4_main_arg0 m ρ c),
     (h c _ (mem_uc main_arg1 (by decide))).trans (W4_main_arg1 m ρ c)⟩) (run_all m ρ)

/-- The same run with the result buffer's final contents named. -/
theorem run_result : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨h c _ (mem_uc main_v4 (by decide)),
     (h c _ (mem_uc main_arg0 (by decide))).trans (W4_main_arg0 m ρ c),
     (h c _ (mem_uc main_arg1 (by decide))).trans (W4_main_arg1 m ρ c)⟩) (run_all m ρ)

end Cert.KernelIdeal.Hand

end
-- ==== Proof.Spec.lean ====
/-
  The contrastive loss both programs compute, as one function of the two argument matrices over the
  extended reals.

  Stack the two 4096 × 256 arguments into z : 8192 × 256 (rows of the first, then rows of the second).
  Every row is divided by its Euclidean norm, floored at eps:  u p d = z p d / max (√(Σ_d z p d²)) eps.
  The similarity of rows p and q is the dot product of their unit vectors divided by the temperature;
  the program under test multiplies one factor by the inverse temperature before the product instead
  (`simK`), the reference divides the product (`simR`).  With e p q = exp (sim p q), the partner of
  row p is row p + 4096 (mod 8192), and row p's loss is
      − log (e p (partner p) / (Σ_q e p q − e p p))
  which the program under test evaluates as  − log (e p (partner p)) + log (Σ_q e p q − e p p)  and the
  reference as  − log (pos / (pos + ((Σ_q e p q − e p p) − pos)))  with pos = e p (partner p).
  The result is the mean of the 8192 losses.
-/
import Idealize.ShloMosaic.PureOps.Ideal
import Idealize.ShloMosaic.Lib.ValueIdx

noncomputable section

namespace Cert.Spec

open Idealize.ShloMosaic

/-- The floor of a row norm (the binary32 word nearest 1e-12). -/
def eps : EReal := Ideal.ofBits .f32 0x2B8CBCCC#32
/-- The temperature as the reference carries it (the binary32 word nearest 0.07). -/
def temp : EReal := Ideal.ofBits .f32 0x3D8F5C29#32
/-- The inverse temperature: exactly one over `temp`, 134217728 / 9395241. -/
def invTemp : EReal := ((134217728 / 9395241 : ℝ) : EReal)
/-- The number of rows, 8192, as a binary32 word. -/
def count : EReal := Ideal.ofBits .f32 0x46000000#32

variable {ι κ : Type} [Fintype ι] [Fintype κ]

/-- Row p's Euclidean norm, floored at eps. -/
def rowNorm (z : ι → κ → EReal) (p : ι) : EReal := max (Ideal.sqrt (∑ d, z p d * z p d)) eps
/-- Row p scaled to unit length. -/
def unit (z : ι → κ → EReal) (p : ι) (d : κ) : EReal := Ideal.div (z p d) (rowNorm z p)
/-- exp of the similarity, with the inverse temperature multiplied into the left factor. -/
def expK (z : ι → κ → EReal) (p q : ι) : EReal := Ideal.exp (∑ d, (unit z p d * invTemp) * unit z q d)
/-- exp of the similarity, the dot product divided by the temperature. -/
def expR (z : ι → κ → EReal) (p q : ι) : EReal := Ideal.exp (Ideal.div (∑ d, unit z p d * unit z q d) temp)
/-- Row p's loss as the program under test evaluates it. -/
def lossK (partner : ι → ι) (z : ι → κ → EReal) (p : ι) : EReal :=
  - Ideal.log (expK z p (partner p)) + Ideal.log ((∑ q, expK z p q) - expK z p p)
/-- Row p's loss as the reference evaluates it. -/
def lossR (partner : ι → ι) (z : ι → κ → EReal) (p : ι) : EReal :=
  - Ideal.log (Ideal.div (expR z p (partner p))
      (expR z p (partner p) + (((∑ q, expR z p q) - expR z p p) - expR z p (partner p))))
/-- The mean of the rows' losses. -/
def mean (l : ι → EReal) : EReal := Ideal.div (∑ p, l p) count

/-- The partner of row p among 8192 rows: p + 4096 modulo 8192. -/
def partner (p : Fin 8192) : Fin 8192 := ⟨(p.val + 4096) % 8192, Nat.mod_lt _ (by decide)⟩

/-- The two arguments stacked: rows of the first, then rows of the second. -/
def rows (a0 a1 : Fin 4096 → Fin 256 → EReal) (p : Fin 8192) (d : Fin 256) : EReal :=
  if h : p.val < 4096 then a0 ⟨p.val, h⟩ d else a1 ⟨p.val - 4096, by omega⟩ d

/-- A 4096 × 256 array of extended reals read as a matrix by its two coordinates. -/
def mat (x : (⟨2, ![4096, 256]⟩ : Shape).Idx → EReal) : Fin 4096 → Fin 256 → EReal :=
  fun p d => x (ValueIdx.ix2 p d)

/-- The value the program under test ends with. -/
def outK (a0 a1 : Fin 4096 → Fin 256 → EReal) : EReal := mean (lossK partner (rows a0 a1))
/-- The value the reference ends with. -/
def outR (a0 a1 : Fin 4096 → Fin 256 → EReal) : EReal := mean (lossR partner (rows a0 a1))

end Cert.Spec

end
-- ==== Proof.SpecAB.lean ====
/-
  The loss of a row written over two matrices: A holds the left factors' rows (the scaled unit rows),
  B the right factors' rows (the plain unit rows).  e p q = exp (Σ_d A p d · B q d), and row p's loss is
  − log (e p (partner p)) + log (Σ_q e p q − e p p).
-/
import proofs.«142995_j19722489823618_2_alg».proof.Proof.Spec

noncomputable section

namespace Cert.Spec

open Idealize.ShloMosaic

variable {ι κ : Type} [Fintype ι] [Fintype κ]

/-- exp of the dot product of row p of A with row q of B. -/
def expAB (A B : ι → κ → EReal) (p q : ι) : EReal := Ideal.exp (∑ d, A p d * B q d)

/-- Row p's loss over the two matrices. -/
def lossAB (partner : ι → ι) (A B : ι → κ → EReal) (p : ι) : EReal :=
  - Ideal.log (expAB A B p (partner p)) + Ideal.log ((∑ q, expAB A B p q) - expAB A B p p)

/-- With A the unit rows times the inverse temperature and B the unit rows this is `lossK`. -/
theorem lossK_eq_lossAB (partner : ι → ι) (z : ι → κ → EReal) (p : ι) :
    lossK partner z p = lossAB partner (fun p d => unit z p d * invTemp) (unit z) p := rfl

end Cert.Spec

end
-- ==== Proof.KiValue.lean ====
import proofs.«142995_j19722489823618_2_alg».proof.Proof.KiRun
import proofs.«142995_j19722489823618_2_alg».proof.Proof.SpecAB
import Idealize.ShloMosaic.Lib.IdealHost
import Idealize.ShloMosaic.PureOps.Ideal.Laws
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.StableHlo (after_cons after_nil)

variable (m : (ℓ : Loc nD τ sig) → Buf (Elt Ideal) ℓ) (ρ : Dev nD → PrngReg)

/-- The stacked array read at row p, column d: the first argument's row p below 4096, the second's row p − 4096 from there on. -/
theorem stack_value (c : Dev nD) (p : Fin 8192) (d : Fin 256) :
    V1 (F := Ideal) m ρ c main_v0 (ValueIdx.ix2 p d)
      = Cert.Spec.rows (Cert.Spec.mat (m ((c : Thread nD τ).loc main_arg0))) (Cert.Spec.mat (m ((c : Thread nD τ).loc main_arg1))) p d := by
  show StableHlo.after hostOps0 (W0 m ρ c) (Proc.devRef .tc main_v0) (ValueIdx.ix2 p d) = _
  after_results
  unfold Cert.Spec.rows
  split
  · next h =>
    exact concatenate_pair_apply_left (t := S8192x256) (s₁ := S4096x256) (s₂ := S4096x256) 0
      (W0 m ρ c (Proc.devRef .tc main_arg0)) (W0 m ρ c (Proc.devRef .tc main_arg1))
      concatenates_S4096x256_S4096x256_S8192x256_d0 (ValueIdx.ix2 p d) rfl
      (ValueIdx.ix2 (⟨p.val, h⟩ : Fin 4096) d)
      (fun b => by match b with | ⟨0, _⟩ => rfl | ⟨1, _⟩ => rfl)
  · next h =>
    have hle : 4096 ≤ p.val := Nat.le_of_not_lt h
    exact concatenate_pair_apply_right (t := S8192x256) (s₁ := S4096x256) (s₂ := S4096x256) 0
      (W0 m ρ c (Proc.devRef .tc main_arg0)) (W0 m ρ c (Proc.devRef .tc main_arg1))
      concatenates_S4096x256_S4096x256_S8192x256_d0 (ValueIdx.ix2 p d) rfl rfl
      (ValueIdx.ix2 (⟨p.val - 4096, by omega⟩ : Fin 4096) d)
      (fun b hb => by match b, hb with | ⟨0, _⟩, hb => exact absurd rfl hb | ⟨1, _⟩, _ => rfl)
      (Nat.sub_add_cancel hle)

/-- The result is the mean over the 8192 rows of the last region's column. -/
theorem tail_value (c : Dev nD) :
    W4 (F := Ideal) m ρ c (Proc.devRef .tc main_v4)
      = fun _ => Cert.Spec.mean (fun p : Fin 8192 => W3 (F := Ideal) m ρ c (Proc.devRef .tc main_v2) (ValueIdx.ix2 p 0)) := by
  show StableHlo.after hostOps2 (W3 m ρ c) (Proc.devRef .tc main_v4) = _
  after_results
  funext j
  show Ideal.div (Ideal.hostReduceAdd reducesTo_S8192x1_S_d0_1 (W3 m ρ c (Proc.devRef .tc main_v2)) (Ideal.ofBits .f32 0x00000000#32) j)
      (Ideal.ofBits .f32 0x46000000#32)
    = Ideal.div (∑ p : Fin 8192, W3 m ρ c (Proc.devRef .tc main_v2) (ValueIdx.ix2 p 0)) Cert.Spec.count
  rw [Ideal.hostReduceAdd_total _ (fun b => b.elim0), Ideal.ofBits_zero_f32, zero_add, ValueIdx.sum_idx2]
  congr 1
  exact Finset.sum_congr rfl fun a _ => Fin.sum_univ_one _

/-- The program's result, given what the two regions leave in their arrays. -/
theorem out_value (c : Dev nD)
    (h01 : (dat0 (F := Ideal) (V1 m ρ) c).arrAt 1 cfg0.N = fun i =>
      Cert.Spec.unit (fun (p : Fin 8192) (d : Fin 256) => V1 m ρ c main_v0 (ValueIdx.ix2 p d)) (i 0) (i 1))
    (h02 : (dat0 (F := Ideal) (V1 m ρ) c).arrAt 2 cfg0.N = fun i =>
      Cert.Spec.unit (fun (p : Fin 8192) (d : Fin 256) => V1 m ρ c main_v0 (ValueIdx.ix2 p d)) (i 0) (i 1) * Cert.Spec.invTemp)
    (h12 : (dat1 (F := Ideal) (V2 m ρ) c).arrAt 2 cfg1.N = fun idx =>
      Cert.Spec.lossAB Cert.Spec.partner (fun p d => V2 m ρ c main_v1_1 (ValueIdx.ix2 p d))
        (fun p d => V2 m ρ c main_v1_0 (ValueIdx.ix2 p d)) (idx 0)) :
    W4 m ρ c (Proc.devRef .tc main_v4) = fun _ =>
      Cert.Spec.outK (Cert.Spec.mat (m ((c : Thread nD τ).loc main_arg0))) (Cert.Spec.mat (m ((c : Thread nD τ).loc main_arg1))) := by
  have eA : V2 m ρ c main_v1_1 = _ := (W2_arr m ρ c 2).trans h02
  have eB : V2 m ρ c main_v1_0 = _ := (W2_arr m ρ c 1).trans h01
  have eL : W3 m ρ c (Proc.devRef .tc main_v2) = _ := (W3_arr m ρ c 2).trans h12
  have eZ : (fun (p : Fin 8192) (d : Fin 256) => V1 m ρ c main_v0 (ValueIdx.ix2 p d))
      = Cert.Spec.rows (Cert.Spec.mat (m ((c : Thread nD τ).loc main_arg0))) (Cert.Spec.mat (m ((c : Thread nD τ).loc main_arg1))) :=
    funext fun p => funext fun d => stack_value m ρ c p d
  rw [tail_value, eL, eA, eB, eZ]
  rfl

end Cert.KernelIdeal.Hand

end
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.KiR0Pay.lean ====
/-
  The normalising kernel's payloads read at an index, over the extended reals.

  For a block x of 1024 rows and 256 columns, the first payload at (r, d) is x (r, d) divided by the floored
  Euclidean norm of row r: the lane sum of the squares of row r, its square root, the maximum with eps, laid
  against every entry of the row.  Narrowing to bf16 changes nothing on the extended reals, and the named constant
  is the inverse temperature, so the two stored payloads are the unit row and the unit row times the inverse
  temperature.
-/
import proofs.«142995_j19722489823618_2_alg».proof.Proof.Gen.KernelIdeal.Skeleton
import proofs.«142995_j19722489823618_2_alg».proof.Proof.Spec
import proofs.«142995_j19722489823618_2_alg».proof.Proof.LibColumns
import Idealize.ShloMosaic.Lib.ValueIdx
import Idealize.ShloMosaic.Lib.Pipeline.Value
import Idealize.ShloMosaic.PureOps.Ideal.Laws
import Idealize.ShloMosaic.PureOps.IdealRules

noncomputable section

namespace Cert.KernelIdeal.Hand

open Cert.KernelIdeal Cert.KernelIdeal.Gen
open Idealize.ShloMosaic Idealize.ShloMosaic.ValueIdx

/-- The named constant is the inverse temperature. -/
theorem inv_temperature_eq :
    Named.named (F := Ideal) Cert.KernelIdeal.κ "inv_temperature" (φ := .f32) 0x41649249#32 = Cert.Spec.invTemp :=
  IdealRules.named_const.ideal_named_scalar _ _ _ _ rfl

/-- The lane sum of a 1024 × 256 block at row r is the sum over the row's 256 entries. -/
theorem laneSum_apply (v : FVec Ideal S1024x256 .f32) (r : Fin 1024) :
    multiReduction (F := Ideal) .add [1] S1024 v 0x00000000#32 reduces_S1024x256_S1024 (.inl rfl) rfl (ix1 r)
      = ∑ d : Fin 256, v (ix2 r d) := by
  refine (Ideal.multiReduction_add_single v 0x00000000#32 reduces_S1024x256_S1024 (.inl rfl) rfl (ix1 r)).trans ?_
  refine Finset.sum_congr rfl fun d _ => congrArg v ?_
  funext a
  match a with
  | ⟨0, _⟩ => rfl
  | ⟨1, _⟩ => rfl

/-- The first payload at (r, d): the entry divided by the floored norm of its row. -/
theorem k0_pay1_apply (x : Vec Ideal S1024x256 .f32) (r : Fin 1024) (d : Fin 256) :
    k0_pay1 (F := Ideal) x (ix2 r d)
      = Cert.Spec.unit (fun (p : Fin 1024) (d' : Fin 256) => x (ix2 p d')) r d := by
  unfold k0_pay1
  show Ideal.div (shapeCast S1024x256 x shapeCasts_S1024x256_S1024x256 (ix2 r d))
      (broadcastTo S1024x256 _ broadcasts_S1024x1_S1024x256 (ix2 r d)) = _
  rw [shapeCast_self]
  refine congrArg (Ideal.div (x (ix2 r d))) ?_
  refine (broadcastTo_a1_ab_apply _ broadcasts_S1024x1_S1024x256 r d).trans ?_
  show max (Ideal.sqrt (shapeCast S1024x1 _ shapeCasts_S1024_S1024x1 (ix2 r (0 : Fin 1)))) (Ideal.ofBits .f32 0x2B8CBCCC#32) = _
  unfold Cert.Spec.rowNorm Cert.Spec.eps
  refine congrArg (fun s => max (Ideal.sqrt s) (Ideal.ofBits .f32 0x2B8CBCCC#32)) ?_
  refine (shapeCast_a_a1_apply _ shapeCasts_S1024_S1024x1 r 0).trans ?_
  exact laneSum_apply _ r

/-- The stored unit rows: narrowing is the identity on the extended reals. -/
theorem k0_pay2_apply (x : Vec Ideal S1024x256 .f32) (r : Fin 1024) (d : Fin 256) :
    k0_pay2 (F := Ideal) x (ix2 r d)
      = Cert.Spec.unit (fun (p : Fin 1024) (d' : Fin 256) => x (ix2 p d')) r d :=
  k0_pay1_apply x r d

/-- The stored scaled rows: the unit row times the inverse temperature. -/
theorem k0_pay3_apply (x : Vec Ideal S1024x256 .f32) (r : Fin 1024) (d : Fin 256) :
    k0_pay3 (F := Ideal) x (ix2 r d)
      = Cert.Spec.unit (fun (p : Fin 1024) (d' : Fin 256) => x (ix2 p d')) r d * Cert.Spec.invTemp := by
  show k0_pay1 (F := Ideal) x (ix2 r d) * Named.named (F := Ideal) Cert.KernelIdeal.κ "inv_temperature" (φ := .f32) 0x41649249#32 = _
  rw [k0_pay1_apply, inv_temperature_eq]

end Cert.KernelIdeal.Hand

end
-- ==== Proof.KiR0Value.lean ====
/-
  Region 0's two output arrays when the region ends, over the extended reals, as whole-array functions of the
  input array the region is entered with.

  Point t of the grid reads rows 1024 t … 1024 t + 1023 of the input and writes the same rows of each output.  A
  unit row depends on its own row of the input only, so the block a point writes back is the block of ONE function
  of the whole input array: the unit rows (first output), and the unit rows times the inverse temperature (second
  output).  Row r is covered by point r / 1024, so the blocks fill both arrays.
-/
import proofs.«142995_j19722489823618_2_alg».proof.Proof.KiR0
import proofs.«142995_j19722489823618_2_alg».proof.Proof.KiR0Pay
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## A unit row depends on its own row only -/

/-- Row r of block n among the 8192 rows. -/
def rowOf (n : Fin 8) (r : Fin 1024) : Fin 8192 := ⟨1024 * n.val + r.val, by have := n.isLt; have := r.isLt; omega⟩

/-- If a block's rows are rows 1024 n … of the array, the block's unit rows are the array's unit rows there. -/
theorem unit_block (X : Fin 8192 → Fin 256 → EReal) (x : Fin 1024 → Fin 256 → EReal) (n : Fin 8)
    (hx : ∀ r d, x r d = X (rowOf n r) d) (r : Fin 1024) (d : Fin 256) :
    Cert.Spec.unit x r d = Cert.Spec.unit X (rowOf n r) d := by
  unfold Cert.Spec.unit Cert.Spec.rowNorm
  simp only [hx]

/-- The array of unit rows of an 8192 × 256 array. -/
def unitArr (X : S8192x256.Idx → EReal) : S8192x256.Idx → EReal :=
  fun i => Cert.Spec.unit (fun (p : Fin 8192) (d : Fin 256) => X (ix2 p d)) (i 0) (i 1)

/-- The array of unit rows times the inverse temperature. -/
def scaledArr (X : S8192x256.Idx → EReal) : S8192x256.Idx → EReal :=
  fun i => Cert.Spec.unit (fun (p : Fin 8192) (d : Fin 256) => X (ix2 p d)) (i 0) (i 1) * Cert.Spec.invTemp

/-- An index of the array from its place: row 1024 n + (j 0), column (j 1). -/
theorem idx_of_place (n : Fin 8) (j : S1024x256.Idx) (i : S8192x256.Idx)
    (hi0 : (i 0).val = 1024 * n.val + (j 0).val) (hi1 : (i 1).val = (j 1).val) :
    i = ix2 (rowOf n (j 0)) (j 1) := by
  funext a
  apply Fin.ext
  match a with
  | ⟨0, _⟩ => exact hi0
  | ⟨1, _⟩ => exact hi1

/-- The stored unit rows of a block that is rows 1024 n … of X, at block index j, are the unit array of X at the
    array index of that place. -/
theorem pay2_block (X : S8192x256.Idx → EReal) (x : Vec Ideal S1024x256 .f32) (n : Fin 8)
    (hx : ∀ (r : Fin 1024) (d : Fin 256), x (ix2 r d) = X (ix2 (rowOf n r) d))
    (j : S1024x256.Idx) (i : S8192x256.Idx) (hi0 : (i 0).val = 1024 * n.val + (j 0).val) (hi1 : (i 1).val = (j 1).val) :
    k0_pay2 (F := Ideal) x j = unitArr X i := by
  rw [idx_of_place n j i hi0 hi1, eq_ix2 j]
  refine (k0_pay2_apply x (j 0) (j 1)).trans ?_
  exact unit_block (fun p d => X (ix2 p d)) (fun p d => x (ix2 p d)) n hx (j 0) (j 1)

/-- The same for the stored scaled rows. -/
theorem pay3_block (X : S8192x256.Idx → EReal) (x : Vec Ideal S1024x256 .f32) (n : Fin 8)
    (hx : ∀ (r : Fin 1024) (d : Fin 256), x (ix2 r d) = X (ix2 (rowOf n r) d))
    (j : S1024x256.Idx) (i : S8192x256.Idx) (hi0 : (i 0).val = 1024 * n.val + (j 0).val) (hi1 : (i 1).val = (j 1).val) :
    k0_pay3 (F := Ideal) x j = scaledArr X i := by
  rw [idx_of_place n j i hi0 hi1, eq_ix2 j]
  refine (k0_pay3_apply x (j 0) (j 1)).trans ?_
  exact congrArg (· * Cert.Spec.invTemp) (unit_block (fun p d => X (ix2 p d)) (fun p d => x (ix2 p d)) n hx (j 0) (j 1))

section Region0
variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: every window's block at point t is block (t, 0). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- A point of the grid as a block number. -/
def blockOf (t : Fin cfg0.N) : Fin 8 := ⟨t.val, by have h : t.val < cfg0.N := t.isLt; have e : cfg0.N = 8 := N_0; omega⟩

/-- The input window's block at point t is rows 1024 t … of the input array. -/
theorem iblk0_0_apply (c : Dev nD) (t : Fin cfg0.N) (r : Fin 1024) (d : Fin 256) :
    (iblk0 V c 0 t : Vec Ideal S1024x256 .f32) (ix2 r d)
      = (V c main_v0 : S8192x256.Idx → EReal) (ix2 (rowOf (blockOf t) r) d) := by
  obtain ⟨e0, e1, -⟩ := idx_facts0 t
  unfold iblk0
  rw [View.read_apply]
  show V c main_v0 _ = V c main_v0 _
  congr 1
  funext a
  apply Fin.ext
  match a with
  | ⟨0, _⟩ => show win0_0.index t 0 * 1024 + 1 * r.val = 1024 * t.val + r.val; rw [e0]; omega
  | ⟨1, _⟩ => show win0_0.index t 1 * 256 + 1 * d.val = d.val; rw [e1]; omega

/-- What point t writes back to the first output is block t of the unit array of the input. -/
theorem flushed0_1_eq (c : Dev nD) (t : Fin cfg0.N) :
    (dat0 (F := Ideal) V c).flushed 1 t
      = ((cfg0.win 1).blk t).view.read (Elt Ideal) (unitArr (V c main_v0)) := by
  show (cfg0.win 1).cut (grid0.coords t) ((dat0 V c).after 1 t) = _
  rw [after0_1]
  unfold out0_1
  rw [View.canon_unit_zero hz]
  simp only [View.ld_unit_zero (S := S1024x256) hz]
  obtain ⟨-, -, e0, e1, -⟩ := idx_facts0 t
  funext j
  show k0_pay2 (F := Ideal) (iblk0 V c 0 t) j = unitArr (V c main_v0) (((cfg0.win 1).blk t).view.emb j)
  refine pay2_block (V c main_v0) (iblk0 V c 0 t) (blockOf t) (iblk0_0_apply V c t) j _ ?_ ?_
  · show win0_1.index t 0 * 1024 + 1 * (j 0).val = 1024 * t.val + (j 0).val; rw [e0]; omega
  · show win0_1.index t 1 * 256 + 1 * (j 1).val = (j 1).val; rw [e1]; omega

/-- What point t writes back to the second output is block t of the scaled array of the input. -/
theorem flushed0_2_eq (c : Dev nD) (t : Fin cfg0.N) :
    (dat0 (F := Ideal) V c).flushed 2 t
      = ((cfg0.win 2).blk t).view.read (Elt Ideal) (scaledArr (V c main_v0)) := by
  show (cfg0.win 2).cut (grid0.coords t) ((dat0 V c).after 2 t) = _
  rw [after0_2]
  unfold out0_2
  rw [View.canon_unit_zero hz]
  simp only [View.ld_unit_zero (S := S1024x256) hz]
  obtain ⟨-, -, -, -, e0, e1⟩ := idx_facts0 t
  funext j
  show k0_pay3 (F := Ideal) (iblk0 V c 0 t) j = scaledArr (V c main_v0) (((cfg0.win 2).blk t).view.emb j)
  refine pay3_block (V c main_v0) (iblk0 V c 0 t) (blockOf t) (iblk0_0_apply V c t) j _ ?_ ?_
  · show win0_2.index t 0 * 1024 + 1 * (j 0).val = 1024 * t.val + (j 0).val; rw [e0]; omega
  · show win0_2.index t 1 * 256 + 1 * (j 1).val = (j 1).val; rw [e1]; omega

/-! ## The cover: row r is in the block of point r / 1024 -/

/-- The point that covers row r. -/
def pointOf (i : S8192x256.Idx) : Fin cfg0.N :=
  ⟨(i 0).val / 1024, by rw [show cfg0.N = 8 from N_0]; have := idx2_lt0 i; omega⟩

theorem mem_blk0_1 (t : Fin cfg0.N) (i : S8192x256.Idx) :
    i ∈ ((cfg0.win 1).blk t).view.set ↔ ∀ a : Fin 2, win0_1.index t a * S1024x256.size a ≤ (i a).val ∧ (i a).val < win0_1.index t a * S1024x256.size a + S1024x256.size a := by
  show i ∈ ((View.whole main_v1_0).slice (win0_1.rect t)).set ↔ _
  rw [View.set_slice_whole, Rect.mem_set_unit]
  exact Iff.rfl

theorem mem_blk0_2 (t : Fin cfg0.N) (i : S8192x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v1_1).slice (win0_2.rect t)).set ↔ _
  rw [View.set_slice_whole, Rect.mem_set_unit]
  exact Iff.rfl

theorem cover0_1 (i : S8192x256.Idx) :
    ∃ t : Fin cfg0.N, (cfg0.win 1).flush t = true ∧ i ∈ ((cfg0.win 1).blk t).view.set := by
  refine ⟨pointOf i, flush0_1 _, ?_⟩
  rw [mem_blk0_1]
  obtain ⟨-, -, e0, e1, -⟩ := idx_facts0 (pointOf i)
  have h0 := idx2_lt0 i
  have h1 := idx2_lt1 i
  have hp : (pointOf i).val = (i 0).val / 1024 := rfl
  intro a
  match a with
  | ⟨0, _⟩ => show win0_1.index (pointOf i) 0 * 1024 ≤ (i 0).val ∧ (i 0).val < win0_1.index (pointOf i) 0 * 1024 + 1024; rw [e0, hp]; omega
  | ⟨1, _⟩ => show win0_1.index (pointOf i) 1 * 256 ≤ (i 1).val ∧ (i 1).val < win0_1.index (pointOf i) 1 * 256 + 256; rw [e1]; omega

theorem cover0_2 (i : S8192x256.Idx) :
    ∃ t : Fin cfg0.N, (cfg0.win 2).flush t = true ∧ i ∈ ((cfg0.win 2).blk t).view.set := by
  refine ⟨pointOf i, flush0_2 _, ?_⟩
  rw [mem_blk0_2]
  obtain ⟨-, -, -, -, e0, e1⟩ := idx_facts0 (pointOf i)
  have h0 := idx2_lt0 i
  have h1 := idx2_lt1 i
  have hp : (pointOf i).val = (i 0).val / 1024 := rfl
  intro a
  match a with
  | ⟨0, _⟩ => show win0_2.index (pointOf i) 0 * 1024 ≤ (i 0).val ∧ (i 0).val < win0_2.index (pointOf i) 0 * 1024 + 1024; rw [e0, hp]; omega
  | ⟨1, _⟩ => show win0_2.index (pointOf i) 1 * 256 ≤ (i 1).val ∧ (i 1).val < win0_2.index (pointOf i) 1 * 256 + 256; rw [e1]; omega

/-! ## The two arrays when the region ends -/

/-- The first output ends holding the unit rows of the input array. -/
theorem final0_1 (c : Dev nD) :
    (dat0 (F := Ideal) V c).arrAt 1 cfg0.N
      = fun i => Cert.Spec.unit (fun (p : Fin 8192) (d : Fin 256) => V c main_v0 (ix2 p d)) (i 0) (i 1) :=
  (dat0 (F := Ideal) V c).arrAt_eq_of_cover 1 (unitArr (V c main_v0)) (fun t _ => flushed0_1_eq V c t) cover0_1

/-- The second output ends holding the unit rows times the inverse temperature. -/
theorem final0_2 (c : Dev nD) :
    (dat0 (F := Ideal) V c).arrAt 2 cfg0.N
      = fun i => Cert.Spec.unit (fun (p : Fin 8192) (d : Fin 256) => V c main_v0 (ix2 p d)) (i 0) (i 1) * Cert.Spec.invTemp :=
  (dat0 (F := Ideal) V c).arrAt_eq_of_cover 2 (scaledArr (V c main_v0)) (fun t _ => flushed0_2_eq V c t) cover0_2

end Region0

end Cert.KernelIdeal.Hand

end
-- ==== Proof.KiR1Final.lean ====
/-
  Region 1's output column when the region ends, over the extended reals, from what the body leaves at each point.

  The grid is 8 × 8, point t = 8 i + j.  At point t the kernel holds row block i = t / 8 of the first operand (the
  scaled unit rows) and row block j = t % 8 of the second (the plain unit rows), and the output window's block is
  rows 1024 i … 1024 i + 1023 of the loss column.  The output is written back only at the points with j = 7, one
  per row block, and those eight blocks fill the column: row p is covered by point 8 (p / 1024) + 7.  So if what
  the body leaves at the point 8 i + 7 is, row by row, the loss of rows 1024 i …, the column ends holding every
  row's loss.

  Everything here is stated for ANY proof data of the region whose output buffer after the body is the loss
  column of the carried columns, and takes the value of that loss column as a hypothesis.
-/
import proofs.«142995_j19722489823618_2_alg».proof.Proof.Gen.KernelIdeal.Launch
import proofs.«142995_j19722489823618_2_alg».proof.Proof.Gen.KernelIdeal.Points
import proofs.«142995_j19722489823618_2_alg».proof.Proof.KiR1Defs
import proofs.«142995_j19722489823618_2_alg».proof.Proof.SpecAB
import Idealize.ShloMosaic.Lib.ValueIdx
import Idealize.ShloMosaic.Lib.Pipeline.Value

set_option maxRecDepth 16384

noncomputable section

namespace Cert.KernelIdeal.Hand.R1Final

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## Rows of a block among the 8192 rows -/

/-- Row r of row block k (k below 8) among the 8192 rows. -/
def rowOf (k : ℕ) (hk : k < 8) (r : Fin 1024) : Fin 8192 := ⟨1024 * k + r.val, by have := r.isLt; omega⟩

/-- A column of 1024 entries that is, row by row, rows 1024 k … of a column L of 8192 entries, read at a block
    index j, is L at the array index of that place. -/
theorem column_block (L : Fin 8192 → EReal) (v : Vec Ideal S1024x1 .f32) (k : ℕ) (hk : k < 8)
    (hv : ∀ r : Fin 1024, v (ix2 r (0 : Fin 1)) = L (rowOf k hk r))
    (j : S1024x1.Idx) (i : S8192x1.Idx) (hi0 : (i 0).val = 1024 * k + (j 0).val) :
    v j = L (i 0) := by
  have hj : j = ix2 (j 0) (0 : Fin 1) := by
    funext a
    match a with
    | ⟨0, _⟩ => rfl
    | ⟨1, _⟩ => exact Fin.ext (by have := idx2_lt1 j; show (j 1).val = 0; omega)
  rw [hj]
  exact (hv (j 0)).trans (congrArg L (Fin.ext hi0.symm))

/-! ## The printed index maps over the grid -/

/-- Decided over the 64 points: at point t the first operand's block is (t / 8, 0), the second's (t % 8, 0),
    the output's (t / 8, 0). -/
theorem idx_facts1 : ∀ t : Fin cfg1.N, win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0 :=
  (by decide +kernel : ∀ t : Fin grid1.N, _)

theorem N1 : cfg1.N = 64 := N_1

section Region1
variable (V : (c : Dev nD) → (b : Ref sig .tc) → Buf (Elt Ideal) ((c : Thread nD τ).loc b))

/-- The first operand's array (the scaled unit rows) as a matrix. -/
abbrev matA (c : Dev nD) : Fin 8192 → Fin 256 → EReal := fun p d => V c main_v1_1 (ix2 p d)
/-- The second operand's array (the plain unit rows) as a matrix. -/
abbrev matB (c : Dev nD) : Fin 8192 → Fin 256 → EReal := fun p d => V c main_v1_0 (ix2 p d)

/-! ## The operands' blocks as rows of their arrays -/

/-- If X n is the first operand's block at point n, its row r is row 1024 (n / 8) + r of the array. -/
theorem rows_of_blk0 (c : Dev nD) (X : ℕ → Vec Ideal S1024x256 .bf16)
    (hX : ∀ t : Fin cfg1.N, X t.val = ((cfg1.win 0).blk t).view.read (Elt Ideal) (V c (Pipeline.arrRef spec1 0)))
    (n : ℕ) (hn : n < 64) (r : Fin 1024) (d : Fin 256) :
    X n (ix2 r d) = matA V c ⟨1024 * (n / 8) + r.val, by have := r.isLt; omega⟩ d := by
  have hn' : n < cfg1.N := by rw [N1]; exact hn
  have e0 : win1_0.index ⟨n, hn'⟩ (0 : Fin 2) = n / 8 := (idx_facts1 ⟨n, hn'⟩).1
  have e1 : win1_0.index ⟨n, hn'⟩ (1 : Fin 2) = 0 := (idx_facts1 ⟨n, hn'⟩).2.1
  have h := hX ⟨n, hn'⟩
  rw [show X n = _ from h, View.read_apply]
  show V c main_v1_1 _ = V c main_v1_1 _
  congr 1
  funext a
  apply Fin.ext
  match a with
  | ⟨0, _⟩ => show win1_0.index ⟨n, hn'⟩ 0 * 1024 + 1 * r.val = 1024 * (n / 8) + r.val; rw [e0]; omega
  | ⟨1, _⟩ => show win1_0.index ⟨n, hn'⟩ 1 * 256 + 1 * d.val = d.val; rw [e1]; omega

/-- If Y n is the second operand's block at point n, its row r is row 1024 (n % 8) + r of the array. -/
theorem rows_of_blk1 (c : Dev nD) (Y : ℕ → Vec Ideal S1024x256 .bf16)
    (hY : ∀ t : Fin cfg1.N, Y t.val = ((cfg1.win 1).blk t).view.read (Elt Ideal) (V c (Pipeline.arrRef spec1 1)))
    (n : ℕ) (hn : n < 64) (r : Fin 1024) (d : Fin 256) :
    Y n (ix2 r d) = matB V c ⟨1024 * (n % 8) + r.val, by have := r.isLt; omega⟩ d := by
  have hn' : n < cfg1.N := by rw [N1]; exact hn
  have e0 : win1_1.index ⟨n, hn'⟩ (0 : Fin 2) = n % 8 := (idx_facts1 ⟨n, hn'⟩).2.2.1
  have e1 : win1_1.index ⟨n, hn'⟩ (1 : Fin 2) = 0 := (idx_facts1 ⟨n, hn'⟩).2.2.2.1
  have h := hY ⟨n, hn'⟩
  rw [show Y n = _ from h, View.read_apply]
  show V c main_v1_0 _ = V c main_v1_0 _
  congr 1
  funext a
  apply Fin.ext
  match a with
  | ⟨0, _⟩ => show win1_1.index ⟨n, hn'⟩ 0 * 1024 + 1 * r.val = 1024 * (n % 8) + r.val; rw [e0]; omega
  | ⟨1, _⟩ => show win1_1.index ⟨n, hn'⟩ 1 * 256 + 1 * d.val = d.val; rw [e1]; omega

/-! ## The loss column -/

/-- Every row's loss over the two operand arrays, as the output array's contents. -/
def lossArr (c : Dev nD) : S8192x1.Idx → EReal :=
  fun idx => Cert.Spec.lossAB Cert.Spec.partner (matA V c) (matB V c) (idx 0)

/-- What a point with j = 7 writes back is its block of the loss column, given the loss column's value at those
    points. -/
theorem flushed1_2_eq {c : Dev nD} (dat : Dat τ (Elt Ideal) Unit ℕ (UR sig nD τ) ℕ cfg1 c)
    (X Y : ℕ → Vec Ideal S1024x256 .bf16)
    (hafter : ∀ t : Fin cfg1.N, dat.after 2 t = lossOf (carriedAt X Y t.val))
    (hloss : ∀ (i : Fin 8) (r : Fin 1024), lossOf (carriedAt X Y (8 * i.val + 7)) (ix2 r (0 : Fin 1))
      = Cert.Spec.lossAB Cert.Spec.partner (matA V c) (matB V c) ⟨1024 * i.val + r.val, by have := i.isLt; have := r.isLt; omega⟩)
    (t : Fin cfg1.N) (hf : (cfg1.win 2).flush t = true) :
    dat.flushed 2 t = ((cfg1.win 2).blk t).view.read (Elt Ideal) (lossArr V c) := by
  have h7 : t.val % 8 = 7 := (flush1_2 t).mp hf
  have hN : t.val < 64 := by have h := t.isLt; have e : cfg1.N = 64 := N1; omega
  have hk : t.val / 8 < 8 := by omega
  have ht : t.val = 8 * (t.val / 8) + 7 := by omega
  obtain ⟨-, -, -, -, e0, e1⟩ := idx_facts1 t
  show (cfg1.win 2).cut (grid1.coords t) (dat.after 2 t) = _
  rw [hafter t]
  funext j
  show lossOf (carriedAt X Y t.val) j = lossArr V c (((cfg1.win 2).blk t).view.emb j)
  refine column_block (Cert.Spec.lossAB Cert.Spec.partner (matA V c) (matB V c)) (lossOf (carriedAt X Y t.val)) (t.val / 8) hk
    (fun r => ?_) j _ ?_
  · have h := hloss ⟨t.val / 8, hk⟩ r
    rw [← ht] at h
    exact h
  · show win1_2.index t 0 * 1024 + 1 * (j 0).val = 1024 * (t.val / 8) + (j 0).val; rw [e0]; omega

/-! ## The cover: row p is in the block written back at point 8 (p / 1024) + 7 -/

/-- The point that writes back row p's block. -/
def pointOf (idx : S8192x1.Idx) : Fin cfg1.N :=
  ⟨8 * ((idx 0).val / 1024) + 7, by rw [N1]; have := idx2_lt0 idx; omega⟩

theorem mem_blk1_2 (t : Fin cfg1.N) (idx : S8192x1.Idx) :
    idx ∈ ((cfg1.win 2).blk t).view.set ↔ ∀ a : Fin 2, win1_2.index t a * S1024x1.size a ≤ (idx a).val ∧ (idx a).val < win1_2.index t a * S1024x1.size a + S1024x1.size a := by
  show idx ∈ ((View.whole main_v2).slice (win1_2.rect t)).set ↔ _
  rw [View.set_slice_whole, Rect.mem_set_unit]
  exact Iff.rfl

theorem cover1_2 (idx : S8192x1.Idx) :
    ∃ t : Fin cfg1.N, (cfg1.win 2).flush t = true ∧ idx ∈ ((cfg1.win 2).blk t).view.set := by
  have hp : (pointOf idx).val = 8 * ((idx 0).val / 1024) + 7 := rfl
  refine ⟨pointOf idx, (flush1_2 _).mpr (by rw [hp]; omega), ?_⟩
  rw [mem_blk1_2]
  obtain ⟨-, -, -, -, e0, e1⟩ := idx_facts1 (pointOf idx)
  have h0 := idx2_lt0 idx
  have h1 := idx2_lt1 idx
  intro a
  match a with
  | ⟨0, _⟩ => show win1_2.index (pointOf idx) 0 * 1024 ≤ (idx 0).val ∧ (idx 0).val < win1_2.index (pointOf idx) 0 * 1024 + 1024; rw [e0, hp]; omega
  | ⟨1, _⟩ => show win1_2.index (pointOf idx) 1 * 1 ≤ (idx 1).val ∧ (idx 1).val < win1_2.index (pointOf idx) 1 * 1 + 1; rw [e1]; omega

end Region1

end Cert.KernelIdeal.Hand.R1Final

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

section Region1
variable (V : (c : Dev nD) → (b : Ref sig .tc) → Buf (Elt Ideal) ((c : Thread nD τ).loc b))

/-- The output column ends holding every row's loss, given the loss column's value at the points with j = 7. -/
theorem final1_2_of_loss {c : Dev nD} (dat : Dat τ (Elt Ideal) Unit ℕ (UR sig nD τ) ℕ cfg1 c)
    (X Y : ℕ → Vec Ideal S1024x256 .bf16)
    (hafter : ∀ t : Fin cfg1.N, dat.after 2 t = lossOf (carriedAt X Y t.val))
    (hloss : ∀ (i : Fin 8) (r : Fin 1024), lossOf (carriedAt X Y (8 * i.val + 7)) (ix2 r (0 : Fin 1))
      = Cert.Spec.lossAB Cert.Spec.partner (fun p d => V c main_v1_1 (ix2 p d)) (fun p d => V c main_v1_0 (ix2 p d))
          ⟨1024 * i.val + r.val, by have := i.isLt; have := r.isLt; omega⟩) :
    dat.arrAt 2 cfg1.N = fun idx => Cert.Spec.lossAB Cert.Spec.partner (fun p d => V c main_v1_1 (ix2 p d))
      (fun p d => V c main_v1_0 (ix2 p d)) (idx 0) :=
  dat.arrAt_eq_of_cover 2 (R1Final.lossArr V c) (R1Final.flushed1_2_eq V dat X Y hafter hloss) R1Final.cover1_2

/-- The output column ends holding every row's loss: for any proof data of the region whose arrays are the entry
    contents, whose output buffer after the body at point t is the loss column of the columns carried to t over the
    operands' blocks X, Y, and given the value of that loss column at the points 8 i + 7 for blocks that are rows
    of the two operand arrays. -/
theorem final1_2_of {c : Dev nD} (dat : Dat τ (Elt Ideal) Unit ℕ (UR sig nD τ) ℕ cfg1 c)
    (hA : ∀ w, dat.A w = V c (Pipeline.arrRef spec1 w))
    (X Y : ℕ → Vec Ideal S1024x256 .bf16)
    (hX : ∀ t : Fin cfg1.N, X t.val = ((cfg1.win 0).blk t).view.read (Elt Ideal) (V c (Pipeline.arrRef spec1 0)))
    (hY : ∀ t : Fin cfg1.N, Y t.val = ((cfg1.win 1).blk t).view.read (Elt Ideal) (V c (Pipeline.arrRef spec1 1)))
    (hafter : ∀ t : Fin cfg1.N, dat.after 2 t = lossOf (carriedAt X Y t.val))
    (hval : (∀ n (hn : n < 64) (r : Fin 1024) (d : Fin 256),
          X n (ix2 r d) = (fun p d => V c main_v1_1 (ix2 p d)) ⟨1024 * (n / 8) + r.val, by have := r.isLt; omega⟩ d) →
        (∀ n (hn : n < 64) (r : Fin 1024) (d : Fin 256),
          Y n (ix2 r d) = (fun p d => V c main_v1_0 (ix2 p d)) ⟨1024 * (n % 8) + r.val, by have := r.isLt; omega⟩ d) →
        ∀ (i : Fin 8) (r : Fin 1024), lossOf (carriedAt X Y (8 * i.val + 7)) (ix2 r (0 : Fin 1))
          = Cert.Spec.lossAB Cert.Spec.partner (fun p d => V c main_v1_1 (ix2 p d)) (fun p d => V c main_v1_0 (ix2 p d))
              ⟨1024 * i.val + r.val, by have := i.isLt; have := r.isLt; omega⟩) :
    dat.arrAt 2 cfg1.N = fun idx => Cert.Spec.lossAB Cert.Spec.partner (fun p d => V c main_v1_1 (ix2 p d))
      (fun p d => V c main_v1_0 (ix2 p d)) (idx 0) :=
  final1_2_of_loss V dat X Y hafter
    (hval (fun n hn r d => R1Final.rows_of_blk0 V c X hX n hn r d) (fun n hn r d => R1Final.rows_of_blk1 V c Y hY n hn r d))

end Region1

end Cert.KernelIdeal.Hand

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.KiR1Pay.lean ====
/-
  The second kernel's payloads read at an index, on the extended reals.

  With x the row block and y the column block (1024 rows of 256 entries each):
  the exponentiated product tile at (r, q) is exp (Σ_d x (r, d) · y (q, d)); the running row sum after a tile is
  what it was plus the tile's row sum; the masked row sum (the tile kept where row = column, zero elsewhere)
  is the tile's diagonal entry (r, r); the three reset columns are zero; and the loss column is
  − log (partner entry) + log (row sum − diagonal entry).
-/
import proofs.«142995_j19722489823618_2_alg».proof.Proof.KiR1Defs
import proofs.«142995_j19722489823618_2_alg».proof.Proof.LibMatmul
import proofs.«142995_j19722489823618_2_alg».proof.Proof.LibColumns
import Idealize.ShloMosaic.Lib.ValueIdx
import Idealize.ShloMosaic.Lib.Pipeline.Value
import Idealize.ShloMosaic.PureOps.Ideal.Laws
import Idealize.ShloMosaic.Lib.Affine

noncomputable section

open scoped BigOperators

namespace Cert.KernelIdeal.Hand

open Cert.KernelIdeal Cert.KernelIdeal.Gen
open Idealize.ShloMosaic Idealize.ShloMosaic.ValueIdx

/-- The transposed column block read at (d, q) is the block at (q, d). -/
theorem transpose_read (y : FVec Ideal S1024x256 .bf16) (d : Fin 256) (q : Fin 1024) :
    transpose S256x1024 [1, 0] y Facts₀.transposes_S1024x256_p1_0_S256x1024 (ix2 d q) = y (ix2 q d) := by
  refine transpose_apply _ y _ (ix2 d q) (ix2 q d) fun b => ?_
  match b with
  | ⟨0, _⟩ => rfl
  | ⟨1, _⟩ => rfl

/-- The exponentiated product tile at (r, q): exp of the dot product of row r of x with row q of y. -/
theorem pay4_apply (x y : FVec Ideal S1024x256 .bf16) (r q : Fin 1024) :
    k1_pay4 (F := Ideal) x y (ix2 r q) = Ideal.exp (∑ d : Fin 256, x (ix2 r d) * y (ix2 q d)) := by
  unfold k1_pay4
  simp only [shapeCast_self]
  show Ideal.exp _ = Ideal.exp _
  refine congrArg Ideal.exp ?_
  refine (matmul_zero_ix2 dot_S1024x256_S256x1024_S1024x1024_1_0_0_1_n_n rfl rfl rfl rfl rfl rfl none x _ r q).trans ?_
  exact Finset.sum_congr rfl fun d _ => by rw [transpose_read]

/-- A row sum of a 1024 × 1024 tile from the zero word, at row r: the sum along the row. -/
theorem rowSum_apply (v : FVec Ideal S1024x1024 .f32) (r : Fin 1024) :
    multiReduction (F := Ideal) .add [1] S1024 v 0x00000000#32 Facts₀.reduces_S1024x1024_S1024 (.inl rfl) rfl (ix1 r)
      = ∑ q : Fin 1024, v (ix2 r q) := by
  refine (Ideal.multiReduction_add_single v 0x00000000#32 Facts₀.reduces_S1024x1024_S1024 (.inl rfl) rfl (ix1 r)).trans ?_
  refine Finset.sum_congr rfl fun q _ => congrArg v ?_
  funext a
  apply Fin.ext
  match a with
  | ⟨0, _⟩ => rfl
  | ⟨1, _⟩ => rfl

/-- The running row sum after a tile: what it was plus the tile's row sum. -/
theorem pay5_apply (x y : FVec Ideal S1024x256 .bf16) (s : FVec Ideal S1024x1 .f32) (r : Fin 1024) :
    k1_pay5 (F := Ideal) x y s (ix2 r (0 : Fin 1))
      = s (ix2 r (0 : Fin 1)) + ∑ q : Fin 1024, k1_pay4 (F := Ideal) x y (ix2 r q) := by
  unfold k1_pay5
  simp only [shapeCast_self]
  show s (ix2 r (0 : Fin 1)) + _ = _
  rw [shapeCast_a_a1_apply, rowSum_apply]

/-- A tile masked to its diagonal, at (r, q): the entry when q = r, zero elsewhere. -/
theorem diag_select_apply (e : FVec Ideal S1024x1024 .f32) (r q : Fin 1024) :
    select (cmpi .eq (iota .tc S1024x1024 32 [0] Facts₀.iota_S1024x1024_d0_w32) (iota .tc S1024x1024 32 [1] Facts₀.iota_S1024x1024_d1_w32))
        e (broadcast S1024x1024 (Scalar.ofBits (F := Ideal) .f32 0x00000000#32)) (ix2 r q)
      = if q = r then e (ix2 r q) else 0 := by
  show Scalar.select (IntOp.cmpi .eq (iota .tc S1024x1024 32 [0] Facts₀.iota_S1024x1024_d0_w32 (ix2 r q))
      (iota .tc S1024x1024 32 [1] Facts₀.iota_S1024x1024_d1_w32 (ix2 r q))) (e (ix2 r q)) (Ideal.ofBits .f32 0x00000000#32) = _
  rw [iota_single_apply, iota_single_apply, Ideal.ofBits_zero_f32]
  show Scalar.select (IntOp.cmpi .eq (BitVec.ofNat 32 r.val) (BitVec.ofNat 32 q.val)) _ _ = _
  by_cases h : q = r
  · subst h
    rw [if_pos rfl, IntOp.cmpi_eq.mpr rfl, select_one]
  · rw [if_neg h]
    have hne : ¬ IntOp.cmpi .eq (BitVec.ofNat 32 r.val) (BitVec.ofNat 32 q.val) = 1#1 := fun hc => by
      have h1 := congrArg BitVec.toNat (IntOp.cmpi_eq.mp hc)
      rw [BitVec.toNat_ofNat, BitVec.toNat_ofNat] at h1
      have hr := r.isLt
      have hq := q.isLt
      exact h (Fin.ext (by omega))
    rw [eq_zero_of_ne_one hne, select_zero]

/-- The diagonal column of a tile: its entry (r, r). -/
theorem pay6_apply (x y : FVec Ideal S1024x256 .bf16) (r : Fin 1024) :
    k1_pay6 (F := Ideal) x y (ix2 r (0 : Fin 1)) = k1_pay4 (F := Ideal) x y (ix2 r r) := by
  unfold k1_pay6
  simp only [shapeCast_self]
  rw [shapeCast_a_a1_apply, rowSum_apply, Finset.sum_congr rfl (fun q _ => diag_select_apply _ r q),
    Finset.sum_ite_eq', if_pos (Finset.mem_univ r)]

/-- The same column, taken for the partner tile. -/
theorem pay7_apply (x y : FVec Ideal S1024x256 .bf16) (r : Fin 1024) :
    k1_pay7 (F := Ideal) x y (ix2 r (0 : Fin 1)) = k1_pay4 (F := Ideal) x y (ix2 r r) := by
  unfold k1_pay7
  simp only [shapeCast_self]
  rw [shapeCast_a_a1_apply, rowSum_apply, Finset.sum_congr rfl (fun q _ => diag_select_apply _ r q),
    Finset.sum_ite_eq', if_pos (Finset.mem_univ r)]

/-- The three reset columns are zero. -/
theorem pay1_apply (j : S1024x1.Idx) : k1_pay1 (F := Ideal) j = 0 := by
  unfold k1_pay1
  simp only [shapeCast_self]
  exact Ideal.ofBits_zero_f32

theorem pay2_apply (j : S1024x1.Idx) : k1_pay2 (F := Ideal) j = 0 := by
  unfold k1_pay2
  simp only [shapeCast_self]
  exact Ideal.ofBits_zero_f32

theorem pay3_apply (j : S1024x1.Idx) : k1_pay3 (F := Ideal) j = 0 := by
  unfold k1_pay3
  simp only [shapeCast_self]
  exact Ideal.ofBits_zero_f32

/-- The loss column from the partner entry p, the diagonal entry d and the row sum s. -/
theorem pay8_apply (p d s : FVec Ideal S1024x1 .f32) (j : S1024x1.Idx) :
    k1_pay8 (F := Ideal) p d s j = - Ideal.log (p j) + Ideal.log (s j - d j) := by
  unfold k1_pay8
  show (Ideal.ofBits .f32 0x00000000#32 - Ideal.log (p j)) + Ideal.log (s j - d j) = _
  rw [Ideal.ofBits_zero_f32, zero_sub]

end Cert.KernelIdeal.Hand

end
-- ==== Proof.LibRealEntries.lean ====
import Mathlib.Data.EReal.Operations
import Mathlib.Data.EReal.Inv
import Mathlib.Algebra.BigOperators.Fin
import Mathlib.Logic.Equiv.Fin.Basic

/-! # Extended reals that are real numbers

The extended reals are not a ring: `⊤ + ⊥ = ⊥` breaks distributivity. Among the entries that are REAL numbers the
usual laws hold again. This file collects what a proof about finite sums of real entries needs:

* the real entries are closed under `0`, `1`, the cast of a natural number, `+`, `-`, `*` and finite sums;
* a finite sum of casts is the cast of the sum;
* among real entries a factor distributes over a sum, and a real factor `g` sitting inside every term of a finite
  sum of real products `(a i * g) * u i` can be pulled out: the sum is `(∑ a i * u i) * g`;
* a sum over `Fin (m * n)` is the double sum over `Fin m` and `Fin n` along `(p, q) ↦ q + n * p`. -/

namespace Cert.LibRealEntries

/-- An extended real that is a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real entries is a real entry. -/
theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- A finite sum of casts is the cast of the sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Among real entries a factor distributes over a sum. -/
theorem add_mul_of_isReal {x y g : EReal} (hx : IsReal x) (hy : IsReal y) (hg : IsReal g) :
    (x + y) * g = x * g + y * g := by
  obtain ⟨a, rfl⟩ := hx
  obtain ⟨b, rfl⟩ := hy
  obtain ⟨c, rfl⟩ := hg
  rw [← EReal.coe_add, ← EReal.coe_mul, ← EReal.coe_mul, ← EReal.coe_mul, ← EReal.coe_add, add_mul]

/-- A real factor `g` inside every term of a finite sum of real products comes out of the sum. -/
theorem sum_mul_mul_eq {ι : Type*} (s : Finset ι) (a u : ι → EReal) (g : EReal)
    (ha : ∀ i ∈ s, IsReal (a i)) (hu : ∀ i ∈ s, IsReal (u i)) (hg : IsReal g) :
    ∑ i ∈ s, (a i * g) * u i = (∑ i ∈ s, a i * u i) * g := by
  classical
  induction s using Finset.induction_on with
  | empty => simp
  | insert j s hj ih =>
    have hs : IsReal (∑ i ∈ s, a i * u i) :=
      IsReal.sum s _ fun i hi => (ha i (Finset.mem_insert_of_mem hi)).mul (hu i (Finset.mem_insert_of_mem hi))
    rw [Finset.sum_insert hj, Finset.sum_insert hj,
      ih (fun i hi => ha i (Finset.mem_insert_of_mem hi)) (fun i hi => hu i (Finset.mem_insert_of_mem hi)),
      add_mul_of_isReal ((ha j (Finset.mem_insert_self j s)).mul (hu j (Finset.mem_insert_self j s))) hs hg,
      show a j * g * u j = a j * u j * g from mul_right_comm (a j) g (u j)]

/-- A sum over `Fin (m * n)` is the double sum over `Fin m` and `Fin n`, entry `(p, q)` at `q + n * p`. -/
theorem sum_fin_mul {M : Type*} [AddCommMonoid M] {m n : Nat} (f : Fin (m * n) → M) :
    ∑ k, f k = ∑ p : Fin m, ∑ q : Fin n, f (finProdFinEquiv (p, q)) := by
  rw [← finProdFinEquiv.sum_comp, Fintype.sum_prod_type]

end Cert.LibRealEntries
-- ==== Proof.KiR1Value.lean ====
/-
  What the second kernel's three carried columns hold along one row of tiles, and the loss it stores at the
  row's last tile.

  Write e p q = exp (Σ_d A p d · B q d), with A the rows the kernel holds as its row blocks and B the rows it holds
  as its column blocks.  Along row tile i, after column tile j, row r of the block (global row p = 1024·i + r) holds:
  the sum of e p q over the columns q below 1024·(j + 1); e p p once j has reached i; and e p (partner p) once
  j has reached the partner tile of i.  At j = 7 the three are the full row sum, the diagonal entry and the partner
  entry, and the stored value is the row's loss.
-/
import proofs.«142995_j19722489823618_2_alg».proof.Proof.KiR1Pay
import proofs.«142995_j19722489823618_2_alg».proof.Proof.SpecAB
import proofs.«142995_j19722489823618_2_alg».proof.Proof.LibRealEntries

noncomputable section

open scoped BigOperators

namespace Cert.KernelIdeal.Hand

open Cert.KernelIdeal Cert.KernelIdeal.Gen
open Idealize.ShloMosaic Idealize.ShloMosaic.ValueIdx

/-! ## One grid point, component by component -/

/-- The running row sum after a point: zero at the first column tile, the carried sum elsewhere, plus the tile's row sum. -/
theorem step_sum (i j : ℕ) (x y : Vec Ideal S1024x256 .bf16) (s : Carried Ideal) (r : Fin 1024) :
    (step i j x y s).1 (ix2 r (0 : Fin 1))
      = (if j = 0 then 0 else s.1 (ix2 r (0 : Fin 1))) + ∑ q : Fin 1024, k1_pay4 (F := Ideal) x y (ix2 r q) := by
  unfold step
  show k1_pay5 (F := Ideal) x y (if j = 0 then carriedZero else s).1 (ix2 r (0 : Fin 1)) = _
  rw [pay5_apply]
  refine congrArg (· + _) ?_
  by_cases hj : j = 0
  · rw [if_pos hj, if_pos hj]; exact pay1_apply (ix2 r (0 : Fin 1))
  · rw [if_neg hj, if_neg hj]

/-- The diagonal column after a point: the tile's diagonal at j = i, otherwise zero at the first column tile and
    the carried column elsewhere. -/
theorem step_diag (i j : ℕ) (x y : Vec Ideal S1024x256 .bf16) (s : Carried Ideal) (r : Fin 1024) :
    (step i j x y s).2.1 (ix2 r (0 : Fin 1))
      = if j = i then k1_pay4 (F := Ideal) x y (ix2 r r) else if j = 0 then 0 else s.2.1 (ix2 r (0 : Fin 1)) := by
  unfold step
  show (if j = i then k1_pay6 (F := Ideal) x y else (if j = 0 then carriedZero else s).2.1) (ix2 r (0 : Fin 1)) = _
  by_cases hji : j = i
  · rw [if_pos hji, if_pos hji]; exact pay6_apply x y r
  · rw [if_neg hji, if_neg hji]
    by_cases hj : j = 0
    · rw [if_pos hj, if_pos hj]; exact pay2_apply (ix2 r (0 : Fin 1))
    · rw [if_neg hj, if_neg hj]

/-- The partner column after a point: the tile's diagonal at the partner tile, otherwise zero at the first column
    tile and the carried column elsewhere. -/
theorem step_partner (i j : ℕ) (x y : Vec Ideal S1024x256 .bf16) (s : Carried Ideal) (r : Fin 1024) :
    (step i j x y s).2.2 (ix2 r (0 : Fin 1))
      = if j = partnerTile i then k1_pay4 (F := Ideal) x y (ix2 r r) else if j = 0 then 0 else s.2.2 (ix2 r (0 : Fin 1)) := by
  unfold step
  show (if j = partnerTile i then k1_pay7 (F := Ideal) x y else (if j = 0 then carriedZero else s).2.2) (ix2 r (0 : Fin 1)) = _
  by_cases hji : j = partnerTile i
  · rw [if_pos hji, if_pos hji]; exact pay7_apply x y r
  · rw [if_neg hji, if_neg hji]
    by_cases hj : j = 0
    · rw [if_pos hj, if_pos hj]; exact pay3_apply (ix2 r (0 : Fin 1))
    · rw [if_neg hj, if_neg hj]

/-- Every point is one step from the point before (from the reset columns at the first point). -/
theorem carriedAt_step (X Y : ℕ → Vec Ideal S1024x256 .bf16) (n : ℕ) :
    carriedAt X Y n = step (n / 8) (n % 8) (X n) (Y n) (if n = 0 then carriedZero else carriedAt X Y (n - 1)) := by
  cases n with
  | zero => rfl
  | succ m => rfl

/-! ## The entries with the column a natural number -/

section Entries
variable (A B : Fin 8192 → Fin 256 → EReal)

/-- e p m with the column m a natural number (zero past the last column). -/
def eN (p : Fin 8192) (m : ℕ) : EReal := if h : m < 8192 then Cert.Spec.expAB A B p ⟨m, h⟩ else 0

theorem eN_val (p q : Fin 8192) : eN A B p q.val = Cert.Spec.expAB A B p q := by
  unfold eN
  rw [dif_pos q.isLt]

/-- The row sum of e p · is the sum over the 8 column tiles of the tiles' row sums. -/
theorem sum_tiles (p : Fin 8192) :
    ∑ q : Fin 8192, Cert.Spec.expAB A B p q = ∑ j ∈ Finset.range 8, ∑ q : Fin 1024, eN A B p (1024 * j + q.val) := by
  rw [Finset.sum_range]
  refine (Finset.sum_congr rfl fun q _ => (eN_val A B p q).symm).trans ?_
  refine (Cert.LibRealEntries.sum_fin_mul (m := 8) (n := 1024) (fun k => eN A B p k.val)).trans ?_
  refine Finset.sum_congr rfl fun j _ => Finset.sum_congr rfl fun q _ => congrArg (eN A B p) ?_
  show q.val + 1024 * j.val = 1024 * j.val + q.val
  omega

variable (X Y : ℕ → Vec Ideal S1024x256 .bf16)

/-- The tile at point n = 8·i + j, at (r, q): e (1024·i + r) (1024·j + q). -/
theorem tile_apply
    (hX : ∀ n (hn : n < 64) (r : Fin 1024) (d : Fin 256), X n (ix2 r d) = A ⟨1024 * (n / 8) + r.val, by omega⟩ d)
    (hY : ∀ n (hn : n < 64) (r : Fin 1024) (d : Fin 256), Y n (ix2 r d) = B ⟨1024 * (n % 8) + r.val, by omega⟩ d)
    (n i j : ℕ) (hi : i < 8) (hj : j < 8) (hn : n = 8 * i + j) (r q : Fin 1024) :
    k1_pay4 (F := Ideal) (X n) (Y n) (ix2 r q) = eN A B ⟨1024 * i + r.val, by omega⟩ (1024 * j + q.val) := by
  have hn64 : n < 64 := by omega
  have hq := q.isLt
  have hr := r.isLt
  unfold eN
  rw [dif_pos (by omega : 1024 * j + q.val < 8192), pay4_apply]
  unfold Cert.Spec.expAB
  refine congrArg Ideal.exp (Finset.sum_congr rfl fun d _ => ?_)
  rw [hX n hn64 r d, hY n hn64 q d]
  have ha : (⟨1024 * (n / 8) + r.val, by omega⟩ : Fin 8192) = ⟨1024 * i + r.val, by omega⟩ :=
    Fin.ext (by show 1024 * (n / 8) + r.val = 1024 * i + r.val; omega)
  have hb : (⟨1024 * (n % 8) + q.val, by omega⟩ : Fin 8192) = ⟨1024 * j + q.val, by omega⟩ :=
    Fin.ext (by show 1024 * (n % 8) + q.val = 1024 * j + q.val; omega)
  rw [ha, hb]

/-- Along row tile i, after column tile j, row r of the three carried columns. -/
theorem carried_row
    (hX : ∀ n (hn : n < 64) (r : Fin 1024) (d : Fin 256), X n (ix2 r d) = A ⟨1024 * (n / 8) + r.val, by omega⟩ d)
    (hY : ∀ n (hn : n < 64) (r : Fin 1024) (d : Fin 256), Y n (ix2 r d) = B ⟨1024 * (n % 8) + r.val, by omega⟩ d)
    (i : ℕ) (hi : i < 8) (r : Fin 1024) (hlt : 1024 * i + r.val < 8192) (j : ℕ) (hj : j < 8) :
    (carriedAt X Y (8 * i + j)).1 (ix2 r (0 : Fin 1))
        = ∑ j' ∈ Finset.range (j + 1), ∑ q : Fin 1024, eN A B ⟨1024 * i + r.val, hlt⟩ (1024 * j' + q.val)
      ∧ (carriedAt X Y (8 * i + j)).2.1 (ix2 r (0 : Fin 1)) = (if i ≤ j then eN A B ⟨1024 * i + r.val, hlt⟩ (1024 * i + r.val) else 0)
      ∧ (carriedAt X Y (8 * i + j)).2.2 (ix2 r (0 : Fin 1))
        = (if partnerTile i ≤ j then eN A B ⟨1024 * i + r.val, hlt⟩ (1024 * partnerTile i + r.val) else 0) := by
  have hr := r.isLt
  induction j with
  | zero =>
    have h1 : (8 * i + 0) / 8 = i := by omega
    have h2 : (8 * i + 0) % 8 = 0 := by omega
    rw [carriedAt_step, h1, h2]
    refine ⟨?_, ?_, ?_⟩
    · rw [step_sum, if_pos rfl, zero_add, Finset.sum_range_one]
      exact Finset.sum_congr rfl fun q _ => tile_apply A B X Y hX hY _ i 0 hi hj rfl r q
    · rw [step_diag]
      by_cases h0 : 0 = i
      · rw [if_pos h0, if_pos (by omega : i ≤ 0), tile_apply A B X Y hX hY _ i 0 hi hj rfl r r]
        subst h0; rfl
      · rw [if_neg h0, if_pos rfl, if_neg (by omega : ¬ i ≤ 0)]
    · rw [step_partner]
      by_cases h0 : 0 = partnerTile i
      · rw [if_pos h0, if_pos (by omega : partnerTile i ≤ 0), tile_apply A B X Y hX hY _ i 0 hi hj rfl r r, ← h0]
      · rw [if_neg h0, if_pos rfl, if_neg (by omega : ¬ partnerTile i ≤ 0)]
  | succ j ih =>
    obtain ⟨ihS, ihD, ihP⟩ := ih (by omega)
    have h1 : (8 * i + (j + 1)) / 8 = i := by omega
    have h2 : (8 * i + (j + 1)) % 8 = j + 1 := by omega
    have h3 : ¬ (8 * i + (j + 1) = 0) := by omega
    have h4 : 8 * i + (j + 1) - 1 = 8 * i + j := by omega
    have hj0 : ¬ (j + 1 = 0) := by omega
    rw [carriedAt_step, h1, h2, if_neg h3, h4]
    refine ⟨?_, ?_, ?_⟩
    · rw [step_sum, if_neg hj0, ihS, Finset.sum_range_succ _ (j + 1)]
      refine congrArg (_ + ·) ?_
      exact Finset.sum_congr rfl fun q _ => tile_apply A B X Y hX hY _ i (j + 1) hi hj rfl r q
    · rw [step_diag, ihD]
      by_cases hji : j + 1 = i
      · rw [if_pos hji, if_pos (by omega : i ≤ j + 1), tile_apply A B X Y hX hY _ i (j + 1) hi hj rfl r r, hji]
      · rw [if_neg hji, if_neg hj0]
        by_cases hle : i ≤ j
        · rw [if_pos hle, if_pos (by omega : i ≤ j + 1)]
        · rw [if_neg hle, if_neg (by omega : ¬ i ≤ j + 1)]
    · rw [step_partner, ihP]
      by_cases hji : j + 1 = partnerTile i
      · rw [if_pos hji, if_pos (by omega : partnerTile i ≤ j + 1), tile_apply A B X Y hX hY _ i (j + 1) hi hj rfl r r, hji]
      · rw [if_neg hji, if_neg hj0]
        by_cases hle : partnerTile i ≤ j
        · rw [if_pos hle, if_pos (by omega : partnerTile i ≤ j + 1)]
        · rw [if_neg hle, if_neg (by omega : ¬ partnerTile i ≤ j + 1)]

/-- The loss column the kernel stores at the last tile of row tile i is the rows' loss. -/
theorem lossOf_carriedAt
    (hX : ∀ n (hn : n < 64) (r : Fin 1024) (d : Fin 256), X n (ix2 r d) = A ⟨1024 * (n / 8) + r.val, by omega⟩ d)
    (hY : ∀ n (hn : n < 64) (r : Fin 1024) (d : Fin 256), Y n (ix2 r d) = B ⟨1024 * (n % 8) + r.val, by omega⟩ d)
    (i : Fin 8) (r : Fin 1024) :
    lossOf (carriedAt X Y (8 * i.val + 7)) (ix2 r (0 : Fin 1))
      = Cert.Spec.lossAB Cert.Spec.partner A B ⟨1024 * i.val + r.val, by omega⟩ := by
  have hi := i.isLt
  have hr := r.isLt
  obtain ⟨hS, hD, hP⟩ := carried_row A B X Y hX hY i.val hi r (by omega) 7 (by omega)
  have hpt : partnerTile i.val ≤ 7 := by unfold partnerTile; split <;> omega
  rw [if_pos (by omega : i.val ≤ 7)] at hD
  rw [if_pos hpt] at hP
  unfold lossOf
  rw [pay8_apply, hS, hD, hP]
  unfold Cert.Spec.lossAB
  rw [sum_tiles A B, ← eN_val A B _ (Cert.Spec.partner _), ← eN_val A B ⟨1024 * i.val + r.val, by omega⟩ ⟨1024 * i.val + r.val, by omega⟩]
  have hpv : (Cert.Spec.partner ⟨1024 * i.val + r.val, by omega⟩).val = 1024 * partnerTile i.val + r.val := by
    show (1024 * i.val + r.val + 4096) % 8192 = _
    unfold partnerTile
    split <;> omega
  rw [hpv]

/-- The same at a grid point t that ends a row of tiles (t % 8 = 7): the rows' loss at row tile t / 8. -/
theorem lossOf_carriedAt_point
    (hX : ∀ n (hn : n < 64) (r : Fin 1024) (d : Fin 256), X n (ix2 r d) = A ⟨1024 * (n / 8) + r.val, by omega⟩ d)
    (hY : ∀ n (hn : n < 64) (r : Fin 1024) (d : Fin 256), Y n (ix2 r d) = B ⟨1024 * (n % 8) + r.val, by omega⟩ d)
    (t : ℕ) (ht : t < 64) (h7 : t % 8 = 7) (r : Fin 1024) :
    lossOf (carriedAt X Y t) (ix2 r (0 : Fin 1))
      = Cert.Spec.lossAB Cert.Spec.partner A B ⟨1024 * (t / 8) + r.val, by omega⟩ := by
  have e : t = 8 * (⟨t / 8, by omega⟩ : Fin 8).val + 7 := by show t = 8 * (t / 8) + 7; omega
  have h := lossOf_carriedAt A B X Y hX hY ⟨t / 8, by omega⟩ r
  rw [← e] at h
  exact h

end Entries

end Cert.KernelIdeal.Hand

end
-- ==== Proof.KiFinal.lean ====
/-
  What the loss column holds when the second region ends: row p of the output array is the loss of row p over the
  scaled unit rows (the region's first input array) and the plain unit rows (its second), since the block written
  back at the last column tile of row tile i is the loss computed from the three columns carried across that row of
  tiles.
-/
import proofs.«142995_j19722489823618_2_alg».proof.Proof.KiR1Data
import proofs.«142995_j19722489823618_2_alg».proof.Proof.KiR1Final
import proofs.«142995_j19722489823618_2_alg».proof.Proof.KiR1Value

noncomputable section

namespace Cert.KernelIdeal.Hand

open Cert.KernelIdeal Cert.KernelIdeal.Gen
open Idealize.ShloMosaic Idealize.ShloMosaic.TcCoe
open Idealize.ShloMosaic.Pipeline (Dat)

variable (V : (c : Dev nD) → (b : Ref sig .tc) → Buf (Elt Ideal) ((c : Thread nD τ).loc b))

theorem rowBlk_at (c : Dev nD) (t : Fin cfg1.N) :
    rowBlk V c t.val = ((cfg1.win 0).blk t).view.read (Elt Ideal) (V c (Pipeline.arrRef spec1 0)) := by
  unfold rowBlk; rw [dif_pos t.isLt]; rfl

theorem colBlk_at (c : Dev nD) (t : Fin cfg1.N) :
    colBlk V c t.val = ((cfg1.win 1).blk t).view.read (Elt Ideal) (V c (Pipeline.arrRef spec1 1)) := by
  unfold colBlk; rw [dif_pos t.isLt]; rfl

theorem final1_2 (c : Dev nD) :
    (dat1 (F := Ideal) V c).arrAt 2 cfg1.N
      = fun idx => Cert.Spec.lossAB Cert.Spec.partner (fun p d => V c main_v1_1 (ValueIdx.ix2 p d))
          (fun p d => V c main_v1_0 (ValueIdx.ix2 p d)) (idx 0) :=
  final1_2_of V (dat1 V c) (A_eq1 V c) (rowBlk V c) (colBlk V c) (rowBlk_at V c) (colBlk_at V c) (after1_2 V c)
    (lossOf_carriedAt (fun p d => V c main_v1_1 (ValueIdx.ix2 p d)) (fun p d => V c main_v1_0 (ValueIdx.ix2 p d))
      (rowBlk V c) (colBlk V c))

end Cert.KernelIdeal.Hand

end
-- ==== Proof.LibAlignedLines.lean ====
/- Folds of straight lines of host operations in which every operation writes one reference of its own.
   If, position by position, the operations of a line write exactly the references of a list `W`, then the fold
   `after` of the line at a reference is decided by where the reference stands in `W`: a reference `W` does not hold
   keeps its contents; a reference not in `W` from position `j` on has, after the first `j` operations, already its
   final contents; and the reference at position `j`, if it does not occur again later, ends at the value operation `j`
   gives it from the contents after the first `j` operations. For the builders this reads each result as its function
   applied to the final contents of its operands. -/
import Idealize.ShloMosaic.Lib.StableHlo.Run

noncomputable section

namespace Idealize.ShloMosaic.StableHlo.AlignedLines

open Idealize.ShloMosaic Idealize.SL.Sem Idealize.ShloMosaic.StableHlo

variable {τ : Topo} {sig : RefSig} {Val : EltTy → Type}

/-- The fold over two lines, one after the other, is the second's fold over the first's. -/
theorem fold_append (l₁ l₂ : List (HloOp τ sig Val)) (V : Valuation τ sig Val) :
    after (l₁ ++ l₂) V = after l₂ (after l₁ V) := by
  induction l₁ generalizing V with
  | nil => rfl
  | cons op l ih => exact ih (op.result V)

/-- Position by position, the operations of `l` write exactly the references of `W`. -/
def Aligned (l : List (HloOp τ sig Val)) (W : List (Ref sig .tc)) : Prop :=
  List.Forall₂ (fun op w => op.writes = {Proc.devRef (τ := τ) .tc w}) l W

namespace Aligned

variable {l l₁ l₂ : List (HloOp τ sig Val)} {W W₁ W₂ : List (Ref sig .tc)}

theorem append (h₁ : Aligned l₁ W₁) (h₂ : Aligned l₂ W₂) : Aligned (l₁ ++ l₂) (W₁ ++ W₂) := List.rel_append h₁ h₂

theorem drop (n : Nat) (h : Aligned l W) : Aligned (l.drop n) (W.drop n) := List.forall₂_drop n h

/-- A reference the line does not write keeps its contents. -/
theorem after_of_not_mem (h : Aligned l W) (V : Valuation τ sig Val) {x : Ref sig .tc} (hx : x ∉ W) :
    after l V (Proc.devRef .tc x) = V (Proc.devRef .tc x) := by
  induction h generalizing V with
  | nil => rfl
  | @cons op w l W hw _ ih =>
    rw [after_cons, ih _ (fun hm => hx (List.mem_cons_of_mem _ hm)), op.result_of_not_mem V]
    rw [hw, Finset.mem_singleton]
    intro e
    exact hx (Proc.devRef_injective _ e ▸ List.mem_cons_self)

/-- A reference not written from position `j` on has its final contents after the first `j` operations. -/
theorem after_take (h : Aligned l W) (V : Valuation τ sig Val) (j : Nat) {x : Ref sig .tc} (hx : x ∉ W.drop j) :
    after (l.take j) V (Proc.devRef .tc x) = after l V (Proc.devRef .tc x) := by
  conv_rhs => rw [← List.take_append_drop j l, fold_append]
  exact ((h.drop j).after_of_not_mem _ hx).symm

/-- The reference operation `j` writes, if no later one writes it, ends at what operation `j` gives it. -/
theorem after_at (h : Aligned l W) (V : Valuation τ sig Val) (j : Nat) {op : HloOp τ sig Val} {w : Ref sig .tc}
    (hop : l[j]? = some op) (hw : w ∉ W.drop (j + 1)) :
    after l V (Proc.devRef .tc w) = op.result (after (l.take j) V) (Proc.devRef .tc w) := by
  obtain ⟨hj, rfl⟩ := List.getElem?_eq_some_iff.mp hop
  conv_lhs => rw [← List.take_append_drop j l, fold_append, List.drop_eq_getElem_cons hj, after_cons]
  exact (h.drop (j + 1)).after_of_not_mem _ hw

/-! The same, builder by builder: the result is the builder's function at the final contents of its operands. -/

theorem nullary_at (h : Aligned l W) (V : Valuation τ sig Val) (j : Nat) {y : Ref sig .tc} {v : y.ty.Contents Val} {hy}
    (hop : l[j]? = some (nullary y v hy)) (hy' : y ∉ W.drop (j + 1)) :
    after l V (Proc.devRef .tc y) = v := by
  rw [h.after_at V j hop hy', nullary_result]

theorem unary_at (h : Aligned l W) (V : Valuation τ sig Val) (j : Nat) {x y : Ref sig .tc}
    {f : x.ty.Contents Val → y.ty.Contents Val} {hx hy}
    (hop : l[j]? = some (unary x y f hx hy)) (hy' : y ∉ W.drop (j + 1)) (hx' : x ∉ W.drop j) :
    after l V (Proc.devRef .tc y) = f (after l V (Proc.devRef .tc x)) := by
  rw [h.after_at V j hop hy', unary_result, h.after_take V j hx']

theorem binary_at (h : Aligned l W) (V : Valuation τ sig Val) (j : Nat) {a b y : Ref sig .tc}
    {f : a.ty.Contents Val → b.ty.Contents Val → y.ty.Contents Val} {ha hb hy}
    (hop : l[j]? = some (binary a b y f ha hb hy)) (hy' : y ∉ W.drop (j + 1)) (ha' : a ∉ W.drop j) (hb' : b ∉ W.drop j) :
    after l V (Proc.devRef .tc y) = f (after l V (Proc.devRef .tc a)) (after l V (Proc.devRef .tc b)) := by
  rw [h.after_at V j hop hy', binary_result, h.after_take V j ha', h.after_take V j hb']

theorem ternary_at (h : Aligned l W) (V : Valuation τ sig Val) (j : Nat) {c a b y : Ref sig .tc}
    {f : c.ty.Contents Val → a.ty.Contents Val → b.ty.Contents Val → y.ty.Contents Val} {hc ha hb hy}
    (hop : l[j]? = some (ternary c a b y f hc ha hb hy)) (hy' : y ∉ W.drop (j + 1))
    (hc' : c ∉ W.drop j) (ha' : a ∉ W.drop j) (hb' : b ∉ W.drop j) :
    after l V (Proc.devRef .tc y)
      = f (after l V (Proc.devRef .tc c)) (after l V (Proc.devRef .tc a)) (after l V (Proc.devRef .tc b)) := by
  rw [h.after_at V j hop hy', ternary_result, h.after_take V j hc', h.after_take V j ha', h.after_take V j hb']

theorem nary_at (h : Aligned l W) (V : Valuation τ sig Val) (j : Nat) {n : Nat} {xs : Fin n → Ref sig .tc} {y : Ref sig .tc}
    {f : ((k : Fin n) → (xs k).ty.Contents Val) → y.ty.Contents Val} {hxs hy}
    (hop : l[j]? = some (nary xs y f hxs hy)) (hy' : y ∉ W.drop (j + 1)) (hxs' : ∀ k, xs k ∉ W.drop j) :
    after l V (Proc.devRef .tc y) = f (fun k => after l V (Proc.devRef .tc (xs k))) := by
  rw [h.after_at V j hop hy', nary_result]
  exact congrArg f (funext fun k => h.after_take V j (hxs' k))

theorem reshape_at (h : Aligned l W) (V : Valuation τ sig Val) (j : Nat) {x y : Ref sig .tc}
    {he : x.ty.elt = y.ty.elt} {hn : x.ty.shape.ShapeCasts y.ty.shape} {hx hy}
    (hop : l[j]? = some (reshape (Val := Val) x y he hn hx hy)) (hy' : y ∉ W.drop (j + 1)) (hx' : x ∉ W.drop j) :
    after l V (Proc.devRef .tc y) = fun i => he ▸ shapeCast y.ty.shape (after l V (Proc.devRef .tc x)) hn i := by
  rw [h.after_at V j hop hy', reshape_result, h.after_take V j hx']

end Aligned

end Idealize.ShloMosaic.StableHlo.AlignedLines

end
-- ==== Proof.LibTypedLines.lean ====
/-
  Straight lines of host operations written through TYPED references.

  A typed reference is a buffer together with the fact that its type is a given value type; the typed builders
  transport contents along that fact when they read an operand and when they write the result. For a line in which
  operation `j` writes exactly reference `j` of a list `W` (the aligned lines of `LibAlignedLines`), the final
  contents of the result, READ AT ITS VALUE TYPE, are the operation's function of the final contents of the operands
  read at theirs: the transports stand outside the function, on single buffers. The type facts are equations whose
  one side is a variable, so they are substituted away and each statement is the untyped one.
-/
import proofs.«142995_j19722489823618_2_alg».proof.Proof.LibAlignedLines

noncomputable section

namespace Idealize.ShloMosaic.StableHlo.AlignedLines

open Idealize.ShloMosaic Idealize.SL.Sem Idealize.ShloMosaic.StableHlo

variable {τ : Topo} {sig : RefSig} {Val : EltTy → Type}
variable {l : List (HloOp τ sig Val)} {W : List (Ref sig .tc)}

/-- A typed two-operand operation at position `j`: its result, read at its value type, is the function of the
    operands' final contents read at theirs. -/
theorem Aligned.tbinary_at (h : Aligned l W) (V : Valuation τ sig Val) (j : Nat) {Ta Tb Ty : BufTy}
    (a : TRef sig Ta) (b : TRef sig Tb) (y : TRef sig Ty) (f : Ta.Contents Val → Tb.Contents Val → Ty.Contents Val)
    (hop : l[j]? = some (TRef.binary a b y f)) (hy' : y.ref ∉ W.drop (j + 1)) (ha' : a.ref ∉ W.drop j) (hb' : b.ref ∉ W.drop j) :
    y.ofBuf (after l V (Proc.devRef .tc y.ref))
      = f (a.ofBuf (after l V (Proc.devRef .tc a.ref))) (b.ofBuf (after l V (Proc.devRef .tc b.ref))) := by
  obtain ⟨ra, rfl, _, _⟩ := a
  obtain ⟨rb, rfl, _, _⟩ := b
  obtain ⟨ry, rfl, _, _⟩ := y
  exact h.binary_at V j hop hy' ha' hb'

/-- A typed three-operand operation at position `j`, likewise. -/
theorem Aligned.tternary_at (h : Aligned l W) (V : Valuation τ sig Val) (j : Nat) {Tc Ta Tb Ty : BufTy}
    (c : TRef sig Tc) (a : TRef sig Ta) (b : TRef sig Tb) (y : TRef sig Ty)
    (f : Tc.Contents Val → Ta.Contents Val → Tb.Contents Val → Ty.Contents Val)
    (hop : l[j]? = some (TRef.ternary c a b y f)) (hy' : y.ref ∉ W.drop (j + 1))
    (hc' : c.ref ∉ W.drop j) (ha' : a.ref ∉ W.drop j) (hb' : b.ref ∉ W.drop j) :
    y.ofBuf (after l V (Proc.devRef .tc y.ref))
      = f (c.ofBuf (after l V (Proc.devRef .tc c.ref))) (a.ofBuf (after l V (Proc.devRef .tc a.ref)))
          (b.ofBuf (after l V (Proc.devRef .tc b.ref))) := by
  obtain ⟨rc, rfl, _, _⟩ := c
  obtain ⟨ra, rfl, _, _⟩ := a
  obtain ⟨rb, rfl, _, _⟩ := b
  obtain ⟨ry, rfl, _, _⟩ := y
  exact h.ternary_at V j hop hy' hc' ha' hb'

/-- A typed one-operand operation at position `j`, likewise. -/
theorem Aligned.tunary_at (h : Aligned l W) (V : Valuation τ sig Val) (j : Nat) {Tx Ty : BufTy}
    (x : TRef sig Tx) (y : TRef sig Ty) (f : Tx.Contents Val → Ty.Contents Val)
    (hop : l[j]? = some (TRef.unary x y f)) (hy' : y.ref ∉ W.drop (j + 1)) (hx' : x.ref ∉ W.drop j) :
    y.ofBuf (after l V (Proc.devRef .tc y.ref)) = f (x.ofBuf (after l V (Proc.devRef .tc x.ref))) := by
  obtain ⟨rx, rfl, _, _⟩ := x
  obtain ⟨ry, rfl, _, _⟩ := y
  exact h.unary_at V j hop hy' hx'

end Idealize.ShloMosaic.StableHlo.AlignedLines

end
-- ==== Proof.RefRunOps.lean ====
/-
  The reference program's @main as one straight line of host operations: the three calls of module-local
  functions unfolded at their call sites over the buffers of each call's record, in the printed order.
  Operation j (from 0) writes buffer j + 2; buffers 0 and 1 are the two arguments, which no operation writes.
-/
import proofs.«142995_j19722489823618_2_alg».proof.Proof.Gen.ReferenceIdeal
import Idealize.ShloMosaic.Lib.StableHlo.Run
import proofs.«142995_j19722489823618_2_alg».proof.Proof.LibTypedLines

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.StableHlo.AlignedLines

variable {F : FTy → Type} [FloatOps F]

/-- The first window's 88 operations: both row-norm calls and the remainder call unfolded. -/
abbrev ops0 : List (HloOp τ sig (Elt F)) :=
  [ StableHlo.TRef.binary (.of main_arg0 : TRef sig ⟨S4096x256, .f32⟩) (.of main_arg0 : TRef sig ⟨S4096x256, .f32⟩) main_call0.v0 mulf,
    StableHlo.TRef.nullary main_call0.cst (constant S_ .f32 0x00000000#32),
    StableHlo.TRef.binary main_call0.v0 main_call0.cst main_call0.v1 (fun x v => Host.reduceAdd x v reducesTo_S4096x256_S4096_d1 h_S_),
    StableHlo.TRef.unary main_call0.v1 main_call0.v2 (broadcastInDim S4096x1 ![0] bcast_S4096_S4096x1_0),
    StableHlo.TRef.unary main_call0.v2 main_call0.v3 Host.sqrt,
    StableHlo.nullary main_cst (constant S_ .f32 0x2B8CBCCC#32),
    StableHlo.unary main_cst main_v1 (broadcastInDim S4096x1 ![] bcast_S_S4096x1 : (⟨S_, .f32⟩ : BufTy).Contents (Elt F) → (⟨S4096x1, .f32⟩ : BufTy).Contents (Elt F)),
    StableHlo.binary main_v0 main_v1 main_v2 (maximumf : (⟨S4096x1, .f32⟩ : BufTy).Contents (Elt F) → (⟨S4096x1, .f32⟩ : BufTy).Contents (Elt F) → (⟨S4096x1, .f32⟩ : BufTy).Contents (Elt F)),
    StableHlo.unary main_v2 main_v3 (broadcastInDim S4096x256 ![0, 1] bcast_S4096x1_S4096x256_0_1 : (⟨S4096x1, .f32⟩ : BufTy).Contents (Elt F) → (⟨S4096x256, .f32⟩ : BufTy).Contents (Elt F)),
    StableHlo.binary main_arg0 main_v3 main_v4 (Host.divf : (⟨S4096x256, .f32⟩ : BufTy).Contents (Elt F) → (⟨S4096x256, .f32⟩ : BufTy).Contents (Elt F) → (⟨S4096x256, .f32⟩ : BufTy).Contents (Elt F)),
    StableHlo.TRef.binary (.of main_arg1 : TRef sig ⟨S4096x256, .f32⟩) (.of main_arg1 : TRef sig ⟨S4096x256, .f32⟩) main_call1.v0 mulf,
    StableHlo.TRef.nullary main_call1.cst (constant S_ .f32 0x00000000#32),
    StableHlo.TRef.binary main_call1.v0 main_call1.cst main_call1.v1 (fun x v => Host.reduceAdd x v reducesTo_S4096x256_S4096_d1 h_S_),
    StableHlo.TRef.unary main_call1.v1 main_call1.v2 (broadcastInDim S4096x1 ![0] bcast_S4096_S4096x1_0),
    StableHlo.TRef.unary main_call1.v2 main_call1.v3 Host.sqrt,
    StableHlo.nullary main_cst_0 (constant S_ .f32 0x2B8CBCCC#32),
    StableHlo.unary main_cst_0 main_v6 (broadcastInDim S4096x1 ![] bcast_S_S4096x1 : (⟨S_, .f32⟩ : BufTy).Contents (Elt F) → (⟨S4096x1, .f32⟩ : BufTy).Contents (Elt F)),
    StableHlo.binary main_v5 main_v6 main_v7 (maximumf : (⟨S4096x1, .f32⟩ : BufTy).Contents (Elt F) → (⟨S4096x1, .f32⟩ : BufTy).Contents (Elt F) → (⟨S4096x1, .f32⟩ : BufTy).Contents (Elt F)),
    StableHlo.unary main_v7 main_v8 (broadcastInDim S4096x256 ![0, 1] bcast_S4096x1_S4096x256_0_1 : (⟨S4096x1, .f32⟩ : BufTy).Contents (Elt F) → (⟨S4096x256, .f32⟩ : BufTy).Contents (Elt F)),
    StableHlo.binary main_arg1 main_v8 main_v9 (Host.divf : (⟨S4096x256, .f32⟩ : BufTy).Contents (Elt F) → (⟨S4096x256, .f32⟩ : BufTy).Contents (Elt F) → (⟨S4096x256, .f32⟩ : BufTy).Contents (Elt F)),
    StableHlo.binary main_v4 main_v9 main_v10 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)),
    StableHlo.binary main_v10 main_v10 main_v11 ((fun l r => Host.dotGeneral dot_S8192x256_S8192x256_S8192x8192_1_1_0_0_n_n none l r) : (⟨S8192x256, .f32⟩ : BufTy).Contents (Elt F) → (⟨S8192x256, .f32⟩ : BufTy).Contents (Elt F) → (⟨S8192x8192, .f32⟩ : BufTy).Contents (Elt F)),
    StableHlo.nullary main_cst_1 (constant S_ .f32 0x3D8F5C29#32),
    StableHlo.unary main_cst_1 main_v12 (broadcastInDim S8192x8192 ![] bcast_S_S8192x8192 : (⟨S_, .f32⟩ : BufTy).Contents (Elt F) → (⟨S8192x8192, .f32⟩ : BufTy).Contents (Elt F)),
    StableHlo.binary main_v11 main_v12 main_v13 (Host.divf : (⟨S8192x8192, .f32⟩ : BufTy).Contents (Elt F) → (⟨S8192x8192, .f32⟩ : BufTy).Contents (Elt F) → (⟨S8192x8192, .f32⟩ : BufTy).Contents (Elt F)),
    StableHlo.unary main_v13 main_v14 (Host.exp : (⟨S8192x8192, .f32⟩ : BufTy).Contents (Elt F) → (⟨S8192x8192, .f32⟩ : BufTy).Contents (Elt F)),
    StableHlo.nullary main_v15 (iotaInDim S8192 32 0),
    StableHlo.nullary main_c (constantI S_ 32 4096#32),
    StableHlo.unary main_c main_v16 (broadcastInDim S8192 ![] bcast_S_S8192 : (⟨S_, .i32⟩ : BufTy).Contents (Elt F) → (⟨S8192, .i32⟩ : BufTy).Contents (Elt F)),
    StableHlo.binary main_v15 main_v16 main_v17 (addi : (⟨S8192, .i32⟩ : BufTy).Contents (Elt F) → (⟨S8192, .i32⟩ : BufTy).Contents (Elt F) → (⟨S8192, .i32⟩ : BufTy).Contents (Elt F)),
    StableHlo.nullary main_c_2 (constantI S_ 32 8192#32),
    StableHlo.TRef.unary (.of main_c_2 : TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S8192 ![] bcast_S_S8192),
    StableHlo.TRef.binary (.of main_v17 : TRef sig ⟨S8192, .i32⟩) main_call2.v3 main_call2.v4 Host.remsi,
    StableHlo.TRef.nullary main_call2.c_1 (constantI S_ 32 0#32),
    StableHlo.TRef.unary main_call2.c_1 main_call2.v5 (broadcastInDim S8192 ![] bcast_S_S8192),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S8192 ![] bcast_S_S8192),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S8192 ![] bcast_S_S8192),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S8192 ![] bcast_S_S8192),
    StableHlo.TRef.binary main_call2.v4 main_call2.v13 main_call2.v14 addi,
    StableHlo.TRef.ternary main_call2.v12 main_call2.v14 main_call2.v4 main_call2.v15 select,
    StableHlo.nullary main_c_3 (constantI S_ 32 0#32),
    StableHlo.unary main_c_3 main_v19 (broadcastInDim S8192 ![] bcast_S_S8192 : (⟨S_, .i32⟩ : BufTy).Contents (Elt F) → (⟨S8192, .i32⟩ : BufTy).Contents (Elt F)),
    StableHlo.binary main_v15 main_v19 main_v20 (cmpi .slt : (⟨S8192, .i32⟩ : BufTy).Contents (Elt F) → (⟨S8192, .i32⟩ : BufTy).Contents (Elt F) → (⟨S8192, .i1⟩ : BufTy).Contents (Elt F)),
    StableHlo.nullary main_c_4 (constantI S_ 32 8192#32),
    StableHlo.unary main_c_4 main_v21 (broadcastInDim S8192 ![] bcast_S_S8192 : (⟨S_, .i32⟩ : BufTy).Contents (Elt F) → (⟨S8192, .i32⟩ : BufTy).Contents (Elt F)),
    StableHlo.binary main_v15 main_v21 main_v22 (addi : (⟨S8192, .i32⟩ : BufTy).Contents (Elt F) → (⟨S8192, .i32⟩ : BufTy).Contents (Elt F) → (⟨S8192, .i32⟩ : BufTy).Contents (Elt F)),
    StableHlo.ternary main_v20 main_v22 main_v15 main_v23 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_5 (constantI S_ 32 0#32),
    StableHlo.unary main_c_5 main_v24 (broadcastInDim S8192 ![] bcast_S_S8192 : (⟨S_, .i32⟩ : BufTy).Contents (Elt F) → (⟨S8192, .i32⟩ : BufTy).Contents (Elt F)),
    StableHlo.binary main_v18 main_v24 main_v25 (cmpi .slt : (⟨S8192, .i32⟩ : BufTy).Contents (Elt F) → (⟨S8192, .i32⟩ : BufTy).Contents (Elt F) → (⟨S8192, .i1⟩ : BufTy).Contents (Elt F)),
    StableHlo.nullary main_c_6 (constantI S_ 32 8192#32),
    StableHlo.unary main_c_6 main_v26 (broadcastInDim S8192 ![] bcast_S_S8192 : (⟨S_, .i32⟩ : BufTy).Contents (Elt F) → (⟨S8192, .i32⟩ : BufTy).Contents (Elt F)),
    StableHlo.binary main_v18 main_v26 main_v27 (addi : (⟨S8192, .i32⟩ : BufTy).Contents (Elt F) → (⟨S8192, .i32⟩ : BufTy).Contents (Elt F) → (⟨S8192, .i32⟩ : BufTy).Contents (Elt F)),
    StableHlo.ternary main_v25 main_v27 main_v18 main_v28 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v23 main_v29 (broadcastInDim S8192x1 ![0] bcast_S8192_S8192x1_0 : (⟨S8192, .i32⟩ : BufTy).Contents (Elt F) → (⟨S8192x1, .i32⟩ : BufTy).Contents (Elt F)),
    StableHlo.unary main_v28 main_v30 (broadcastInDim S8192x1 ![0] bcast_S8192_S8192x1_0 : (⟨S8192, .i32⟩ : BufTy).Contents (Elt F) → (⟨S8192x1, .i32⟩ : BufTy).Contents (Elt F)),
    StableHlo.binary main_v29 main_v30 main_v31 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v14 main_v31 main_v32 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    StableHlo.nullary main_c_7 (constantI S_ 32 0#32),
    StableHlo.unary main_c_7 main_v33 (broadcastInDim S8192 ![] bcast_S_S8192 : (⟨S_, .i32⟩ : BufTy).Contents (Elt F) → (⟨S8192, .i32⟩ : BufTy).Contents (Elt F)),
    StableHlo.binary main_v15 main_v33 main_v34 (cmpi .slt : (⟨S8192, .i32⟩ : BufTy).Contents (Elt F) → (⟨S8192, .i32⟩ : BufTy).Contents (Elt F) → (⟨S8192, .i1⟩ : BufTy).Contents (Elt F)),
    StableHlo.nullary main_c_8 (constantI S_ 32 8192#32),
    StableHlo.unary main_c_8 main_v35 (broadcastInDim S8192 ![] bcast_S_S8192 : (⟨S_, .i32⟩ : BufTy).Contents (Elt F) → (⟨S8192, .i32⟩ : BufTy).Contents (Elt F)),
    StableHlo.binary main_v15 main_v35 main_v36 (addi : (⟨S8192, .i32⟩ : BufTy).Contents (Elt F) → (⟨S8192, .i32⟩ : BufTy).Contents (Elt F) → (⟨S8192, .i32⟩ : BufTy).Contents (Elt F)),
    StableHlo.ternary main_v34 main_v36 main_v15 main_v37 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_9 (constantI S_ 32 0#32),
    StableHlo.unary main_c_9 main_v38 (broadcastInDim S8192 ![] bcast_S_S8192 : (⟨S_, .i32⟩ : BufTy).Contents (Elt F) → (⟨S8192, .i32⟩ : BufTy).Contents (Elt F)),
    StableHlo.binary main_v15 main_v38 main_v39 (cmpi .slt : (⟨S8192, .i32⟩ : BufTy).Contents (Elt F) → (⟨S8192, .i32⟩ : BufTy).Contents (Elt F) → (⟨S8192, .i1⟩ : BufTy).Contents (Elt F)),
    StableHlo.nullary main_c_10 (constantI S_ 32 8192#32),
    StableHlo.unary main_c_10 main_v40 (broadcastInDim S8192 ![] bcast_S_S8192 : (⟨S_, .i32⟩ : BufTy).Contents (Elt F) → (⟨S8192, .i32⟩ : BufTy).Contents (Elt F)),
    StableHlo.binary main_v15 main_v40 main_v41 (addi : (⟨S8192, .i32⟩ : BufTy).Contents (Elt F) → (⟨S8192, .i32⟩ : BufTy).Contents (Elt F) → (⟨S8192, .i32⟩ : BufTy).Contents (Elt F)),
    StableHlo.ternary main_v39 main_v41 main_v15 main_v42 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v37 main_v43 (broadcastInDim S8192x1 ![0] bcast_S8192_S8192x1_0 : (⟨S8192, .i32⟩ : BufTy).Contents (Elt F) → (⟨S8192x1, .i32⟩ : BufTy).Contents (Elt F)),
    StableHlo.unary main_v42 main_v44 (broadcastInDim S8192x1 ![0] bcast_S8192_S8192x1_0 : (⟨S8192, .i32⟩ : BufTy).Contents (Elt F) → (⟨S8192x1, .i32⟩ : BufTy).Contents (Elt F)),
    StableHlo.binary main_v43 main_v44 main_v45 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v14 main_v45 main_v46 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)) ]

/-- The second window's 12 operations. -/
abbrev ops1 : List (HloOp τ sig (Elt F)) :=
  [ StableHlo.nullary main_cst_11 (constant S_ .f32 0x00000000#32),
    StableHlo.binary main_v14 main_cst_11 main_v47 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.binary main_v47 main_v46 main_v48 (subf : (⟨S8192, .f32⟩ : BufTy).Contents (Elt F) → (⟨S8192, .f32⟩ : BufTy).Contents (Elt F) → (⟨S8192, .f32⟩ : BufTy).Contents (Elt F)),
    StableHlo.binary main_v48 main_v32 main_v49 (subf : (⟨S8192, .f32⟩ : BufTy).Contents (Elt F) → (⟨S8192, .f32⟩ : BufTy).Contents (Elt F) → (⟨S8192, .f32⟩ : BufTy).Contents (Elt F)),
    StableHlo.binary main_v32 main_v49 main_v50 (addf : (⟨S8192, .f32⟩ : BufTy).Contents (Elt F) → (⟨S8192, .f32⟩ : BufTy).Contents (Elt F) → (⟨S8192, .f32⟩ : BufTy).Contents (Elt F)),
    StableHlo.binary main_v32 main_v50 main_v51 (Host.divf : (⟨S8192, .f32⟩ : BufTy).Contents (Elt F) → (⟨S8192, .f32⟩ : BufTy).Contents (Elt F) → (⟨S8192, .f32⟩ : BufTy).Contents (Elt F)),
    StableHlo.unary main_v51 main_v52 (Host.log : (⟨S8192, .f32⟩ : BufTy).Contents (Elt F) → (⟨S8192, .f32⟩ : BufTy).Contents (Elt F)),
    StableHlo.unary main_v52 main_v53 (Host.negf : (⟨S8192, .f32⟩ : BufTy).Contents (Elt F) → (⟨S8192, .f32⟩ : BufTy).Contents (Elt F)),
    StableHlo.nullary main_cst_12 (constant S_ .f32 0x00000000#32),
    StableHlo.binary main_v53 main_cst_12 main_v54 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_13 (constant S_ .f32 0x46000000#32),
    StableHlo.binary main_v54 main_cst_13 main_v55 (Host.divf : (⟨S_, .f32⟩ : BufTy).Contents (Elt F) → (⟨S_, .f32⟩ : BufTy).Contents (Elt F) → (⟨S_, .f32⟩ : BufTy).Contents (Elt F)) ]

/-- @main's 100 operations, in order. -/
abbrev ops : List (HloOp τ sig (Elt F)) :=
  [ StableHlo.TRef.binary (.of main_arg0 : TRef sig ⟨S4096x256, .f32⟩) (.of main_arg0 : TRef sig ⟨S4096x256, .f32⟩) main_call0.v0 mulf,
    StableHlo.TRef.nullary main_call0.cst (constant S_ .f32 0x00000000#32),
    StableHlo.TRef.binary main_call0.v0 main_call0.cst main_call0.v1 (fun x v => Host.reduceAdd x v reducesTo_S4096x256_S4096_d1 h_S_),
    StableHlo.TRef.unary main_call0.v1 main_call0.v2 (broadcastInDim S4096x1 ![0] bcast_S4096_S4096x1_0),
    StableHlo.TRef.unary main_call0.v2 main_call0.v3 Host.sqrt,
    StableHlo.nullary main_cst (constant S_ .f32 0x2B8CBCCC#32),
    StableHlo.unary main_cst main_v1 (broadcastInDim S4096x1 ![] bcast_S_S4096x1 : (⟨S_, .f32⟩ : BufTy).Contents (Elt F) → (⟨S4096x1, .f32⟩ : BufTy).Contents (Elt F)),
    StableHlo.binary main_v0 main_v1 main_v2 (maximumf : (⟨S4096x1, .f32⟩ : BufTy).Contents (Elt F) → (⟨S4096x1, .f32⟩ : BufTy).Contents (Elt F) → (⟨S4096x1, .f32⟩ : BufTy).Contents (Elt F)),
    StableHlo.unary main_v2 main_v3 (broadcastInDim S4096x256 ![0, 1] bcast_S4096x1_S4096x256_0_1 : (⟨S4096x1, .f32⟩ : BufTy).Contents (Elt F) → (⟨S4096x256, .f32⟩ : BufTy).Contents (Elt F)),
    StableHlo.binary main_arg0 main_v3 main_v4 (Host.divf : (⟨S4096x256, .f32⟩ : BufTy).Contents (Elt F) → (⟨S4096x256, .f32⟩ : BufTy).Contents (Elt F) → (⟨S4096x256, .f32⟩ : BufTy).Contents (Elt F)),
    StableHlo.TRef.binary (.of main_arg1 : TRef sig ⟨S4096x256, .f32⟩) (.of main_arg1 : TRef sig ⟨S4096x256, .f32⟩) main_call1.v0 mulf,
    StableHlo.TRef.nullary main_call1.cst (constant S_ .f32 0x00000000#32),
    StableHlo.TRef.binary main_call1.v0 main_call1.cst main_call1.v1 (fun x v => Host.reduceAdd x v reducesTo_S4096x256_S4096_d1 h_S_),
    StableHlo.TRef.unary main_call1.v1 main_call1.v2 (broadcastInDim S4096x1 ![0] bcast_S4096_S4096x1_0),
    StableHlo.TRef.unary main_call1.v2 main_call1.v3 Host.sqrt,
    StableHlo.nullary main_cst_0 (constant S_ .f32 0x2B8CBCCC#32),
    StableHlo.unary main_cst_0 main_v6 (broadcastInDim S4096x1 ![] bcast_S_S4096x1 : (⟨S_, .f32⟩ : BufTy).Contents (Elt F) → (⟨S4096x1, .f32⟩ : BufTy).Contents (Elt F)),
    StableHlo.binary main_v5 main_v6 main_v7 (maximumf : (⟨S4096x1, .f32⟩ : BufTy).Contents (Elt F) → (⟨S4096x1, .f32⟩ : BufTy).Contents (Elt F) → (⟨S4096x1, .f32⟩ : BufTy).Contents (Elt F)),
    StableHlo.unary main_v7 main_v8 (broadcastInDim S4096x256 ![0, 1] bcast_S4096x1_S4096x256_0_1 : (⟨S4096x1, .f32⟩ : BufTy).Contents (Elt F) → (⟨S4096x256, .f32⟩ : BufTy).Contents (Elt F)),
    StableHlo.binary main_arg1 main_v8 main_v9 (Host.divf : (⟨S4096x256, .f32⟩ : BufTy).Contents (Elt F) → (⟨S4096x256, .f32⟩ : BufTy).Contents (Elt F) → (⟨S4096x256, .f32⟩ : BufTy).Contents (Elt F)),
    StableHlo.binary main_v4 main_v9 main_v10 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)),
    StableHlo.binary main_v10 main_v10 main_v11 ((fun l r => Host.dotGeneral dot_S8192x256_S8192x256_S8192x8192_1_1_0_0_n_n none l r) : (⟨S8192x256, .f32⟩ : BufTy).Contents (Elt F) → (⟨S8192x256, .f32⟩ : BufTy).Contents (Elt F) → (⟨S8192x8192, .f32⟩ : BufTy).Contents (Elt F)),
    StableHlo.nullary main_cst_1 (constant S_ .f32 0x3D8F5C29#32),
    StableHlo.unary main_cst_1 main_v12 (broadcastInDim S8192x8192 ![] bcast_S_S8192x8192 : (⟨S_, .f32⟩ : BufTy).Contents (Elt F) → (⟨S8192x8192, .f32⟩ : BufTy).Contents (Elt F)),
    StableHlo.binary main_v11 main_v12 main_v13 (Host.divf : (⟨S8192x8192, .f32⟩ : BufTy).Contents (Elt F) → (⟨S8192x8192, .f32⟩ : BufTy).Contents (Elt F) → (⟨S8192x8192, .f32⟩ : BufTy).Contents (Elt F)),
    StableHlo.unary main_v13 main_v14 (Host.exp : (⟨S8192x8192, .f32⟩ : BufTy).Contents (Elt F) → (⟨S8192x8192, .f32⟩ : BufTy).Contents (Elt F)),
    StableHlo.nullary main_v15 (iotaInDim S8192 32 0),
    StableHlo.nullary main_c (constantI S_ 32 4096#32),
    StableHlo.unary main_c main_v16 (broadcastInDim S8192 ![] bcast_S_S8192 : (⟨S_, .i32⟩ : BufTy).Contents (Elt F) → (⟨S8192, .i32⟩ : BufTy).Contents (Elt F)),
    StableHlo.binary main_v15 main_v16 main_v17 (addi : (⟨S8192, .i32⟩ : BufTy).Contents (Elt F) → (⟨S8192, .i32⟩ : BufTy).Contents (Elt F) → (⟨S8192, .i32⟩ : BufTy).Contents (Elt F)),
    StableHlo.nullary main_c_2 (constantI S_ 32 8192#32),
    StableHlo.TRef.unary (.of main_c_2 : TRef sig ⟨S_, .i32⟩) main_call2.v0 id,
    StableHlo.TRef.nullary main_call2.c (constantI S_ 32 0#32),
    StableHlo.TRef.binary main_call2.v0 main_call2.c main_call2.v1 (cmpi .eq),
    StableHlo.TRef.nullary main_call2.c_0 (constantI S_ 32 1#32),
    StableHlo.TRef.ternary main_call2.v1 main_call2.c_0 main_call2.v0 main_call2.call0.v0 select,
    StableHlo.TRef.unary main_call2.call0.v0 main_call2.v3 (broadcastInDim S8192 ![] bcast_S_S8192),
    StableHlo.TRef.binary (.of main_v17 : TRef sig ⟨S8192, .i32⟩) main_call2.v3 main_call2.v4 Host.remsi,
    StableHlo.TRef.nullary main_call2.c_1 (constantI S_ 32 0#32),
    StableHlo.TRef.unary main_call2.c_1 main_call2.v5 (broadcastInDim S8192 ![] bcast_S_S8192),
    StableHlo.TRef.binary main_call2.v4 main_call2.v5 main_call2.v6 (cmpi .ne),
    StableHlo.TRef.nullary main_call2.c_2 (constantI S_ 32 0#32),
    StableHlo.TRef.unary main_call2.c_2 main_call2.v7 (broadcastInDim S8192 ![] bcast_S_S8192),
    StableHlo.TRef.binary main_call2.v4 main_call2.v7 main_call2.v8 (cmpi .slt),
    StableHlo.TRef.nullary main_call2.c_3 (constantI S_ 32 0#32),
    StableHlo.TRef.binary main_call2.call0.v0 main_call2.c_3 main_call2.v9 (cmpi .slt),
    StableHlo.TRef.unary main_call2.v9 main_call2.v10 (broadcastInDim S8192 ![] bcast_S_S8192),
    StableHlo.TRef.binary main_call2.v8 main_call2.v10 main_call2.v11 (cmpi .ne),
    StableHlo.TRef.binary main_call2.v11 main_call2.v6 main_call2.v12 andi,
    StableHlo.TRef.unary main_call2.call0.v0 main_call2.v13 (broadcastInDim S8192 ![] bcast_S_S8192),
    StableHlo.TRef.binary main_call2.v4 main_call2.v13 main_call2.v14 addi,
    StableHlo.TRef.ternary main_call2.v12 main_call2.v14 main_call2.v4 main_call2.v15 select,
    StableHlo.nullary main_c_3 (constantI S_ 32 0#32),
    StableHlo.unary main_c_3 main_v19 (broadcastInDim S8192 ![] bcast_S_S8192 : (⟨S_, .i32⟩ : BufTy).Contents (Elt F) → (⟨S8192, .i32⟩ : BufTy).Contents (Elt F)),
    StableHlo.binary main_v15 main_v19 main_v20 (cmpi .slt : (⟨S8192, .i32⟩ : BufTy).Contents (Elt F) → (⟨S8192, .i32⟩ : BufTy).Contents (Elt F) → (⟨S8192, .i1⟩ : BufTy).Contents (Elt F)),
    StableHlo.nullary main_c_4 (constantI S_ 32 8192#32),
    StableHlo.unary main_c_4 main_v21 (broadcastInDim S8192 ![] bcast_S_S8192 : (⟨S_, .i32⟩ : BufTy).Contents (Elt F) → (⟨S8192, .i32⟩ : BufTy).Contents (Elt F)),
    StableHlo.binary main_v15 main_v21 main_v22 (addi : (⟨S8192, .i32⟩ : BufTy).Contents (Elt F) → (⟨S8192, .i32⟩ : BufTy).Contents (Elt F) → (⟨S8192, .i32⟩ : BufTy).Contents (Elt F)),
    StableHlo.ternary main_v20 main_v22 main_v15 main_v23 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_5 (constantI S_ 32 0#32),
    StableHlo.unary main_c_5 main_v24 (broadcastInDim S8192 ![] bcast_S_S8192 : (⟨S_, .i32⟩ : BufTy).Contents (Elt F) → (⟨S8192, .i32⟩ : BufTy).Contents (Elt F)),
    StableHlo.binary main_v18 main_v24 main_v25 (cmpi .slt : (⟨S8192, .i32⟩ : BufTy).Contents (Elt F) → (⟨S8192, .i32⟩ : BufTy).Contents (Elt F) → (⟨S8192, .i1⟩ : BufTy).Contents (Elt F)),
    StableHlo.nullary main_c_6 (constantI S_ 32 8192#32),
    StableHlo.unary main_c_6 main_v26 (broadcastInDim S8192 ![] bcast_S_S8192 : (⟨S_, .i32⟩ : BufTy).Contents (Elt F) → (⟨S8192, .i32⟩ : BufTy).Contents (Elt F)),
    StableHlo.binary main_v18 main_v26 main_v27 (addi : (⟨S8192, .i32⟩ : BufTy).Contents (Elt F) → (⟨S8192, .i32⟩ : BufTy).Contents (Elt F) → (⟨S8192, .i32⟩ : BufTy).Contents (Elt F)),
    StableHlo.ternary main_v25 main_v27 main_v18 main_v28 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v23 main_v29 (broadcastInDim S8192x1 ![0] bcast_S8192_S8192x1_0 : (⟨S8192, .i32⟩ : BufTy).Contents (Elt F) → (⟨S8192x1, .i32⟩ : BufTy).Contents (Elt F)),
    StableHlo.unary main_v28 main_v30 (broadcastInDim S8192x1 ![0] bcast_S8192_S8192x1_0 : (⟨S8192, .i32⟩ : BufTy).Contents (Elt F) → (⟨S8192x1, .i32⟩ : BufTy).Contents (Elt F)),
    StableHlo.binary main_v29 main_v30 main_v31 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v14 main_v31 main_v32 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    StableHlo.nullary main_c_7 (constantI S_ 32 0#32),
    StableHlo.unary main_c_7 main_v33 (broadcastInDim S8192 ![] bcast_S_S8192 : (⟨S_, .i32⟩ : BufTy).Contents (Elt F) → (⟨S8192, .i32⟩ : BufTy).Contents (Elt F)),
    StableHlo.binary main_v15 main_v33 main_v34 (cmpi .slt : (⟨S8192, .i32⟩ : BufTy).Contents (Elt F) → (⟨S8192, .i32⟩ : BufTy).Contents (Elt F) → (⟨S8192, .i1⟩ : BufTy).Contents (Elt F)),
    StableHlo.nullary main_c_8 (constantI S_ 32 8192#32),
    StableHlo.unary main_c_8 main_v35 (broadcastInDim S8192 ![] bcast_S_S8192 : (⟨S_, .i32⟩ : BufTy).Contents (Elt F) → (⟨S8192, .i32⟩ : BufTy).Contents (Elt F)),
    StableHlo.binary main_v15 main_v35 main_v36 (addi : (⟨S8192, .i32⟩ : BufTy).Contents (Elt F) → (⟨S8192, .i32⟩ : BufTy).Contents (Elt F) → (⟨S8192, .i32⟩ : BufTy).Contents (Elt F)),
    StableHlo.ternary main_v34 main_v36 main_v15 main_v37 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.nullary main_c_9 (constantI S_ 32 0#32),
    StableHlo.unary main_c_9 main_v38 (broadcastInDim S8192 ![] bcast_S_S8192 : (⟨S_, .i32⟩ : BufTy).Contents (Elt F) → (⟨S8192, .i32⟩ : BufTy).Contents (Elt F)),
    StableHlo.binary main_v15 main_v38 main_v39 (cmpi .slt : (⟨S8192, .i32⟩ : BufTy).Contents (Elt F) → (⟨S8192, .i32⟩ : BufTy).Contents (Elt F) → (⟨S8192, .i1⟩ : BufTy).Contents (Elt F)),
    StableHlo.nullary main_c_10 (constantI S_ 32 8192#32),
    StableHlo.unary main_c_10 main_v40 (broadcastInDim S8192 ![] bcast_S_S8192 : (⟨S_, .i32⟩ : BufTy).Contents (Elt F) → (⟨S8192, .i32⟩ : BufTy).Contents (Elt F)),
    StableHlo.binary main_v15 main_v40 main_v41 (addi : (⟨S8192, .i32⟩ : BufTy).Contents (Elt F) → (⟨S8192, .i32⟩ : BufTy).Contents (Elt F) → (⟨S8192, .i32⟩ : BufTy).Contents (Elt F)),
    StableHlo.ternary main_v39 main_v41 main_v15 main_v42 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v37 main_v43 (broadcastInDim S8192x1 ![0] bcast_S8192_S8192x1_0 : (⟨S8192, .i32⟩ : BufTy).Contents (Elt F) → (⟨S8192x1, .i32⟩ : BufTy).Contents (Elt F)),
    StableHlo.unary main_v42 main_v44 (broadcastInDim S8192x1 ![0] bcast_S8192_S8192x1_0 : (⟨S8192, .i32⟩ : BufTy).Contents (Elt F) → (⟨S8192x1, .i32⟩ : BufTy).Contents (Elt F)),
    StableHlo.binary main_v43 main_v44 main_v45 ((fun a b => concatenate S8192x2 1 [⟨S8192x1, a⟩, ⟨S8192x1, b⟩] concatenates_S8192x1_S8192x1_S8192x2_d1) : (⟨S8192x1, .i32⟩ : BufTy).Contents (Elt F) → (⟨S8192x1, .i32⟩ : BufTy).Contents (Elt F) → (⟨S8192x2, .i32⟩ : BufTy).Contents (Elt F)),
    StableHlo.binary main_v14 main_v45 main_v46 ((fun x i => Host.gather gather_S8192x8192_S8192x2_S8192_n_01_n_n_01_1_11 x i) : (⟨S8192x8192, .f32⟩ : BufTy).Contents (Elt F) → (⟨S8192x2, .i32⟩ : BufTy).Contents (Elt F) → (⟨S8192, .f32⟩ : BufTy).Contents (Elt F)),
    StableHlo.nullary main_cst_11 (constant S_ .f32 0x00000000#32),
    StableHlo.binary main_v14 main_cst_11 main_v47 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)),
    StableHlo.binary main_v47 main_v46 main_v48 (subf : (⟨S8192, .f32⟩ : BufTy).Contents (Elt F) → (⟨S8192, .f32⟩ : BufTy).Contents (Elt F) → (⟨S8192, .f32⟩ : BufTy).Contents (Elt F)),
    StableHlo.binary main_v48 main_v32 main_v49 (subf : (⟨S8192, .f32⟩ : BufTy).Contents (Elt F) → (⟨S8192, .f32⟩ : BufTy).Contents (Elt F) → (⟨S8192, .f32⟩ : BufTy).Contents (Elt F)),
    StableHlo.binary main_v32 main_v49 main_v50 (addf : (⟨S8192, .f32⟩ : BufTy).Contents (Elt F) → (⟨S8192, .f32⟩ : BufTy).Contents (Elt F) → (⟨S8192, .f32⟩ : BufTy).Contents (Elt F)),
    StableHlo.binary main_v32 main_v50 main_v51 (Host.divf : (⟨S8192, .f32⟩ : BufTy).Contents (Elt F) → (⟨S8192, .f32⟩ : BufTy).Contents (Elt F) → (⟨S8192, .f32⟩ : BufTy).Contents (Elt F)),
    StableHlo.unary main_v51 main_v52 (Host.log : (⟨S8192, .f32⟩ : BufTy).Contents (Elt F) → (⟨S8192, .f32⟩ : BufTy).Contents (Elt F)),
    StableHlo.unary main_v52 main_v53 (Host.negf : (⟨S8192, .f32⟩ : BufTy).Contents (Elt F) → (⟨S8192, .f32⟩ : BufTy).Contents (Elt F)),
    StableHlo.nullary main_cst_12 (constant S_ .f32 0x00000000#32),
    StableHlo.binary main_v53 main_cst_12 main_v54 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_13 (constant S_ .f32 0x46000000#32),
    StableHlo.binary main_v54 main_cst_13 main_v55 (Host.divf : (⟨S_, .f32⟩ : BufTy).Contents (Elt F) → (⟨S_, .f32⟩ : BufTy).Contents (Elt F) → (⟨S_, .f32⟩ : BufTy).Contents (Elt F)) ]

theorem ops_eq : (ops : List (HloOp τ sig (Elt F))) = ops0 ++ ops1 := rfl

/-- The reference each operation writes, in order. -/
abbrev W : List (Ref sig .tc) :=
  [ main_call0_v0,
    main_call0_cst,
    main_call0_v1,
    main_call0_v2,
    main_v0,
    main_cst,
    main_v1,
    main_v2,
    main_v3,
    main_v4,
    main_call1_v0,
    main_call1_cst,
    main_call1_v1,
    main_call1_v2,
    main_v5,
    main_cst_0,
    main_v6,
    main_v7,
    main_v8,
    main_v9,
    main_v10,
    main_v11,
    main_cst_1,
    main_v12,
    main_v13,
    main_v14,
    main_v15,
    main_c,
    main_v16,
    main_v17,
    main_c_2,
    main_call2_v0,
    main_call2_c,
    main_call2_v1,
    main_call2_c_0,
    main_call2_v2,
    main_call2_v3,
    main_call2_v4,
    main_call2_c_1,
    main_call2_v5,
    main_call2_v6,
    main_call2_c_2,
    main_call2_v7,
    main_call2_v8,
    main_call2_c_3,
    main_call2_v9,
    main_call2_v10,
    main_call2_v11,
    main_call2_v12,
    main_call2_v13,
    main_call2_v14,
    main_v18,
    main_c_3,
    main_v19,
    main_v20,
    main_c_4,
    main_v21,
    main_v22,
    main_v23,
    main_c_5,
    main_v24,
    main_v25,
    main_c_6,
    main_v26,
    main_v27,
    main_v28,
    main_v29,
    main_v30,
    main_v31,
    main_v32,
    main_c_7,
    main_v33,
    main_v34,
    main_c_8,
    main_v35,
    main_v36,
    main_v37,
    main_c_9,
    main_v38,
    main_v39,
    main_c_10,
    main_v40,
    main_v41,
    main_v42,
    main_v43,
    main_v44,
    main_v45,
    main_v46,
    main_cst_11,
    main_v47,
    main_v48,
    main_v49,
    main_v50,
    main_v51,
    main_v52,
    main_v53,
    main_cst_12,
    main_v54,
    main_cst_13,
    main_v55 ]

set_option maxRecDepth 8192 in
/-- Every operation touches TensorCore references only. -/
theorem ops_sub : (ops : List (HloOp τ sig (Elt F))).Forall fun op => op.bufs ⊆ tcRefs τ sig :=
  ⟨binary_bufs_sub .., nullary_bufs_sub .., binary_bufs_sub .., unary_bufs_sub .., unary_bufs_sub .., nullary_bufs_sub ..,
    unary_bufs_sub .., binary_bufs_sub .., unary_bufs_sub .., binary_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., binary_bufs_sub .., binary_bufs_sub .., nullary_bufs_sub .., unary_bufs_sub ..,
    binary_bufs_sub .., unary_bufs_sub .., nullary_bufs_sub .., nullary_bufs_sub .., unary_bufs_sub .., binary_bufs_sub ..,
    nullary_bufs_sub .., unary_bufs_sub .., nullary_bufs_sub .., binary_bufs_sub .., nullary_bufs_sub .., ternary_bufs_sub ..,
    unary_bufs_sub .., binary_bufs_sub .., nullary_bufs_sub .., unary_bufs_sub .., binary_bufs_sub .., nullary_bufs_sub ..,
    unary_bufs_sub .., binary_bufs_sub .., nullary_bufs_sub .., binary_bufs_sub .., unary_bufs_sub .., binary_bufs_sub ..,
    binary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., binary_bufs_sub .., nullary_bufs_sub .., binary_bufs_sub ..,
    binary_bufs_sub .., binary_bufs_sub .., binary_bufs_sub .., binary_bufs_sub .., unary_bufs_sub .., unary_bufs_sub ..,
    nullary_bufs_sub .., binary_bufs_sub .., nullary_bufs_sub .., binary_bufs_sub ..⟩

end Cert.ReferenceIdeal.RefValue

end
-- ==== Proof.RefRunAfter.lean ====
/-
  The reference program's run, read back: @main is the straight line `ops`, so every weakly fair execution of
  it terminates with each buffer at the fold of the operations' results over the launch contents; the two
  arguments are written by no operation and end unchanged.
-/
import proofs.«142995_j19722489823618_2_alg».proof.Proof.RefRunOps

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.StableHlo.AlignedLines

variable {F : FTy → Type} [FloatOps F]

/-- The second window is its twelve operations. -/
theorem part1_eq (c : Dev nD) : main_part1 (F := F) c = seq ops1 := rfl

set_option maxRecDepth 8192 in
set_option maxHeartbeats 1000000 in
/-- The first window is its 88 operations: a call is its body run on the call's buffers, and sequencing in a
    free monad is grafting, so both sides are the same tree of requests by computation. -/
theorem part0_eq (c : Dev nD) : main_part0 (F := F) c = seq ops0 := rfl

/-- @main is the line of its 100 operations. -/
theorem main_eq (c : Dev nD) : main (F := F) c = seq ops := by
  rw [ops_eq, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Operation j writes exactly reference j of `W`. -/
theorem aligned : Aligned (τ := τ) (ops : List (HloOp τ sig (Elt F))) W := by
  unfold Aligned
  repeat (first | exact List.Forall₂.nil | refine List.Forall₂.cons rfl ?_)

/-- A reference no operation writes keeps its launch contents. -/
theorem after_arg0 (V : Valuation τ sig (Elt F)) : after ops V (Proc.devRef .tc main_arg0) = V (Proc.devRef .tc main_arg0) :=
  aligned.after_of_not_mem V (by decide)
theorem after_arg1 (V : Valuation τ sig (Elt F)) : after ops V (Proc.devRef .tc main_arg1) = V (Proc.devRef .tc main_arg1) :=
  aligned.after_of_not_mem V (by decide)

/-- On every device, for any float values, from any memory with zero counters: every weakly fair execution of
    @main terminates with the result buffer at the fold of the operations over the launch contents and the
    arguments unchanged. -/
theorem run_after (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v55) = after ops (launchContents m c) (Proc.devRef .tc main_v55)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨h c main_v55, (h c main_arg0).trans (after_arg0 _), (h c main_arg1).trans (after_arg1 _)⟩)
    (run_seq scopedRefs_eq scopedSems_eq defs main (fun _ => ops) main_eq (fun _ => ops_sub) m ρ)

end Cert.ReferenceIdeal.RefValue

end
-- ==== Proof.RefRunRead.lean ====
/-
  The reference's line read one operation at a time: since operation j writes exactly reference j of `W` and
  nothing later writes it again, the final contents of each result are the operation's function of the final
  contents of its operands.
-/
import proofs.«142995_j19722489823618_2_alg».proof.Proof.RefRunAfter

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.StableHlo.AlignedLines

variable {F : FTy → Type} [FloatOps F]

theorem r_main_call0_v0 (V : Valuation τ sig (Elt F)) :
    after ops V (Proc.devRef .tc main_call0_v0) = mulf (after ops V (Proc.devRef .tc main_arg0)) (after ops V (Proc.devRef .tc main_arg0)) := by
  have h := (aligned (F := F)).tbinary_at V 0 _ _ _ _ rfl (by decide) (by decide) (by decide)
  generalize after ops V = Z at h ⊢
  exact h

theorem r_main_call0_cst (V : Valuation τ sig (Elt F)) :
    after ops V (Proc.devRef .tc main_call0_cst) = constant (F := F) S_ .f32 0x00000000#32 := by
  have h := (aligned (F := F)).nullary_at V 1 rfl (by decide)
  generalize after ops V = Z at h ⊢
  exact h

theorem r_main_call0_v1 (V : Valuation τ sig (Elt F)) :
    after ops V (Proc.devRef .tc main_call0_v1) = Host.reduceAdd (after ops V (Proc.devRef .tc main_call0_v0)) (after ops V (Proc.devRef .tc main_call0_cst)) reducesTo_S4096x256_S4096_d1 h_S_ := by
  have h := (aligned (F := F)).tbinary_at V 2 _ _ _ _ rfl (by decide) (by decide) (by decide)
  generalize after ops V = Z at h ⊢
  exact h

theorem r_main_call0_v2 (V : Valuation τ sig (Elt F)) :
    after ops V (Proc.devRef .tc main_call0_v2) = (broadcastInDim S4096x1 ![0] bcast_S4096_S4096x1_0) (after ops V (Proc.devRef .tc main_call0_v1)) := by
  have h := (aligned (F := F)).tunary_at V 3 _ _ _ rfl (by decide) (by decide)
  generalize after ops V = Z at h ⊢
  exact h

theorem r_main_v0 (V : Valuation τ sig (Elt F)) :
    after ops V (Proc.devRef .tc main_v0) = Host.sqrt (after ops V (Proc.devRef .tc main_call0_v2)) := by
  have h := (aligned (F := F)).tunary_at V 4 _ _ _ rfl (by decide) (by decide)
  generalize after ops V = Z at h ⊢
  exact h

theorem r_main_cst (V : Valuation τ sig (Elt F)) :
    after ops V (Proc.devRef .tc main_cst) = constant (F := F) S_ .f32 0x2B8CBCCC#32 := by
  have h := (aligned (F := F)).nullary_at V 5 rfl (by decide)
  generalize after ops V = Z at h ⊢
  exact h

theorem r_main_v1 (V : Valuation τ sig (Elt F)) :
    after ops V (Proc.devRef .tc main_v1) = (broadcastInDim S4096x1 ![] bcast_S_S4096x1) (after ops V (Proc.devRef .tc main_cst)) := by
  have h := (aligned (F := F)).unary_at V 6 rfl (by decide) (by decide)
  generalize after ops V = Z at h ⊢
  exact h

theorem r_main_v2 (V : Valuation τ sig (Elt F)) :
    after ops V (Proc.devRef .tc main_v2) = maximumf (after ops V (Proc.devRef .tc main_v0)) (after ops V (Proc.devRef .tc main_v1)) := by
  have h := (aligned (F := F)).binary_at V 7 rfl (by decide) (by decide) (by decide)
  generalize after ops V = Z at h ⊢
  exact h

theorem r_main_v3 (V : Valuation τ sig (Elt F)) :
    after ops V (Proc.devRef .tc main_v3) = (broadcastInDim S4096x256 ![0, 1] bcast_S4096x1_S4096x256_0_1) (after ops V (Proc.devRef .tc main_v2)) := by
  have h := (aligned (F := F)).unary_at V 8 rfl (by decide) (by decide)
  generalize after ops V = Z at h ⊢
  exact h

theorem r_main_v4 (V : Valuation τ sig (Elt F)) :
    after ops V (Proc.devRef .tc main_v4) = Host.divf (after ops V (Proc.devRef .tc main_arg0)) (after ops V (Proc.devRef .tc main_v3)) := by
  have h := (aligned (F := F)).binary_at V 9 rfl (by decide) (by decide) (by decide)
  generalize after ops V = Z at h ⊢
  exact h

theorem r_main_call1_v0 (V : Valuation τ sig (Elt F)) :
    after ops V (Proc.devRef .tc main_call1_v0) = mulf (after ops V (Proc.devRef .tc main_arg1)) (after ops V (Proc.devRef .tc main_arg1)) := by
  have h := (aligned (F := F)).tbinary_at V 10 _ _ _ _ rfl (by decide) (by decide) (by decide)
  generalize after ops V = Z at h ⊢
  exact h

theorem r_main_call1_cst (V : Valuation τ sig (Elt F)) :
    after ops V (Proc.devRef .tc main_call1_cst) = constant (F := F) S_ .f32 0x00000000#32 := by
  have h := (aligned (F := F)).nullary_at V 11 rfl (by decide)
  generalize after ops V = Z at h ⊢
  exact h

theorem r_main_call1_v1 (V : Valuation τ sig (Elt F)) :
    after ops V (Proc.devRef .tc main_call1_v1) = Host.reduceAdd (after ops V (Proc.devRef .tc main_call1_v0)) (after ops V (Proc.devRef .tc main_call1_cst)) reducesTo_S4096x256_S4096_d1 h_S_ := by
  have h := (aligned (F := F)).tbinary_at V 12 _ _ _ _ rfl (by decide) (by decide) (by decide)
  generalize after ops V = Z at h ⊢
  exact h

theorem r_main_call1_v2 (V : Valuation τ sig (Elt F)) :
    after ops V (Proc.devRef .tc main_call1_v2) = (broadcastInDim S4096x1 ![0] bcast_S4096_S4096x1_0) (after ops V (Proc.devRef .tc main_call1_v1)) := by
  have h := (aligned (F := F)).tunary_at V 13 _ _ _ rfl (by decide) (by decide)
  generalize after ops V = Z at h ⊢
  exact h

theorem r_main_v5 (V : Valuation τ sig (Elt F)) :
    after ops V (Proc.devRef .tc main_v5) = Host.sqrt (after ops V (Proc.devRef .tc main_call1_v2)) := by
  have h := (aligned (F := F)).tunary_at V 14 _ _ _ rfl (by decide) (by decide)
  generalize after ops V = Z at h ⊢
  exact h

theorem r_main_cst_0 (V : Valuation τ sig (Elt F)) :
    after ops V (Proc.devRef .tc main_cst_0) = constant (F := F) S_ .f32 0x2B8CBCCC#32 := by
  have h := (aligned (F := F)).nullary_at V 15 rfl (by decide)
  generalize after ops V = Z at h ⊢
  exact h

theorem r_main_v6 (V : Valuation τ sig (Elt F)) :
    after ops V (Proc.devRef .tc main_v6) = (broadcastInDim S4096x1 ![] bcast_S_S4096x1) (after ops V (Proc.devRef .tc main_cst_0)) := by
  have h := (aligned (F := F)).unary_at V 16 rfl (by decide) (by decide)
  generalize after ops V = Z at h ⊢
  exact h

theorem r_main_v7 (V : Valuation τ sig (Elt F)) :
    after ops V (Proc.devRef .tc main_v7) = maximumf (after ops V (Proc.devRef .tc main_v5)) (after ops V (Proc.devRef .tc main_v6)) := by
  have h := (aligned (F := F)).binary_at V 17 rfl (by decide) (by decide) (by decide)
  generalize after ops V = Z at h ⊢
  exact h

theorem r_main_v8 (V : Valuation τ sig (Elt F)) :
    after ops V (Proc.devRef .tc main_v8) = (broadcastInDim S4096x256 ![0, 1] bcast_S4096x1_S4096x256_0_1) (after ops V (Proc.devRef .tc main_v7)) := by
  have h := (aligned (F := F)).unary_at V 18 rfl (by decide) (by decide)
  generalize after ops V = Z at h ⊢
  exact h

theorem r_main_v9 (V : Valuation τ sig (Elt F)) :
    after ops V (Proc.devRef .tc main_v9) = Host.divf (after ops V (Proc.devRef .tc main_arg1)) (after ops V (Proc.devRef .tc main_v8)) := by
  have h := (aligned (F := F)).binary_at V 19 rfl (by decide) (by decide) (by decide)
  generalize after ops V = Z at h ⊢
  exact h

theorem r_main_v10 (V : Valuation τ sig (Elt F)) :
    after ops V (Proc.devRef .tc main_v10) = concatenate S8192x256 0 [⟨S4096x256, (after ops V (Proc.devRef .tc main_v4))⟩, ⟨S4096x256, (after ops V (Proc.devRef .tc main_v9))⟩] concatenates_S4096x256_S4096x256_S8192x256_d0 := by
  have h := (aligned (F := F)).binary_at V 20 rfl (by decide) (by decide) (by decide)
  generalize after ops V = Z at h ⊢
  exact h

theorem r_main_v11 (V : Valuation τ sig (Elt F)) :
    after ops V (Proc.devRef .tc main_v11) = Host.dotGeneral dot_S8192x256_S8192x256_S8192x8192_1_1_0_0_n_n none (after ops V (Proc.devRef .tc main_v10)) (after ops V (Proc.devRef .tc main_v10)) := by
  have h := (aligned (F := F)).binary_at V 21 rfl (by decide) (by decide) (by decide)
  generalize after ops V = Z at h ⊢
  exact h

theorem r_main_cst_1 (V : Valuation τ sig (Elt F)) :
    after ops V (Proc.devRef .tc main_cst_1) = constant (F := F) S_ .f32 0x3D8F5C29#32 := by
  have h := (aligned (F := F)).nullary_at V 22 rfl (by decide)
  generalize after ops V = Z at h ⊢
  exact h

theorem r_main_v12 (V : Valuation τ sig (Elt F)) :
    after ops V (Proc.devRef .tc main_v12) = (broadcastInDim S8192x8192 ![] bcast_S_S8192x8192) (after ops V (Proc.devRef .tc main_cst_1)) := by
  have h := (aligned (F := F)).unary_at V 23 rfl (by decide) (by decide)
  generalize after ops V = Z at h ⊢
  exact h

theorem r_main_v13 (V : Valuation τ sig (Elt F)) :
    after ops V (Proc.devRef .tc main_v13) = Host.divf (after ops V (Proc.devRef .tc main_v11)) (after ops V (Proc.devRef .tc main_v12)) := by
  have h := (aligned (F := F)).binary_at V 24 rfl (by decide) (by decide) (by decide)
  generalize after ops V = Z at h ⊢
  exact h

theorem r_main_v14 (V : Valuation τ sig (Elt F)) :
    after ops V (Proc.devRef .tc main_v14) = Host.exp (after ops V (Proc.devRef .tc main_v13)) := by
  have h := (aligned (F := F)).unary_at V 25 rfl (by decide) (by decide)
  generalize after ops V = Z at h ⊢
  exact h

theorem r_main_v15 (V : Valuation τ sig (Elt F)) :
    after ops V (Proc.devRef .tc main_v15) = iotaInDim S8192 32 0 := by
  have h := (aligned (F := F)).nullary_at V 26 rfl (by decide)
  generalize after ops V = Z at h ⊢
  exact h

theorem r_main_c (V : Valuation τ sig (Elt F)) :
    after ops V (Proc.devRef .tc main_c) = constantI S_ 32 4096#32 := by
  have h := (aligned (F := F)).nullary_at V 27 rfl (by decide)
  generalize after ops V = Z at h ⊢
  exact h

theorem r_main_v16 (V : Valuation τ sig (Elt F)) :
    after ops V (Proc.devRef .tc main_v16) = (broadcastInDim S8192 ![] bcast_S_S8192) (after ops V (Proc.devRef .tc main_c)) := by
  have h := (aligned (F := F)).unary_at V 28 rfl (by decide) (by decide)
  generalize after ops V = Z at h ⊢
  exact h

theorem r_main_v17 (V : Valuation τ sig (Elt F)) :
    after ops V (Proc.devRef .tc main_v17) = addi (after ops V (Proc.devRef .tc main_v15)) (after ops V (Proc.devRef .tc main_v16)) := by
  have h := (aligned (F := F)).binary_at V 29 rfl (by decide) (by decide) (by decide)
  generalize after ops V = Z at h ⊢
  exact h

theorem r_main_c_2 (V : Valuation τ sig (Elt F)) :
    after ops V (Proc.devRef .tc main_c_2) = constantI S_ 32 8192#32 := by
  have h := (aligned (F := F)).nullary_at V 30 rfl (by decide)
  generalize after ops V = Z at h ⊢
  exact h

theorem r_main_call2_v0 (V : Valuation τ sig (Elt F)) :
    after ops V (Proc.devRef .tc main_call2_v0) = id (after ops V (Proc.devRef .tc main_c_2)) := by
  have h := (aligned (F := F)).tunary_at V 31 _ _ _ rfl (by decide) (by decide)
  generalize after ops V = Z at h ⊢
  exact h

theorem r_main_call2_c (V : Valuation τ sig (Elt F)) :
    after ops V (Proc.devRef .tc main_call2_c) = constantI S_ 32 0#32 := by
  have h := (aligned (F := F)).nullary_at V 32 rfl (by decide)
  generalize after ops V = Z at h ⊢
  exact h

theorem r_main_call2_v1 (V : Valuation τ sig (Elt F)) :
    after ops V (Proc.devRef .tc main_call2_v1) = (cmpi .eq) (after ops V (Proc.devRef .tc main_call2_v0)) (after ops V (Proc.devRef .tc main_call2_c)) := by
  have h := (aligned (F := F)).tbinary_at V 33 _ _ _ _ rfl (by decide) (by decide) (by decide)
  generalize after ops V = Z at h ⊢
  exact h

theorem r_main_call2_c_0 (V : Valuation τ sig (Elt F)) :
    after ops V (Proc.devRef .tc main_call2_c_0) = constantI S_ 32 1#32 := by
  have h := (aligned (F := F)).nullary_at V 34 rfl (by decide)
  generalize after ops V = Z at h ⊢
  exact h

theorem r_main_call2_v2 (V : Valuation τ sig (Elt F)) :
    after ops V (Proc.devRef .tc main_call2_v2) = select (after ops V (Proc.devRef .tc main_call2_v1)) (after ops V (Proc.devRef .tc main_call2_c_0)) (after ops V (Proc.devRef .tc main_call2_v0)) := by
  have h := (aligned (F := F)).tternary_at V 35 _ _ _ _ _ rfl (by decide) (by decide) (by decide) (by decide)
  generalize after ops V = Z at h ⊢
  exact h

theorem r_main_call2_v3 (V : Valuation τ sig (Elt F)) :
    after ops V (Proc.devRef .tc main_call2_v3) = (broadcastInDim S8192 ![] bcast_S_S8192) (after ops V (Proc.devRef .tc main_call2_v2)) := by
  have h := (aligned (F := F)).tunary_at V 36 _ _ _ rfl (by decide) (by decide)
  generalize after ops V = Z at h ⊢
  exact h

theorem r_main_call2_v4 (V : Valuation τ sig (Elt F)) :
    after ops V (Proc.devRef .tc main_call2_v4) = Host.remsi (after ops V (Proc.devRef .tc main_v17)) (after ops V (Proc.devRef .tc main_call2_v3)) := by
  have h := (aligned (F := F)).tbinary_at V 37 _ _ _ _ rfl (by decide) (by decide) (by decide)
  generalize after ops V = Z at h ⊢
  exact h

theorem r_main_call2_c_1 (V : Valuation τ sig (Elt F)) :
    after ops V (Proc.devRef .tc main_call2_c_1) = constantI S_ 32 0#32 := by
  have h := (aligned (F := F)).nullary_at V 38 rfl (by decide)
  generalize after ops V = Z at h ⊢
  exact h

theorem r_main_call2_v5 (V : Valuation τ sig (Elt F)) :
    after ops V (Proc.devRef .tc main_call2_v5) = (broadcastInDim S8192 ![] bcast_S_S8192) (after ops V (Proc.devRef .tc main_call2_c_1)) := by
  have h := (aligned (F := F)).tunary_at V 39 _ _ _ rfl (by decide) (by decide)
  generalize after ops V = Z at h ⊢
  exact h

theorem r_main_call2_v6 (V : Valuation τ sig (Elt F)) :
    after ops V (Proc.devRef .tc main_call2_v6) = (cmpi .ne) (after ops V (Proc.devRef .tc main_call2_v4)) (after ops V (Proc.devRef .tc main_call2_v5)) := by
  have h := (aligned (F := F)).tbinary_at V 40 _ _ _ _ rfl (by decide) (by decide) (by decide)
  generalize after ops V = Z at h ⊢
  exact h

theorem r_main_call2_c_2 (V : Valuation τ sig (Elt F)) :
    after ops V (Proc.devRef .tc main_call2_c_2) = constantI S_ 32 0#32 := by
  have h := (aligned (F := F)).nullary_at V 41 rfl (by decide)
  generalize after ops V = Z at h ⊢
  exact h

theorem r_main_call2_v7 (V : Valuation τ sig (Elt F)) :
    after ops V (Proc.devRef .tc main_call2_v7) = (broadcastInDim S8192 ![] bcast_S_S8192) (after ops V (Proc.devRef .tc main_call2_c_2)) := by
  have h := (aligned (F := F)).tunary_at V 42 _ _ _ rfl (by decide) (by decide)
  generalize after ops V = Z at h ⊢
  exact h

theorem r_main_call2_v8 (V : Valuation τ sig (Elt F)) :
    after ops V (Proc.devRef .tc main_call2_v8) = (cmpi .slt) (after ops V (Proc.devRef .tc main_call2_v4)) (after ops V (Proc.devRef .tc main_call2_v7)) := by
  have h := (aligned (F := F)).tbinary_at V 43 _ _ _ _ rfl (by decide) (by decide) (by decide)
  generalize after ops V = Z at h ⊢
  exact h

theorem r_main_call2_c_3 (V : Valuation τ sig (Elt F)) :
    after ops V (Proc.devRef .tc main_call2_c_3) = constantI S_ 32 0#32 := by
  have h := (aligned (F := F)).nullary_at V 44 rfl (by decide)
  generalize after ops V = Z at h ⊢
  exact h

theorem r_main_call2_v9 (V : Valuation τ sig (Elt F)) :
    after ops V (Proc.devRef .tc main_call2_v9) = (cmpi .slt) (after ops V (Proc.devRef .tc main_call2_v2)) (after ops V (Proc.devRef .tc main_call2_c_3)) := by
  have h := (aligned (F := F)).tbinary_at V 45 _ _ _ _ rfl (by decide) (by decide) (by decide)
  generalize after ops V = Z at h ⊢
  exact h

theorem r_main_call2_v10 (V : Valuation τ sig (Elt F)) :
    after ops V (Proc.devRef .tc main_call2_v10) = (broadcastInDim S8192 ![] bcast_S_S8192) (after ops V (Proc.devRef .tc main_call2_v9)) := by
  have h := (aligned (F := F)).tunary_at V 46 _ _ _ rfl (by decide) (by decide)
  generalize after ops V = Z at h ⊢
  exact h

theorem r_main_call2_v11 (V : Valuation τ sig (Elt F)) :
    after ops V (Proc.devRef .tc main_call2_v11) = (cmpi .ne) (after ops V (Proc.devRef .tc main_call2_v8)) (after ops V (Proc.devRef .tc main_call2_v10)) := by
  have h := (aligned (F := F)).tbinary_at V 47 _ _ _ _ rfl (by decide) (by decide) (by decide)
  generalize after ops V = Z at h ⊢
  exact h

theorem r_main_call2_v12 (V : Valuation τ sig (Elt F)) :
    after ops V (Proc.devRef .tc main_call2_v12) = andi (after ops V (Proc.devRef .tc main_call2_v11)) (after ops V (Proc.devRef .tc main_call2_v6)) := by
  have h := (aligned (F := F)).tbinary_at V 48 _ _ _ _ rfl (by decide) (by decide) (by decide)
  generalize after ops V = Z at h ⊢
  exact h

theorem r_main_call2_v13 (V : Valuation τ sig (Elt F)) :
    after ops V (Proc.devRef .tc main_call2_v13) = (broadcastInDim S8192 ![] bcast_S_S8192) (after ops V (Proc.devRef .tc main_call2_v2)) := by
  have h := (aligned (F := F)).tunary_at V 49 _ _ _ rfl (by decide) (by decide)
  generalize after ops V = Z at h ⊢
  exact h

theorem r_main_call2_v14 (V : Valuation τ sig (Elt F)) :
    after ops V (Proc.devRef .tc main_call2_v14) = addi (after ops V (Proc.devRef .tc main_call2_v4)) (after ops V (Proc.devRef .tc main_call2_v13)) := by
  have h := (aligned (F := F)).tbinary_at V 50 _ _ _ _ rfl (by decide) (by decide) (by decide)
  generalize after ops V = Z at h ⊢
  exact h

theorem r_main_v18 (V : Valuation τ sig (Elt F)) :
    after ops V (Proc.devRef .tc main_v18) = select (after ops V (Proc.devRef .tc main_call2_v12)) (after ops V (Proc.devRef .tc main_call2_v14)) (after ops V (Proc.devRef .tc main_call2_v4)) := by
  have h := (aligned (F := F)).tternary_at V 51 _ _ _ _ _ rfl (by decide) (by decide) (by decide) (by decide)
  generalize after ops V = Z at h ⊢
  exact h

theorem r_main_c_3 (V : Valuation τ sig (Elt F)) :
    after ops V (Proc.devRef .tc main_c_3) = constantI S_ 32 0#32 := by
  have h := (aligned (F := F)).nullary_at V 52 rfl (by decide)
  generalize after ops V = Z at h ⊢
  exact h

theorem r_main_v19 (V : Valuation τ sig (Elt F)) :
    after ops V (Proc.devRef .tc main_v19) = (broadcastInDim S8192 ![] bcast_S_S8192) (after ops V (Proc.devRef .tc main_c_3)) := by
  have h := (aligned (F := F)).unary_at V 53 rfl (by decide) (by decide)
  generalize after ops V = Z at h ⊢
  exact h

theorem r_main_v20 (V : Valuation τ sig (Elt F)) :
    after ops V (Proc.devRef .tc main_v20) = (cmpi .slt) (after ops V (Proc.devRef .tc main_v15)) (after ops V (Proc.devRef .tc main_v19)) := by
  have h := (aligned (F := F)).binary_at V 54 rfl (by decide) (by decide) (by decide)
  generalize after ops V = Z at h ⊢
  exact h

theorem r_main_c_4 (V : Valuation τ sig (Elt F)) :
    after ops V (Proc.devRef .tc main_c_4) = constantI S_ 32 8192#32 := by
  have h := (aligned (F := F)).nullary_at V 55 rfl (by decide)
  generalize after ops V = Z at h ⊢
  exact h

theorem r_main_v21 (V : Valuation τ sig (Elt F)) :
    after ops V (Proc.devRef .tc main_v21) = (broadcastInDim S8192 ![] bcast_S_S8192) (after ops V (Proc.devRef .tc main_c_4)) := by
  have h := (aligned (F := F)).unary_at V 56 rfl (by decide) (by decide)
  generalize after ops V = Z at h ⊢
  exact h

theorem r_main_v22 (V : Valuation τ sig (Elt F)) :
    after ops V (Proc.devRef .tc main_v22) = addi (after ops V (Proc.devRef .tc main_v15)) (after ops V (Proc.devRef .tc main_v21)) := by
  have h := (aligned (F := F)).binary_at V 57 rfl (by decide) (by decide) (by decide)
  generalize after ops V = Z at h ⊢
  exact h

theorem r_main_v23 (V : Valuation τ sig (Elt F)) :
    after ops V (Proc.devRef .tc main_v23) = select (after ops V (Proc.devRef .tc main_v20)) (after ops V (Proc.devRef .tc main_v22)) (after ops V (Proc.devRef .tc main_v15)) := by
  have h := (aligned (F := F)).ternary_at V 58 rfl (by decide) (by decide) (by decide) (by decide)
  generalize after ops V = Z at h ⊢
  exact h

theorem r_main_c_5 (V : Valuation τ sig (Elt F)) :
    after ops V (Proc.devRef .tc main_c_5) = constantI S_ 32 0#32 := by
  have h := (aligned (F := F)).nullary_at V 59 rfl (by decide)
  generalize after ops V = Z at h ⊢
  exact h

theorem r_main_v24 (V : Valuation τ sig (Elt F)) :
    after ops V (Proc.devRef .tc main_v24) = (broadcastInDim S8192 ![] bcast_S_S8192) (after ops V (Proc.devRef .tc main_c_5)) := by
  have h := (aligned (F := F)).unary_at V 60 rfl (by decide) (by decide)
  generalize after ops V = Z at h ⊢
  exact h

theorem r_main_v25 (V : Valuation τ sig (Elt F)) :
    after ops V (Proc.devRef .tc main_v25) = (cmpi .slt) (after ops V (Proc.devRef .tc main_v18)) (after ops V (Proc.devRef .tc main_v24)) := by
  have h := (aligned (F := F)).binary_at V 61 rfl (by decide) (by decide) (by decide)
  generalize after ops V = Z at h ⊢
  exact h

theorem r_main_c_6 (V : Valuation τ sig (Elt F)) :
    after ops V (Proc.devRef .tc main_c_6) = constantI S_ 32 8192#32 := by
  have h := (aligned (F := F)).nullary_at V 62 rfl (by decide)
  generalize after ops V = Z at h ⊢
  exact h

theorem r_main_v26 (V : Valuation τ sig (Elt F)) :
    after ops V (Proc.devRef .tc main_v26) = (broadcastInDim S8192 ![] bcast_S_S8192) (after ops V (Proc.devRef .tc main_c_6)) := by
  have h := (aligned (F := F)).unary_at V 63 rfl (by decide) (by decide)
  generalize after ops V = Z at h ⊢
  exact h

theorem r_main_v27 (V : Valuation τ sig (Elt F)) :
    after ops V (Proc.devRef .tc main_v27) = addi (after ops V (Proc.devRef .tc main_v18)) (after ops V (Proc.devRef .tc main_v26)) := by
  have h := (aligned (F := F)).binary_at V 64 rfl (by decide) (by decide) (by decide)
  generalize after ops V = Z at h ⊢
  exact h

theorem r_main_v28 (V : Valuation τ sig (Elt F)) :
    after ops V (Proc.devRef .tc main_v28) = select (after ops V (Proc.devRef .tc main_v25)) (after ops V (Proc.devRef .tc main_v27)) (after ops V (Proc.devRef .tc main_v18)) := by
  have h := (aligned (F := F)).ternary_at V 65 rfl (by decide) (by decide) (by decide) (by decide)
  generalize after ops V = Z at h ⊢
  exact h

theorem r_main_v29 (V : Valuation τ sig (Elt F)) :
    after ops V (Proc.devRef .tc main_v29) = (broadcastInDim S8192x1 ![0] bcast_S8192_S8192x1_0) (after ops V (Proc.devRef .tc main_v23)) := by
  have h := (aligned (F := F)).unary_at V 66 rfl (by decide) (by decide)
  generalize after ops V = Z at h ⊢
  exact h

theorem r_main_v30 (V : Valuation τ sig (Elt F)) :
    after ops V (Proc.devRef .tc main_v30) = (broadcastInDim S8192x1 ![0] bcast_S8192_S8192x1_0) (after ops V (Proc.devRef .tc main_v28)) := by
  have h := (aligned (F := F)).unary_at V 67 rfl (by decide) (by decide)
  generalize after ops V = Z at h ⊢
  exact h

theorem r_main_v31 (V : Valuation τ sig (Elt F)) :
    after ops V (Proc.devRef .tc main_v31) = concatenate S8192x2 1 [⟨S8192x1, (after ops V (Proc.devRef .tc main_v29))⟩, ⟨S8192x1, (after ops V (Proc.devRef .tc main_v30))⟩] concatenates_S8192x1_S8192x1_S8192x2_d1 := by
  have h := (aligned (F := F)).binary_at V 68 rfl (by decide) (by decide) (by decide)
  generalize after ops V = Z at h ⊢
  exact h

theorem r_main_v32 (V : Valuation τ sig (Elt F)) :
    after ops V (Proc.devRef .tc main_v32) = Host.gather gather_S8192x8192_S8192x2_S8192_n_01_n_n_01_1_11 (after ops V (Proc.devRef .tc main_v14)) (after ops V (Proc.devRef .tc main_v31)) := by
  have h := (aligned (F := F)).binary_at V 69 rfl (by decide) (by decide) (by decide)
  generalize after ops V = Z at h ⊢
  exact h

theorem r_main_c_7 (V : Valuation τ sig (Elt F)) :
    after ops V (Proc.devRef .tc main_c_7) = constantI S_ 32 0#32 := by
  have h := (aligned (F := F)).nullary_at V 70 rfl (by decide)
  generalize after ops V = Z at h ⊢
  exact h

theorem r_main_v33 (V : Valuation τ sig (Elt F)) :
    after ops V (Proc.devRef .tc main_v33) = (broadcastInDim S8192 ![] bcast_S_S8192) (after ops V (Proc.devRef .tc main_c_7)) := by
  have h := (aligned (F := F)).unary_at V 71 rfl (by decide) (by decide)
  generalize after ops V = Z at h ⊢
  exact h

theorem r_main_v34 (V : Valuation τ sig (Elt F)) :
    after ops V (Proc.devRef .tc main_v34) = (cmpi .slt) (after ops V (Proc.devRef .tc main_v15)) (after ops V (Proc.devRef .tc main_v33)) := by
  have h := (aligned (F := F)).binary_at V 72 rfl (by decide) (by decide) (by decide)
  generalize after ops V = Z at h ⊢
  exact h

theorem r_main_c_8 (V : Valuation τ sig (Elt F)) :
    after ops V (Proc.devRef .tc main_c_8) = constantI S_ 32 8192#32 := by
  have h := (aligned (F := F)).nullary_at V 73 rfl (by decide)
  generalize after ops V = Z at h ⊢
  exact h

theorem r_main_v35 (V : Valuation τ sig (Elt F)) :
    after ops V (Proc.devRef .tc main_v35) = (broadcastInDim S8192 ![] bcast_S_S8192) (after ops V (Proc.devRef .tc main_c_8)) := by
  have h := (aligned (F := F)).unary_at V 74 rfl (by decide) (by decide)
  generalize after ops V = Z at h ⊢
  exact h

theorem r_main_v36 (V : Valuation τ sig (Elt F)) :
    after ops V (Proc.devRef .tc main_v36) = addi (after ops V (Proc.devRef .tc main_v15)) (after ops V (Proc.devRef .tc main_v35)) := by
  have h := (aligned (F := F)).binary_at V 75 rfl (by decide) (by decide) (by decide)
  generalize after ops V = Z at h ⊢
  exact h

theorem r_main_v37 (V : Valuation τ sig (Elt F)) :
    after ops V (Proc.devRef .tc main_v37) = select (after ops V (Proc.devRef .tc main_v34)) (after ops V (Proc.devRef .tc main_v36)) (after ops V (Proc.devRef .tc main_v15)) := by
  have h := (aligned (F := F)).ternary_at V 76 rfl (by decide) (by decide) (by decide) (by decide)
  generalize after ops V = Z at h ⊢
  exact h

theorem r_main_c_9 (V : Valuation τ sig (Elt F)) :
    after ops V (Proc.devRef .tc main_c_9) = constantI S_ 32 0#32 := by
  have h := (aligned (F := F)).nullary_at V 77 rfl (by decide)
  generalize after ops V = Z at h ⊢
  exact h

theorem r_main_v38 (V : Valuation τ sig (Elt F)) :
    after ops V (Proc.devRef .tc main_v38) = (broadcastInDim S8192 ![] bcast_S_S8192) (after ops V (Proc.devRef .tc main_c_9)) := by
  have h := (aligned (F := F)).unary_at V 78 rfl (by decide) (by decide)
  generalize after ops V = Z at h ⊢
  exact h

theorem r_main_v39 (V : Valuation τ sig (Elt F)) :
    after ops V (Proc.devRef .tc main_v39) = (cmpi .slt) (after ops V (Proc.devRef .tc main_v15)) (after ops V (Proc.devRef .tc main_v38)) := by
  have h := (aligned (F := F)).binary_at V 79 rfl (by decide) (by decide) (by decide)
  generalize after ops V = Z at h ⊢
  exact h

theorem r_main_c_10 (V : Valuation τ sig (Elt F)) :
    after ops V (Proc.devRef .tc main_c_10) = constantI S_ 32 8192#32 := by
  have h := (aligned (F := F)).nullary_at V 80 rfl (by decide)
  generalize after ops V = Z at h ⊢
  exact h

theorem r_main_v40 (V : Valuation τ sig (Elt F)) :
    after ops V (Proc.devRef .tc main_v40) = (broadcastInDim S8192 ![] bcast_S_S8192) (after ops V (Proc.devRef .tc main_c_10)) := by
  have h := (aligned (F := F)).unary_at V 81 rfl (by decide) (by decide)
  generalize after ops V = Z at h ⊢
  exact h

theorem r_main_v41 (V : Valuation τ sig (Elt F)) :
    after ops V (Proc.devRef .tc main_v41) = addi (after ops V (Proc.devRef .tc main_v15)) (after ops V (Proc.devRef .tc main_v40)) := by
  have h := (aligned (F := F)).binary_at V 82 rfl (by decide) (by decide) (by decide)
  generalize after ops V = Z at h ⊢
  exact h

theorem r_main_v42 (V : Valuation τ sig (Elt F)) :
    after ops V (Proc.devRef .tc main_v42) = select (after ops V (Proc.devRef .tc main_v39)) (after ops V (Proc.devRef .tc main_v41)) (after ops V (Proc.devRef .tc main_v15)) := by
  have h := (aligned (F := F)).ternary_at V 83 rfl (by decide) (by decide) (by decide) (by decide)
  generalize after ops V = Z at h ⊢
  exact h

theorem r_main_v43 (V : Valuation τ sig (Elt F)) :
    after ops V (Proc.devRef .tc main_v43) = (broadcastInDim S8192x1 ![0] bcast_S8192_S8192x1_0) (after ops V (Proc.devRef .tc main_v37)) := by
  have h := (aligned (F := F)).unary_at V 84 rfl (by decide) (by decide)
  generalize after ops V = Z at h ⊢
  exact h

theorem r_main_v44 (V : Valuation τ sig (Elt F)) :
    after ops V (Proc.devRef .tc main_v44) = (broadcastInDim S8192x1 ![0] bcast_S8192_S8192x1_0) (after ops V (Proc.devRef .tc main_v42)) := by
  have h := (aligned (F := F)).unary_at V 85 rfl (by decide) (by decide)
  generalize after ops V = Z at h ⊢
  exact h

theorem r_main_v45 (V : Valuation τ sig (Elt F)) :
    after ops V (Proc.devRef .tc main_v45) = concatenate S8192x2 1 [⟨S8192x1, (after ops V (Proc.devRef .tc main_v43))⟩, ⟨S8192x1, (after ops V (Proc.devRef .tc main_v44))⟩] concatenates_S8192x1_S8192x1_S8192x2_d1 := by
  have h := (aligned (F := F)).binary_at V 86 rfl (by decide) (by decide) (by decide)
  generalize after ops V = Z at h ⊢
  exact h

theorem r_main_v46 (V : Valuation τ sig (Elt F)) :
    after ops V (Proc.devRef .tc main_v46) = Host.gather gather_S8192x8192_S8192x2_S8192_n_01_n_n_01_1_11 (after ops V (Proc.devRef .tc main_v14)) (after ops V (Proc.devRef .tc main_v45)) := by
  have h := (aligned (F := F)).binary_at V 87 rfl (by decide) (by decide) (by decide)
  generalize after ops V = Z at h ⊢
  exact h

theorem r_main_cst_11 (V : Valuation τ sig (Elt F)) :
    after ops V (Proc.devRef .tc main_cst_11) = constant (F := F) S_ .f32 0x00000000#32 := by
  have h := (aligned (F := F)).nullary_at V 88 rfl (by decide)
  generalize after ops V = Z at h ⊢
  exact h

theorem r_main_v47 (V : Valuation τ sig (Elt F)) :
    after ops V (Proc.devRef .tc main_v47) = Host.reduceAdd (after ops V (Proc.devRef .tc main_v14)) (after ops V (Proc.devRef .tc main_cst_11)) reducesTo_S8192x8192_S8192_d1 h_S_ := by
  have h := (aligned (F := F)).binary_at V 89 rfl (by decide) (by decide) (by decide)
  generalize after ops V = Z at h ⊢
  exact h

theorem r_main_v48 (V : Valuation τ sig (Elt F)) :
    after ops V (Proc.devRef .tc main_v48) = subf (after ops V (Proc.devRef .tc main_v47)) (after ops V (Proc.devRef .tc main_v46)) := by
  have h := (aligned (F := F)).binary_at V 90 rfl (by decide) (by decide) (by decide)
  generalize after ops V = Z at h ⊢
  exact h

theorem r_main_v49 (V : Valuation τ sig (Elt F)) :
    after ops V (Proc.devRef .tc main_v49) = subf (after ops V (Proc.devRef .tc main_v48)) (after ops V (Proc.devRef .tc main_v32)) := by
  have h := (aligned (F := F)).binary_at V 91 rfl (by decide) (by decide) (by decide)
  generalize after ops V = Z at h ⊢
  exact h

theorem r_main_v50 (V : Valuation τ sig (Elt F)) :
    after ops V (Proc.devRef .tc main_v50) = addf (after ops V (Proc.devRef .tc main_v32)) (after ops V (Proc.devRef .tc main_v49)) := by
  have h := (aligned (F := F)).binary_at V 92 rfl (by decide) (by decide) (by decide)
  generalize after ops V = Z at h ⊢
  exact h

theorem r_main_v51 (V : Valuation τ sig (Elt F)) :
    after ops V (Proc.devRef .tc main_v51) = Host.divf (after ops V (Proc.devRef .tc main_v32)) (after ops V (Proc.devRef .tc main_v50)) := by
  have h := (aligned (F := F)).binary_at V 93 rfl (by decide) (by decide) (by decide)
  generalize after ops V = Z at h ⊢
  exact h

theorem r_main_v52 (V : Valuation τ sig (Elt F)) :
    after ops V (Proc.devRef .tc main_v52) = Host.log (after ops V (Proc.devRef .tc main_v51)) := by
  have h := (aligned (F := F)).unary_at V 94 rfl (by decide) (by decide)
  generalize after ops V = Z at h ⊢
  exact h

theorem r_main_v53 (V : Valuation τ sig (Elt F)) :
    after ops V (Proc.devRef .tc main_v53) = Host.negf (after ops V (Proc.devRef .tc main_v52)) := by
  have h := (aligned (F := F)).unary_at V 95 rfl (by decide) (by decide)
  generalize after ops V = Z at h ⊢
  exact h

theorem r_main_cst_12 (V : Valuation τ sig (Elt F)) :
    after ops V (Proc.devRef .tc main_cst_12) = constant (F := F) S_ .f32 0x00000000#32 := by
  have h := (aligned (F := F)).nullary_at V 96 rfl (by decide)
  generalize after ops V = Z at h ⊢
  exact h

theorem r_main_v54 (V : Valuation τ sig (Elt F)) :
    after ops V (Proc.devRef .tc main_v54) = Host.reduceAdd (after ops V (Proc.devRef .tc main_v53)) (after ops V (Proc.devRef .tc main_cst_12)) reducesTo_S8192_S_d0 h_S_ := by
  have h := (aligned (F := F)).binary_at V 97 rfl (by decide) (by decide) (by decide)
  generalize after ops V = Z at h ⊢
  exact h

theorem r_main_cst_13 (V : Valuation τ sig (Elt F)) :
    after ops V (Proc.devRef .tc main_cst_13) = constant (F := F) S_ .f32 0x46000000#32 := by
  have h := (aligned (F := F)).nullary_at V 98 rfl (by decide)
  generalize after ops V = Z at h ⊢
  exact h

theorem r_main_v55 (V : Valuation τ sig (Elt F)) :
    after ops V (Proc.devRef .tc main_v55) = Host.divf (after ops V (Proc.devRef .tc main_v54)) (after ops V (Proc.devRef .tc main_cst_13)) := by
  have h := (aligned (F := F)).binary_at V 99 rfl (by decide) (by decide) (by decide)
  generalize after ops V = Z at h ⊢
  exact h

end Cert.ReferenceIdeal.RefValue

end
-- ==== Proof.RefTerm.lean ====
/-
  The value the reference program computes, as a pure term of its two arguments: the composition of
  the program's operations in the printed order, each value a named definition.
-/
import proofs.«142995_j19722489823618_2_alg».proof.ReferenceIdeal
import Idealize.ShloMosaic.PureOps.Ideal

noncomputable section

namespace Cert.ReferenceIdeal.RefValue

open Cert.ReferenceIdeal Idealize.ShloMosaic
open Facts₀ Facts

variable [Cert.ReferenceIdeal.Facts]

/-! ## The module-local functions, as functions of their arguments -/

/-- @norm: the square roots of the row sums of squares, as a column. -/
def norm (x : FVec Ideal S4096x256 .f32) : FVec Ideal S4096x1 .f32 :=
  Host.sqrt (broadcastInDim S4096x1 ![0] bcast_S4096_S4096x1_0
    (Host.reduceAdd (mulf x x) (constant (F := Ideal) S_ .f32 0x00000000#32) reducesTo_S4096x256_S4096_d1 h_S_))

/-- @_where: a select on scalars. -/
def whereI (c : IVec S_ 1) (a b : IVec S_ 32) : IVec S_ 32 := select c a b

/-- @remainder's divisor: the second argument, or one where it is zero. -/
def remDivisor (n : IVec S_ 32) : IVec S_ 32 :=
  whereI (cmpi .eq (id n) (constantI S_ 32 0#32)) (constantI S_ 32 1#32) (id n)

/-- @remainder's truncated remainder. -/
def remTrunc (x : IVec S8192 32) (n : IVec S_ 32) : IVec S8192 32 :=
  Host.remsi x (broadcastInDim S8192 ![] bcast_S_S8192 (remDivisor n))

/-- @remainder: the truncated remainder, moved by the divisor where it is non-zero and of the other sign. -/
def remainder (x : IVec S8192 32) (n : IVec S_ 32) : IVec S8192 32 :=
  select
    (andi
      (cmpi .ne
        (cmpi .slt (remTrunc x n) (broadcastInDim S8192 ![] bcast_S_S8192 (constantI S_ 32 0#32)))
        (broadcastInDim S8192 ![] bcast_S_S8192 (cmpi .slt (remDivisor n) (constantI S_ 32 0#32))))
      (cmpi .ne (remTrunc x n) (broadcastInDim S8192 ![] bcast_S_S8192 (constantI S_ 32 0#32))))
    (addi (remTrunc x n) (broadcastInDim S8192 ![] bcast_S_S8192 (remDivisor n)))
    (remTrunc x n)

/-- A negative index counted from the end: i + 8192 where i < 0, else i. -/
def wrap (i : IVec S8192 32) : IVec S8192 32 :=
  select (cmpi .slt i (broadcastInDim S8192 ![] bcast_S_S8192 (constantI S_ 32 0#32)))
    (addi i (broadcastInDim S8192 ![] bcast_S_S8192 (constantI S_ 32 8192#32))) i

/-! ## @main's values, in the printed order -/

/-- One argument divided, row by row, by its row norm floored at the eps word (%0 … %4, %5 … %9). -/
def v2 (a : FVec Ideal S4096x256 .f32) : FVec Ideal S4096x1 .f32 :=
  maximumf (norm a) (broadcastInDim S4096x1 ![] bcast_S_S4096x1 (constant (F := Ideal) S_ .f32 0x2B8CBCCC#32))
def v3 (a : FVec Ideal S4096x256 .f32) : FVec Ideal S4096x256 .f32 :=
  broadcastInDim S4096x256 ![0, 1] bcast_S4096x1_S4096x256_0_1 (v2 a)
def v4 (a : FVec Ideal S4096x256 .f32) : FVec Ideal S4096x256 .f32 := Host.divf a (v3 a)

/-- %10: the two normalised arguments, one above the other. -/
def v10 (a0 a1 : FVec Ideal S4096x256 .f32) : FVec Ideal S8192x256 .f32 :=
  concatenate S8192x256 0 [⟨S4096x256, v4 a0⟩, ⟨S4096x256, v4 a1⟩] concatenates_S4096x256_S4096x256_S8192x256_d0
/-- %11: all pairwise dot products of its rows. -/
def v11 (a0 a1 : FVec Ideal S4096x256 .f32) : FVec Ideal S8192x8192 .f32 :=
  Host.dotGeneral dot_S8192x256_S8192x256_S8192x8192_1_1_0_0_n_n none (v10 a0 a1) (v10 a0 a1)
/-- %13: divided by the temperature word. -/
def v13 (a0 a1 : FVec Ideal S4096x256 .f32) : FVec Ideal S8192x8192 .f32 :=
  Host.divf (v11 a0 a1) (broadcastInDim S8192x8192 ![] bcast_S_S8192x8192 (constant (F := Ideal) S_ .f32 0x3D8F5C29#32))
/-- %14: its exponential. -/
def v14 (a0 a1 : FVec Ideal S4096x256 .f32) : FVec Ideal S8192x8192 .f32 := Host.exp (v13 a0 a1)

/-- %15: the row numbers. -/
def v15 : IVec S8192 32 := iotaInDim S8192 32 0
/-- %17: the row numbers plus 4096. -/
def v17 : IVec S8192 32 := addi v15 (broadcastInDim S8192 ![] bcast_S_S8192 (constantI S_ 32 4096#32))
/-- %18: that, modulo 8192. -/
def v18 : IVec S8192 32 := remainder v17 (constantI S_ 32 8192#32)
/-- %23 (and %37, %42): the row numbers as gather indices. -/
def v23 : IVec S8192 32 := wrap v15
/-- %28: the partner columns as gather indices. -/
def v28 : IVec S8192 32 := wrap v18
/-- %31: the index pairs (row, partner). -/
def v31 : IVec S8192x2 32 :=
  concatenate S8192x2 1 [⟨S8192x1, broadcastInDim S8192x1 ![0] bcast_S8192_S8192x1_0 v23⟩,
    ⟨S8192x1, broadcastInDim S8192x1 ![0] bcast_S8192_S8192x1_0 v28⟩] concatenates_S8192x1_S8192x1_S8192x2_d1
/-- %32: the partner entries. -/
def v32 (a0 a1 : FVec Ideal S4096x256 .f32) : FVec Ideal S8192 .f32 :=
  Host.gather gather_S8192x8192_S8192x2_S8192_n_01_n_n_01_1_11 (v14 a0 a1) v31
/-- %45: the index pairs (row, row). -/
def v45 : IVec S8192x2 32 :=
  concatenate S8192x2 1 [⟨S8192x1, broadcastInDim S8192x1 ![0] bcast_S8192_S8192x1_0 v23⟩,
    ⟨S8192x1, broadcastInDim S8192x1 ![0] bcast_S8192_S8192x1_0 v23⟩] concatenates_S8192x1_S8192x1_S8192x2_d1
/-- %46: the diagonal entries. -/
def v46 (a0 a1 : FVec Ideal S4096x256 .f32) : FVec Ideal S8192 .f32 :=
  Host.gather gather_S8192x8192_S8192x2_S8192_n_01_n_n_01_1_11 (v14 a0 a1) v45
/-- %47: the row sums. -/
def v47 (a0 a1 : FVec Ideal S4096x256 .f32) : FVec Ideal S8192 .f32 :=
  Host.reduceAdd (v14 a0 a1) (constant (F := Ideal) S_ .f32 0x00000000#32) reducesTo_S8192x8192_S8192_d1 h_S_
/-- %49: the row sums less the diagonal less the partner entries. -/
def v49 (a0 a1 : FVec Ideal S4096x256 .f32) : FVec Ideal S8192 .f32 :=
  subf (subf (v47 a0 a1) (v46 a0 a1)) (v32 a0 a1)
/-- %51: partner entry over (partner entry plus that). -/
def v51 (a0 a1 : FVec Ideal S4096x256 .f32) : FVec Ideal S8192 .f32 :=
  Host.divf (v32 a0 a1) (addf (v32 a0 a1) (v49 a0 a1))
/-- %53: minus its logarithm. -/
def v53 (a0 a1 : FVec Ideal S4096x256 .f32) : FVec Ideal S8192 .f32 := Host.negf (Host.log (v51 a0 a1))
/-- %54: the sum over the rows. -/
def v54 (a0 a1 : FVec Ideal S4096x256 .f32) : FVec Ideal S_ .f32 :=
  Host.reduceAdd (v53 a0 a1) (constant (F := Ideal) S_ .f32 0x00000000#32) reducesTo_S8192_S_d0 h_S_

/-- %55, the result: the mean of the rows' losses. -/
def refTerm (a0 a1 : FVec Ideal S4096x256 .f32) : FVec Ideal S_ .f32 :=
  Host.divf (v54 a0 a1) (constant (F := Ideal) S_ .f32 0x46000000#32)

end Cert.ReferenceIdeal.RefValue

end
-- ==== Proof.RefRunTerm.lean ====
/-
  The reference's result as the pure term of its arguments: each buffer's final contents, in the printed order,
  is the named value of the pure composition; the run then ends with the result buffer at `refTerm` of the two
  arguments' launch contents and the arguments unchanged.
-/
import proofs.«142995_j19722489823618_2_alg».proof.Proof.RefRunRead
import proofs.«142995_j19722489823618_2_alg».proof.Proof.RefTerm
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.StableHlo.AlignedLines

variable {F : FTy → Type} [FloatOps F]

theorem e_main_call0_v0 (V : Valuation τ sig (Elt Ideal)) :
    after ops V (Proc.devRef .tc main_call0_v0) = (mulf (F := Ideal) (φ := .f32)) (V (Proc.devRef .tc main_arg0)) (V (Proc.devRef .tc main_arg0)) := by
  rw [r_main_call0_v0 V, after_arg0 V]

theorem e_main_call0_cst (V : Valuation τ sig (Elt Ideal)) :
    after ops V (Proc.devRef .tc main_call0_cst) = constant (F := Ideal) S_ .f32 0x00000000#32 := by
  rw [r_main_call0_cst V]

theorem e_main_call0_v1 (V : Valuation τ sig (Elt Ideal)) :
    after ops V (Proc.devRef .tc main_call0_v1) = Host.reduceAdd ((mulf (F := Ideal) (φ := .f32)) (V (Proc.devRef .tc main_arg0)) (V (Proc.devRef .tc main_arg0))) (constant (F := Ideal) S_ .f32 0x00000000#32) reducesTo_S4096x256_S4096_d1 h_S_ := by
  rw [r_main_call0_v1 V, e_main_call0_v0 V, e_main_call0_cst V]

theorem e_main_call0_v2 (V : Valuation τ sig (Elt Ideal)) :
    after ops V (Proc.devRef .tc main_call0_v2) = (broadcastInDim S4096x1 ![0] bcast_S4096_S4096x1_0) (Host.reduceAdd ((mulf (F := Ideal) (φ := .f32)) (V (Proc.devRef .tc main_arg0)) (V (Proc.devRef .tc main_arg0))) (constant (F := Ideal) S_ .f32 0x00000000#32) reducesTo_S4096x256_S4096_d1 h_S_) := by
  rw [r_main_call0_v2 V, e_main_call0_v1 V]

theorem e_main_v0 (V : Valuation τ sig (Elt Ideal)) :
    after ops V (Proc.devRef .tc main_v0) = norm (V (Proc.devRef .tc main_arg0)) := by
  rw [r_main_v0 V, e_main_call0_v2 V]
  rfl

theorem e_main_cst (V : Valuation τ sig (Elt Ideal)) :
    after ops V (Proc.devRef .tc main_cst) = constant (F := Ideal) S_ .f32 0x2B8CBCCC#32 := by
  rw [r_main_cst V]

theorem e_main_v1 (V : Valuation τ sig (Elt Ideal)) :
    after ops V (Proc.devRef .tc main_v1) = (broadcastInDim S4096x1 ![] bcast_S_S4096x1) (constant (F := Ideal) S_ .f32 0x2B8CBCCC#32) := by
  rw [r_main_v1 V, e_main_cst V]

theorem e_main_v2 (V : Valuation τ sig (Elt Ideal)) :
    after ops V (Proc.devRef .tc main_v2) = v2 (V (Proc.devRef .tc main_arg0)) := by
  rw [r_main_v2 V, e_main_v0 V, e_main_v1 V]
  rfl

theorem e_main_v3 (V : Valuation τ sig (Elt Ideal)) :
    after ops V (Proc.devRef .tc main_v3) = v3 (V (Proc.devRef .tc main_arg0)) := by
  rw [r_main_v3 V, e_main_v2 V]
  rfl

theorem e_main_v4 (V : Valuation τ sig (Elt Ideal)) :
    after ops V (Proc.devRef .tc main_v4) = v4 (V (Proc.devRef .tc main_arg0)) := by
  rw [r_main_v4 V, after_arg0 V, e_main_v3 V]
  rfl

theorem e_main_call1_v0 (V : Valuation τ sig (Elt Ideal)) :
    after ops V (Proc.devRef .tc main_call1_v0) = (mulf (F := Ideal) (φ := .f32)) (V (Proc.devRef .tc main_arg1)) (V (Proc.devRef .tc main_arg1)) := by
  rw [r_main_call1_v0 V, after_arg1 V]

theorem e_main_call1_cst (V : Valuation τ sig (Elt Ideal)) :
    after ops V (Proc.devRef .tc main_call1_cst) = constant (F := Ideal) S_ .f32 0x00000000#32 := by
  rw [r_main_call1_cst V]

theorem e_main_call1_v1 (V : Valuation τ sig (Elt Ideal)) :
    after ops V (Proc.devRef .tc main_call1_v1) = Host.reduceAdd ((mulf (F := Ideal) (φ := .f32)) (V (Proc.devRef .tc main_arg1)) (V (Proc.devRef .tc main_arg1))) (constant (F := Ideal) S_ .f32 0x00000000#32) reducesTo_S4096x256_S4096_d1 h_S_ := by
  rw [r_main_call1_v1 V, e_main_call1_v0 V, e_main_call1_cst V]

theorem e_main_call1_v2 (V : Valuation τ sig (Elt Ideal)) :
    after ops V (Proc.devRef .tc main_call1_v2) = (broadcastInDim S4096x1 ![0] bcast_S4096_S4096x1_0) (Host.reduceAdd ((mulf (F := Ideal) (φ := .f32)) (V (Proc.devRef .tc main_arg1)) (V (Proc.devRef .tc main_arg1))) (constant (F := Ideal) S_ .f32 0x00000000#32) reducesTo_S4096x256_S4096_d1 h_S_) := by
  rw [r_main_call1_v2 V, e_main_call1_v1 V]

theorem e_main_v5 (V : Valuation τ sig (Elt Ideal)) :
    after ops V (Proc.devRef .tc main_v5) = norm (V (Proc.devRef .tc main_arg1)) := by
  rw [r_main_v5 V, e_main_call1_v2 V]
  rfl

theorem e_main_cst_0 (V : Valuation τ sig (Elt Ideal)) :
    after ops V (Proc.devRef .tc main_cst_0) = constant (F := Ideal) S_ .f32 0x2B8CBCCC#32 := by
  rw [r_main_cst_0 V]

theorem e_main_v6 (V : Valuation τ sig (Elt Ideal)) :
    after ops V (Proc.devRef .tc main_v6) = (broadcastInDim S4096x1 ![] bcast_S_S4096x1) (constant (F := Ideal) S_ .f32 0x2B8CBCCC#32) := by
  rw [r_main_v6 V, e_main_cst_0 V]

theorem e_main_v7 (V : Valuation τ sig (Elt Ideal)) :
    after ops V (Proc.devRef .tc main_v7) = v2 (V (Proc.devRef .tc main_arg1)) := by
  rw [r_main_v7 V, e_main_v5 V, e_main_v6 V]
  rfl

theorem e_main_v8 (V : Valuation τ sig (Elt Ideal)) :
    after ops V (Proc.devRef .tc main_v8) = v3 (V (Proc.devRef .tc main_arg1)) := by
  rw [r_main_v8 V, e_main_v7 V]
  rfl

theorem e_main_v9 (V : Valuation τ sig (Elt Ideal)) :
    after ops V (Proc.devRef .tc main_v9) = v4 (V (Proc.devRef .tc main_arg1)) := by
  rw [r_main_v9 V, after_arg1 V, e_main_v8 V]
  rfl

theorem e_main_v10 (V : Valuation τ sig (Elt Ideal)) :
    after ops V (Proc.devRef .tc main_v10) = v10 (V (Proc.devRef .tc main_arg0)) (V (Proc.devRef .tc main_arg1)) := by
  rw [r_main_v10 V, e_main_v4 V, e_main_v9 V]
  rfl

theorem e_main_v11 (V : Valuation τ sig (Elt Ideal)) :
    after ops V (Proc.devRef .tc main_v11) = v11 (V (Proc.devRef .tc main_arg0)) (V (Proc.devRef .tc main_arg1)) := by
  rw [r_main_v11 V, e_main_v10 V]
  rfl

theorem e_main_cst_1 (V : Valuation τ sig (Elt Ideal)) :
    after ops V (Proc.devRef .tc main_cst_1) = constant (F := Ideal) S_ .f32 0x3D8F5C29#32 := by
  rw [r_main_cst_1 V]

theorem e_main_v12 (V : Valuation τ sig (Elt Ideal)) :
    after ops V (Proc.devRef .tc main_v12) = (broadcastInDim S8192x8192 ![] bcast_S_S8192x8192) (constant (F := Ideal) S_ .f32 0x3D8F5C29#32) := by
  rw [r_main_v12 V, e_main_cst_1 V]

theorem e_main_v13 (V : Valuation τ sig (Elt Ideal)) :
    after ops V (Proc.devRef .tc main_v13) = v13 (V (Proc.devRef .tc main_arg0)) (V (Proc.devRef .tc main_arg1)) := by
  rw [r_main_v13 V, e_main_v11 V, e_main_v12 V]
  rfl

theorem e_main_v14 (V : Valuation τ sig (Elt Ideal)) :
    after ops V (Proc.devRef .tc main_v14) = v14 (V (Proc.devRef .tc main_arg0)) (V (Proc.devRef .tc main_arg1)) := by
  rw [r_main_v14 V, e_main_v13 V]
  rfl

theorem e_main_v15 (V : Valuation τ sig (Elt Ideal)) :
    after ops V (Proc.devRef .tc main_v15) = v15 := by
  rw [r_main_v15 V]
  rfl

theorem e_main_c (V : Valuation τ sig (Elt Ideal)) :
    after ops V (Proc.devRef .tc main_c) = constantI S_ 32 4096#32 := by
  rw [r_main_c V]

theorem e_main_v16 (V : Valuation τ sig (Elt Ideal)) :
    after ops V (Proc.devRef .tc main_v16) = (broadcastInDim S8192 ![] bcast_S_S8192) (constantI S_ 32 4096#32) := by
  rw [r_main_v16 V, e_main_c V]

theorem e_main_v17 (V : Valuation τ sig (Elt Ideal)) :
    after ops V (Proc.devRef .tc main_v17) = v17 := by
  rw [r_main_v17 V, e_main_v15 V, e_main_v16 V]
  rfl

theorem e_main_c_2 (V : Valuation τ sig (Elt Ideal)) :
    after ops V (Proc.devRef .tc main_c_2) = constantI S_ 32 8192#32 := by
  rw [r_main_c_2 V]

theorem e_main_call2_v0 (V : Valuation τ sig (Elt Ideal)) :
    after ops V (Proc.devRef .tc main_call2_v0) = id (constantI S_ 32 8192#32) := by
  rw [r_main_call2_v0 V, e_main_c_2 V]

theorem e_main_call2_c (V : Valuation τ sig (Elt Ideal)) :
    after ops V (Proc.devRef .tc main_call2_c) = constantI S_ 32 0#32 := by
  rw [r_main_call2_c V]

theorem e_main_call2_v1 (V : Valuation τ sig (Elt Ideal)) :
    after ops V (Proc.devRef .tc main_call2_v1) = (cmpi .eq) (id (constantI S_ 32 8192#32)) (constantI S_ 32 0#32) := by
  rw [r_main_call2_v1 V, e_main_call2_v0 V, e_main_call2_c V]

theorem e_main_call2_c_0 (V : Valuation τ sig (Elt Ideal)) :
    after ops V (Proc.devRef .tc main_call2_c_0) = constantI S_ 32 1#32 := by
  rw [r_main_call2_c_0 V]

theorem e_main_call2_v2 (V : Valuation τ sig (Elt Ideal)) :
    after ops V (Proc.devRef .tc main_call2_v2) = remDivisor (constantI S_ 32 8192#32) := by
  rw [r_main_call2_v2 V, e_main_call2_v1 V, e_main_call2_c_0 V, e_main_call2_v0 V]
  rfl

theorem e_main_call2_v3 (V : Valuation τ sig (Elt Ideal)) :
    after ops V (Proc.devRef .tc main_call2_v3) = (broadcastInDim S8192 ![] bcast_S_S8192) (remDivisor (constantI S_ 32 8192#32)) := by
  rw [r_main_call2_v3 V, e_main_call2_v2 V]

theorem e_main_call2_v4 (V : Valuation τ sig (Elt Ideal)) :
    after ops V (Proc.devRef .tc main_call2_v4) = remTrunc v17 (constantI S_ 32 8192#32) := by
  rw [r_main_call2_v4 V, e_main_v17 V, e_main_call2_v3 V]
  rfl

theorem e_main_call2_c_1 (V : Valuation τ sig (Elt Ideal)) :
    after ops V (Proc.devRef .tc main_call2_c_1) = constantI S_ 32 0#32 := by
  rw [r_main_call2_c_1 V]

theorem e_main_call2_v5 (V : Valuation τ sig (Elt Ideal)) :
    after ops V (Proc.devRef .tc main_call2_v5) = (broadcastInDim S8192 ![] bcast_S_S8192) (constantI S_ 32 0#32) := by
  rw [r_main_call2_v5 V, e_main_call2_c_1 V]

theorem e_main_call2_v6 (V : Valuation τ sig (Elt Ideal)) :
    after ops V (Proc.devRef .tc main_call2_v6) = (cmpi .ne) (remTrunc v17 (constantI S_ 32 8192#32)) ((broadcastInDim S8192 ![] bcast_S_S8192) (constantI S_ 32 0#32)) := by
  rw [r_main_call2_v6 V, e_main_call2_v4 V, e_main_call2_v5 V]

theorem e_main_call2_c_2 (V : Valuation τ sig (Elt Ideal)) :
    after ops V (Proc.devRef .tc main_call2_c_2) = constantI S_ 32 0#32 := by
  rw [r_main_call2_c_2 V]

theorem e_main_call2_v7 (V : Valuation τ sig (Elt Ideal)) :
    after ops V (Proc.devRef .tc main_call2_v7) = (broadcastInDim S8192 ![] bcast_S_S8192) (constantI S_ 32 0#32) := by
  rw [r_main_call2_v7 V, e_main_call2_c_2 V]

theorem e_main_call2_v8 (V : Valuation τ sig (Elt Ideal)) :
    after ops V (Proc.devRef .tc main_call2_v8) = (cmpi .slt) (remTrunc v17 (constantI S_ 32 8192#32)) ((broadcastInDim S8192 ![] bcast_S_S8192) (constantI S_ 32 0#32)) := by
  rw [r_main_call2_v8 V, e_main_call2_v4 V, e_main_call2_v7 V]

theorem e_main_call2_c_3 (V : Valuation τ sig (Elt Ideal)) :
    after ops V (Proc.devRef .tc main_call2_c_3) = constantI S_ 32 0#32 := by
  rw [r_main_call2_c_3 V]

theorem e_main_call2_v9 (V : Valuation τ sig (Elt Ideal)) :
    after ops V (Proc.devRef .tc main_call2_v9) = (cmpi .slt) (remDivisor (constantI S_ 32 8192#32)) (constantI S_ 32 0#32) := by
  rw [r_main_call2_v9 V, e_main_call2_v2 V, e_main_call2_c_3 V]

theorem e_main_call2_v10 (V : Valuation τ sig (Elt Ideal)) :
    after ops V (Proc.devRef .tc main_call2_v10) = (broadcastInDim S8192 ![] bcast_S_S8192) ((cmpi .slt) (remDivisor (constantI S_ 32 8192#32)) (constantI S_ 32 0#32)) := by
  rw [r_main_call2_v10 V, e_main_call2_v9 V]

theorem e_main_call2_v11 (V : Valuation τ sig (Elt Ideal)) :
    after ops V (Proc.devRef .tc main_call2_v11) = (cmpi .ne) ((cmpi .slt) (remTrunc v17 (constantI S_ 32 8192#32)) ((broadcastInDim S8192 ![] bcast_S_S8192) (constantI S_ 32 0#32))) ((broadcastInDim S8192 ![] bcast_S_S8192) ((cmpi .slt) (remDivisor (constantI S_ 32 8192#32)) (constantI S_ 32 0#32))) := by
  rw [r_main_call2_v11 V, e_main_call2_v8 V, e_main_call2_v10 V]

theorem e_main_call2_v12 (V : Valuation τ sig (Elt Ideal)) :
    after ops V (Proc.devRef .tc main_call2_v12) = andi ((cmpi .ne) ((cmpi .slt) (remTrunc v17 (constantI S_ 32 8192#32)) ((broadcastInDim S8192 ![] bcast_S_S8192) (constantI S_ 32 0#32))) ((broadcastInDim S8192 ![] bcast_S_S8192) ((cmpi .slt) (remDivisor (constantI S_ 32 8192#32)) (constantI S_ 32 0#32)))) ((cmpi .ne) (remTrunc v17 (constantI S_ 32 8192#32)) ((broadcastInDim S8192 ![] bcast_S_S8192) (constantI S_ 32 0#32))) := by
  rw [r_main_call2_v12 V, e_main_call2_v11 V, e_main_call2_v6 V]

theorem e_main_call2_v13 (V : Valuation τ sig (Elt Ideal)) :
    after ops V (Proc.devRef .tc main_call2_v13) = (broadcastInDim S8192 ![] bcast_S_S8192) (remDivisor (constantI S_ 32 8192#32)) := by
  rw [r_main_call2_v13 V, e_main_call2_v2 V]

theorem e_main_call2_v14 (V : Valuation τ sig (Elt Ideal)) :
    after ops V (Proc.devRef .tc main_call2_v14) = addi (remTrunc v17 (constantI S_ 32 8192#32)) ((broadcastInDim S8192 ![] bcast_S_S8192) (remDivisor (constantI S_ 32 8192#32))) := by
  rw [r_main_call2_v14 V, e_main_call2_v4 V, e_main_call2_v13 V]

theorem e_main_v18 (V : Valuation τ sig (Elt Ideal)) :
    after ops V (Proc.devRef .tc main_v18) = v18 := by
  rw [r_main_v18 V, e_main_call2_v12 V, e_main_call2_v14 V, e_main_call2_v4 V]
  rfl

theorem e_main_c_3 (V : Valuation τ sig (Elt Ideal)) :
    after ops V (Proc.devRef .tc main_c_3) = constantI S_ 32 0#32 := by
  rw [r_main_c_3 V]

theorem e_main_v19 (V : Valuation τ sig (Elt Ideal)) :
    after ops V (Proc.devRef .tc main_v19) = (broadcastInDim S8192 ![] bcast_S_S8192) (constantI S_ 32 0#32) := by
  rw [r_main_v19 V, e_main_c_3 V]

theorem e_main_v20 (V : Valuation τ sig (Elt Ideal)) :
    after ops V (Proc.devRef .tc main_v20) = (cmpi .slt) v15 ((broadcastInDim S8192 ![] bcast_S_S8192) (constantI S_ 32 0#32)) := by
  rw [r_main_v20 V, e_main_v15 V, e_main_v19 V]

theorem e_main_c_4 (V : Valuation τ sig (Elt Ideal)) :
    after ops V (Proc.devRef .tc main_c_4) = constantI S_ 32 8192#32 := by
  rw [r_main_c_4 V]

theorem e_main_v21 (V : Valuation τ sig (Elt Ideal)) :
    after ops V (Proc.devRef .tc main_v21) = (broadcastInDim S8192 ![] bcast_S_S8192) (constantI S_ 32 8192#32) := by
  rw [r_main_v21 V, e_main_c_4 V]

theorem e_main_v22 (V : Valuation τ sig (Elt Ideal)) :
    after ops V (Proc.devRef .tc main_v22) = addi v15 ((broadcastInDim S8192 ![] bcast_S_S8192) (constantI S_ 32 8192#32)) := by
  rw [r_main_v22 V, e_main_v15 V, e_main_v21 V]

theorem e_main_v23 (V : Valuation τ sig (Elt Ideal)) :
    after ops V (Proc.devRef .tc main_v23) = v23 := by
  rw [r_main_v23 V, e_main_v20 V, e_main_v22 V, e_main_v15 V]
  rfl

theorem e_main_c_5 (V : Valuation τ sig (Elt Ideal)) :
    after ops V (Proc.devRef .tc main_c_5) = constantI S_ 32 0#32 := by
  rw [r_main_c_5 V]

theorem e_main_v24 (V : Valuation τ sig (Elt Ideal)) :
    after ops V (Proc.devRef .tc main_v24) = (broadcastInDim S8192 ![] bcast_S_S8192) (constantI S_ 32 0#32) := by
  rw [r_main_v24 V, e_main_c_5 V]

theorem e_main_v25 (V : Valuation τ sig (Elt Ideal)) :
    after ops V (Proc.devRef .tc main_v25) = (cmpi .slt) v18 ((broadcastInDim S8192 ![] bcast_S_S8192) (constantI S_ 32 0#32)) := by
  rw [r_main_v25 V, e_main_v18 V, e_main_v24 V]

theorem e_main_c_6 (V : Valuation τ sig (Elt Ideal)) :
    after ops V (Proc.devRef .tc main_c_6) = constantI S_ 32 8192#32 := by
  rw [r_main_c_6 V]

theorem e_main_v26 (V : Valuation τ sig (Elt Ideal)) :
    after ops V (Proc.devRef .tc main_v26) = (broadcastInDim S8192 ![] bcast_S_S8192) (constantI S_ 32 8192#32) := by
  rw [r_main_v26 V, e_main_c_6 V]

theorem e_main_v27 (V : Valuation τ sig (Elt Ideal)) :
    after ops V (Proc.devRef .tc main_v27) = addi v18 ((broadcastInDim S8192 ![] bcast_S_S8192) (constantI S_ 32 8192#32)) := by
  rw [r_main_v27 V, e_main_v18 V, e_main_v26 V]

theorem e_main_v28 (V : Valuation τ sig (Elt Ideal)) :
    after ops V (Proc.devRef .tc main_v28) = v28 := by
  rw [r_main_v28 V, e_main_v25 V, e_main_v27 V, e_main_v18 V]
  rfl

theorem e_main_v29 (V : Valuation τ sig (Elt Ideal)) :
    after ops V (Proc.devRef .tc main_v29) = (broadcastInDim S8192x1 ![0] bcast_S8192_S8192x1_0) v23 := by
  rw [r_main_v29 V, e_main_v23 V]

theorem e_main_v30 (V : Valuation τ sig (Elt Ideal)) :
    after ops V (Proc.devRef .tc main_v30) = (broadcastInDim S8192x1 ![0] bcast_S8192_S8192x1_0) v28 := by
  rw [r_main_v30 V, e_main_v28 V]

theorem e_main_v31 (V : Valuation τ sig (Elt Ideal)) :
    after ops V (Proc.devRef .tc main_v31) = v31 := by
  rw [r_main_v31 V, e_main_v29 V, e_main_v30 V]
  rfl

theorem e_main_v32 (V : Valuation τ sig (Elt Ideal)) :
    after ops V (Proc.devRef .tc main_v32) = v32 (V (Proc.devRef .tc main_arg0)) (V (Proc.devRef .tc main_arg1)) := by
  rw [r_main_v32 V, e_main_v14 V, e_main_v31 V]
  rfl

theorem e_main_c_7 (V : Valuation τ sig (Elt Ideal)) :
    after ops V (Proc.devRef .tc main_c_7) = constantI S_ 32 0#32 := by
  rw [r_main_c_7 V]

theorem e_main_v33 (V : Valuation τ sig (Elt Ideal)) :
    after ops V (Proc.devRef .tc main_v33) = (broadcastInDim S8192 ![] bcast_S_S8192) (constantI S_ 32 0#32) := by
  rw [r_main_v33 V, e_main_c_7 V]

theorem e_main_v34 (V : Valuation τ sig (Elt Ideal)) :
    after ops V (Proc.devRef .tc main_v34) = (cmpi .slt) v15 ((broadcastInDim S8192 ![] bcast_S_S8192) (constantI S_ 32 0#32)) := by
  rw [r_main_v34 V, e_main_v15 V, e_main_v33 V]

theorem e_main_c_8 (V : Valuation τ sig (Elt Ideal)) :
    after ops V (Proc.devRef .tc main_c_8) = constantI S_ 32 8192#32 := by
  rw [r_main_c_8 V]

theorem e_main_v35 (V : Valuation τ sig (Elt Ideal)) :
    after ops V (Proc.devRef .tc main_v35) = (broadcastInDim S8192 ![] bcast_S_S8192) (constantI S_ 32 8192#32) := by
  rw [r_main_v35 V, e_main_c_8 V]

theorem e_main_v36 (V : Valuation τ sig (Elt Ideal)) :
    after ops V (Proc.devRef .tc main_v36) = addi v15 ((broadcastInDim S8192 ![] bcast_S_S8192) (constantI S_ 32 8192#32)) := by
  rw [r_main_v36 V, e_main_v15 V, e_main_v35 V]

theorem e_main_v37 (V : Valuation τ sig (Elt Ideal)) :
    after ops V (Proc.devRef .tc main_v37) = v23 := by
  rw [r_main_v37 V, e_main_v34 V, e_main_v36 V, e_main_v15 V]
  rfl

theorem e_main_c_9 (V : Valuation τ sig (Elt Ideal)) :
    after ops V (Proc.devRef .tc main_c_9) = constantI S_ 32 0#32 := by
  rw [r_main_c_9 V]

theorem e_main_v38 (V : Valuation τ sig (Elt Ideal)) :
    after ops V (Proc.devRef .tc main_v38) = (broadcastInDim S8192 ![] bcast_S_S8192) (constantI S_ 32 0#32) := by
  rw [r_main_v38 V, e_main_c_9 V]

theorem e_main_v39 (V : Valuation τ sig (Elt Ideal)) :
    after ops V (Proc.devRef .tc main_v39) = (cmpi .slt) v15 ((broadcastInDim S8192 ![] bcast_S_S8192) (constantI S_ 32 0#32)) := by
  rw [r_main_v39 V, e_main_v15 V, e_main_v38 V]

theorem e_main_c_10 (V : Valuation τ sig (Elt Ideal)) :
    after ops V (Proc.devRef .tc main_c_10) = constantI S_ 32 8192#32 := by
  rw [r_main_c_10 V]

theorem e_main_v40 (V : Valuation τ sig (Elt Ideal)) :
    after ops V (Proc.devRef .tc main_v40) = (broadcastInDim S8192 ![] bcast_S_S8192) (constantI S_ 32 8192#32) := by
  rw [r_main_v40 V, e_main_c_10 V]

theorem e_main_v41 (V : Valuation τ sig (Elt Ideal)) :
    after ops V (Proc.devRef .tc main_v41) = addi v15 ((broadcastInDim S8192 ![] bcast_S_S8192) (constantI S_ 32 8192#32)) := by
  rw [r_main_v41 V, e_main_v15 V, e_main_v40 V]

theorem e_main_v42 (V : Valuation τ sig (Elt Ideal)) :
    after ops V (Proc.devRef .tc main_v42) = v23 := by
  rw [r_main_v42 V, e_main_v39 V, e_main_v41 V, e_main_v15 V]
  rfl

theorem e_main_v43 (V : Valuation τ sig (Elt Ideal)) :
    after ops V (Proc.devRef .tc main_v43) = (broadcastInDim S8192x1 ![0] bcast_S8192_S8192x1_0) v23 := by
  rw [r_main_v43 V, e_main_v37 V]

theorem e_main_v44 (V : Valuation τ sig (Elt Ideal)) :
    after ops V (Proc.devRef .tc main_v44) = (broadcastInDim S8192x1 ![0] bcast_S8192_S8192x1_0) v23 := by
  rw [r_main_v44 V, e_main_v42 V]

theorem e_main_v45 (V : Valuation τ sig (Elt Ideal)) :
    after ops V (Proc.devRef .tc main_v45) = v45 := by
  rw [r_main_v45 V, e_main_v43 V, e_main_v44 V]
  rfl

theorem e_main_v46 (V : Valuation τ sig (Elt Ideal)) :
    after ops V (Proc.devRef .tc main_v46) = v46 (V (Proc.devRef .tc main_arg0)) (V (Proc.devRef .tc main_arg1)) := by
  rw [r_main_v46 V, e_main_v14 V, e_main_v45 V]
  rfl

theorem e_main_cst_11 (V : Valuation τ sig (Elt Ideal)) :
    after ops V (Proc.devRef .tc main_cst_11) = constant (F := Ideal) S_ .f32 0x00000000#32 := by
  rw [r_main_cst_11 V]

theorem e_main_v47 (V : Valuation τ sig (Elt Ideal)) :
    after ops V (Proc.devRef .tc main_v47) = v47 (V (Proc.devRef .tc main_arg0)) (V (Proc.devRef .tc main_arg1)) := by
  rw [r_main_v47 V, e_main_v14 V, e_main_cst_11 V]
  rfl

theorem e_main_v48 (V : Valuation τ sig (Elt Ideal)) :
    after ops V (Proc.devRef .tc main_v48) = subf (v47 (V (Proc.devRef .tc main_arg0)) (V (Proc.devRef .tc main_arg1))) (v46 (V (Proc.devRef .tc main_arg0)) (V (Proc.devRef .tc main_arg1))) := by
  rw [r_main_v48 V, e_main_v47 V, e_main_v46 V]

theorem e_main_v49 (V : Valuation τ sig (Elt Ideal)) :
    after ops V (Proc.devRef .tc main_v49) = v49 (V (Proc.devRef .tc main_arg0)) (V (Proc.devRef .tc main_arg1)) := by
  rw [r_main_v49 V, e_main_v48 V, e_main_v32 V]
  rfl

theorem e_main_v50 (V : Valuation τ sig (Elt Ideal)) :
    after ops V (Proc.devRef .tc main_v50) = addf (v32 (V (Proc.devRef .tc main_arg0)) (V (Proc.devRef .tc main_arg1))) (v49 (V (Proc.devRef .tc main_arg0)) (V (Proc.devRef .tc main_arg1))) := by
  rw [r_main_v50 V, e_main_v32 V, e_main_v49 V]

theorem e_main_v51 (V : Valuation τ sig (Elt Ideal)) :
    after ops V (Proc.devRef .tc main_v51) = v51 (V (Proc.devRef .tc main_arg0)) (V (Proc.devRef .tc main_arg1)) := by
  rw [r_main_v51 V, e_main_v32 V, e_main_v50 V]
  rfl

theorem e_main_v52 (V : Valuation τ sig (Elt Ideal)) :
    after ops V (Proc.devRef .tc main_v52) = Host.log (v51 (V (Proc.devRef .tc main_arg0)) (V (Proc.devRef .tc main_arg1))) := by
  rw [r_main_v52 V, e_main_v51 V]

theorem e_main_v53 (V : Valuation τ sig (Elt Ideal)) :
    after ops V (Proc.devRef .tc main_v53) = v53 (V (Proc.devRef .tc main_arg0)) (V (Proc.devRef .tc main_arg1)) := by
  rw [r_main_v53 V, e_main_v52 V]
  rfl

theorem e_main_cst_12 (V : Valuation τ sig (Elt Ideal)) :
    after ops V (Proc.devRef .tc main_cst_12) = constant (F := Ideal) S_ .f32 0x00000000#32 := by
  rw [r_main_cst_12 V]

theorem e_main_v54 (V : Valuation τ sig (Elt Ideal)) :
    after ops V (Proc.devRef .tc main_v54) = v54 (V (Proc.devRef .tc main_arg0)) (V (Proc.devRef .tc main_arg1)) := by
  rw [r_main_v54 V, e_main_v53 V, e_main_cst_12 V]
  rfl

theorem e_main_cst_13 (V : Valuation τ sig (Elt Ideal)) :
    after ops V (Proc.devRef .tc main_cst_13) = constant (F := Ideal) S_ .f32 0x46000000#32 := by
  rw [r_main_cst_13 V]

theorem e_main_v55 (V : Valuation τ sig (Elt Ideal)) :
    after ops V (Proc.devRef .tc main_v55) = refTerm (V (Proc.devRef .tc main_arg0)) (V (Proc.devRef .tc main_arg1)) := by
  rw [r_main_v55 V, e_main_v54 V, e_main_cst_13 V]
  rfl

end Cert.ReferenceIdeal.RefValue

end
-- ==== Proof.RefRun.lean ====
/-
  The reference program's run with its result as the pure term of the arguments: the run ends with the result
  buffer at the fold of the operations over the launch contents, and that fold at the result buffer is `refTerm` of
  the two arguments' launch contents.
-/
import proofs.«142995_j19722489823618_2_alg».proof.Proof.RefRunTerm

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.StableHlo.AlignedLines

variable {F : FTy → Type} [FloatOps F]

/-- On every device, from any memory with zero counters: every weakly fair execution of @main terminates with the
    result buffer at `refTerm` of the two arguments' launch contents, and the arguments unchanged. -/
theorem run_term (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v55)
        = refTerm (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (e_main_v55 _), (h c).2⟩) (run_after m ρ)

end Cert.ReferenceIdeal.RefValue

end
-- ==== Proof.LibMatmulLastAxes.lean ====
/-
  A matrix product of two rank-2 arrays that contracts the LAST axis of both operands, read at coordinates.
  For dimension numbers that contract the left operand's second axis against the right operand's second axis, keep the
  left rows and the right rows and have no batch axis (lhs [a, k], rhs [b, k], result [a, b]: lhs · rhsᵀ without a
  transpose), the entry (p, q) of the product is the sum over the contracted position j of lhs (p, j) · rhs (q, j): the
  inner product of row p of the left operand with row q of the right. Both the matrix unit's product into a zero
  accumulator and the host's dot product are that sum on the extended reals.
-/
import Idealize.ShloMosaic.Lib.ValueIdx
import Idealize.ShloMosaic.PureOps.Ideal.Laws

open scoped BigOperators

namespace Cert.LibMatmulLastAxes

open Idealize.ShloMosaic Idealize.ShloMosaic.ValueIdx

variable {a k b : ℕ} (d : DotDims ⟨2, ![a, k]⟩ ⟨2, ![b, k]⟩ ⟨2, ![a, b]⟩)

/-- One contracted axis. -/
theorem contr_rank (hl : d.lhsContracting = [1]) : d.contr.rank = 1 := by
  rw [d.rank_contr, hl]; rfl

/-- Its extent is the shared inner extent k. -/
theorem contr_size (hl : d.lhsContracting = [1]) :
    d.contr.size ⟨0, by rw [contr_rank d hl]; exact Nat.one_pos⟩ = k := by
  rw [d.size_contr 0 (by rw [hl]; exact Nat.one_pos), List.getElem_of_eq hl]
  rfl

/-- The contraction index is its one coordinate. -/
noncomputable def contrEquiv (hl : d.lhsContracting = [1]) : d.contr.Idx ≃ Fin k :=
  contrEquiv1 d k (contr_rank d hl) (contr_size d hl)

/-- The left operand is read at row p, contracted position j. -/
theorem lhsIdx_ix2 (hl : d.lhsContracting = [1]) (hln : d.lhsNonContracting = [0]) (hlb : d.lhsBatch = [])
    (p : Fin a) (q : Fin b) (j : Fin k) :
    d.lhsIdx (ix2 p q) ((contrEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((contrEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((contrEquiv d hl).symm j) (1 : Fin 2)).val = j.val
    rw [d.lhsIdx_val_of_single hl]
    exact contrEquiv1_symm_val d k (contr_rank d hl) (contr_size d hl) j

/-- The right operand is read at row q, contracted position j. -/
theorem rhsIdx_ix2 (hl : d.lhsContracting = [1]) (hr : d.rhsContracting = [1]) (hln : d.lhsNonContracting = [0])
    (hrn : d.rhsNonContracting = [0]) (hlb : d.lhsBatch = []) (hrb : d.rhsBatch = [])
    (p : Fin a) (q : Fin b) (j : Fin k) :
    d.rhsIdx (ix2 p q) ((contrEquiv d hl).symm j) = ix2 q j := by
  funext ax
  apply Fin.ext
  match ax with
  | ⟨0, _⟩ =>
    have hnb : (0 : Fin 2) ∉ d.rhsBatch := by rw [hrb]; exact List.not_mem_nil
    have hn : (0 : Fin 2) ∈ d.rhsNonContracting := by rw [hrn]; exact List.mem_singleton.mpr rfl
    show (d.rhsIdx (ix2 p q) ((contrEquiv d hl).symm j) (0 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])
  | ⟨1, _⟩ =>
    show (d.rhsIdx (ix2 p q) ((contrEquiv d hl).symm j) (1 : Fin 2)).val = j.val
    rw [d.rhsIdx_val_of_single hr]
    exact contrEquiv1_symm_val d k (contr_rank d hl) (contr_size d hl) j

variable {φ₁ φ₂ : FTy}

/-- The matrix unit's product into the zero accumulator, at (p, q). -/
theorem matmul_zero_rows (hl : d.lhsContracting = [1]) (hr : d.rhsContracting = [1]) (hln : d.lhsNonContracting = [0])
    (hrn : d.rhsNonContracting = [0]) (hlb : d.lhsBatch = []) (hrb : d.rhsBatch = [])
    (prec : Option ContractPrecision) (lhs : FVec Ideal ⟨2, ![a, k]⟩ φ₁) (rhs : FVec Ideal ⟨2, ![b, k]⟩ φ₂)
    (p : Fin a) (q : Fin b) :
    FloatOps.matmul d prec lhs rhs (constant ⟨2, ![a, b]⟩ .f32 0x00000000#32) (ix2 p q)
      = ∑ j : Fin k, lhs (ix2 p j) * rhs (ix2 q j) := by
  rw [Ideal.matmul_constant_zero_apply, ← Equiv.sum_comp (contrEquiv d hl).symm]
  refine Finset.sum_congr rfl fun j _ => ?_
  rw [lhsIdx_ix2 d hl hln hlb p q j, rhsIdx_ix2 d hl hr hln hrn hlb hrb p q j]

/-- The host's dot product, at (p, q). -/
theorem dotGeneral_rows (hl : d.lhsContracting = [1]) (hr : d.rhsContracting = [1]) (hln : d.lhsNonContracting = [0])
    (hrn : d.rhsNonContracting = [0]) (hlb : d.lhsBatch = []) (hrb : d.rhsBatch = [])
    (prec : Option ContractPrecision) (sched : HostSchedule) (lhs : FVec Ideal ⟨2, ![a, k]⟩ φ₁) (rhs : FVec Ideal ⟨2, ![b, k]⟩ φ₂)
    (p : Fin a) (q : Fin b) :
    FloatOps.dotGeneral d prec sched lhs rhs (ix2 p q) = ∑ j : Fin k, lhs (ix2 p j) * rhs (ix2 q j) := by
  rw [Ideal.dotGeneral_apply, ← Equiv.sum_comp (contrEquiv d hl).symm]
  refine Finset.sum_congr rfl fun j _ => ?_
  rw [lhsIdx_ix2 d hl hln hlb p q j, rhsIdx_ix2 d hl hr hln hrn hlb hrb p q j]

end Cert.LibMatmulLastAxes
-- ==== Proof.LibHostColumns.lean ====
/-
  Host forms of a keepdims reduction, read at coordinates. A reduction over the columns of an `[a, b]` array leaves one
  value per row; the index of row `p` with column `k` put back is `(p, k)`. The host lays a per-row value back against
  the rows by two `broadcast_in_dim`s: `[a]` to the column `[a, 1]` (operand axis 0 on result axis 0), then the column
  to `[a, b]` (operand axes on the same result axes, the unit axis repeated). At `(p, c)` the result is the value of
  row `p`.
-/
import Idealize.ShloMosaic.Lib.ValueIdx
import Idealize.ShloMosaic.Lib.Pipeline.Value
import Idealize.ShloMosaic.PureOps.Reduce

namespace Idealize.ShloMosaic.ValueIdx

variable {α : Type}

/-- The reduced index `p` of a reduction over the columns, with column `k` put back, is `(p, k)`. -/
theorem lift_ix1_columns {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- An `[a]` array laid out as the column `[a, 1]` by the host's broadcast reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` laid against `b` columns by the host's broadcast reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value laid out as a column and then against every column reads, at `(p, c)`, the value of row `p`. -/
theorem broadcastInDim_column_apply {a b : ℕ} (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![a, 1]⟩ (![0] : Fin 1 → Fin 2) h1 x) (ix2 p c)
      = x (ix1 p) :=
  (broadcastInDim_a1_ab_apply _ h2 p c).trans (broadcastInDim_a_a1_apply x h1 p 0)

end Idealize.ShloMosaic.ValueIdx
-- ==== Proof.RefRows.lean ====
/-
  The reference's values up to the exponentials, read at coordinates: each half divided row by row by its floored
  norm is the specification's unit rows, the two halves one above the other are the unit rows of the stacked
  argument, their pairwise dot products over the last axis divided by the temperature word and exponentiated are
  the specification's exponentials.
-/
import proofs.«142995_j19722489823618_2_alg».proof.Proof.RefTerm
import proofs.«142995_j19722489823618_2_alg».proof.Proof.Spec
import proofs.«142995_j19722489823618_2_alg».proof.Proof.LibMatmulLastAxes
import proofs.«142995_j19722489823618_2_alg».proof.Proof.LibHostColumns
import Idealize.ShloMosaic.PureOps.Ideal.Laws
import Idealize.ShloMosaic.Lib.Pipeline.Value

open scoped BigOperators

noncomputable section

namespace Cert.RefLemmas

open Idealize.ShloMosaic Idealize.ShloMosaic.ValueIdx

variable {α : Type}

/-- A row in the first piece: two matrices one above the other read, at (p, d) with p below the first height, the
    first at (p, d). -/
theorem concatenate_rows_top {a₁ a₂ a b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![a, b]⟩ (0 : Fin (⟨2, ![a, b]⟩ : Shape).rank))
    (p : Fin a) (d : Fin b) (hp : p.val < a₁) :
    concatenate ⟨2, ![a, b]⟩ (0 : Fin (⟨2, ![a, b]⟩ : Shape).rank) [⟨⟨2, ![a₁, b]⟩, x₁⟩, ⟨⟨2, ![a₂, b]⟩, x₂⟩] h (ix2 p d)
      = x₁ (ix2 ⟨p.val, hp⟩ d) :=
  concatenate_pair_apply_left _ x₁ x₂ h (ix2 p d) rfl (ix2 ⟨p.val, hp⟩ d)
    (fun c => match c with | ⟨0, _⟩ => rfl | ⟨1, _⟩ => rfl)

/-- A row in the second piece: at (p, d) with p at or past the first height, the second at (p - a₁, d). -/
theorem concatenate_rows_bottom {a₁ a₂ a b : ℕ} (x₁ : (⟨2, ![a₁, b]⟩ : Shape).Idx → α) (x₂ : (⟨2, ![a₂, b]⟩ : Shape).Idx → α)
    (h : Shape.Concatenates [⟨2, ![a₁, b]⟩, ⟨2, ![a₂, b]⟩] ⟨2, ![a, b]⟩ (0 : Fin (⟨2, ![a, b]⟩ : Shape).rank))
    (p : Fin a) (d : Fin b) (hp : a₁ ≤ p.val) (hp2 : p.val - a₁ < a₂) :
    concatenate ⟨2, ![a, b]⟩ (0 : Fin (⟨2, ![a, b]⟩ : Shape).rank) [⟨⟨2, ![a₁, b]⟩, x₁⟩, ⟨⟨2, ![a₂, b]⟩, x₂⟩] h (ix2 p d)
      = x₂ (ix2 ⟨p.val - a₁, hp2⟩ d) :=
  concatenate_pair_apply_right _ x₁ x₂ h (ix2 p d) rfl rfl (ix2 ⟨p.val - a₁, hp2⟩ d)
    (fun c hc => match c, hc with | ⟨0, _⟩, hc => absurd rfl hc | ⟨1, _⟩, _ => rfl)
    (by show p.val - a₁ + a₁ = p.val; omega)

end Cert.RefLemmas

namespace Cert.RefLemmas

open Cert.Spec

variable {ι ι' κ : Type} [Fintype ι] [Fintype ι'] [Fintype κ]

/-- A unit row depends on its own row only. -/
theorem unit_congr_row (z : ι → κ → EReal) (z' : ι' → κ → EReal) (p : ι) (p' : ι') (h : z p = z' p') (d : κ) :
    unit z p d = unit z' p' d := by
  unfold unit rowNorm
  rw [h]

theorem rows_top (a0 a1 : Fin 4096 → Fin 256 → EReal) (p : Fin 8192) (h : p.val < 4096) :
    rows a0 a1 p = a0 ⟨p.val, h⟩ := by
  funext d; unfold rows; rw [dif_pos h]

theorem rows_bottom (a0 a1 : Fin 4096 → Fin 256 → EReal) (p : Fin 8192) (h : ¬ p.val < 4096) :
    rows a0 a1 p = a1 ⟨p.val - 4096, by omega⟩ := by
  funext d; unfold rows; rw [dif_neg h]

end Cert.RefLemmas

namespace Cert.ReferenceIdeal.RefValue

open Cert.ReferenceIdeal Cert.RefLemmas Idealize.ShloMosaic Idealize.ShloMosaic.ValueIdx
open Facts₀ Facts

variable [Cert.ReferenceIdeal.Facts]

/-- @norm at row p: the square root of the row's sum of squares. -/
theorem norm_apply (a : FVec Ideal S4096x256 .f32) (p : Fin 4096) (u : Fin 1) :
    norm a (ix2 p u) = Ideal.sqrt (∑ d : Fin 256, a (ix2 p d) * a (ix2 p d)) := by
  have hs : ∀ x : FVec Ideal S4096x1 .f32, Host.sqrt x (ix2 p u) = Ideal.sqrt (x (ix2 p u)) := fun _ => rfl
  unfold norm
  rw [hs, broadcastInDim_a_a1_apply]
  show Ideal.sqrt (Ideal.hostReduceAdd reducesTo_S4096x256_S4096_d1 (mulf a a) (Ideal.ofBits .f32 0x00000000#32) (ix1 p)) = _
  rw [Ideal.hostReduceAdd_single _ (by decide : S4096x256.Reduces [1] S4096), Ideal.ofBits_zero_f32, zero_add]
  congr 1
  refine Finset.sum_congr rfl fun k _ => ?_
  rw [lift_ix1_columns]
  rfl

/-- %2 (and %7) at row p: the row's norm floored at the eps word. -/
theorem v2_apply (a : FVec Ideal S4096x256 .f32) (p : Fin 4096) (u : Fin 1) :
    v2 a (ix2 p u) = Spec.rowNorm (Spec.mat a) p := by
  show max (norm a (ix2 p u)) (Ideal.ofBits .f32 0x2B8CBCCC#32) = _
  rw [norm_apply]
  rfl

/-- %4 (and %9) at (p, d): the unit row. -/
theorem v4_apply (a : FVec Ideal S4096x256 .f32) (p : Fin 4096) (d : Fin 256) :
    v4 a (ix2 p d) = Spec.unit (Spec.mat a) p d := by
  show Ideal.div (a (ix2 p d)) (v3 a (ix2 p d)) = _
  unfold v3
  rw [broadcastInDim_a1_ab_apply, v2_apply]
  rfl

/-- %10 at (p, d): the unit row of the stacked argument. -/
theorem v10_apply (a0 a1 : FVec Ideal S4096x256 .f32) (p : Fin 8192) (d : Fin 256) :
    v10 a0 a1 (ix2 p d) = Spec.unit (Spec.rows (Spec.mat a0) (Spec.mat a1)) p d := by
  unfold v10
  by_cases h : p.val < 4096
  · rw [concatenate_rows_top _ _ _ p d h, v4_apply]
    exact (unit_congr_row _ _ p _ (rows_top _ _ p h) d).symm
  · rw [concatenate_rows_bottom _ _ _ p d (by omega) (by omega), v4_apply]
    exact (unit_congr_row _ _ p _ (rows_bottom _ _ p h) d).symm

/-- %11 at (p, q): the dot product of unit rows p and q. -/
theorem v11_apply (a0 a1 : FVec Ideal S4096x256 .f32) (p q : Fin 8192) :
    v11 a0 a1 (ix2 p q) = ∑ j : Fin 256, Spec.unit (Spec.rows (Spec.mat a0) (Spec.mat a1)) p j
      * Spec.unit (Spec.rows (Spec.mat a0) (Spec.mat a1)) q j := by
  unfold v11
  show FloatOps.dotGeneral dot_S8192x256_S8192x256_S8192x8192_1_1_0_0_n_n none .single (v10 a0 a1) (v10 a0 a1) (ix2 p q) = _
  rw [Cert.LibMatmulLastAxes.dotGeneral_rows _ rfl rfl rfl rfl rfl rfl]
  refine Finset.sum_congr rfl fun j _ => ?_
  rw [v10_apply, v10_apply]

/-- %14 at (p, q): the specification's exponential. -/
theorem v14_apply (a0 a1 : FVec Ideal S4096x256 .f32) (p q : Fin 8192) :
    v14 a0 a1 (ix2 p q) = Spec.expR (Spec.rows (Spec.mat a0) (Spec.mat a1)) p q := by
  show Ideal.exp (Ideal.div (v11 a0 a1 (ix2 p q)) (Ideal.ofBits .f32 0x3D8F5C29#32)) = _
  rw [v11_apply]
  rfl

end Cert.ReferenceIdeal.RefValue

end
-- ==== Proof.LibColumnsConcat.lean ====
/-
  Two matrices joined along their columns, read at coordinates, for any extents and element type: the [a, b₁ + b₂]
  matrix `[x₁ | x₂]` reads, at (p, d), `x₁` at (p, d) when `d < b₁` and `x₂` at (p, d - b₁) otherwise (what a kernel's
  `jnp.concatenate([x₁, x₂], axis=-1)` of two [a, ·] values needs); and an [a, 1, 1] array cast to the column [a, 1]
  reads, at (p, 0), the operand at (p, 0, 0) (a keepdims slice of an [a, k, 1] array with one unit axis dropped).
-/
import Idealize.ShloMosaic.Lib.ValueIdx
import Idealize.ShloMosaic.Lib.Pipeline.Value

namespace Idealize.ShloMosaic.ValueIdx

variable {α : Type}

/-- A column in the first piece: `[x₁ | x₂]` at (p, d) with `d < b₁` is `x₁` at (p, d). -/
theorem concatenate_cols_left {a b₁ b₂ b : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ (1 : Fin (⟨2, ![a, b]⟩ : Shape).rank))
    (p : Fin a) (d : Fin b) (hd : d.val < b₁) :
    concatenate ⟨2, ![a, b]⟩ (1 : Fin (⟨2, ![a, b]⟩ : Shape).rank) [⟨⟨2, ![a, b₁]⟩, x₁⟩, ⟨⟨2, ![a, b₂]⟩, x₂⟩] h (ix2 p d)
      = x₁ (ix2 p ⟨d.val, hd⟩) :=
  concatenate_pair_apply_left _ x₁ x₂ h (ix2 p d) rfl (ix2 p ⟨d.val, hd⟩)
    (fun c => match c with | ⟨0, _⟩ => rfl | ⟨1, _⟩ => rfl)

/-- A column in the second piece: `[x₁ | x₂]` at (p, d) with `b₁ ≤ d` is `x₂` at (p, d - b₁). -/
theorem concatenate_cols_right {a b₁ b₂ b : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, b]⟩ (1 : Fin (⟨2, ![a, b]⟩ : Shape).rank))
    (p : Fin a) (d : Fin b) (hd : b₁ ≤ d.val) (hd2 : d.val - b₁ < b₂) :
    concatenate ⟨2, ![a, b]⟩ (1 : Fin (⟨2, ![a, b]⟩ : Shape).rank) [⟨⟨2, ![a, b₁]⟩, x₁⟩, ⟨⟨2, ![a, b₂]⟩, x₂⟩] h (ix2 p d)
      = x₂ (ix2 p ⟨d.val - b₁, hd2⟩) :=
  concatenate_pair_apply_right _ x₁ x₂ h (ix2 p d) rfl rfl (ix2 p ⟨d.val - b₁, hd2⟩)
    (fun c hc => match c, hc with | ⟨0, _⟩, _ => rfl | ⟨1, _⟩, hc => absurd rfl hc)
    (by show d.val - b₁ + b₁ = d.val; omega)

/-- An [a, 1, 1] array cast to the column [a, 1] reads, at (p, 0), the operand at (p, 0, 0). -/
theorem shapeCast_a11_a1_apply {a : ℕ} (x : (⟨3, ![a, 1, 1]⟩ : Shape).Idx → α)
    (h : (⟨3, ![a, 1, 1]⟩ : Shape).ShapeCasts ⟨2, ![a, 1]⟩) (p : Fin a) :
    shapeCast ⟨2, ![a, 1]⟩ x h (ix2 p (0 : Fin 1)) = x (ix3 p (0 : Fin 1) (0 : Fin 1)) :=
  shapeCast_apply x h _ _ (by
    rw [Shape.rowMajor_val_three, Shape.rowMajor_val_two]
    show (p.val * 1 + 0) * 1 + 0 = p.val * 1 + 0
    omega)

end Idealize.ShloMosaic.ValueIdx
-- ==== Proof.LibGatherPairs.lean ====
/-
  Two small kits for a host program that indexes a matrix by computed (row, column) pairs, `x[rows, cols]`.

  Words: a 32-bit word below 2^31 is not negative when compared signed, reads signed as its natural value, and has
  the natural remainder as its host signed remainder by a positive modulus below 2^31; so the sign corrections a
  floored remainder adds to the truncated one, and "count a negative index from the end", leave such a word alone.

  The gather: with both axes of an [N, M] matrix collapsed and named by the start index map, slices of one element,
  and the pair along the last axis of an [R, 2] index array, the result at r is the matrix at (row word, column
  word), each read signed and clamped into its axis; and an index array built by joining two [R, 1] columns, each a
  vector laid out as a column, has the first vector's word as its first component and the second's as its second.

  Imports, besides the Idealize library, two general lemma modules: the one reading a vector laid out as a column
  (LibHostColumns) and the one reading two matrices joined along their columns (LibColumnsConcat); only the last two
  lemmas (pairs_fst, pairs_snd) use them.
-/
import proofs.«142995_j19722489823618_2_alg».proof.Proof.LibHostColumns
import proofs.«142995_j19722489823618_2_alg».proof.Proof.LibColumnsConcat
import Idealize.ShloMosaic.Lib.ValueIdx

noncomputable section

namespace Cert.LibGatherPairs

open Idealize.ShloMosaic Idealize.ShloMosaic.ValueIdx

/-! ## Words below 2^31 -/

/-- A 32-bit word below 2^31 is not negative. -/
theorem slt_zero_of_lt (x : BitVec 32) (h : x.toNat < 2 ^ 31) : IntOp.cmpi .slt x 0#32 = 0#1 := by
  have hx : x.toInt = (x.toNat : Int) := BitVec.toInt_eq_toNat_of_lt (by omega)
  have h0 : (0#32 : BitVec 32).toInt = 0 := rfl
  have hs : x.slt 0#32 = false := by
    show decide (x.toInt < (0#32 : BitVec 32).toInt) = false
    rw [hx, h0]
    exact decide_eq_false (by omega)
  show BitVec.ofBool (x.slt 0#32) = 0#1
  rw [hs]
  rfl

/-- Read signed, a word below 2^31 is its natural value. -/
theorem toInt_toNat_of_lt (x : BitVec 32) (h : x.toNat < 2 ^ 31) : x.toInt.toNat = x.toNat := by
  rw [BitVec.toInt_eq_toNat_of_lt (by omega)]
  rfl

/-- The host's signed remainder by 8192 of a word below 2^31 is the natural remainder. -/
theorem remsi_host_8192_of_lt (x : BitVec 32) (h : x.toNat < 2 ^ 31) :
    IntOp.remsi .host x 8192#32 = BitVec.ofNat 32 (x.toNat % 8192) := by
  have hc : ¬ IntOp.SDivCorner x 8192#32 := by
    rintro (h0 | ⟨_, h1⟩)
    · exact absurd h0 (by decide)
    · exact absurd h1 (by decide)
  have hm : x.msb = false := by
    rw [BitVec.msb_eq_decide]
    exact decide_eq_false (by omega)
  have hm' : (8192#32 : BitVec 32).msb = false := by decide
  have hs : x.srem 8192#32 = x % 8192#32 := by
    unfold BitVec.srem
    rw [hm, hm']
    rfl
  unfold IntOp.remsi
  rw [if_neg hc, hs]
  have h8 : (8192#32 : BitVec 32).toNat = 8192 := rfl
  apply BitVec.eq_of_toNat_eq
  rw [BitVec.toNat_umod, h8, BitVec.toNat_ofNat]
  omega

/-- The same for any modulus m with 0 < m < 2^31: the host's signed remainder of a word below 2^31 by the word m is
    the natural remainder. -/
theorem remsi_host_of_lt (x : BitVec 32) (m : Nat) (h : x.toNat < 2 ^ 31) (hm0 : 0 < m) (hm1 : m < 2 ^ 31) :
    IntOp.remsi .host x (BitVec.ofNat 32 m) = BitVec.ofNat 32 (x.toNat % m) := by
  have hy : (BitVec.ofNat 32 m).toNat = m := by rw [BitVec.toNat_ofNat]; omega
  have h00 : (0 : BitVec 32).toNat = 0 := rfl
  have h11 : (-1 : BitVec 32).toNat = 4294967295 := rfl
  have hc : ¬ IntOp.SDivCorner x (BitVec.ofNat 32 m) := by
    rintro (h0 | ⟨_, h1⟩)
    · have e := congrArg BitVec.toNat h0
      rw [hy, h00] at e
      omega
    · have e := congrArg BitVec.toNat h1
      rw [hy, h11] at e
      omega
  have hmx : x.msb = false := by
    rw [BitVec.msb_eq_decide]
    exact decide_eq_false (by omega)
  have hmy : (BitVec.ofNat 32 m).msb = false := by
    rw [BitVec.msb_eq_decide, hy]
    exact decide_eq_false (by omega)
  have hs : x.srem (BitVec.ofNat 32 m) = x % BitVec.ofNat 32 m := by
    unfold BitVec.srem
    rw [hmx, hmy]
    rfl
  unfold IntOp.remsi
  rw [if_neg hc, hs]
  apply BitVec.eq_of_toNat_eq
  rw [BitVec.toNat_umod, hy, BitVec.toNat_ofNat]
  have := Nat.mod_lt x.toNat hm0
  omega

/-- The floored remainder's correction (add the divisor where the truncated remainder is non-zero and its sign is not
    the divisor's) leaves a non-negative remainder by 8192 alone. -/
theorem select_floor_fix (t a : BitVec 32) (h : t.toNat < 2 ^ 31) :
    Scalar.select (IntOp.andi (IntOp.cmpi .ne (IntOp.cmpi .slt t 0#32) (IntOp.cmpi .slt 8192#32 0#32))
      (IntOp.cmpi .ne t 0#32)) a t = t := by
  rw [slt_zero_of_lt t h]
  have h1 : IntOp.cmpi .ne (0#1) (IntOp.cmpi .slt 8192#32 0#32) = 0#1 := by decide
  have h2 : ∀ b : BitVec 1, IntOp.andi 0#1 b = 0#1 := fun b => BitVec.zero_and
  rw [h1, h2, select_zero]

/-- "Count a negative index from the end" leaves a non-negative word alone. -/
theorem select_wrap (t a : BitVec 32) (h : t.toNat < 2 ^ 31) :
    Scalar.select (IntOp.cmpi .slt t 0#32) a t = t := by
  rw [slt_zero_of_lt t h, select_zero]

/-! ## A gather of single elements of a matrix at (row, column) pairs -/

section Pairs
variable {α : Type}

/-- The dimension numbers of `x[rows, cols]` for a matrix `[N, M]` and an array `[R, 2]` of pairs: both operand axes
    collapsed and both named by the start index map, the pair along the index array's last axis. -/
abbrev pairDims (N M R : Nat)
    (wf : GatherDims.WF ⟨2, ![N, M]⟩ ⟨2, ![R, 2]⟩ ⟨1, ![R]⟩ [] [0, 1] [] [0, 1] [] 1 ![1, 1]) :
    GatherDims ⟨2, ![N, M]⟩ ⟨2, ![R, 2]⟩ ⟨1, ![R]⟩ where
  offsetDims := []
  collapsedSliceDims := [0, 1]
  operandBatchingDims := []
  startIndicesBatchingDims := []
  startIndexMap := [0, 1]
  indexVectorDim := 1
  sliceSizes := ![1, 1]
  wf := wf

/-- The gather read at pair r: the matrix at (row word, column word), each read signed and clamped into its axis. -/
theorem gather_pairs_apply {N M R w : Nat} (hN : 0 < N) (hM : 0 < M)
    (wf : GatherDims.WF ⟨2, ![N, M]⟩ ⟨2, ![R, 2]⟩ ⟨1, ![R]⟩ [] [0, 1] [] [0, 1] [] 1 ![1, 1])
    (x : (⟨2, ![N, M]⟩ : Shape).Idx → α) (idx : IVec ⟨2, ![R, 2]⟩ w) (r : Fin R) :
    Host.gather (pairDims N M R wf) x idx (ix1 r)
      = x (ix2 ⟨min (idx (ix2 r (0 : Fin 2))).toInt.toNat (N - 1), by omega⟩
          ⟨min (idx (ix2 r (1 : Fin 2))).toInt.toNat (M - 1), by omega⟩) := by
  unfold Host.gather
  congr 1
  funext a
  refine Fin.ext ?_
  show (pairDims N M R wf).start (ix1 r) idx a + (pairDims N M R wf).batchCoord (ix1 r) a
    + (pairDims N M R wf).offCoord (ix1 r) a = _
  have key : ∀ (c : Fin (⟨2, ![N, M]⟩ : Shape).rank) (hc : c ∈ (pairDims N M R wf).startIndexMap),
      (pairDims N M R wf).siIdx (ix1 r) ⟨List.idxOf c (pairDims N M R wf).startIndexMap,
        List.idxOf_lt_length_iff.2 hc⟩ = ix2 r c := by
    intro c hc
    funext b; refine Fin.ext ?_
    match c, b with
    | ⟨0, _⟩, ⟨0, _⟩ => rfl
    | ⟨0, _⟩, ⟨1, _⟩ => rfl
    | ⟨1, _⟩, ⟨0, _⟩ => rfl
    | ⟨1, _⟩, ⟨1, _⟩ => rfl
  have ha : a ∈ (pairDims N M R wf).startIndexMap := by
    match a with
    | ⟨0, _⟩ => exact List.mem_cons_self ..
    | ⟨1, _⟩ => exact List.mem_cons_of_mem _ (List.mem_cons_self ..)
  have hk : a ∉ (pairDims N M R wf).sKept := fun h => ((GatherDims.mem_sKept _ _).mp h).1 ha
  rw [GatherDims.batchCoord_eq_zero _ _ _ List.not_mem_nil, GatherDims.offCoord_eq_zero _ _ _ hk]
  simp only [Nat.add_zero]
  unfold GatherDims.start
  rw [dif_pos ha, key a ha]
  match a with
  | ⟨0, _⟩ => rfl
  | ⟨1, _⟩ => rfl

/-- An array of pairs built from two columns: its first component at r is the first column's, its second the second's. -/
theorem pairs_fst {R w : Nat} (c₀ c₁ : IVec ⟨1, ![R]⟩ w)
    (hb : (⟨1, ![R]⟩ : Shape).BroadcastsInDim ⟨2, ![R, 1]⟩ (![0] : Fin 1 → Fin 2))
    (hc : Shape.Concatenates [⟨2, ![R, 1]⟩, ⟨2, ![R, 1]⟩] ⟨2, ![R, 2]⟩ (1 : Fin (⟨2, ![R, 2]⟩ : Shape).rank)) (r : Fin R) :
    concatenate ⟨2, ![R, 2]⟩ (1 : Fin (⟨2, ![R, 2]⟩ : Shape).rank)
      [⟨⟨2, ![R, 1]⟩, broadcastInDim ⟨2, ![R, 1]⟩ (![0] : Fin 1 → Fin 2) hb c₀⟩,
       ⟨⟨2, ![R, 1]⟩, broadcastInDim ⟨2, ![R, 1]⟩ (![0] : Fin 1 → Fin 2) hb c₁⟩] hc (ix2 r (0 : Fin 2)) = c₀ (ix1 r) := by
  rw [concatenate_cols_left _ _ hc r (0 : Fin 2) Nat.one_pos, broadcastInDim_a_a1_apply]

/-- … and its second component at r is the second column's. -/
theorem pairs_snd {R w : Nat} (c₀ c₁ : IVec ⟨1, ![R]⟩ w)
    (hb : (⟨1, ![R]⟩ : Shape).BroadcastsInDim ⟨2, ![R, 1]⟩ (![0] : Fin 1 → Fin 2))
    (hc : Shape.Concatenates [⟨2, ![R, 1]⟩, ⟨2, ![R, 1]⟩] ⟨2, ![R, 2]⟩ (1 : Fin (⟨2, ![R, 2]⟩ : Shape).rank)) (r : Fin R) :
    concatenate ⟨2, ![R, 2]⟩ (1 : Fin (⟨2, ![R, 2]⟩ : Shape).rank)
      [⟨⟨2, ![R, 1]⟩, broadcastInDim ⟨2, ![R, 1]⟩ (![0] : Fin 1 → Fin 2) hb c₀⟩,
       ⟨⟨2, ![R, 1]⟩, broadcastInDim ⟨2, ![R, 1]⟩ (![0] : Fin 1 → Fin 2) hb c₁⟩] hc (ix2 r (1 : Fin 2)) = c₁ (ix1 r) := by
  rw [concatenate_cols_right _ _ hc r (1 : Fin 2) (Nat.le_refl 1) Nat.one_pos, broadcastInDim_a_a1_apply]

end Pairs

end Cert.LibGatherPairs

end
-- ==== Proof.RefIndex.lean ====
/-
  The integer side of the reference, read at a row. Row numbers r < 8192 are words below 2^31, on which the
  signed remainder by 8192 is the natural remainder, the sign corrections of a floored remainder do nothing, and
  "count a negative index from the end" does nothing; so the partner column word of row r is (r + 4096) mod 8192
  and the row word is r. And a gather of single elements of a matrix at an array of (row, column) pairs reads, at
  pair r, the matrix at that pair, each component read signed and clamped into the matrix.
-/
import proofs.«142995_j19722489823618_2_alg».proof.Proof.RefTerm
import proofs.«142995_j19722489823618_2_alg».proof.Proof.LibGatherPairs
import Idealize.ShloMosaic.Lib.ValueIdx

noncomputable section

namespace Cert.ReferenceIdeal.RefValue

open Cert.ReferenceIdeal Cert.LibGatherPairs Idealize.ShloMosaic Idealize.ShloMosaic.ValueIdx
open Facts₀ Facts

variable [Cert.ReferenceIdeal.Facts]

/-- %15 at row r: the word r. -/
theorem v15_apply (r : Fin 8192) : v15 (ix1 r) = BitVec.ofNat 32 r.val := rfl

theorem v15_toNat (r : Fin 8192) : (v15 (ix1 r)).toNat = r.val := by
  rw [v15_apply, BitVec.toNat_ofNat]
  have := r.isLt
  omega

/-- %17 at row r: the word r + 4096. -/
theorem v17_toNat (r : Fin 8192) : (v17 (ix1 r)).toNat = r.val + 4096 := by
  show (IntOp.addi (v15 (ix1 r)) 4096#32).toNat = _
  unfold IntOp.addi
  rw [BitVec.toNat_add, v15_toNat, BitVec.toNat_ofNat]
  have := r.isLt
  omega

/-- @remainder's truncated remainder at row r. -/
theorem remTrunc_apply (r : Fin 8192) :
    remTrunc v17 (constantI S_ 32 8192#32) (ix1 r) = BitVec.ofNat 32 ((r.val + 4096) % 8192) := by
  have h := remsi_host_8192_of_lt (v17 (ix1 r)) (by rw [v17_toNat]; have := r.isLt; omega)
  rw [v17_toNat] at h
  exact h

/-- %18 at row r: the word (r + 4096) mod 8192. -/
theorem v18_apply (r : Fin 8192) : v18 (ix1 r) = BitVec.ofNat 32 ((r.val + 4096) % 8192) := by
  have hT := remTrunc_apply r
  have hlt : (remTrunc v17 (constantI S_ 32 8192#32) (ix1 r)).toNat < 2 ^ 31 := by
    rw [hT, BitVec.toNat_ofNat]; omega
  refine Eq.trans ?_ hT
  exact select_floor_fix _ _ hlt

/-- %23 (and %37, %42) at row r: the word r. -/
theorem v23_apply (r : Fin 8192) : v23 (ix1 r) = BitVec.ofNat 32 r.val := by
  refine Eq.trans ?_ (v15_apply r)
  exact select_wrap _ _ (by rw [v15_toNat]; have := r.isLt; omega)

/-- %28 at row r: the word (r + 4096) mod 8192. -/
theorem v28_apply (r : Fin 8192) : v28 (ix1 r) = BitVec.ofNat 32 ((r.val + 4096) % 8192) := by
  refine Eq.trans ?_ (v18_apply r)
  exact select_wrap _ _ (by rw [v18_apply, BitVec.toNat_ofNat]; omega)

/-- A gather index word that is a row number reads, signed and clamped into 8192 rows, that row. -/
theorem clamp_ofNat (n : Nat) (h : n < 8192) : min (BitVec.ofNat 32 n).toInt.toNat (8192 - 1) = n := by
  have h1 : (BitVec.ofNat 32 n).toNat = n := by rw [BitVec.toNat_ofNat]; omega
  rw [toInt_toNat_of_lt _ (by omega), h1]
  omega

end Cert.ReferenceIdeal.RefValue

end
-- ==== Proof.RefValue.lean ====
/-
  The reference's value is the specification's: row by row, the gathered partner and diagonal entries and the row
  sums of the exponentials give the specification's loss of the row, and the sum of the losses divided by the
  count word is its mean.
-/
import proofs.«142995_j19722489823618_2_alg».proof.Proof.RefRows
import proofs.«142995_j19722489823618_2_alg».proof.Proof.RefIndex

open scoped BigOperators

noncomputable section

namespace Cert.RefLemmas

open Idealize.ShloMosaic Idealize.ShloMosaic.ValueIdx

/-- Equal coordinates, equal rank-2 indices. -/
theorem ix2_congr {n0 n1 : Nat} {a a' : Fin n0} {b b' : Fin n1} (ha : a = a') (hb : b = b') : ix2 a b = ix2 a' b' := by
  subst ha hb; rfl

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.RefLemmas

namespace Cert.ReferenceIdeal.RefValue

open Cert.ReferenceIdeal Cert.RefLemmas Cert.LibGatherPairs Idealize.ShloMosaic Idealize.ShloMosaic.ValueIdx
open Facts₀ Facts

variable [Cert.ReferenceIdeal.Facts]

/-- %31's components at row r: the row word and the partner word. -/
theorem v31_fst (r : Fin 8192) : v31 (ix2 r (0 : Fin 2)) = BitVec.ofNat 32 r.val :=
  (pairs_fst _ _ _ _ r).trans (v23_apply r)
theorem v31_snd (r : Fin 8192) : v31 (ix2 r (1 : Fin 2)) = BitVec.ofNat 32 ((r.val + 4096) % 8192) :=
  (pairs_snd _ _ _ _ r).trans (v28_apply r)
/-- %45's components at row r: the row word twice. -/
theorem v45_fst (r : Fin 8192) : v45 (ix2 r (0 : Fin 2)) = BitVec.ofNat 32 r.val :=
  (pairs_fst _ _ _ _ r).trans (v23_apply r)
theorem v45_snd (r : Fin 8192) : v45 (ix2 r (1 : Fin 2)) = BitVec.ofNat 32 r.val :=
  (pairs_snd _ _ _ _ r).trans (v23_apply r)

/-- The printed gather record is the pairs gather. -/
theorem gather_eq_pairDims : gather_S8192x8192_S8192x2_S8192_n_01_n_n_01_1_11
    = pairDims 8192 8192 8192 gather_S8192x8192_S8192x2_S8192_n_01_n_n_01_1_11_wf := rfl

/-- %32 at row r: the exponential at (r, partner r). -/
theorem v32_apply (a0 a1 : FVec Ideal S4096x256 .f32) (r : Fin 8192) :
    v32 a0 a1 (ix1 r) = Spec.expR (Spec.rows (Spec.mat a0) (Spec.mat a1)) r (Spec.partner r) := by
  unfold v32
  rw [gather_eq_pairDims, gather_pairs_apply (by omega) (by omega), ← v14_apply]
  refine congrArg (v14 a0 a1) (ix2_congr (Fin.ext ?_) (Fin.ext ?_))
  · show min (v31 (ix2 r (0 : Fin 2))).toInt.toNat (8192 - 1) = r.val
    rw [v31_fst, clamp_ofNat _ r.isLt]
  · show min (v31 (ix2 r (1 : Fin 2))).toInt.toNat (8192 - 1) = (r.val + 4096) % 8192
    rw [v31_snd, clamp_ofNat _ (Nat.mod_lt _ (by omega))]

/-- %46 at row r: the exponential at (r, r). -/
theorem v46_apply (a0 a1 : FVec Ideal S4096x256 .f32) (r : Fin 8192) :
    v46 a0 a1 (ix1 r) = Spec.expR (Spec.rows (Spec.mat a0) (Spec.mat a1)) r r := by
  unfold v46
  rw [gather_eq_pairDims, gather_pairs_apply (by omega) (by omega), ← v14_apply]
  refine congrArg (v14 a0 a1) (ix2_congr (Fin.ext ?_) (Fin.ext ?_))
  · show min (v45 (ix2 r (0 : Fin 2))).toInt.toNat (8192 - 1) = r.val
    rw [v45_fst, clamp_ofNat _ r.isLt]
  · show min (v45 (ix2 r (1 : Fin 2))).toInt.toNat (8192 - 1) = r.val
    rw [v45_snd, clamp_ofNat _ r.isLt]

/-- %47 at row r: the sum of the row's exponentials. -/
theorem v47_apply (a0 a1 : FVec Ideal S4096x256 .f32) (r : Fin 8192) :
    v47 a0 a1 (ix1 r) = ∑ q : Fin 8192, Spec.expR (Spec.rows (Spec.mat a0) (Spec.mat a1)) r q := by
  show Ideal.hostReduceAdd reducesTo_S8192x8192_S8192_d1 (v14 a0 a1) (Ideal.ofBits .f32 0x00000000#32) (ix1 r) = _
  rw [Ideal.hostReduceAdd_single _ (by decide : S8192x8192.Reduces [1] S8192), Ideal.ofBits_zero_f32, zero_add]
  refine Finset.sum_congr rfl fun k _ => ?_
  exact (congrArg (v14 a0 a1) (lift_ix1_columns _ r k)).trans (v14_apply a0 a1 r _)

/-- %53 at row r: the row's loss. -/
theorem v53_apply (a0 a1 : FVec Ideal S4096x256 .f32) (r : Fin 8192) :
    v53 a0 a1 (ix1 r) = Spec.lossR Spec.partner (Spec.rows (Spec.mat a0) (Spec.mat a1)) r := by
  show -(Ideal.log (Ideal.div (v32 a0 a1 (ix1 r))
    (v32 a0 a1 (ix1 r) + ((v47 a0 a1 (ix1 r) - v46 a0 a1 (ix1 r)) - v32 a0 a1 (ix1 r))))) = _
  rw [v32_apply, v46_apply, v47_apply]
  rfl

/-- %54: the sum of the rows' losses. -/
theorem v54_apply (a0 a1 : FVec Ideal S4096x256 .f32) :
    v54 a0 a1 ix0 = ∑ p : Fin 8192, Spec.lossR Spec.partner (Spec.rows (Spec.mat a0) (Spec.mat a1)) p := by
  show Ideal.hostReduceAdd reducesTo_S8192_S_d0 (v53 a0 a1) (Ideal.ofBits .f32 0x00000000#32) ix0 = _
  rw [Ideal.hostReduceAdd_total _ (fun b => b.elim0), Ideal.ofBits_zero_f32, zero_add, sum_idx1]
  exact Finset.sum_congr rfl fun p _ => v53_apply a0 a1 p

/-- The reference's value is the specification's, for all extended-real arguments. -/
theorem refTerm_eq (a0 a1 : FVec Ideal S4096x256 .f32) :
    refTerm a0 a1 = fun _ => Cert.Spec.outR (Cert.Spec.mat a0) (Cert.Spec.mat a1) := by
  funext j
  rw [eq_ix0 j]
  show Ideal.div (v54 a0 a1 ix0) (Ideal.ofBits .f32 0x46000000#32) = _
  rw [v54_apply]
  rfl

end Cert.ReferenceIdeal.RefValue

end
-- ==== Proof.LossAlgebra.lean ====
/-
  The two evaluations of the contrastive loss agree on real entries.

  Every entry of the stacked matrix is a real, so a row's sum of squares is a nonnegative real, its
  floored norm a positive real n p, and every unit entry the real u p d = z p d · (1 / n p).  The
  temperature's word is the real t = 9395241 / 2^27 and the inverse temperature is c = 1 / t, so
      Σ_d (u p d · c) · u q d = (Σ_d u p d · u q d) · c = (Σ_d u p d · u q d) / t :
  both programs take exp of the same real, a positive real E p q.  With pos = E p (partner p) and
  S = Σ_q E p q − E p p ≥ pos > 0 (the partner's term is one of the others, as partner p ≠ p),
      pos + (S − pos) = S   and   − log (pos / S) = − log pos + log S .
-/
import proofs.«142995_j19722489823618_2_alg».proof.Proof.Spec

noncomputable section

namespace Cert.SpecLaws

open Idealize.ShloMosaic Cert.Spec
open scoped BigOperators

/-- The norm floor's word denotes a positive real. -/
theorem eps_eq : ∃ e : ℝ, 0 < e ∧ Cert.Spec.eps = (e : EReal) := by
  refine ⟨(9223372 : ℝ) * (2 : ℝ) ^ (-63 : Int), by positivity, ?_⟩
  simp [Cert.Spec.eps, Ideal.ofBits, Ideal.ieee, -EReal.coe_mul]

/-- The temperature's word denotes the real 9395241 / 2^27. -/
theorem temp_eq : Cert.Spec.temp = ((9395241 / 134217728 : ℝ) : EReal) := by
  simp [Cert.Spec.temp, Ideal.ofBits, Ideal.ieee, -EReal.coe_mul]
  norm_num

/-- A finite sum of casts of reals is the cast of the sum. -/
theorem coe_sum {α : Type} (s : Finset α) (f : α → ℝ) :
    (∑ i ∈ s, (f i : EReal)) = ((∑ i ∈ s, f i : ℝ) : EReal) := by
  classical
  refine Finset.induction_on s (by simp) ?_
  intro a s ha ih
  rw [Finset.sum_insert ha, Finset.sum_insert ha, ih, EReal.coe_add]

variable {ι κ : Type} [Fintype ι] [Fintype κ]

/-- A row's floored norm is a positive real. -/
theorem rowNorm_real (z : ι → κ → EReal) (hz : ∀ p d, ∃ r : ℝ, z p d = (r : EReal)) (p : ι) :
    ∃ n : ℝ, 0 < n ∧ rowNorm z p = (n : EReal) := by
  obtain ⟨e, he, hE⟩ := eps_eq
  choose f hf using hz
  refine ⟨max (Real.sqrt (∑ d, f p d * f p d)) e, lt_max_of_lt_right he, ?_⟩
  have hs : (∑ d, z p d * z p d) = ((∑ d, f p d * f p d : ℝ) : EReal) := by
    rw [← coe_sum]
    exact Finset.sum_congr rfl (fun d _ => by rw [hf, EReal.coe_mul])
  have hnn : ¬ (∑ d, f p d * f p d) < 0 :=
    not_lt.2 (Finset.sum_nonneg fun d _ => mul_self_nonneg _)
  rw [rowNorm, hs, Ideal.sqrt_coe, if_neg hnn, hE]
  exact (EReal.coe_strictMono.monotone.map_max).symm

/-- Every entry of a row scaled to unit length is a real. -/
theorem unit_real (z : ι → κ → EReal) (hz : ∀ p d, ∃ r : ℝ, z p d = (r : EReal)) :
    ∃ u : ι → κ → ℝ, ∀ p d, unit z p d = (u p d : EReal) := by
  have hR := rowNorm_real z hz
  choose f hf using hz
  choose n hn0 hn using hR
  refine ⟨fun p d => f p d * (1 / n p), fun p d => ?_⟩
  rw [unit, hn, Ideal.div_coe (ne_of_gt (hn0 p)), hf, EReal.coe_mul]

/-- Both programs' exp of the similarity is the same positive real. -/
theorem exp_real (z : ι → κ → EReal) (hz : ∀ p d, ∃ r : ℝ, z p d = (r : EReal)) :
    ∃ E : ι → ι → ℝ, (∀ p q, 0 < E p q) ∧ (∀ p q, expK z p q = (E p q : EReal))
      ∧ (∀ p q, expR z p q = (E p q : EReal)) := by
  obtain ⟨u, hu⟩ := unit_real z hz
  refine ⟨fun p q => Real.exp ((∑ d, u p d * u q d) * (134217728 / 9395241)),
    fun p q => Real.exp_pos _, fun p q => ?_, fun p q => ?_⟩
  · have hs : (∑ d, (unit z p d * invTemp) * unit z q d)
        = (((∑ d, u p d * u q d) * (134217728 / 9395241) : ℝ) : EReal) := by
      rw [Finset.sum_mul, ← coe_sum]
      refine Finset.sum_congr rfl fun d _ => ?_
      rw [hu, hu, invTemp, ← EReal.coe_mul, ← EReal.coe_mul]
      congr 1; ring
    rw [expK, hs, Ideal.exp_coe]
  · have hs : (∑ d, unit z p d * unit z q d) = ((∑ d, u p d * u q d : ℝ) : EReal) := by
      rw [← coe_sum]
      exact Finset.sum_congr rfl fun d _ => by rw [hu, hu, EReal.coe_mul]
    have ht : (1 / (9395241 / 134217728 : ℝ)) = 134217728 / 9395241 := by norm_num
    rw [expR, hs, temp_eq, Ideal.div_coe (by norm_num), ht, ← EReal.coe_mul, Ideal.exp_coe]

/-- The two evaluations of a row's loss agree when every entry is a real and no row is its own partner. -/
theorem loss_eq [DecidableEq ι] (partner : ι → ι) (hp : ∀ p, partner p ≠ p)
    (z : ι → κ → EReal) (hz : ∀ p d, ∃ r : ℝ, z p d = (r : EReal)) (p : ι) :
    Cert.Spec.lossK partner z p = Cert.Spec.lossR partner z p := by
  obtain ⟨E, hE0, hK, hR⟩ := exp_real z hz
  have hpos : 0 < E p (partner p) := hE0 p (partner p)
  have hS : 0 < (∑ q, E p q) - E p p := by
    have h2 : E p p + E p (partner p) ≤ ∑ q, E p q := by
      have h3 := Finset.sum_le_sum_of_subset_of_nonneg (f := E p)
        (Finset.subset_univ ({p, partner p} : Finset ι)) (fun i _ _ => (hE0 p i).le)
      rwa [Finset.sum_pair (hp p).symm] at h3
    linarith
  have hsumK : (∑ q, expK z p q) = ((∑ q, E p q : ℝ) : EReal) := by
    rw [← coe_sum]; exact Finset.sum_congr rfl fun q _ => hK p q
  have hsumR : (∑ q, expR z p q) = ((∑ q, E p q : ℝ) : EReal) := by
    rw [← coe_sum]; exact Finset.sum_congr rfl fun q _ => hR p q
  have hL : lossK partner z p
      = ((- Real.log (E p (partner p)) + Real.log ((∑ q, E p q) - E p p) : ℝ) : EReal) := by
    rw [lossK, hK, hK, hsumK, ← EReal.coe_sub, Ideal.log_coe, Ideal.log_coe,
      if_neg (not_le.2 hpos), if_neg (not_le.2 hS), ← EReal.coe_neg, ← EReal.coe_add]
  have hRr : lossR partner z p
      = ((- Real.log (E p (partner p)) + Real.log ((∑ q, E p q) - E p p) : ℝ) : EReal) := by
    have h1 : E p (partner p) + (((∑ q, E p q) - E p p) - E p (partner p))
        = (∑ q, E p q) - E p p := by ring
    have h2 : 0 < E p (partner p) * (1 / ((∑ q, E p q) - E p p)) := by positivity
    rw [lossR, hR, hR, hsumR, ← EReal.coe_sub, ← EReal.coe_sub, ← EReal.coe_add, h1,
      Ideal.div_coe hS.ne', ← EReal.coe_mul, Ideal.log_coe, if_neg (not_le.2 h2),
      ← EReal.coe_neg, mul_one_div, Real.log_div hpos.ne' hS.ne']
    congr 1; ring
  rw [hL, hRr]

/-- No row among the 8192 is its own partner. -/
theorem partner_ne (p : Fin 8192) : Cert.Spec.partner p ≠ p := by
  intro h
  have h1 := congrArg Fin.val h
  simp only [Cert.Spec.partner] at h1
  omega

/-- The two programs' results agree on real arguments. -/
theorem out_eq (a0 a1 : (⟨2, ![4096, 256]⟩ : Shape).Idx → EReal)
    (h0 : ∀ i, ∃ r : ℝ, a0 i = (r : EReal)) (h1 : ∀ i, ∃ r : ℝ, a1 i = (r : EReal)) :
    Cert.Spec.outK (Cert.Spec.mat a0) (Cert.Spec.mat a1)
      = Cert.Spec.outR (Cert.Spec.mat a0) (Cert.Spec.mat a1) := by
  have hz : ∀ p d, ∃ r : ℝ, rows (mat a0) (mat a1) p d = (r : EReal) := by
    intro p d
    unfold rows
    split
    · exact h0 _
    · exact h1 _
  have hl : lossK partner (rows (mat a0) (mat a1)) = lossR partner (rows (mat a0) (mat a1)) :=
    funext fun p => loss_eq partner partner_ne _ hz p
  rw [outK, outR, hl]

end Cert.SpecLaws

end
-- ==== Proof.Finite.lean ====
/-
  From the precondition to real entries.

  The precondition says that |x| < +∞ at every entry x of both arguments (an all-ones reduction by
  "and" of the two comparisons' arrays).  The word 0x7F800000 denotes +∞, and an extended real x with
  max x (−x) < +∞ is neither −∞ nor +∞: it is a real.
-/
import proofs.«142995_j19722489823618_2_alg».proof.Defs
import Idealize.ShloMosaic.Lib.ReduceAll
import Idealize.ShloMosaic.Lib.ValueIdx

noncomputable section

namespace Cert.Finite

open Idealize.ShloMosaic Idealize.SL.Sem

/-- The rank-0 shape has one index. -/
instance : Subsingleton Cert.Pre_finite_inputs.S_.Idx := ⟨fun a b => funext fun d => d.elim0⟩

/-- The word with an all-ones exponent and a zero fraction denotes +∞. -/
theorem ofBits_inf : Ideal.ofBits .f32 0x7F800000#32 = (⊤ : EReal) := by
  simp [Ideal.ofBits, Ideal.ieee]

/-- An extended real whose absolute value compares below +∞ is a real. -/
theorem real_of_abs_lt (x : EReal)
    (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

variable [Cert.Pre_finite_inputs.Facts]

/-- Under the precondition every entry of both arguments is a real. -/
theorem finite_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) := by
  have h0 := congrFun (h c) ValueIdx.ix0
  dsimp only [Cert.Pre_finite_inputs.fn] at h0
  obtain ⟨ha, hb⟩ := IntOp.andi_eq_one.1 h0
  refine ⟨fun i => ?_, fun i => ?_⟩
  · exact real_of_abs_lt _ (Host.reduce_andi_all _ _ _ _ _ ha i)
  · exact real_of_abs_lt _ (Host.reduce_andi_all _ _ _ _ _ hb i)

end Cert.Finite

end
-- ==== Proof.lean ====
/-
  The certificate's five claims.

  Both printed programs of the kernel (word level and idealized) are run by hand as four segments —
  the stacking of the two arguments, the normalising region, the similarity / loss region, the mean —
  and the reference as one straight line of host operations.  At the exact instance the kernel's result
  is the mean of  − log e(p, partner p) + log (Σ_q e(p, q) − e(p, p))  with
  e(p, q) = exp (Σ_d (u p d · c) · u q d),  c the inverse temperature named 134217728 / 9395241 = 1 / temp,
  and the reference's the mean of  − log (pos / (pos + ((Σ_q e − e(p,p)) − pos)))  with
  e(p, q) = exp ((Σ_d u p d · u q d) / temp); on finite inputs every quantity is a real number, the
  exponentials are positive, and the two agree.
-/
import proofs.«142995_j19722489823618_2_alg».proof.Defs
import proofs.«142995_j19722489823618_2_alg».proof.Proof.Gen.Kernel
import proofs.«142995_j19722489823618_2_alg».proof.Proof.Gen.KernelIdeal
import proofs.«142995_j19722489823618_2_alg».proof.Proof.Gen.ReferenceIdeal
import proofs.«142995_j19722489823618_2_alg».proof.Proof.Gen.Pre_finite_inputs
import proofs.«142995_j19722489823618_2_alg».proof.Proof.KbRun
import proofs.«142995_j19722489823618_2_alg».proof.Proof.KiRun
import proofs.«142995_j19722489823618_2_alg».proof.Proof.KiValue
import proofs.«142995_j19722489823618_2_alg».proof.Proof.KiR0Value
import proofs.«142995_j19722489823618_2_alg».proof.Proof.KiFinal
import proofs.«142995_j19722489823618_2_alg».proof.Proof.RefRun
import proofs.«142995_j19722489823618_2_alg».proof.Proof.RefValue
import proofs.«142995_j19722489823618_2_alg».proof.Proof.LossAlgebra
import proofs.«142995_j19722489823618_2_alg».proof.Proof.Finite
import Idealize.ShloMosaic.Adequacy
import Idealize.ShloMosaic.Init

noncomputable section

namespace Cert.Proof

open Idealize.ShloMosaic Idealize.SL.Sem

/-- The word-level program runs and leaves its arguments unchanged. -/
theorem frame_k : Cert.frame_Kernel := fun m ρ _ => Cert.Kernel.Hand.frame m ρ
/-- So does the idealized program. -/
theorem frame_ki : Cert.frame_KernelIdeal := fun m ρ _ => Cert.KernelIdeal.Hand.frame m ρ
/-- And the reference: its run with the result dropped. -/
theorem frame_ri : Cert.frame_ReferenceIdeal := fun m ρ _ =>
  (θ_run Cert.ReferenceIdeal.defs _ _).mono (fun _ h c => (h c).2) (Cert.ReferenceIdeal.RefValue.run_term m ρ)

/-- The one rewrite of the idealization: the folded inverse temperature is named 1 / temp exactly. -/
theorem preserves : Cert.preserves_Kernel_KernelIdeal :=
  IdealRules.named_const.statement Cert.KernelIdeal.κ "inv_temperature" .f32 0x41649249#32 ((134217728 / 9395241 : ℝ) : EReal) rfl

/-- At the exact instance the idealized kernel ends at the mean loss with the inverse temperature multiplied in
    before the products, the reference at the mean loss with the products divided by the temperature; on finite
    arguments these are one number. -/
theorem algebraic : Cert.algebraic_KernelIdeal_ReferenceIdeal := by
  intro m ρ m' ρ' hpre hagree
  refine ⟨fun c _ => Cert.Spec.outK (Cert.Spec.mat (m ((c.tc : Thread _ _).loc Cert.KernelIdeal.main_arg0)))
      (Cert.Spec.mat (m ((c.tc : Thread _ _).loc Cert.KernelIdeal.main_arg1))), ?_, ?_⟩
  · refine (θ_run Cert.KernelIdeal.defs _ _).mono (fun _ h c => ⟨(h c).1.trans ?_, (h c).2⟩)
      (Cert.KernelIdeal.Hand.run_result (F := Ideal) m ρ)
    exact Cert.KernelIdeal.Hand.out_value m ρ c
      (Cert.KernelIdeal.Hand.final0_1 (Cert.KernelIdeal.Hand.V1 m ρ) c)
      (Cert.KernelIdeal.Hand.final0_2 (Cert.KernelIdeal.Hand.V1 m ρ) c)
      (Cert.KernelIdeal.Hand.final1_2 (Cert.KernelIdeal.Hand.V2 m ρ) c)
  · refine (θ_run Cert.ReferenceIdeal.defs _ _).mono (fun _ h c => ⟨(h c).1.trans ?_, (h c).2⟩)
      (Cert.ReferenceIdeal.RefValue.run_term m' ρ')
    rw [Cert.ReferenceIdeal.RefValue.refTerm_eq, (hagree c).1, (hagree c).2]
    funext _
    exact (Cert.SpecLaws.out_eq _ _ (Cert.Finite.finite_of_pre m hpre c).1 (Cert.Finite.finite_of_pre m hpre c).2).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
